-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S4096x1024 : Shape := ⟨2, ![4096, 1024]⟩
abbrev S1024x1024 : Shape := ⟨2, ![1024, 1024]⟩
abbrev S512x1024 : Shape := ⟨2, ![512, 1024]⟩
abbrev S12 : Shape := ⟨1, ![12]⟩
abbrev S8 : Shape := ⟨1, ![8]⟩
abbrev S_ : Shape := ⟨0, ![]⟩
abbrev S1 : Shape := ⟨1, ![1]⟩

abbrev nBuf : Space → Nat
  | .hbm => 2
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S512x1024, .f32⟩
  | .local _ .vmem, ⟨4, _⟩ => ⟨S1024x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  { ofTc nBuf bufTy 1 32 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_7 : BitVec 32 := 1#32
  let v12 : BitVec 32 := Scalar.muli v9 c1_i32_7
  let v13 : BitVec 32 := Scalar.addi c0_i32_8 v12
  v13.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v10 : BitVec 32 := Scalar.xori v2 c1_i32_5
  let c1_i32_10 : BitVec 32 := 1#32
  let v14 : BitVec 32 := Scalar.muli v10 c1_i32_10
  let v15 : BitVec 32 := Scalar.addi c0_i32_11 v14
  v15.toNat
def k0_off1 (d0 : Dev nD) : Fin 2 → Nat :=
  let c1_i32_15 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32_2 : BitVec 32 := 2#32
  let v6 : BitVec 1 := Scalar.cmpi .eq v2 c2_i32_2
  let v7 : BitVec 1 := Scalar.ori v5 v6
  let c1_i32_3 : BitVec 32 := 1#32
  let c0_i32_4 : BitVec 32 := 0#32
  let v8 : BitVec 32 := Scalar.select v7 c1_i32_3 c0_i32_4
  let v19 : BitVec 32 := Scalar.subi c1_i32_15 v8
  let c512_i32 : BitVec 32 := 512#32
  let v20 : BitVec 32 := Scalar.muli v19 c512_i32
  let c0_i32_28 : BitVec 32 := 0#32
  ![v20.toNat, 0]
def k0_off2 (d0 : Dev nD) : Fin 2 → Nat :=
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 1 := Scalar.cmpi .sge v2 c2_i32
  let c1_i32_0 : BitVec 32 := 1#32
  let c0_i32 : BitVec 32 := 0#32
  let v4 : BitVec 32 := Scalar.select v3 c1_i32_0 c0_i32
  let v17 : BitVec 32 := Scalar.subi c1_i32_13 v4
  let c1024_i32_14 : BitVec 32 := 1024#32
  let v18 : BitVec 32 := Scalar.muli v17 c1024_i32_14
  let c1_i32_15 : BitVec 32 := 1#32
  let c1_i32_1 : BitVec 32 := 1#32
  let v5 : BitVec 1 := Scalar.cmpi .eq v2 c1_i32_1
  let c2_i32_2 : BitVec 32 := 2#32
  let v6 : BitVec 1 := Scalar.cmpi .eq v2 c2_i32_2
  let v7 : BitVec 1 := Scalar.ori v5 v6
  let c1_i32_3 : BitVec 32 := 1#32
  let c0_i32_4 : BitVec 32 := 0#32
  let v8 : BitVec 32 := Scalar.select v7 c1_i32_3 c0_i32_4
  let v19 : BitVec 32 := Scalar.subi c1_i32_15 v8
  let c512_i32 : BitVec 32 := 512#32
  let v20 : BitVec 32 := Scalar.muli v19 c512_i32
  let v34 : BitVec 32 := Scalar.addi v18 v20
  let c0_i32_29 : BitVec 32 := 0#32
  ![v34.toNat, 0]
def k0_dev3 (d0 : Dev nD) : Nat :=
  let c0_i32_27 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_26 : BitVec 32 := 1#32
  let v35 : BitVec 32 := Scalar.muli v9 c1_i32_26
  let v36 : BitVec 32 := Scalar.addi c0_i32_27 v35
  v36.toNat
def k0_off3 (d0 : Dev nD) : Fin 2 → Nat :=
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 1 := Scalar.cmpi .sge v2 c2_i32
  let c1_i32_0 : BitVec 32 := 1#32
  let c0_i32 : BitVec 32 := 0#32
  let v4 : BitVec 32 := Scalar.select v3 c1_i32_0 c0_i32
  let v29 : BitVec 32 := Scalar.subi c1_i32_21 v4
  let c512_i32_22 : BitVec 32 := 512#32
  let v30 : BitVec 32 := Scalar.muli v29 c512_i32_22
  let c0_i32_34 : BitVec 32 := 0#32
  ![v30.toNat, 0]
def k0_off4 (d0 : Dev nD) : Fin 2 → Nat :=
  let c2048_i32_20 : BitVec 32 := 2048#32
  let c1_i32_18 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32_2 : BitVec 32 := 2#32
  let v6 : BitVec 1 := Scalar.cmpi .eq v2 c2_i32_2
  let v7 : BitVec 1 := Scalar.ori v5 v6
  let c1_i32_3 : BitVec 32 := 1#32
  let c0_i32_4 : BitVec 32 := 0#32
  let v8 : BitVec 32 := Scalar.select v7 c1_i32_3 c0_i32_4
  let v26 : BitVec 32 := Scalar.subi c1_i32_18 v8
  let c1024_i32_19 : BitVec 32 := 1024#32
  let v27 : BitVec 32 := Scalar.muli v26 c1024_i32_19
  let v28 : BitVec 32 := Scalar.addi c2048_i32_20 v27
  let c1_i32_21 : BitVec 32 := 1#32
  let c2_i32 : BitVec 32 := 2#32
  let v3 : BitVec 1 := Scalar.cmpi .sge v2 c2_i32
  let c1_i32_0 : BitVec 32 := 1#32
  let c0_i32 : BitVec 32 := 0#32
  let v4 : BitVec 32 := Scalar.select v3 c1_i32_0 c0_i32
  let v29 : BitVec 32 := Scalar.subi c1_i32_21 v4
  let c512_i32_22 : BitVec 32 := 512#32
  let v30 : BitVec 32 := Scalar.muli v29 c512_i32_22
  let v43 : BitVec 32 := Scalar.addi v28 v30
  let c0_i32_35 : BitVec 32 := 0#32
  ![v43.toNat, 0]
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v10 : BitVec 32 := Scalar.xori v2 c1_i32_5
  let c1_i32_32 : BitVec 32 := 1#32
  let v44 : BitVec 32 := Scalar.muli v10 c1_i32_32
  let v45 : BitVec 32 := Scalar.addi c0_i32_33 v44
  v45.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32_2 : BitVec 32 := 2#32
  let v6 : BitVec 1 := Scalar.cmpi .eq v2 c2_i32_2
  let v7 : BitVec 1 := Scalar.ori v5 v6
  let c1_i32_3 : BitVec 32 := 1#32
  let c0_i32_4 : BitVec 32 := 0#32
  let v8 : BitVec 32 := Scalar.select v7 c1_i32_3 c0_i32_4
  let c512_i32_16 : BitVec 32 := 512#32
  let v21 : BitVec 32 := Scalar.muli v8 c512_i32_16
  let c0_i32_40 : BitVec 32 := 0#32
  ![v21.toNat, 0]
def k0_off6 (d0 : Dev nD) : Fin 2 → Nat :=
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 1 := Scalar.cmpi .sge v2 c2_i32
  let c1_i32_0 : BitVec 32 := 1#32
  let c0_i32 : BitVec 32 := 0#32
  let v4 : BitVec 32 := Scalar.select v3 c1_i32_0 c0_i32
  let v17 : BitVec 32 := Scalar.subi c1_i32_13 v4
  let c1024_i32_14 : BitVec 32 := 1024#32
  let v18 : BitVec 32 := Scalar.muli v17 c1024_i32_14
  let c1_i32_1 : BitVec 32 := 1#32
  let v5 : BitVec 1 := Scalar.cmpi .eq v2 c1_i32_1
  let c2_i32_2 : BitVec 32 := 2#32
  let v6 : BitVec 1 := Scalar.cmpi .eq v2 c2_i32_2
  let v7 : BitVec 1 := Scalar.ori v5 v6
  let c1_i32_3 : BitVec 32 := 1#32
  let c0_i32_4 : BitVec 32 := 0#32
  let v8 : BitVec 32 := Scalar.select v7 c1_i32_3 c0_i32_4
  let c512_i32_16 : BitVec 32 := 512#32
  let v21 : BitVec 32 := Scalar.muli v8 c512_i32_16
  let v52 : BitVec 32 := Scalar.addi v18 v21
  let c0_i32_41 : BitVec 32 := 0#32
  ![v52.toNat, 0]
def k0_dev5 (d0 : Dev nD) : Nat :=
  let c0_i32_39 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_38 : BitVec 32 := 1#32
  let v53 : BitVec 32 := Scalar.muli v9 c1_i32_38
  let v54 : BitVec 32 := Scalar.addi c0_i32_39 v53
  v54.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 1 := Scalar.cmpi .sge v2 c2_i32
  let c1_i32_0 : BitVec 32 := 1#32
  let c0_i32 : BitVec 32 := 0#32
  let v4 : BitVec 32 := Scalar.select v3 c1_i32_0 c0_i32
  let c512_i32_23 : BitVec 32 := 512#32
  let v31 : BitVec 32 := Scalar.muli v4 c512_i32_23
  let c0_i32_46 : BitVec 32 := 0#32
  ![v31.toNat, 0]
def k0_off8 (d0 : Dev nD) : Fin 2 → Nat :=
  let c2048_i32_20 : BitVec 32 := 2048#32
  let c1_i32_18 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32_2 : BitVec 32 := 2#32
  let v6 : BitVec 1 := Scalar.cmpi .eq v2 c2_i32_2
  let v7 : BitVec 1 := Scalar.ori v5 v6
  let c1_i32_3 : BitVec 32 := 1#32
  let c0_i32_4 : BitVec 32 := 0#32
  let v8 : BitVec 32 := Scalar.select v7 c1_i32_3 c0_i32_4
  let v26 : BitVec 32 := Scalar.subi c1_i32_18 v8
  let c1024_i32_19 : BitVec 32 := 1024#32
  let v27 : BitVec 32 := Scalar.muli v26 c1024_i32_19
  let v28 : BitVec 32 := Scalar.addi c2048_i32_20 v27
  let c2_i32 : BitVec 32 := 2#32
  let v3 : BitVec 1 := Scalar.cmpi .sge v2 c2_i32
  let c1_i32_0 : BitVec 32 := 1#32
  let c0_i32 : BitVec 32 := 0#32
  let v4 : BitVec 32 := Scalar.select v3 c1_i32_0 c0_i32
  let c512_i32_23 : BitVec 32 := 512#32
  let v31 : BitVec 32 := Scalar.muli v4 c512_i32_23
  let v61 : BitVec 32 := Scalar.addi v28 v31
  let c0_i32_47 : BitVec 32 := 0#32
  ![v61.toNat, 0]
def k0_dev6 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v10 : BitVec 32 := Scalar.xori v2 c1_i32_5
  let c1_i32_44 : BitVec 32 := 1#32
  let v62 : BitVec 32 := Scalar.muli v10 c1_i32_44
  let v63 : BitVec 32 := Scalar.addi c0_i32_45 v62
  v63.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 1 := Scalar.cmpi .sge v2 c2_i32
  let c1_i32_0 : BitVec 32 := 1#32
  let c0_i32 : BitVec 32 := 0#32
  let v4 : BitVec 32 := Scalar.select v3 c1_i32_0 c0_i32
  let c1024_i32 : BitVec 32 := 1024#32
  let v16 : BitVec 32 := Scalar.muli v4 c1024_i32
  let c1_i32_15 : BitVec 32 := 1#32
  let c1_i32_1 : BitVec 32 := 1#32
  let v5 : BitVec 1 := Scalar.cmpi .eq v2 c1_i32_1
  let c2_i32_2 : BitVec 32 := 2#32
  let v6 : BitVec 1 := Scalar.cmpi .eq v2 c2_i32_2
  let v7 : BitVec 1 := Scalar.ori v5 v6
  let c1_i32_3 : BitVec 32 := 1#32
  let c0_i32_4 : BitVec 32 := 0#32
  let v8 : BitVec 32 := Scalar.select v7 c1_i32_3 c0_i32_4
  let v19 : BitVec 32 := Scalar.subi c1_i32_15 v8
  let c512_i32 : BitVec 32 := 512#32
  let v20 : BitVec 32 := Scalar.muli v19 c512_i32
  let v23 : BitVec 32 := Scalar.addi v16 v20
  let c0_i32_50 : BitVec 32 := 0#32
  ![v23.toNat, 0]
def k0_off10 (d0 : Dev nD) : Fin 2 → Nat :=
  let c2048_i32 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32_2 : BitVec 32 := 2#32
  let v6 : BitVec 1 := Scalar.cmpi .eq v2 c2_i32_2
  let v7 : BitVec 1 := Scalar.ori v5 v6
  let c1_i32_3 : BitVec 32 := 1#32
  let c0_i32_4 : BitVec 32 := 0#32
  let v8 : BitVec 32 := Scalar.select v7 c1_i32_3 c0_i32_4
  let c1024_i32_17 : BitVec 32 := 1024#32
  let v24 : BitVec 32 := Scalar.muli v8 c1024_i32_17
  let v25 : BitVec 32 := Scalar.addi c2048_i32 v24
  let c1_i32_21 : BitVec 32 := 1#32
  let c2_i32 : BitVec 32 := 2#32
  let v3 : BitVec 1 := Scalar.cmpi .sge v2 c2_i32
  let c1_i32_0 : BitVec 32 := 1#32
  let c0_i32 : BitVec 32 := 0#32
  let v4 : BitVec 32 := Scalar.select v3 c1_i32_0 c0_i32
  let v29 : BitVec 32 := Scalar.subi c1_i32_21 v4
  let c512_i32_22 : BitVec 32 := 512#32
  let v30 : BitVec 32 := Scalar.muli v29 c512_i32_22
  let v33 : BitVec 32 := Scalar.addi v25 v30
  let c0_i32_53 : BitVec 32 := 0#32
  ![v33.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 1 := Scalar.cmpi .sge v2 c2_i32
  let c1_i32_0 : BitVec 32 := 1#32
  let c0_i32 : BitVec 32 := 0#32
  let v4 : BitVec 32 := Scalar.select v3 c1_i32_0 c0_i32
  let c1024_i32 : BitVec 32 := 1024#32
  let v16 : BitVec 32 := Scalar.muli v4 c1024_i32
  let c1_i32_1 : BitVec 32 := 1#32
  let v5 : BitVec 1 := Scalar.cmpi .eq v2 c1_i32_1
  let c2_i32_2 : BitVec 32 := 2#32
  let v6 : BitVec 1 := Scalar.cmpi .eq v2 c2_i32_2
  let v7 : BitVec 1 := Scalar.ori v5 v6
  let c1_i32_3 : BitVec 32 := 1#32
  let c0_i32_4 : BitVec 32 := 0#32
  let v8 : BitVec 32 := Scalar.select v7 c1_i32_3 c0_i32_4
  let c512_i32_16 : BitVec 32 := 512#32
  let v21 : BitVec 32 := Scalar.muli v8 c512_i32_16
  let v22 : BitVec 32 := Scalar.addi v16 v21
  let c0_i32_56 : BitVec 32 := 0#32
  ![v22.toNat, 0]
def k0_off12 (d0 : Dev nD) : Fin 2 → Nat :=
  let c2048_i32 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32_2 : BitVec 32 := 2#32
  let v6 : BitVec 1 := Scalar.cmpi .eq v2 c2_i32_2
  let v7 : BitVec 1 := Scalar.ori v5 v6
  let c1_i32_3 : BitVec 32 := 1#32
  let c0_i32_4 : BitVec 32 := 0#32
  let v8 : BitVec 32 := Scalar.select v7 c1_i32_3 c0_i32_4
  let c1024_i32_17 : BitVec 32 := 1024#32
  let v24 : BitVec 32 := Scalar.muli v8 c1024_i32_17
  let v25 : BitVec 32 := Scalar.addi c2048_i32 v24
  let c2_i32 : BitVec 32 := 2#32
  let v3 : BitVec 1 := Scalar.cmpi .sge v2 c2_i32
  let c1_i32_0 : BitVec 32 := 1#32
  let c0_i32 : BitVec 32 := 0#32
  let v4 : BitVec 32 := Scalar.select v3 c1_i32_0 c0_i32
  let c512_i32_23 : BitVec 32 := 512#32
  let v31 : BitVec 32 := Scalar.muli v4 c512_i32_23
  let v32 : BitVec 32 := Scalar.addi v25 v31
  let c0_i32_59 : BitVec 32 := 0#32
  ![v32.toNat, 0]
def k0_off13 (d0 : Dev nD) : Fin 2 → Nat :=
  let c1_i32_15 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32_2 : BitVec 32 := 2#32
  let v6 : BitVec 1 := Scalar.cmpi .eq v2 c2_i32_2
  let v7 : BitVec 1 := Scalar.ori v5 v6
  let c1_i32_3 : BitVec 32 := 1#32
  let c0_i32_4 : BitVec 32 := 0#32
  let v8 : BitVec 32 := Scalar.select v7 c1_i32_3 c0_i32_4
  let v19 : BitVec 32 := Scalar.subi c1_i32_15 v8
  let c512_i32 : BitVec 32 := 512#32
  let v20 : BitVec 32 := Scalar.muli v19 c512_i32
  let v114 : Index := Scalar.indexCast v20
  let c0 : Index := 0#32
  ![v114.toNat, 0]
def k0_off14 (d0 : Dev nD) : Fin 2 → Nat :=
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 1 := Scalar.cmpi .sge v2 c2_i32
  let c1_i32_0 : BitVec 32 := 1#32
  let c0_i32 : BitVec 32 := 0#32
  let v4 : BitVec 32 := Scalar.select v3 c1_i32_0 c0_i32
  let v29 : BitVec 32 := Scalar.subi c1_i32_21 v4
  let c512_i32_22 : BitVec 32 := 512#32
  let v30 : BitVec 32 := Scalar.muli v29 c512_i32_22
  let v123 : Index := Scalar.indexCast v30
  let c0_90 : Index := 0#32
  ![v123.toNat, 0]
def k0_dev7 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v10 : BitVec 32 := Scalar.xori v2 c1_i32_5
  let c1_i32_95 : BitVec 32 := 1#32
  let v132 : BitVec 32 := Scalar.muli v10 c1_i32_95
  let v133 : BitVec 32 := Scalar.addi c0_i32_96 v132
  v133.toNat
def k0_dev8 (d0 : Dev nD) : Nat :=
  let c0_i32_100 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_99 : BitVec 32 := 1#32
  let v139 : BitVec 32 := Scalar.muli v9 c1_i32_99
  let v140 : BitVec 32 := Scalar.addi c0_i32_100 v139
  v140.toNat
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32_2 : BitVec 32 := 2#32
  let v6 : BitVec 1 := Scalar.cmpi .eq v2 c2_i32_2
  let v7 : BitVec 1 := Scalar.ori v5 v6
  let c1_i32_3 : BitVec 32 := 1#32
  let c0_i32_4 : BitVec 32 := 0#32
  let v8 : BitVec 32 := Scalar.select v7 c1_i32_3 c0_i32_4
  let c512_i32_16 : BitVec 32 := 512#32
  let v21 : BitVec 32 := Scalar.muli v8 c512_i32_16
  let v174 : Index := Scalar.indexCast v21
  let c0_130 : Index := 0#32
  ![v174.toNat, 0]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 1 := Scalar.cmpi .sge v2 c2_i32
  let c1_i32_0 : BitVec 32 := 1#32
  let c0_i32 : BitVec 32 := 0#32
  let v4 : BitVec 32 := Scalar.select v3 c1_i32_0 c0_i32
  let c512_i32_23 : BitVec 32 := 512#32
  let v31 : BitVec 32 := Scalar.muli v4 c512_i32_23
  let v183 : Index := Scalar.indexCast v31
  let c0_133 : Index := 0#32
  ![v183.toNat, 0]
def k0_dev9 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v10 : BitVec 32 := Scalar.xori v2 c1_i32_5
  let c1_i32_169 : BitVec 32 := 1#32
  let v232 : BitVec 32 := Scalar.muli v10 c1_i32_169
  let v233 : BitVec 32 := Scalar.addi c0_i32_170 v232
  v233.toNat
def k0_dev10 (d0 : Dev nD) : Nat :=
  let c0_i32_175 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_174 : BitVec 32 := 1#32
  let v240 : BitVec 32 := Scalar.muli v9 c1_i32_174
  let v241 : BitVec 32 := Scalar.addi c0_i32_175 v240
  v241.toNat
def k0_dev11 (d0 : Dev nD) : Nat :=
  let c0_i32_180 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_179 : BitVec 32 := 1#32
  let v248 : BitVec 32 := Scalar.muli v9 c1_i32_179
  let v249 : BitVec 32 := Scalar.addi c0_i32_180 v248
  v249.toNat
def k0_dev12 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v10 : BitVec 32 := Scalar.xori v2 c1_i32_5
  let c1_i32_184 : BitVec 32 := 1#32
  let v256 : BitVec 32 := Scalar.muli v10 c1_i32_184
  let v257 : BitVec 32 := Scalar.addi c0_i32_185 v256
  v257.toNat
def k0_dev13 (d0 : Dev nD) : Nat :=
  let c0_i32_218 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_217 : BitVec 32 := 1#32
  let v292 : BitVec 32 := Scalar.muli v9 c1_i32_217
  let v293 : BitVec 32 := Scalar.addi c0_i32_218 v292
  v293.toNat
def k0_dev14 (d0 : Dev nD) : Nat :=
  let c0_i32_223 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v10 : BitVec 32 := Scalar.xori v2 c1_i32_5
  let c1_i32_222 : BitVec 32 := 1#32
  let v300 : BitVec 32 := Scalar.muli v10 c1_i32_222
  let v301 : BitVec 32 := Scalar.addi c0_i32_223 v300
  v301.toNat

class Facts₀ : Prop where
  hamt_1 : (1#32 : BitVec 32).msb = false
  hamt_2 : (2#32 : BitVec 32).msb = false
  inb_S12_S1_0 : ∀ a, (![0] : Fin 1 → Nat) a + S1.size a ≤ S12.size a
  squeezes_S1_S_ : S1.Squeezes S_
  inb_S12_S1_1 : ∀ a, (![1] : Fin 1 → Nat) a + S1.size a ≤ S12.size a
  inb_S12_S1_2 : ∀ a, (![2] : Fin 1 → Nat) a + S1.size a ≤ S12.size a
  inb_S12_S1_3 : ∀ a, (![3] : Fin 1 → Nat) a + S1.size a ≤ S12.size a
  inb_S8_S1_0 : ∀ a, (![0] : Fin 1 → Nat) a + S1.size a ≤ S8.size a
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  h_S512x1024 : 0 < S512x1024.numel
  shapeCasts_S512x1024_S512x1024 : S512x1024.ShapeCasts S512x1024
  inb_S12_S1_4 : ∀ a, (![4] : Fin 1 → Nat) a + S1.size a ≤ S12.size a
  inb_S12_S1_5 : ∀ a, (![5] : Fin 1 → Nat) a + S1.size a ≤ S12.size a
  inb_S512x1024_S512x1024_0_0 : ∀ a, (![0, 0] : Fin 2 → Nat) a + S512x1024.size a ≤ S512x1024.size a
  inb_S8_S1_4 : ∀ a, (![4] : Fin 1 → Nat) a + S1.size a ≤ S8.size a
  inb_S8_S1_5 : ∀ a, (![5] : Fin 1 → Nat) a + S1.size a ≤ S8.size a
  inb_S12_S1_6 : ∀ a, (![6] : Fin 1 → Nat) a + S1.size a ≤ S12.size a
  inb_S12_S1_7 : ∀ a, (![7] : Fin 1 → Nat) a + S1.size a ≤ S12.size a
  inb_S12_S1_8 : ∀ a, (![8] : Fin 1 → Nat) a + S1.size a ≤ S12.size a
  inb_S12_S1_9 : ∀ a, (![9] : Fin 1 → Nat) a + S1.size a ≤ S12.size a
  inb_S8_S1_6 : ∀ a, (![6] : Fin 1 → Nat) a + S1.size a ≤ S8.size a
  inb_S8_S1_7 : ∀ a, (![7] : Fin 1 → Nat) a + S1.size a ≤ S8.size a
  inb_S12_S1_10 : ∀ a, (![10] : Fin 1 → Nat) a + S1.size a ≤ S12.size a
  inb_S12_S1_11 : ∀ a, (![11] : Fin 1 → Nat) a + S1.size a ≤ S12.size a
  hcc0_scratch6 : 0 + S12.numel ≤ 32
  hcc0_scratch7 : 12 + S12.numel ≤ 32
  hcc0_scratch8 : 24 + S8.numel ≤ 32
  k0_dev1_lt : ∀ d0 : Dev nD, (k0_dev1 d0) < nD
  k0_dev2_lt : ∀ d0 : Dev nD, (k0_dev2 d0) < nD
  k0_off1_inb : ∀ d0 : Dev nD, ∀ a, (k0_off1 d0) a + S512x1024.size a ≤ S1024x1024.size a
  k0_off2_inb : ∀ d0 : Dev nD, ∀ a, (k0_off2 d0) a + S512x1024.size a ≤ S4096x1024.size a
  k0_dev3_lt : ∀ d0 : Dev nD, (k0_dev3 d0) < nD
  k0_off3_inb : ∀ d0 : Dev nD, ∀ a, (k0_off3 d0) a + S512x1024.size a ≤ S1024x1024.size a
  k0_off4_inb : ∀ d0 : Dev nD, ∀ a, (k0_off4 d0) a + S512x1024.size a ≤ S4096x1024.size a
  k0_dev4_lt : ∀ d0 : Dev nD, (k0_dev4 d0) < nD
  k0_off5_inb : ∀ d0 : Dev nD, ∀ a, (k0_off5 d0) a + S512x1024.size a ≤ S1024x1024.size a
  k0_off6_inb : ∀ d0 : Dev nD, ∀ a, (k0_off6 d0) a + S512x1024.size a ≤ S4096x1024.size a
  k0_dev5_lt : ∀ d0 : Dev nD, (k0_dev5 d0) < nD
  k0_off7_inb : ∀ d0 : Dev nD, ∀ a, (k0_off7 d0) a + S512x1024.size a ≤ S1024x1024.size a
  k0_off8_inb : ∀ d0 : Dev nD, ∀ a, (k0_off8 d0) a + S512x1024.size a ≤ S4096x1024.size a
  k0_dev6_lt : ∀ d0 : Dev nD, (k0_dev6 d0) < nD
  k0_off9_inb : ∀ d0 : Dev nD, ∀ a, (k0_off9 d0) a + S512x1024.size a ≤ S4096x1024.size a
  k0_off10_inb : ∀ d0 : Dev nD, ∀ a, (k0_off10 d0) a + S512x1024.size a ≤ S4096x1024.size a
  k0_off11_inb : ∀ d0 : Dev nD, ∀ a, (k0_off11 d0) a + S512x1024.size a ≤ S4096x1024.size a
  k0_off12_inb : ∀ d0 : Dev nD, ∀ a, (k0_off12 d0) a + S512x1024.size a ≤ S4096x1024.size a
  k0_off13_inb : ∀ d0 : Dev nD, ∀ a, (k0_off13 d0) a + S512x1024.size a ≤ S1024x1024.size a
  k0_off14_inb : ∀ d0 : Dev nD, ∀ a, (k0_off14 d0) a + S512x1024.size a ≤ S1024x1024.size a
  k0_dev7_lt : ∀ d0 : Dev nD, (k0_dev7 d0) < nD
  k0_dev8_lt : ∀ d0 : Dev nD, (k0_dev8 d0) < nD
  k0_off15_inb : ∀ d0 : Dev nD, ∀ a, (k0_off15 d0) a + S512x1024.size a ≤ S1024x1024.size a
  k0_off16_inb : ∀ d0 : Dev nD, ∀ a, (k0_off16 d0) a + S512x1024.size a ≤ S1024x1024.size a
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD

variable [Facts₀]

abbrev cc0_scratch6 : DmaSems sig S12 := SemArray.consecutive 0 S12 hcc0_scratch6
abbrev cc0_scratch7 : DmaSems sig S12 := SemArray.consecutive 12 S12 hcc0_scratch7
abbrev cc0_scratch8 : DmaSems sig S8 := SemArray.consecutive 24 S8 hcc0_scratch8

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x1024 : Shape := ⟨2, ![16384, 1024]⟩
abbrev S4x4096x1024 : Shape := ⟨3, ![4, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x4096x1024, .f32⟩
  | .hbm, ⟨2, _⟩ => ⟨S_, .f32⟩
  | .hbm, ⟨3, _⟩ => ⟨S4096x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S16384x1024_S4x4096x1024 : S16384x1024.ShapeCasts S4x4096x1024
  reducesTo_S4x4096x1024_S4096x1024_d0 : S4x4096x1024.ReducesTo [0] S4096x1024
  h_S_ : 0 < S_.numel

variable [Facts₀]

class Facts : Prop extends Facts₀ where

variable [Facts]
-- ==== Proof.KProto.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The two partners of a device on the 2×2 arrangement of the four devices

Device `c` has coordinates `xv = [c ≥ 2]`, `yv = [c = 1 ∨ c = 2]`; `px` flips `xv` (`3 - c`), `py` flips `yv`
(`c xor 1`). Both are involutions. -/

def px (c : Dev nD) : Dev nD := (![3, 2, 1, 0] : Fin 4 → Fin 4) c
def py (c : Dev nD) : Dev nD := (![1, 0, 3, 2] : Fin 4 → Fin 4) c

theorem px_px (c : Dev nD) : px (px c) = c := by revert c; decide
theorem py_py (c : Dev nD) : py (py c) = c := by revert c; decide
theorem px_py (c : Dev nD) : px (py c) = py (px c) := by revert c; decide

def pxE : Dev nD ≃ Dev nD := ⟨px, px, px_px, px_px⟩
def pyE : Dev nD ≃ Dev nD := ⟨py, py, py_py, py_py⟩

/-- The peer of transfer `k`: the first exchange of the rows' lower half, the second of the upper half and the
    write-backs of the lower half go across `x`; the others across `y`. -/
def peer (k : Fin 12) (c : Dev nD) : Dev nD :=
  if k.val = 0 ∨ k.val = 2 ∨ k.val = 5 ∨ k.val = 7 ∨ k.val = 8 ∨ k.val = 10 then px c else py c

theorem peer_peer (k : Fin 12) (c : Dev nD) : peer k (peer k c) = c := by
  unfold peer; split <;> [exact px_px c; exact py_py c]

/-- The kernel's `device_id` chains. -/
theorem dev1_eq (c : Dev nD) : (⟨k0_dev1 c, k0_dev1_lt c⟩ : Dev nD) = px c := by revert c; decide +kernel
theorem dev2_eq (c : Dev nD) : (⟨k0_dev2 c, k0_dev2_lt c⟩ : Dev nD) = py c := by revert c; decide +kernel
theorem dev3_eq (c : Dev nD) : (⟨k0_dev3 c, k0_dev3_lt c⟩ : Dev nD) = px c := by revert c; decide +kernel
theorem dev4_eq (c : Dev nD) : (⟨k0_dev4 c, k0_dev4_lt c⟩ : Dev nD) = py c := by revert c; decide +kernel
theorem dev5_eq (c : Dev nD) : (⟨k0_dev5 c, k0_dev5_lt c⟩ : Dev nD) = px c := by revert c; decide +kernel
theorem dev6_eq (c : Dev nD) : (⟨k0_dev6 c, k0_dev6_lt c⟩ : Dev nD) = py c := by revert c; decide +kernel
theorem dev7_eq (c : Dev nD) : (⟨k0_dev7 c, k0_dev7_lt c⟩ : Dev nD) = py c := by revert c; decide +kernel
theorem dev8_eq (c : Dev nD) : (⟨k0_dev8 c, k0_dev8_lt c⟩ : Dev nD) = px c := by revert c; decide +kernel
theorem dev9_eq (c : Dev nD) : (⟨k0_dev9 c, k0_dev9_lt c⟩ : Dev nD) = py c := by revert c; decide +kernel
theorem dev10_eq (c : Dev nD) : (⟨k0_dev10 c, k0_dev10_lt c⟩ : Dev nD) = px c := by revert c; decide +kernel
theorem dev11_eq (c : Dev nD) : (⟨k0_dev11 c, k0_dev11_lt c⟩ : Dev nD) = px c := by revert c; decide +kernel
theorem dev12_eq (c : Dev nD) : (⟨k0_dev12 c, k0_dev12_lt c⟩ : Dev nD) = py c := by revert c; decide +kernel
theorem dev13_eq (c : Dev nD) : (⟨k0_dev13 c, k0_dev13_lt c⟩ : Dev nD) = px c := by revert c; decide +kernel
theorem dev14_eq (c : Dev nD) : (⟨k0_dev14 c, k0_dev14_lt c⟩ : Dev nD) = py c := by revert c; decide +kernel

/-! ## The buffers, whole, and their slices of 512 rows -/

abbrev xM : Memref sig .tc .hbm S4096x1024 .f32 := Memref.whole main_arg0
abbrev oM : Memref sig .tc .hbm S4096x1024 .f32 := Memref.whole main_v1
abbrev aP : Memref sig .tc .vmem S1024x1024 .f32 := Memref.whole cc0_scratch0
abbrev aQ : Memref sig .tc .vmem S1024x1024 .f32 := Memref.whole cc0_scratch1
abbrev rP1 : Memref sig .tc .vmem S1024x1024 .f32 := Memref.whole cc0_scratch2
abbrev rP2 : Memref sig .tc .vmem S512x1024 .f32 := Memref.whole cc0_scratch3
abbrev rQ1 : Memref sig .tc .vmem S1024x1024 .f32 := Memref.whole cc0_scratch4
abbrev rQ2 : Memref sig .tc .vmem S512x1024 .f32 := Memref.whole cc0_scratch5

/-- Rows `[off 0, off 0 + 512)` of a buffer of 1024 rows. -/
abbrev sl1 (M : Memref sig .tc .vmem S1024x1024 .f32) (off : Fin 2 → Nat) (h : ∀ a, off a + S512x1024.size a ≤ S1024x1024.size a) :
    Memref sig .tc .vmem S512x1024 .f32 :=
  M.slice (Rect.unit (s := S1024x1024) off S512x1024.size h) (fun _ => rfl)
/-- Rows `[off 0, off 0 + 512)` of an array of 4096 rows. -/
abbrev sl4 (M : Memref sig .tc .hbm S4096x1024 .f32) (off : Fin 2 → Nat) (h : ∀ a, off a + S512x1024.size a ≤ S4096x1024.size a) :
    Memref sig .tc .hbm S512x1024 .f32 :=
  M.slice (Rect.unit (s := S4096x1024) off S512x1024.size h) (fun _ => rfl)

theorem sl1_congr (M : Memref sig .tc .vmem S1024x1024 .f32) {off off' : Fin 2 → Nat} (e : off = off') (h h') : sl1 M off h = sl1 M off' h' := by
  subst e; rfl
theorem sl4_congr (M : Memref sig .tc .hbm S4096x1024 .f32) {off off' : Fin 2 → Nat} (e : off = off') (h h') : sl4 M off h = sl4 M off' h' := by
  subst e; rfl

/-! ## The cells -/

abbrev barS : Sem sig := (SemArray.scalar (sig.barrier 0 rfl) : Sems sig S_).sem
abbrev barCell (c : Dev nD) : GSem nD τ sig := ((c : Thread nD τ), .reg barS)
abbrev dCell (c : Dev nD) (k : DmaSem sig) : GSem nD τ sig := ((c : Thread nD τ), .dma k)
/-- Send cell `k`, receive cell `k` (`k < 12`), local cell `k` (`k < 8`): the DMA semaphores `k`, `12 + k`, `24 + k`. -/
abbrev sIx (k : Fin 12) : DmaSem sig := ⟨k.val, by have := k.isLt; show k.val < 32; omega⟩
abbrev rIx (k : Fin 12) : DmaSem sig := ⟨12 + k.val, by have := k.isLt; show 12 + k.val < 32; omega⟩
abbrev lIx (k : Fin 8) : DmaSem sig := ⟨24 + k.val, by have := k.isLt; show 24 + k.val < 32; omega⟩

/-- The credit of one transfer of 512 rows. -/
abbrev N : ℕ := (rP2 : Memref sig .tc .vmem S512x1024 .f32).view.dmaCredit
theorem N_pos : 0 < N := View.dmaCredit_pos _ (by decide)

variable (m : (ℓ : Loc nD τ sig) → Buf (Elt F) ℓ) (ρ : Dev nD → PrngReg)

/-- The memory at launch. -/
def s₀ : MemSt nD τ sig (Elt F) := ⟨m, fun _ => 0, ρ⟩

/-! ## Values: the eight blocks of 512 rows of a device's argument, and the sums the kernel forms -/

abbrev V512 : Type := S512x1024.Idx → Elt F .f32

/-- Rows `[off 0, off 0 + 512)` of device `c`'s argument array. -/
def xb (c : Dev nD) (off : Fin 2 → Nat) (h : ∀ a, off a + S512x1024.size a ≤ S4096x1024.size a) : V512 (F := F) :=
  (sl4 xM off h).view.read (Elt F) (m ((c : Thread nD τ).loc main_arg0))

/-! ## The slices by name

`f` marks the 512 rows a device forwards after the first exchange, `o` the 512 rows it ends up owning; `P` the rows'
lower half (exchanged across `x` first), `Q` the upper half (across `y` first). -/

abbrev xA0 (c : Dev nD) := sl4 xM (k0_off2 c) (k0_off2_inb c)
abbrev xA1 (c : Dev nD) := sl4 xM (k0_off4 c) (k0_off4_inb c)
abbrev xA2 (c : Dev nD) := sl4 xM (k0_off6 c) (k0_off6_inb c)
abbrev xA3 (c : Dev nD) := sl4 xM (k0_off8 c) (k0_off8_inb c)
abbrev xB0 (c : Dev nD) := sl4 xM (k0_off9 c) (k0_off9_inb c)
abbrev xB1 (c : Dev nD) := sl4 xM (k0_off10 c) (k0_off10_inb c)
abbrev xB2 (c : Dev nD) := sl4 xM (k0_off11 c) (k0_off11_inb c)
abbrev xB3 (c : Dev nD) := sl4 xM (k0_off12 c) (k0_off12_inb c)
abbrev oB0 (c : Dev nD) := sl4 oM (k0_off9 c) (k0_off9_inb c)
abbrev oB1 (c : Dev nD) := sl4 oM (k0_off10 c) (k0_off10_inb c)
abbrev oB2 (c : Dev nD) := sl4 oM (k0_off11 c) (k0_off11_inb c)
abbrev oB3 (c : Dev nD) := sl4 oM (k0_off12 c) (k0_off12_inb c)
abbrev aPf (c : Dev nD) := sl1 aP (k0_off1 c) (k0_off1_inb c)
abbrev aPo (c : Dev nD) := sl1 aP (k0_off5 c) (k0_off5_inb c)
abbrev aQf (c : Dev nD) := sl1 aQ (k0_off3 c) (k0_off3_inb c)
abbrev aQo (c : Dev nD) := sl1 aQ (k0_off7 c) (k0_off7_inb c)
abbrev rPf (c : Dev nD) := sl1 rP1 (k0_off1 c) (k0_off1_inb c)
abbrev rPo (c : Dev nD) := sl1 rP1 (k0_off5 c) (k0_off5_inb c)
abbrev rQf (c : Dev nD) := sl1 rQ1 (k0_off3 c) (k0_off3_inb c)
abbrev rQo (c : Dev nD) := sl1 rQ1 (k0_off7 c) (k0_off7_inb c)

/-! ## Values -/

abbrev X (c : Dev nD) : Buf (Elt F) ((c : Thread nD τ).loc main_arg0) := m ((c : Thread nD τ).loc main_arg0)

def A0 (c : Dev nD) : Vec F S512x1024 .f32 := (xA0 c).view.read (Elt F) (X m c)
def A1 (c : Dev nD) : Vec F S512x1024 .f32 := (xA1 c).view.read (Elt F) (X m c)
def A2 (c : Dev nD) : Vec F S512x1024 .f32 := (xA2 c).view.read (Elt F) (X m c)
def A3 (c : Dev nD) : Vec F S512x1024 .f32 := (xA3 c).view.read (Elt F) (X m c)
def B0 (c : Dev nD) : Vec F S512x1024 .f32 := (xB0 c).view.read (Elt F) (X m c)
def B1 (c : Dev nD) : Vec F S512x1024 .f32 := (xB1 c).view.read (Elt F) (X m c)
def B2 (c : Dev nD) : Vec F S512x1024 .f32 := (xB2 c).view.read (Elt F) (X m c)
def B3 (c : Dev nD) : Vec F S512x1024 .f32 := (xB3 c).view.read (Elt F) (X m c)

/-- After the first exchange: a device's own rows plus its first partner's. -/
def sPf (c : Dev nD) : Vec F S512x1024 .f32 := k0_pay2 (k0_pay1 (B0 m c) (A0 m (px c)))
def sQf (c : Dev nD) : Vec F S512x1024 .f32 := k0_pay3 (B1 m c) (A1 m (py c))
def sPo (c : Dev nD) : Vec F S512x1024 .f32 := k0_pay4 (B2 m c) (A2 m (px c))
def sQo (c : Dev nD) : Vec F S512x1024 .f32 := k0_pay5 (B3 m c) (A3 m (py c))
/-- After the second: plus the second partner's partial sum — the rows' sum over the four devices. -/
def tP (c : Dev nD) : Vec F S512x1024 .f32 := k0_pay6 (sPo m c) (sPf m (py c))
def tQ (c : Dev nD) : Vec F S512x1024 .f32 := k0_pay7 (sQo m c) (sQf m (px c))

/-! ## The schedule -/

/-- Some contents under a view on device `p`, held whole. -/
def dE (p : Dev nD) {sp : Space} {s : Shape} (M : Memref sig .tc sp s .f32) : sProp 𝕄 :=
  iprop(∃ f : Buf (Elt F) (M.view.loc (p : Thread nD τ)), M.view.loc (p : Thread nD τ) ↦[M.view.set]{fullShare} f)

abbrev ow (p : Dev nD) {sp : Space} {s : Shape} (M : Memref sig .tc sp s .f32) (q : PosShare TreeShare) (v : Vec F s .f32) : sProp 𝕄 :=
  owns (Ix := Unit) (Name := ℕ) (U := UU) (Lvl := ℕ) (p : Thread nD τ) M q v

/-- What a partner's entry signal hands device `c`: the partner's buffers that `c`'s transfers write —
    duty `false` from `px c`, duty `true` from `py c`. -/
def barPay (c : Dev nD) (d : Bool) : sProp 𝕄 :=
  if d then iprop(dE (py c) (rQf c) ∗ dE (py c) (rQo c) ∗ dE (py c) rP2 ∗ dE (py c) (oB3 c) ∗ dE (py c) (oB1 c))
  else iprop(dE (px c) (rPf c) ∗ dE (px c) (rPo c) ∗ dE (px c) rQ2 ∗ dE (px c) (oB2 c) ∗ dE (px c) (oB0 c))

abbrev qh : PosShare TreeShare := fullShare
abbrev qx (i : Fin 8) : PosShare TreeShare := match i with
  | 0 => fullShare.right.left.left.left | 1 => fullShare.right.left.left.right | 2 => fullShare.right.left.right.left | 3 => fullShare.right.left.right.right
  | 4 => fullShare.right.right.left.left | 5 => fullShare.right.right.left.right | 6 => fullShare.right.right.right.left | 7 => fullShare.right.right.right.right

/-- What the one duty of each DMA cell of device `c` hands it when it lands: a send cell the source share back (nothing for
    the two transfers whose source goes to the receiver); a receive cell the rows landed (and, for those two, the sender's
    source rows, which the receiver will overwrite); a local cell both ends. -/
def Pd (c : Dev nD) : DmaSem sig → sProp 𝕄 := fun k => match k with
  | ⟨0, _⟩ => ow c (xA0 c) (qx 0) (A0 m c)
  | ⟨1, _⟩ => ow c (xA1 c) (qx 1) (A1 m c)
  | ⟨2, _⟩ => ow c (xA2 c) (qx 2) (A2 m c)
  | ⟨3, _⟩ => ow c (xA3 c) (qx 3) (A3 m c)
  | ⟨4, _⟩ => iprop(emp)
  | ⟨5, _⟩ => iprop(emp)
  | ⟨6, _⟩ => ow c (aPo c) fullShare.right.left (tP m c)
  | ⟨7, _⟩ => ow c (aQo c) fullShare.right.left (tQ m c)
  | ⟨8, _⟩ => ow c (aPo c) fullShare.right.right (tP m c)
  | ⟨9, _⟩ => ow c (aQo c) fullShare.right.right (tQ m c)
  | ⟨10, _⟩ => ow c (aPf c) fullShare.right (tP m (py c))
  | ⟨11, _⟩ => ow c (aQf c) fullShare.right (tQ m (px c))
  | ⟨12, _⟩ => ow c (rPf (px c)) fullShare (A0 m (px c))
  | ⟨13, _⟩ => ow c (rQf (py c)) fullShare (A1 m (py c))
  | ⟨14, _⟩ => ow c (rPo (px c)) fullShare (A2 m (px c))
  | ⟨15, _⟩ => ow c (rQo (py c)) fullShare (A3 m (py c))
  | ⟨16, _⟩ => iprop(ow c rP2 fullShare (sPf m (py c)) ∗ ow (py c) (aPf (py c)) fullShare (sPf m (py c)))
  | ⟨17, _⟩ => iprop(ow c rQ2 fullShare (sQf m (px c)) ∗ ow (px c) (aQf (px c)) fullShare (sQf m (px c)))
  | ⟨18, _⟩ => ow c (aPo (py c)) fullShare (tP m (py c))
  | ⟨19, _⟩ => ow c (aQo (px c)) fullShare (tQ m (px c))
  | ⟨20, _⟩ => ow c (oB2 (px c)) fullShare (tP m (px c))
  | ⟨21, _⟩ => ow c (oB3 (py c)) fullShare (tQ m (py c))
  | ⟨22, _⟩ => ow c (oB0 (px c)) fullShare (tP m (py (px c)))
  | ⟨23, _⟩ => ow c (oB1 (py c)) fullShare (tQ m (px (py c)))
  | ⟨24, _⟩ => iprop(ow c (aPf c) fullShare (B0 m c) ∗ ow c (xB0 c) (qx 4) (B0 m c))
  | ⟨25, _⟩ => iprop(ow c (aQf c) fullShare (B1 m c) ∗ ow c (xB1 c) (qx 5) (B1 m c))
  | ⟨26, _⟩ => iprop(ow c (aPo c) fullShare (B2 m c) ∗ ow c (xB2 c) (qx 6) (B2 m c))
  | ⟨27, _⟩ => iprop(ow c (aQo c) fullShare (B3 m c) ∗ ow c (xB3 c) (qx 7) (B3 m c))
  | ⟨28, _⟩ => iprop(ow c (oB2 c) fullShare (tP m c) ∗ ow c (aPo c) fullShare.left (tP m c))
  | ⟨29, _⟩ => iprop(ow c (oB3 c) fullShare (tQ m c) ∗ ow c (aQo c) fullShare.left (tQ m c))
  | ⟨30, _⟩ => iprop(ow c (oB0 c) fullShare (tP m (py c)) ∗ ow c (aPf c) fullShare.left (tP m (py c)))
  | ⟨31, _⟩ => iprop(ow c (oB1 c) fullShare (tQ m (px c)) ∗ ow c (aQf c) fullShare.left (tQ m (px c)))
  | _ => iprop(emp)

/-- One round per cell. A barrier cell: two duties of one unit, one per partner. A DMA cell: one duty of a transfer's credit. -/
def Rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma _ => N
  payload g _ d := match g.2 with | .reg _ => barPay g.1.1 d | .dma k => Pd m g.1.1 k
  amount_pos g _ _ _ := by
    cases g.2 with
    | reg _ => exact Nat.one_pos
    | dma _ => exact N_pos

instance dE_storable (p : Dev nD) {sp : Space} {s : Shape} (M : Memref sig .tc sp s .f32) : BI.Storable (upEmb : UEmb _ 𝕄) (dE (F := F) p M) := by
  unfold dE; infer_instance

instance barPay_storable (c : Dev nD) (d : Bool) : BI.Storable (upEmb : UEmb _ 𝕄) (barPay (F := F) c d) := by
  unfold barPay; split <;> infer_instance

instance Pd_storable (c : Dev nD) (k : DmaSem sig) : BI.Storable (upEmb : UEmb _ 𝕄) (Pd m c k) := by
  unfold Pd; split <;> infer_instance

instance Rd_payload_storable (g : GSem nD τ sig) (r : ℕ) (d : Bool) : BI.Storable (upEmb : UEmb _ 𝕄) ((Rd (F := F) m).payload g r d) := by
  show BI.Storable upEmb (match g.2 with | .reg _ => barPay g.1.1 d | .dma k => Pd m g.1.1 k)
  split <;> infer_instance

section Tables
variable (c : Dev nD) (k : DmaSem sig)

theorem duties_bar : (Rd (F := F) m).duties (barCell c) 0 = Finset.univ := by dsimp only [Rd]; exact if_pos ⟨rfl, rfl⟩
theorem duties_dma : (Rd (F := F) m).duties (dCell c k) 0 = {false} := by dsimp only [Rd]; exact if_pos ⟨rfl, rfl⟩
theorem duties_later (g : GSem nD τ sig) : ∀ r, 1 ≤ r → (Rd (F := F) m).duties g r = ∅ :=
  fun r hr => by dsimp only [Rd]; rw [if_neg fun h => by omega]
theorem amount_bar (d : Bool) : (Rd (F := F) m).amount (barCell c) 0 d = 1 := rfl
theorem amount_dma (d : Bool) : (Rd (F := F) m).amount (dCell c k) 0 d = N := rfl
theorem payload_bar (d : Bool) : (Rd (F := F) m).payload (barCell c) 0 d = barPay c d := rfl
theorem payload_dma (d : Bool) : (Rd (F := F) m).payload (dCell c k) 0 d = Pd m c k := rfl

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma : (Rd (F := F) m).expect (dCell c k) 0 = N := by
  unfold Schedule.expect Schedule.amountOf; rw [duties_dma, Finset.sum_singleton, amount_dma]

theorem rest_bar : bigSep ((Rd (F := F) m).duties (barCell c) 0 \ ∅) (fun d => (Rd (F := F) m).payload (barCell c) 0 d) = iprop(barPay c false ∗ barPay c true) := by
  rw [Finset.sdiff_empty, duties_bar, bigSep_univ_eq_bigSepL [false, true] (by decide) (by decide), bigSepL_cons_cons, bigSepL_singleton]
  rfl
theorem rest_dma : bigSep ((Rd (F := F) m).duties (dCell c k) 0 \ ∅) (fun d => (Rd (F := F) m).payload (dCell c k) 0 d) = Pd m c k := by
  rw [Finset.sdiff_empty, duties_dma, bigSep_singleton, payload_dma]

end Tables

example : ((cc0_scratch6.slice (Rect.unit (s := S12) ![0] S1.size inb_S12_S1_0)).squeeze S_ squeezes_S1_S_).sem = (⟨0, by decide⟩ : DmaSem sig) := rfl
example : ((cc0_scratch7.slice (Rect.unit (s := S12) ![5] S1.size inb_S12_S1_5)).squeeze S_ squeezes_S1_S_).sem = (⟨17, by decide⟩ : DmaSem sig) := rfl

end Cert.Kernel.Hand

end
-- ==== Proof.KRules.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KProto
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## Holding a view's elements at a value: shares, forgetting the value -/

section Owns
variable {sp : Space} {s : Shape} (p : Dev nD) (M : Memref sig .tc sp s .f32)

/-- Two contents a view reads alike agree on the view's elements. -/
theorem agree_of_read_eq (f g : Buf (Elt F) (M.view.loc (p : Thread nD τ))) (h : M.view.read (Elt F) f = M.view.read (Elt F) g) :
    ∀ i ∈ M.view.set, f i = g i := by
  intro i hi
  obtain ⟨y, rfl⟩ := View.exists_emb_of_mem_set M.view hi
  have h2 := congrFun h y
  simp only [View.read_apply] at h2
  exact (cast_inj _).mp h2

theorem owns_share {q q₁ q₂ : PosShare TreeShare} (hq : q ∈ PCS.op q₁ q₂) (v : Vec F s .f32) :
    (ow p M q v : sProp 𝕄) ⊣⊢ iprop(ow p M q₁ v ∗ ow p M q₂ v) := by
  constructor
  · unfold ow owns
    iintro ⟨%f, %hf, H⟩
    ihave H' := (pointsTo_share hq).1 $$ H
    icases H' with ⟨H1, H2⟩
    isplitl [H1]
    · iexists f; isplitr; · (ipureintro; exact hf)
      iexact H1
    · iexists f; isplitr; · (ipureintro; exact hf)
      iexact H2
  · unfold ow owns
    iintro ⟨⟨%f, %hf, H1⟩, ⟨%g, %hg, H2⟩⟩
    ihave H2' := (Entails.of_eq (pointsTo_congr (q := q₂) (agree_of_read_eq p M g f (hg.trans hf.symm)))) $$ H2
    iexists f; isplitr; · (ipureintro; exact hf)
    iapply (pointsTo_share hq).2
    isplitl [H1] <;> iassumption

theorem owns_dE (v : Vec F s .f32) : (ow p M fullShare v : sProp 𝕄) ⊢ dE p M := by
  unfold ow owns dE
  iintro ⟨%f, -, H⟩
  iexists f; iexact H

end Owns

/-! ## The transfers, the waits and the signals at this schedule -/

section Steps
variable (c : Dev nD)

/-- A transfer to a partner: the source rows at a share in, the partner's destination rows (any contents) in; the send cell's
    duty is paid with the source share, the partner's receive cell's with the rows landed. -/
theorem send_owns {p : Dev nD} {sp sp' : Space} {src : Memref sig .tc sp S512x1024 .f32} {dst : Memref sig .tc sp' S512x1024 .f32}
    {hsc : (dst : Memref sig (Dev.tc p : Thread nD τ).2.kind sp' S512x1024 .f32).view.ref.isScScratch = false} (kS kR : DmaSem sig)
    {hsrc : src.view.WordExact} {hdst : dst.view.WordExact}
    {hsem : DmaTarget.Typed sp (.dma kR) (.remote (Dev.tc p : Thread nD τ) dst (.dma kS) hsc)}
    {α : Type} {Q : α → sProp 𝕄} {k : PUnit → Prog (TpuEff nD τ sig (Elt F) Λ₀ .tc) α}
    (q : PosShare TreeShare) (v : Vec F S512x1024 .f32) (κ₁ κ₂ : ℕ) {O₀ : CellTallies nD τ sig Unit} (O : CellTallies nD τ sig Unit)
    (hO : O₀ = O + tallyAt (dCell p kR) () N) (W : Waits sig Unit)
    (hN : dst.view.amount (.dma kR) = N)
    (hpayS : (ow c src q v : sProp 𝕄) ⊢ Pd m c kS) (hpayR : (ow p dst fullShare v : sProp 𝕄) ⊢ Pd m p kR) :
    iprop(cellInv ER (Rd m) κ₁ (dCell c kS) ∗ cellInv ER (Rd m) κ₂ (dCell p kR) ∗ ow c src q v ∗ dE p dst ∗ owes (c : Thread nD τ) O₀ W
        ∗ dutyTok ER (dCell c kS) 0 false ∗ reached ER (dCell c kS) 0 ∗ dutyTok ER (dCell p kR) 0 false ∗ reached ER (dCell p kR) 0)
      ⊢ iprop(((cred (tallyAt (dCell c kS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p : Thread nD τ) dst (.dma kS) hsc) (.dma kR) hsrc hdst hsem) k) Q) := by
  unfold ow owns dE
  iintro ⟨HI1, HI2, ⟨%fs, %hfs, Hsrc⟩, ⟨%fd, Hdst⟩, HO, Ht1, Hr1, Ht2, Hr2⟩
  iapply (Rounds.wp_send_pointsTo 𝒱₀ ER (Rd m) (c : Thread nD τ) none (κ₁ := κ₁) (κ₂ := κ₂) (r₁ := 0) (r₂ := 0) (d₁ := false) (d₂ := false)
      (fd := fd) (fs := fs) (q := q)
      (by rw [duties_dma]; exact Finset.mem_singleton_self _) (by rw [duties_dma]; exact Finset.mem_singleton_self _)
      () () N hN (amount_dma m c kS false) (amount_dma m p kR false) O hO (W := W)
      (by
        rw [payload_dma]; refine BIBase.Entails.trans ?_ hpayS
        unfold ow owns; iintro H; iexists fs; isplitr; · (ipureintro; exact hfs)
        iexact H)
      (by
        rw [payload_dma]; refine BIBase.Entails.trans ?_ hpayR
        unfold ow owns; iintro H; iexists (dst.view.write (Elt F) fd (src.view.read (Elt F) fs) Finset.univ); isplitr; · (ipureintro; rw [View.read_write_univ]; exact hfs)
        iexact H))
    $$ [HI1 HI2 Hsrc Hdst HO Ht1 Hr1 Ht2 Hr2]
  isplitl [HI1]; · iexact HI1
  isplitl [HI2]; · iexact HI2
  isplitl [Hsrc]; · iexact Hsrc
  isplitl [Hdst]; · iexact Hdst
  isplitl [HO]; · iexact HO
  isplitl [Ht1]; · iexact Ht1
  isplitl [Hr1]; · iexact Hr1
  isplitl [Ht2]; · iexact Ht2
  iexact Hr2

/-- The same, the source rows going to the partner with the landing (the partner overwrites them later): nothing comes back
    with the send cell's credit. -/
theorem send_landing_owns {p : Dev nD} {sp sp' : Space} {src : Memref sig .tc sp S512x1024 .f32} {dst : Memref sig .tc sp' S512x1024 .f32}
    {hsc : (dst : Memref sig (Dev.tc p : Thread nD τ).2.kind sp' S512x1024 .f32).view.ref.isScScratch = false} (kS kR : DmaSem sig)
    {hsrc : src.view.WordExact} {hdst : dst.view.WordExact}
    {hsem : DmaTarget.Typed sp (.dma kR) (.remote (Dev.tc p : Thread nD τ) dst (.dma kS) hsc)}
    {α : Type} {Q : α → sProp 𝕄} {k : PUnit → Prog (TpuEff nD τ sig (Elt F) Λ₀ .tc) α}
    (q : PosShare TreeShare) (v : Vec F S512x1024 .f32) (κ₁ κ₂ : ℕ) {O₀ : CellTallies nD τ sig Unit} (O : CellTallies nD τ sig Unit)
    (hO : O₀ = O + tallyAt (dCell p kR) () N) (W : Waits sig Unit)
    (hN : dst.view.amount (.dma kR) = N)
    (hpayS : (emp : sProp 𝕄) ⊢ Pd m c kS) (hpayR : (iprop(ow p dst fullShare v ∗ ow c src q v) : sProp 𝕄) ⊢ Pd m p kR) :
    iprop(cellInv ER (Rd m) κ₁ (dCell c kS) ∗ cellInv ER (Rd m) κ₂ (dCell p kR) ∗ ow c src q v ∗ dE p dst ∗ owes (c : Thread nD τ) O₀ W
        ∗ dutyTok ER (dCell c kS) 0 false ∗ reached ER (dCell c kS) 0 ∗ dutyTok ER (dCell p kR) 0 false ∗ reached ER (dCell p kR) 0)
      ⊢ iprop(((cred (tallyAt (dCell c kS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p : Thread nD τ) dst (.dma kS) hsc) (.dma kR) hsrc hdst hsem) k) Q) := by
  unfold ow owns dE
  iintro ⟨HI1, HI2, ⟨%fs, %hfs, Hsrc⟩, ⟨%fd, Hdst⟩, HO, Ht1, Hr1, Ht2, Hr2⟩
  iapply (Rounds.wp_send_landing_pointsTo 𝒱₀ ER (Rd m) (c : Thread nD τ) none (κ₁ := κ₁) (κ₂ := κ₂) (r₁ := 0) (r₂ := 0) (d₁ := false) (d₂ := false)
      (fd := fd) (fs := fs) (q := q)
      (by rw [duties_dma]; exact Finset.mem_singleton_self _) (by rw [duties_dma]; exact Finset.mem_singleton_self _)
      () () N hN (amount_dma m c kS false) (amount_dma m p kR false) O hO (W := W)
      (by rw [payload_dma]; exact hpayS)
      (by
        rw [payload_dma]; refine BIBase.Entails.trans ?_ hpayR
        unfold ow owns; iintro ⟨H, H'⟩
        isplitl [H]
        · iexists (dst.view.write (Elt F) fd (src.view.read (Elt F) fs) Finset.univ); isplitr; · (ipureintro; rw [View.read_write_univ]; exact hfs)
          iexact H
        · iexists fs; isplitr; · (ipureintro; exact hfs)
          iexact H'))
    $$ [HI1 HI2 Hsrc Hdst HO Ht1 Hr1 Ht2 Hr2]
  isplitl [HI1]; · iexact HI1
  isplitl [HI2]; · iexact HI2
  isplitl [Hsrc]; · iexact Hsrc
  isplitl [Hdst]; · iexact Hdst
  isplitl [HO]; · iexact HO
  isplitl [Ht1]; · iexact Ht1
  isplitl [Hr1]; · iexact Hr1
  isplitl [Ht2]; · iexact Ht2
  iexact Hr2

/-- A local copy: both ends come back with the local cell's credit. -/
theorem copy_owns {sp sp' : Space} {src : Memref sig .tc sp S512x1024 .f32} {dst : Memref sig .tc sp' S512x1024 .f32} (kL : DmaSem sig)
    {hsrc : src.view.WordExact} {hdst : dst.view.WordExact} {hsem : DmaTarget.Typed (nD := nD) sp (.dma kL) (DmaTarget.here (p := (Proc.tc : Proc τ)) dst)}
    {α : Type} {Q : α → sProp 𝕄} {k : PUnit → Prog (TpuEff nD τ sig (Elt F) Λ₀ .tc) α}
    (q : PosShare TreeShare) (v : Vec F S512x1024 .f32) (κ : ℕ)
    (hN : dst.view.amount (.dma kL) = N)
    (hpay : (iprop(ow c dst fullShare v ∗ ow c src q v) : sProp 𝕄) ⊢ Pd m c kL) :
    iprop(cellInv ER (Rd m) κ (dCell c kL) ∗ ow c src q v ∗ dE c dst ∗ dutyTok ER (dCell c kL) 0 false ∗ reached ER (dCell c kL) 0)
      ⊢ iprop((cred (tallyAt (dCell c kL) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (DmaTarget.here (p := (Proc.tc : Proc τ)) dst) (.dma kL) hsrc hdst hsem) k) Q) := by
  unfold ow owns dE
  iintro ⟨HI, ⟨%fs, %hfs, Hsrc⟩, ⟨%fd, Hdst⟩, Ht, Hr⟩
  iapply (Rounds.wp_copy_pointsTo 𝒱₀ ER (Rd m) (c : Thread nD τ) none (κ := κ) (r := 0) (d := false) (fd := fd) (fs := fs) (q := q)
      (by rw [duties_dma]; exact Finset.mem_singleton_self _) () N hN (amount_dma m c kL false)
      (by
        rw [payload_dma]; refine BIBase.Entails.trans ?_ hpay
        unfold ow owns; iintro ⟨H, H'⟩
        isplitl [H]
        · iexists (dst.view.write (Elt F) fd (src.view.read (Elt F) fs) Finset.univ); isplitr; · (ipureintro; rw [View.read_write_univ]; exact hfs)
          iexact H
        · iexists fs; isplitr; · (ipureintro; exact hfs)
          iexact H'))
    $$ [HI Hsrc Hdst Ht Hr]
  isplitl [HI]; · iexact HI
  isplitl [Hsrc]; · iexact Hsrc
  isplitl [Hdst]; · iexact Hdst
  isplitl [Ht]; · iexact Ht
  iexact Hr

/-- The wait for a DMA cell's one round: its duty's payload. -/
theorem wait_dma {sp sp' : Space} {s s' : Shape} {src : Memref sig .tc sp' s' .f32} {κ' : Kind} {dst : Memref sig κ' sp s .f32}
    {hsrc : src.view.WordExact} {hdst : dst.view.WordExact} (kk : DmaSem sig) (hN : dst.view.dmaCredit = N)
    {α : Type} {Q : α → sProp 𝕄} {k : PUnit → Prog (TpuEff nD τ sig (Elt F) Λ₀ .tc) α}
    (κ : ℕ) (O : CellTallies nD τ sig Unit) (W : Waits sig Unit) :
    iprop(cellInv ER (Rd m) κ (dCell c kk) ∗ cred (tallyAt (dCell c kk) () N) ∗ owes (c : Thread nD τ) O W
        ∗ MayWait (c : Thread nD τ) (.dma kk) () O ∗ atPos ER (dCell c kk) 0 ∅ 0)
      ⊢ iprop(((owes (c : Thread nD τ) O (insert (SemLoc.dma kk, ()) W) ∗ atPos ER (dCell c kk) 1 ∅ 0 ∗ Pd m c kk)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 kk src dst hsrc hdst) k) Q) := by
  iintro ⟨HI, Hc, HO, HM, Hat⟩ Hk
  iapply (Rounds.wp_wait_rest_token 𝒱₀ ER (Rd m) (c : Thread nD τ) none (κ := κ)
      (wpE_waitDma2_eq 𝒱₀ (c : Thread nD τ) none Set.univ) (Set.mem_univ _) () (O := O) (W := W) (R := 0) (m := 0) (T := ∅)
      (by rw [Nat.zero_add, expect_dma]; exact hN)) $$ [HI Hc HO HM Hat]
  · isplitl [HI]; · iexact HI
    isplitl [Hc]; · (rw [hN]; iexact Hc)
    isplitl [HO]; · iexact HO
    isplitl [HM]; · iexact HM
    iexact Hat
  iintro ⟨HO, Hat, -, Hpay⟩
  iapply Hk
  isplitl [HO]; · iexact HO
  isplitl [Hat]; · iexact Hat
  ihave Hp := (Entails.of_eq (rest_dma m c kk)) $$ Hpay
  iexact Hp

/-- The wait for both partners' entry signals: their buffers. -/
theorem wait_bar {α : Type} {Q : α → sProp 𝕄} {k : PUnit → Prog (TpuEff nD τ sig (Elt F) Λ₀ .tc) α}
    (κ : ℕ) (O : CellTallies nD τ sig Unit) (W : Waits sig Unit) :
    iprop(cellInv ER (Rd m) κ (barCell c) ∗ cred (tallyAt (barCell c) () 2) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ barPay c false ∗ barPay c true)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  iintro ⟨HI, Hc, HO, HM, Hat⟩ Hk
  iapply (Rounds.wp_wait_rest_token 𝒱₀ ER (Rd m) (c : Thread nD τ) none (κ := κ)
      (wpE_semWait_eq 𝒱₀ (c : Thread nD τ) none Set.univ) (Set.mem_univ _) () (O := O) (W := W) (R := 0) (m := 0) (T := ∅)
      (by rw [expect_bar])) $$ [HI Hc HO HM Hat]
  · isplitl [HI]; · iexact HI
    isplitl [Hc]; · iexact Hc
    isplitl [HO]; · iexact HO
    isplitl [HM]; · iexact HM
    iexact Hat
  iintro ⟨HO, Hat, -, Hpay⟩
  iapply Hk
  isplitl [HO]; · iexact HO
  isplitl [Hat]; · iexact Hat
  ihave Hp := (Entails.of_eq (rest_bar m c)) $$ Hpay
  iexact Hp

/-- The entry signal to a partner, paying duty `d` of its barrier cell with the buffers it may write. -/
theorem signal_bar (p : Dev nD) (d : Bool) {α : Type} {Q : α → sProp 𝕄} {k : PUnit → Prog (TpuEff nD τ sig (Elt F) Λ₀ .tc) α}
    (κ : ℕ) {O₀ : CellTallies nD τ sig Unit} (O : CellTallies nD τ sig Unit) (hO : O₀ = O + tallyAt (barCell p) () 1) (W : Waits sig Unit) :
    iprop(cellInv ER (Rd m) κ (barCell p) ∗ owes (c : Thread nD τ) O₀ W ∗ dutyTok ER (barCell p) 0 d ∗ barPay p d ∗ reached ER (barCell p) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p : Thread nD τ) barS 1) k) Q) :=
  Rounds.wp_signal 𝒱₀ ER (Rd m) (c : Thread nD τ) none (dst := (p : Thread nD τ)) (κ := κ) (d := d)
    (by rw [duties_bar]; exact Finset.mem_univ _) (amount_bar m p d) () O hO

/-- A cell whose one round is consumed closes: its counter, at zero, is the core's again. -/
theorem close_cell (g : GSem nD τ sig) (κ : ℕ) :
    iprop(cellInv ER (Rd m) κ g ∗ atPos ER g 1 ∅ 0) ⊢ (iprop(|={Set.univ}=> semVal g 0) : sProp 𝕄) :=
  Rounds.cell_close ER (Rd m) (Set.mem_univ κ) (fun h => h) (R := 1) (duties_later m g)

end Steps

end Cert.Kernel.Hand

end
-- ==== Proof.KLevels.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KProto
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Levels: why no wait can deadlock

Send and local cells (paid by their own device) sit at level 0, a barrier cell at 1, receive cell `k` at `k + 2`. A device
owes the receive cell of transfer `k` on its peer until it issues transfer `k`; every wait it makes before that is on a cell
strictly below. -/

def L (g : GSem nD τ sig) : Finset Unit := if g.1.2 = .tc then {()} else ∅
def lvS : SemLoc sig → ℕ
  | .reg _ => 1
  | .dma k => if 12 ≤ k.val ∧ k.val < 24 then k.val - 10 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- The credit transfer `k` of device `c` owes its peer's receive cell. -/
abbrev T (c : Dev nD) (k : Fin 12) : CellTallies nD τ sig Unit := tallyAt (dCell (peer k c) (rIx k)) () N

/-- What device `c` owes while its last `n` transfers are still to be issued, the next one the last summand. -/
def Orest (c : Dev nD) : ℕ → CellTallies nD τ sig Unit
  | 0 => 0
  | n + 1 => Orest c n + T c ⟨11 - n, by omega⟩

/-- At launch: all twelve, and one unit to each partner's barrier cell (to `px c` first). -/
def O₀ (c : Dev nD) : CellTallies nD τ sig Unit := (Orest c 12 + tallyAt (barCell (py c)) () 1) + tallyAt (barCell (px c)) () 1

theorem Orest_pos {c : Dev nD} {n : ℕ} {g : GSem nD τ sig} {u : Unit} (h : 0 < Orest c n g u) :
    ∃ k : Fin 12, 12 ≤ k.val + n ∧ g = dCell (peer k c) (rIx k) := by
  induction n with
  | zero => exact absurd h (by simp [Orest])
  | succ n ih =>
    rcases Pipeline.add_pos_cases (show 0 < (Orest c n + T c ⟨11 - n, by omega⟩) g u from h) with h1 | h2
    · obtain ⟨k, hk, e⟩ := ih h1; exact ⟨k, by omega, e⟩
    · rw [tallyAt_apply] at h2
      by_cases hg : g = dCell (peer ⟨11 - n, by omega⟩ c) (rIx ⟨11 - n, by omega⟩) ∧ u = ()
      · exact ⟨⟨11 - n, by omega⟩, by show 12 ≤ (11 - n) + (n + 1); omega, hg.1⟩
      · rw [if_neg hg] at h2; exact absurd h2 (Nat.lt_irrefl 0)

theorem lvS_r (k : Fin 12) : lvS (SemLoc.dma (rIx k) : SemLoc sig) = k.val + 2 := by
  have := k.isLt
  show (if 12 ≤ 12 + k.val ∧ 12 + k.val < 24 then 12 + k.val - 10 else 0) = k.val + 2
  rw [if_pos ⟨by omega, by omega⟩]; omega

/-- The wait evidence: a wait on a cell of level `ℓ` while the last `n` transfers are owed, `ℓ + n < 14`. -/
theorem mayWait_rest (c : Dev nD) (sm : SemLoc sig) (n : ℕ) (h : lvS sm + n < 14) :
    (levAts L lv : sProp 𝕄) ⊢ MayWait (c : Thread nD τ) sm () (Orest c n) :=
  Pipeline.mayWait_of_levAts (by rw [L_tc]; exact Finset.mem_singleton_self _) fun g i hg => by
    obtain ⟨k, hk, rfl⟩ := Orest_pos hg
    refine ⟨by rw [L_tc]; exact Finset.mem_singleton_self _, ?_⟩
    show lvS sm < lvS (.dma (rIx k))
    rw [lvS_r]; omega

/-! ## The launch credit -/

/-- The credit tokens of the last `n` receive cells of device `c`. -/
def credR (c : Dev nD) : ℕ → sProp 𝕄
  | 0 => iprop(emp)
  | n + 1 => iprop(credR c n ∗ cred (tallyAt (dCell c (rIx ⟨11 - n, by omega⟩)) () N))

theorem launch_rest (c : Dev nD) (n : ℕ) : (Pipeline.launchCred (fun d => Orest d n) c : sProp 𝕄) ⊢ credR c n := by
  induction n with
  | zero => exact Entails.of_eq (Pipeline.launchCred_zero c)
  | succ n ih =>
    rw [show (fun d => Orest d (n + 1)) = fun d => Orest d n + T d ⟨11 - n, by omega⟩ from rfl, Pipeline.launchCred_add]
    exact BIClass.sep_mono ih (Pipeline.launchCred_tallyAt (.dma (rIx ⟨11 - n, by omega⟩)) (peer ⟨11 - n, by omega⟩) (peer ⟨11 - n, by omega⟩)
      (peer_peer _) (peer_peer _) () N c)

/-- What the launch deals device `c`: its barrier cell's two units and its twelve receive cells' credits. -/
theorem creds (c : Dev nD) :
    (Pipeline.launchCred O₀ c : sProp 𝕄) ⊢ iprop(credR c 12 ∗ cred (tallyAt (barCell c) () 1) ∗ cred (tallyAt (barCell c) () 1)) := by
  rw [show (O₀ : Dev nD → CellTallies nD τ sig Unit) = fun d => (Orest d 12 + tallyAt (barCell (py d)) () 1) + tallyAt (barCell (px d)) () 1 from rfl,
    Pipeline.launchCred_add, Pipeline.launchCred_add]
  iintro ⟨⟨H1, H2⟩, H3⟩
  isplitl [H1]; · iapply (launch_rest c 12); iexact H1
  isplitl [H2]
  · iapply (Pipeline.launchCred_tallyAt (.reg barS) py py py_py py_py () 1 c); iexact H2
  · iapply (Pipeline.launchCred_tallyAt (.reg barS) px px px_px px_px () 1 c); iexact H3

end Cert.Kernel.Hand

end
-- ==== Proof.KGhost.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KRules
import proofs.«900388_g7700000000000389_dist_rs_then_ag_i_m4096_n1024_v7x_i4_f32_1_alg».proof.Proof.KLevels
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Enumerations -/

theorem bigSep_fin12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_dma (Φ : DmaSem sig → sProp 𝕄) : bigSep Finset.univ Φ = iprop(Φ ⟨0, by decide⟩ ∗ Φ ⟨1, by decide⟩ ∗ Φ ⟨2, by decide⟩ ∗ Φ ⟨3, by decide⟩ ∗ Φ ⟨4, by decide⟩ ∗ Φ ⟨5, by decide⟩ ∗ Φ ⟨6, by decide⟩ ∗ Φ ⟨7, by decide⟩ ∗ Φ ⟨8, by decide⟩ ∗ Φ ⟨9, by decide⟩ ∗ Φ ⟨10, by decide⟩ ∗ Φ ⟨11, by decide⟩ ∗ Φ ⟨12, by decide⟩ ∗ Φ ⟨13, by decide⟩ ∗ Φ ⟨14, by decide⟩ ∗ Φ ⟨15, by decide⟩ ∗ Φ ⟨16, by decide⟩ ∗ Φ ⟨17, by decide⟩ ∗ Φ ⟨18, by decide⟩ ∗ Φ ⟨19, by decide⟩ ∗ Φ ⟨20, by decide⟩ ∗ Φ ⟨21, by decide⟩ ∗ Φ ⟨22, by decide⟩ ∗ Φ ⟨23, by decide⟩ ∗ Φ ⟨24, by decide⟩ ∗ Φ ⟨25, by decide⟩ ∗ Φ ⟨26, by decide⟩ ∗ Φ ⟨27, by decide⟩ ∗ Φ ⟨28, by decide⟩ ∗ Φ ⟨29, by decide⟩ ∗ Φ ⟨30, by decide⟩ ∗ Φ ⟨31, by decide⟩) :=
  bigSep_univ_eq_bigSepL ([⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩, ⟨28, by decide⟩, ⟨29, by decide⟩, ⟨30, by decide⟩, ⟨31, by decide⟩] : List (DmaSem sig)) (by decide) (by decide) Φ
theorem bigSep_semLoc (Φ : SemLoc sig → sProp 𝕄) : bigSep Finset.univ Φ = iprop(Φ (SemLoc.reg barS) ∗ Φ (SemLoc.dma (⟨0, by decide⟩ : DmaSem sig)) ∗ Φ (SemLoc.dma (⟨1, by decide⟩ : DmaSem sig)) ∗ Φ (SemLoc.dma (⟨2, by decide⟩ : DmaSem sig)) ∗ Φ (SemLoc.dma (⟨3, by decide⟩ : DmaSem sig)) ∗ Φ (SemLoc.dma (⟨4, by decide⟩ : DmaSem sig)) ∗ Φ (SemLoc.dma (⟨5, by decide⟩ : DmaSem sig)) ∗ Φ (SemLoc.dma (⟨6, by decide⟩ : DmaSem sig)) ∗ Φ (SemLoc.dma (⟨7, by decide⟩ : DmaSem sig)) ∗ Φ (SemLoc.dma (⟨8, by decide⟩ : DmaSem sig)) ∗ Φ (SemLoc.dma (⟨9, by decide⟩ : DmaSem sig)) ∗ Φ (SemLoc.dma (⟨10, by decide⟩ : DmaSem sig)) ∗ Φ (SemLoc.dma (⟨11, by decide⟩ : DmaSem sig)) ∗ Φ (SemLoc.dma (⟨12, by decide⟩ : DmaSem sig)) ∗ Φ (SemLoc.dma (⟨13, by decide⟩ : DmaSem sig)) ∗ Φ (SemLoc.dma (⟨14, by decide⟩ : DmaSem sig)) ∗ Φ (SemLoc.dma (⟨15, by decide⟩ : DmaSem sig)) ∗ Φ (SemLoc.dma (⟨16, by decide⟩ : DmaSem sig)) ∗ Φ (SemLoc.dma (⟨17, by decide⟩ : DmaSem sig)) ∗ Φ (SemLoc.dma (⟨18, by decide⟩ : DmaSem sig)) ∗ Φ (SemLoc.dma (⟨19, by decide⟩ : DmaSem sig)) ∗ Φ (SemLoc.dma (⟨20, by decide⟩ : DmaSem sig)) ∗ Φ (SemLoc.dma (⟨21, by decide⟩ : DmaSem sig)) ∗ Φ (SemLoc.dma (⟨22, by decide⟩ : DmaSem sig)) ∗ Φ (SemLoc.dma (⟨23, by decide⟩ : DmaSem sig)) ∗ Φ (SemLoc.dma (⟨24, by decide⟩ : DmaSem sig)) ∗ Φ (SemLoc.dma (⟨25, by decide⟩ : DmaSem sig)) ∗ Φ (SemLoc.dma (⟨26, by decide⟩ : DmaSem sig)) ∗ Φ (SemLoc.dma (⟨27, by decide⟩ : DmaSem sig)) ∗ Φ (SemLoc.dma (⟨28, by decide⟩ : DmaSem sig)) ∗ Φ (SemLoc.dma (⟨29, by decide⟩ : DmaSem sig)) ∗ Φ (SemLoc.dma (⟨30, by decide⟩ : DmaSem sig)) ∗ Φ (SemLoc.dma (⟨31, by decide⟩ : DmaSem sig))) :=
  bigSep_univ_eq_bigSepL [SemLoc.reg barS, SemLoc.dma (⟨0, by decide⟩ : DmaSem sig), SemLoc.dma (⟨1, by decide⟩ : DmaSem sig), SemLoc.dma (⟨2, by decide⟩ : DmaSem sig), SemLoc.dma (⟨3, by decide⟩ : DmaSem sig), SemLoc.dma (⟨4, by decide⟩ : DmaSem sig), SemLoc.dma (⟨5, by decide⟩ : DmaSem sig), SemLoc.dma (⟨6, by decide⟩ : DmaSem sig), SemLoc.dma (⟨7, by decide⟩ : DmaSem sig), SemLoc.dma (⟨8, by decide⟩ : DmaSem sig), SemLoc.dma (⟨9, by decide⟩ : DmaSem sig), SemLoc.dma (⟨10, by decide⟩ : DmaSem sig), SemLoc.dma (⟨11, by decide⟩ : DmaSem sig), SemLoc.dma (⟨12, by decide⟩ : DmaSem sig), SemLoc.dma (⟨13, by decide⟩ : DmaSem sig), SemLoc.dma (⟨14, by decide⟩ : DmaSem sig), SemLoc.dma (⟨15, by decide⟩ : DmaSem sig), SemLoc.dma (⟨16, by decide⟩ : DmaSem sig), SemLoc.dma (⟨17, by decide⟩ : DmaSem sig), SemLoc.dma (⟨18, by decide⟩ : DmaSem sig), SemLoc.dma (⟨19, by decide⟩ : DmaSem sig), SemLoc.dma (⟨20, by decide⟩ : DmaSem sig), SemLoc.dma (⟨21, by decide⟩ : DmaSem sig), SemLoc.dma (⟨22, by decide⟩ : DmaSem sig), SemLoc.dma (⟨23, by decide⟩ : DmaSem sig), SemLoc.dma (⟨24, by decide⟩ : DmaSem sig), SemLoc.dma (⟨25, by decide⟩ : DmaSem sig), SemLoc.dma (⟨26, by decide⟩ : DmaSem sig), SemLoc.dma (⟨27, by decide⟩ : DmaSem sig), SemLoc.dma (⟨28, by decide⟩ : DmaSem sig), SemLoc.dma (⟨29, by decide⟩ : DmaSem sig), SemLoc.dma (⟨30, by decide⟩ : DmaSem sig), SemLoc.dma (⟨31, by decide⟩ : DmaSem sig)] (by decide) (by decide) Φ

/-! ## What a device starts from -/

abbrev kcell (ck : Dev nD × SemLoc sig) : GSem nD τ sig := ((ck.1 : Thread nD τ), ck.2)

/-- Every cell's invariant, under the names the launch allocated them at, and that every cell is at round 0. -/
def records (K : Dev nD × SemLoc sig → ℕ) : sProp 𝕄 :=
  iprop((bigSep Finset.univ fun ck : Dev nD × SemLoc sig => cellInv ER (Rd m) (K ck) (kcell ck))
    ∗ bigSep Finset.univ fun ck : Dev nD × SemLoc sig => reached ER (kcell ck) 0)

instance records_persistent (K : Dev nD × SemLoc sig → ℕ) : BI.Persistent (records m K) := by unfold records; infer_instance

theorem inv_at (K : Dev nD × SemLoc sig → ℕ) (ck : Dev nD × SemLoc sig) : records m K ⊢ cellInv ER (Rd m) (K ck) (kcell ck) := by
  unfold records
  refine BIBase.Entails.trans ?_ (bigSep_elim (Φ := fun ck : Dev nD × SemLoc sig => (cellInv ER (Rd m) (K ck) (kcell ck) : sProp 𝕄)) (Finset.mem_univ ck))
  iintro ⟨H, -⟩; iexact H
theorem reached_at (K : Dev nD × SemLoc sig → ℕ) (ck : Dev nD × SemLoc sig) : records m K ⊢ reached ER (kcell ck) 0 := by
  unfold records
  refine BIBase.Entails.trans ?_ (bigSep_elim (Φ := fun ck : Dev nD × SemLoc sig => (reached ER (kcell ck) 0 : sProp 𝕄)) (Finset.mem_univ ck))
  iintro ⟨-, H⟩; iexact H

/-- The tokens of the duties device `c` pays: one unit on each partner's barrier cell, the receive cell of each of its twelve
    transfers on that transfer's peer, its own send and local cells. -/
def payToks (c : Dev nD) : sProp 𝕄 :=
  iprop(dutyTok ER (barCell (px c)) 0 false ∗ dutyTok ER (barCell (py c)) 0 true
    ∗ (bigSep Finset.univ fun k : Fin 12 => dutyTok ER (dCell (peer k c) (rIx k)) 0 false)
    ∗ (bigSep Finset.univ fun k : Fin 12 => dutyTok ER (dCell c (sIx k)) 0 false)
    ∗ (bigSep Finset.univ fun k : Fin 8 => dutyTok ER (dCell c (lIx k)) 0 false))

/-- Its positions: round 0 of every cell of its own. -/
def poss (c : Dev nD) : sProp 𝕄 := bigSep Finset.univ fun sm : SemLoc sig => atPos ER (kcell (c, sm)) 0 ∅ 0

def ghost (K : Dev nD × SemLoc sig → ℕ) (c : Dev nD) : sProp 𝕄 := iprop(records m K ∗ poss c ∗ payToks c)

/-- The six scratch buffers, whole, at some contents. -/
def scr (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f))

def start (c : Dev nD) : sProp 𝕄 :=
  iprop((∃ K, ghost m K c) ∗ credR c 12 ∗ cred (tallyAt (barCell c) () 1) ∗ cred (tallyAt (barCell c) () 1) ∗ levAts L lv
    ∗ (((c : Thread nD τ).loc main_arg0) ↦{fullShare} X m c)
    ∗ (((c : Thread nD τ).loc main_v1) ↦{fullShare} m ((c : Thread nD τ).loc main_v1)))

def Φ₀ (c : Dev nD) : sProp 𝕄 := iprop(start m c ∗ scr c)

/-- The eight blocks of 512 rows of the result on device `c`: four it wrote itself, two each partner wrote. -/
def outs (c : Dev nD) : sProp 𝕄 :=
  iprop(ow c (oB2 c) fullShare (tP m c) ∗ ow c (oB3 c) fullShare (tQ m c) ∗ ow c (oB0 c) fullShare (tP m (py c)) ∗ ow c (oB1 c) fullShare (tQ m (px c))
    ∗ ow c (oB2 (px c)) fullShare (tP m (px c)) ∗ ow c (oB3 (py c)) fullShare (tQ m (py c))
    ∗ ow c (oB0 (px c)) fullShare (tP m (py (px c))) ∗ ow c (oB1 (py c)) fullShare (tQ m (px (py c))))

/-- After the body: a share of the argument array untouched, the result's eight blocks, every DMA semaphore back at zero, the
    scratch buffers whole. -/
def Φ₁ (c : Dev nD) : sProp 𝕄 :=
  iprop((((c : Thread nD τ).loc main_arg0) ↦{fullShare.left} X m c) ∗ outs m c
    ∗ (bigSep Finset.univ fun k : DmaSem sig => semVal (dCell c k) 0) ∗ scr c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.Hand

end
-- ==== Proof.KSplit.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KProto
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cutting a buffer's rows into blocks of 512 -/

section Rects

/-- Membership in a block of 512 rows starting at column 0: the row lies in the block. -/
theorem mem_rows1k {off : Fin 2 → Nat} (h : ∀ a, off a + S512x1024.size a ≤ S1024x1024.size a) (h1 : off 1 = 0) (i : S1024x1024.Idx) :
    i ∈ (Rect.unit (s := S1024x1024) off S512x1024.size h).set ↔ off 0 ≤ (i 0 : Nat) ∧ (i 0 : Nat) < off 0 + 512 := by
  rw [Rect.mem_set_unit, Fin.forall_fin_two]
  constructor
  · intro ha; exact ha.1
  · intro ha; exact ⟨ha, by rw [h1]; exact ⟨Nat.zero_le _, by rw [Nat.zero_add]; exact (i 1).isLt⟩⟩
theorem mem_rows4k {off : Fin 2 → Nat} (h : ∀ a, off a + S512x1024.size a ≤ S4096x1024.size a) (h1 : off 1 = 0) (i : S4096x1024.Idx) :
    i ∈ (Rect.unit (s := S4096x1024) off S512x1024.size h).set ↔ off 0 ≤ (i 0 : Nat) ∧ (i 0 : Nat) < off 0 + 512 := by
  rw [Rect.mem_set_unit, Fin.forall_fin_two]
  constructor
  · intro ha; exact ha.1
  · intro ha; exact ⟨ha, by rw [h1]; exact ⟨Nat.zero_le _, by rw [Nat.zero_add]; exact (i 1).isLt⟩⟩

/-- Two blocks of 512 rows of a 1024×1024 buffer, one at row 0 and one at row 512, are disjoint and cover it. -/
theorem rect2 {off off' : Fin 2 → Nat} (h : ∀ a, off a + S512x1024.size a ≤ S1024x1024.size a) (h' : ∀ a, off' a + S512x1024.size a ≤ S1024x1024.size a)
    (h0 : (off 0 = 0 ∧ off' 0 = 512) ∨ (off 0 = 512 ∧ off' 0 = 0)) (h1 : off 1 = 0) (h1' : off' 1 = 0) :
    Disjoint (Rect.unit (s := S1024x1024) off S512x1024.size h).set (Rect.unit (s := S1024x1024) off' S512x1024.size h').set
      ∧ (Rect.unit (s := S1024x1024) off S512x1024.size h).set ∪ (Rect.unit (s := S1024x1024) off' S512x1024.size h').set = Finset.univ := by
  constructor
  · rw [Finset.disjoint_left]
    intro i hi hi'
    rw [mem_rows1k h h1] at hi; rw [mem_rows1k h' h1'] at hi'
    omega
  · ext i
    simp only [Finset.mem_union, Finset.mem_univ, iff_true]
    rw [mem_rows1k h h1, mem_rows1k h' h1']
    have hi0 : (i 0 : Nat) < 1024 := (i 0).isLt
    omega

/-- Eight blocks of 512 rows of a 4096×1024 array at the eight multiples of 512 are pairwise disjoint and cover it. -/
theorem rect8 (offs : Fin 8 → Fin 2 → Nat) (h : ∀ j a, offs j a + S512x1024.size a ≤ S4096x1024.size a)
    (hcol : ∀ j, offs j 1 = 0) (hmul : ∀ j, offs j 0 % 512 = 0) (hinj : ∀ j j', j ≠ j' → offs j 0 ≠ offs j' 0)
    (hsurj : ∀ t : Fin 8, ∃ j, offs j 0 = 512 * t.val) :
    (∀ j ∈ (Finset.univ : Finset (Fin 8)), ∀ j' ∈ (Finset.univ : Finset (Fin 8)), j ≠ j' →
        Disjoint (Rect.unit (s := S4096x1024) (offs j) S512x1024.size (h j)).set (Rect.unit (s := S4096x1024) (offs j') S512x1024.size (h j')).set)
      ∧ (Finset.univ : Finset (Fin 8)).biUnion (fun j => (Rect.unit (s := S4096x1024) (offs j) S512x1024.size (h j)).set) = Finset.univ := by
  constructor
  · intro j _ j' _ hne
    rw [Finset.disjoint_left]
    intro i hi hi'
    rw [mem_rows4k (h j) (hcol j)] at hi; rw [mem_rows4k (h j') (hcol j')] at hi'
    have := hinj j j' hne; have := hmul j; have := hmul j'
    omega
  · ext i
    simp only [Finset.mem_biUnion, Finset.mem_univ, true_and, iff_true]
    have hi0 : (i 0 : Nat) < 4096 := (i 0).isLt
    obtain ⟨j, hj⟩ := hsurj ⟨(i 0 : Nat) / 512, by omega⟩
    refine ⟨j, ?_⟩
    rw [mem_rows4k (h j) (hcol j), hj]
    show 512 * ((i 0 : Nat) / 512) ≤ (i 0 : Nat) ∧ (i 0 : Nat) < 512 * ((i 0 : Nat) / 512) + 512
    omega

end Rects

/-! ## The points-to of a whole buffer along its blocks -/

section Pts
variable {sp : Space} {s : Shape} (c : Dev nD) (M : Memref sig .tc sp s .f32)

theorem set_slice_eq (r : Rect s) (hr : ∀ a, r.stride a = 1) : (M.slice r hr).view.set = r.set.map M.view.emb :=
  View.set_slice (v := M.view) r

/-- Along two blocks that are disjoint and cover the view. -/
theorem pts_split2 (r r' : Rect s) (hr : ∀ a, r.stride a = 1) (hr' : ∀ a, r'.stride a = 1)
    (hd : Disjoint r.set r'.set) (hu : r.set ∪ r'.set = Finset.univ) (q : PosShare TreeShare) (f : Buf (Elt F) (M.view.loc (c : Thread nD τ))) :
    (M.view.loc (c : Thread nD τ) ↦[M.view.set]{q} f : sProp 𝕄)
      ⊣⊢ iprop((M.view.loc (c : Thread nD τ) ↦[(M.slice r hr).view.set]{q} f) ∗ (M.view.loc (c : Thread nD τ) ↦[(M.slice r' hr').view.set]{q} f)) := by
  rw [set_slice_eq, set_slice_eq]
  have hs : M.view.set = r.set.map M.view.emb ∪ r'.set.map M.view.emb := by
    rw [← Finset.map_union, hu]; rfl
  rw [hs]
  exact pointsTo_union ((Finset.disjoint_map _).mpr hd)

/-- Along a family of pairwise disjoint blocks that cover the view. -/
theorem pts_split8 (r : Fin 8 → Rect s) (hr : ∀ j a, (r j).stride a = 1)
    (hd : ∀ j ∈ (Finset.univ : Finset (Fin 8)), ∀ j' ∈ (Finset.univ : Finset (Fin 8)), j ≠ j' → Disjoint (r j).set (r j').set)
    (hu : (Finset.univ : Finset (Fin 8)).biUnion (fun j => (r j).set) = Finset.univ) (q : PosShare TreeShare) (f : Buf (Elt F) (M.view.loc (c : Thread nD τ))) :
    (M.view.loc (c : Thread nD τ) ↦[M.view.set]{q} f : sProp 𝕄)
      = bigSep Finset.univ fun j : Fin 8 => (M.view.loc (c : Thread nD τ) ↦[(M.slice (r j) (hr j)).view.set]{q} f) := by
  have hs : M.view.set = (Finset.univ : Finset (Fin 8)).biUnion (fun j => (M.slice (r j) (hr j)).view.set) := by
    ext i
    constructor
    · intro hi
      obtain ⟨y, rfl⟩ := View.exists_emb_of_mem_set M.view hi
      have hy : y ∈ (Finset.univ : Finset (Fin 8)).biUnion (fun j => (r j).set) := by rw [hu]; exact Finset.mem_univ y
      obtain ⟨j, -, hj⟩ := Finset.mem_biUnion.mp hy
      refine Finset.mem_biUnion.mpr ⟨j, Finset.mem_univ j, ?_⟩
      rw [set_slice_eq]; exact Finset.mem_map_of_mem _ hj
    · intro hi
      obtain ⟨j, -, hj⟩ := Finset.mem_biUnion.mp hi
      exact View.set_slice_subset M.view (r j) hj
  rw [hs]
  exact pointsTo_biUnion Finset.univ _ fun j hj j' hj' hne => by
    rw [set_slice_eq, set_slice_eq]; exact (Finset.disjoint_map _).mpr (hd j hj j' hj' hne)

end Pts

end Cert.Kernel.Hand

end
-- ==== Proof.KPrelude.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KGhost
import proofs.«900388_g7700000000000389_dist_rs_then_ag_i_m4096_n1024_v7x_i4_f32_1_alg».proof.Proof.KSplit
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The offsets on a device and on its partners -/

section Offsets
variable (c : Dev nD)

theorem off1_px : k0_off1 (px c) = k0_off1 c := by revert c; decide +kernel
theorem off5_px : k0_off5 (px c) = k0_off5 c := by revert c; decide +kernel
theorem off3_py : k0_off3 (py c) = k0_off3 c := by revert c; decide +kernel
theorem off7_py : k0_off7 (py c) = k0_off7 c := by revert c; decide +kernel
theorem off1_py : k0_off1 (py c) = k0_off5 c := by revert c; decide +kernel
theorem off5_py : k0_off5 (py c) = k0_off1 c := by revert c; decide +kernel
theorem off3_px : k0_off3 (px c) = k0_off7 c := by revert c; decide +kernel
theorem off7_px : k0_off7 (px c) = k0_off3 c := by revert c; decide +kernel
theorem off13_eq : k0_off13 c = k0_off1 c := (k0_off13_eq c).trans (k0_off1_eq c).symm
theorem off14_eq : k0_off14 c = k0_off3 c := (k0_off14_eq c).trans (k0_off3_eq c).symm
theorem off15_eq : k0_off15 c = k0_off5 c := (k0_off15_eq c).trans (k0_off5_eq c).symm
theorem off16_eq : k0_off16 c = k0_off7 c := (k0_off16_eq c).trans (k0_off7_eq c).symm

theorem rPf_px : rPf (px c) = rPf c := sl1_congr rP1 (off1_px c) _ _
theorem rPo_px : rPo (px c) = rPo c := sl1_congr rP1 (off5_px c) _ _
theorem rQf_py : rQf (py c) = rQf c := sl1_congr rQ1 (off3_py c) _ _
theorem rQo_py : rQo (py c) = rQo c := sl1_congr rQ1 (off7_py c) _ _
theorem aPf_py : aPf (py c) = aPo c := sl1_congr aP (off1_py c) _ _
theorem aPo_py : aPo (py c) = aPf c := sl1_congr aP (off5_py c) _ _
theorem aQf_px : aQf (px c) = aQo c := sl1_congr aQ (off3_px c) _ _
theorem aQo_px : aQo (px c) = aQf c := sl1_congr aQ (off7_px c) _ _

theorem pair15 : (k0_off1 c 0 = 0 ∧ k0_off5 c 0 = 512) ∨ (k0_off1 c 0 = 512 ∧ k0_off5 c 0 = 0) := by revert c; decide +kernel
theorem pair37 : (k0_off3 c 0 = 0 ∧ k0_off7 c 0 = 512) ∨ (k0_off3 c 0 = 512 ∧ k0_off7 c 0 = 0) := by revert c; decide +kernel
theorem col1 : k0_off1 c 1 = 0 := by revert c; decide +kernel
theorem col3 : k0_off3 c 1 = 0 := by revert c; decide +kernel
theorem col5 : k0_off5 c 1 = 0 := by revert c; decide +kernel
theorem col7 : k0_off7 c 1 = 0 := by revert c; decide +kernel

/-- The eight blocks of the result array on device `c`, by who writes them: itself (four), `px c` (two), `py c` (two). -/
def offsO : Fin 8 → Fin 2 → Nat :=
  ![k0_off11 c, k0_off12 c, k0_off9 c, k0_off10 c, k0_off11 (px c), k0_off9 (px c), k0_off12 (py c), k0_off10 (py c)]

theorem offsO_inb : ∀ j a, offsO c j a + S512x1024.size a ≤ S4096x1024.size a := by revert c; decide +kernel
theorem offsO_col : ∀ j, offsO c j 1 = 0 := by revert c; decide +kernel
theorem offsO_mul : ∀ j, offsO c j 0 % 512 = 0 := by revert c; decide +kernel
theorem offsO_inj : ∀ j j', j ≠ j' → offsO c j 0 ≠ offsO c j' 0 := by revert c; decide +kernel
theorem offsO_surj : ∀ t : Fin 8, ∃ j, offsO c j 0 = 512 * t.val := by revert c; decide +kernel

end Offsets

/-! ## Payloads: what each transfer hands over, and what each wait gets -/

section Pay
variable (c : Dev nD)

theorem payR0 : (ow (px c) (rPf c) fullShare (A0 m c) : sProp 𝕄) ⊢ Pd m (px c) (rIx 0) := by
  show _ ⊢ ow (px c) (rPf (px (px c))) fullShare (A0 m (px (px c)))
  rw [px_px]
theorem payR1 : (ow (py c) (rQf c) fullShare (A1 m c) : sProp 𝕄) ⊢ Pd m (py c) (rIx 1) := by
  show _ ⊢ ow (py c) (rQf (py (py c))) fullShare (A1 m (py (py c)))
  rw [py_py]
theorem payR2 : (ow (px c) (rPo c) fullShare (A2 m c) : sProp 𝕄) ⊢ Pd m (px c) (rIx 2) := by
  show _ ⊢ ow (px c) (rPo (px (px c))) fullShare (A2 m (px (px c)))
  rw [px_px]
theorem payR3 : (ow (py c) (rQo c) fullShare (A3 m c) : sProp 𝕄) ⊢ Pd m (py c) (rIx 3) := by
  show _ ⊢ ow (py c) (rQo (py (py c))) fullShare (A3 m (py (py c)))
  rw [py_py]
theorem payR4 : (iprop(ow (py c) rP2 fullShare (sPf m c) ∗ ow c (aPf c) fullShare (sPf m c)) : sProp 𝕄) ⊢ Pd m (py c) (rIx 4) := by
  show _ ⊢ iprop(ow (py c) rP2 fullShare (sPf m (py (py c))) ∗ ow (py (py c)) (aPf (py (py c))) fullShare (sPf m (py (py c))))
  rw [py_py]
theorem payR5 : (iprop(ow (px c) rQ2 fullShare (sQf m c) ∗ ow c (aQf c) fullShare (sQf m c)) : sProp 𝕄) ⊢ Pd m (px c) (rIx 5) := by
  show _ ⊢ iprop(ow (px c) rQ2 fullShare (sQf m (px (px c))) ∗ ow (px (px c)) (aQf (px (px c))) fullShare (sQf m (px (px c))))
  rw [px_px]
theorem payR6 : (ow (py c) (aPo c) fullShare (tP m c) : sProp 𝕄) ⊢ Pd m (py c) (rIx 6) := by
  show _ ⊢ ow (py c) (aPo (py (py c))) fullShare (tP m (py (py c)))
  rw [py_py]
theorem payR7 : (ow (px c) (aQo c) fullShare (tQ m c) : sProp 𝕄) ⊢ Pd m (px c) (rIx 7) := by
  show _ ⊢ ow (px c) (aQo (px (px c))) fullShare (tQ m (px (px c)))
  rw [px_px]
theorem payR8 : (ow (px c) (oB2 c) fullShare (tP m c) : sProp 𝕄) ⊢ Pd m (px c) (rIx 8) := by
  show _ ⊢ ow (px c) (oB2 (px (px c))) fullShare (tP m (px (px c)))
  rw [px_px]
theorem payR9 : (ow (py c) (oB3 c) fullShare (tQ m c) : sProp 𝕄) ⊢ Pd m (py c) (rIx 9) := by
  show _ ⊢ ow (py c) (oB3 (py (py c))) fullShare (tQ m (py (py c)))
  rw [py_py]
theorem payR10 : (ow (px c) (oB0 c) fullShare (tP m (py c)) : sProp 𝕄) ⊢ Pd m (px c) (rIx 10) := by
  show _ ⊢ ow (px c) (oB0 (px (px c))) fullShare (tP m (py (px (px c))))
  rw [px_px]
theorem payR11 : (ow (py c) (oB1 c) fullShare (tQ m (px c)) : sProp 𝕄) ⊢ Pd m (py c) (rIx 11) := by
  show _ ⊢ ow (py c) (oB1 (py (py c))) fullShare (tQ m (px (py (py c))))
  rw [py_py]

/-- What the receive waits hand device `c`, the views respelt at its own offsets. -/
theorem gotR0 : Pd m c (rIx 0) ⊢ (ow c (rPf c) fullShare (A0 m (px c)) : sProp 𝕄) := by
  show ow c (rPf (px c)) fullShare (A0 m (px c)) ⊢ _
  rw [rPf_px]
theorem gotR1 : Pd m c (rIx 1) ⊢ (ow c (rQf c) fullShare (A1 m (py c)) : sProp 𝕄) := by
  show ow c (rQf (py c)) fullShare (A1 m (py c)) ⊢ _
  rw [rQf_py]
theorem gotR2 : Pd m c (rIx 2) ⊢ (ow c (rPo c) fullShare (A2 m (px c)) : sProp 𝕄) := by
  show ow c (rPo (px c)) fullShare (A2 m (px c)) ⊢ _
  rw [rPo_px]
theorem gotR3 : Pd m c (rIx 3) ⊢ (ow c (rQo c) fullShare (A3 m (py c)) : sProp 𝕄) := by
  show ow c (rQo (py c)) fullShare (A3 m (py c)) ⊢ _
  rw [rQo_py]
theorem gotR4 : Pd m c (rIx 4) ⊢ (iprop(ow c rP2 fullShare (sPf m (py c)) ∗ ow (py c) (aPo c) fullShare (sPf m (py c))) : sProp 𝕄) := by
  show iprop(ow c rP2 fullShare (sPf m (py c)) ∗ ow (py c) (aPf (py c)) fullShare (sPf m (py c))) ⊢ _
  rw [aPf_py]
theorem gotR5 : Pd m c (rIx 5) ⊢ (iprop(ow c rQ2 fullShare (sQf m (px c)) ∗ ow (px c) (aQo c) fullShare (sQf m (px c))) : sProp 𝕄) := by
  show iprop(ow c rQ2 fullShare (sQf m (px c)) ∗ ow (px c) (aQf (px c)) fullShare (sQf m (px c))) ⊢ _
  rw [aQf_px]
theorem gotR6 : Pd m c (rIx 6) ⊢ (ow c (aPf c) fullShare (tP m (py c)) : sProp 𝕄) := by
  show ow c (aPo (py c)) fullShare (tP m (py c)) ⊢ _
  rw [aPo_py]
theorem gotR7 : Pd m c (rIx 7) ⊢ (ow c (aQf c) fullShare (tQ m (px c)) : sProp 𝕄) := by
  show ow c (aQo (px c)) fullShare (tQ m (px c)) ⊢ _
  rw [aQo_px]

theorem barPay_px : (iprop(dE c (rPf c) ∗ dE c (rPo c) ∗ dE c rQ2 ∗ dE c (oB2 (px c)) ∗ dE c (oB0 (px c))) : sProp 𝕄) ⊢ barPay (px c) false := by
  unfold barPay; rw [if_neg Bool.false_ne_true, px_px, rPf_px, rPo_px]
theorem barPay_py : (iprop(dE c (rQf c) ∗ dE c (rQo c) ∗ dE c rP2 ∗ dE c (oB3 (py c)) ∗ dE c (oB1 (py c))) : sProp 𝕄) ⊢ barPay (py c) true := by
  unfold barPay; rw [if_pos rfl, py_py, rQf_py, rQo_py]
theorem barGot_false : barPay c false ⊢ (iprop(dE (px c) (rPf c) ∗ dE (px c) (rPo c) ∗ dE (px c) rQ2 ∗ dE (px c) (oB2 c) ∗ dE (px c) (oB0 c)) : sProp 𝕄) := by
  unfold barPay; rw [if_neg Bool.false_ne_true]
theorem barGot_true : barPay c true ⊢ (iprop(dE (py c) (rQf c) ∗ dE (py c) (rQo c) ∗ dE (py c) rP2 ∗ dE (py c) (oB3 c) ∗ dE (py c) (oB1 c)) : sProp 𝕄) := by
  unfold barPay; rw [if_pos rfl]

end Pay

/-! ## Cutting the buffers at entry, joining them at exit -/

section Cut
variable (c : Dev nD)

theorem ow_of_pts {sp : Space} {s : Shape} (M : Memref sig .tc sp s .f32) (r : Rect s) (hr : ∀ a, r.stride a = 1) (q : PosShare TreeShare)
    (f : Buf (Elt F) (M.view.loc (c : Thread nD τ))) :
    (M.view.loc (c : Thread nD τ) ↦[M.view.set]{q} f : sProp 𝕄) ⊢ ow c (M.slice r hr) q ((M.slice r hr).view.read (Elt F) f) := by
  unfold ow owns
  iintro H
  iexists f
  isplitr; · (ipureintro; rfl)
  ihave H' := (pointsTo_split_subset (View.set_slice_subset M.view r)).1 $$ H
  icases H' with ⟨H1, -⟩
  iexact H1

theorem dE_split2 (M : Memref sig .tc .vmem S1024x1024 .f32) {off off' : Fin 2 → Nat} (h : ∀ a, off a + S512x1024.size a ≤ S1024x1024.size a)
    (h' : ∀ a, off' a + S512x1024.size a ≤ S1024x1024.size a) (h0 : (off 0 = 0 ∧ off' 0 = 512) ∨ (off 0 = 512 ∧ off' 0 = 0)) (h1 : off 1 = 0) (h1' : off' 1 = 0)
    (f : Buf (Elt F) (M.view.loc (c : Thread nD τ))) :
    (M.view.loc (c : Thread nD τ) ↦[M.view.set]{fullShare} f : sProp 𝕄) ⊢ iprop(dE c (sl1 M off h) ∗ dE c (sl1 M off' h')) := by
  obtain ⟨hd, hu⟩ := rect2 h h' h0 h1 h1'
  refine (pts_split2 c M _ _ (fun _ => rfl) (fun _ => rfl) hd hu fullShare f).1.trans ?_
  unfold dE
  iintro ⟨H1, H2⟩
  isplitl [H1]; · iexists f; iexact H1
  iexists f; iexact H2

theorem ow_join2 (M : Memref sig .tc .vmem S1024x1024 .f32) {off off' : Fin 2 → Nat} (h : ∀ a, off a + S512x1024.size a ≤ S1024x1024.size a)
    (h' : ∀ a, off' a + S512x1024.size a ≤ S1024x1024.size a) (h0 : (off 0 = 0 ∧ off' 0 = 512) ∨ (off 0 = 512 ∧ off' 0 = 0)) (h1 : off 1 = 0) (h1' : off' 1 = 0)
    (v v' : Vec F S512x1024 .f32) :
    (iprop(ow c (sl1 M off h) fullShare v ∗ ow c (sl1 M off' h') fullShare v') : sProp 𝕄)
      ⊢ iprop(∃ g : Buf (Elt F) (M.view.loc (c : Thread nD τ)), M.view.loc (c : Thread nD τ) ↦[M.view.set]{fullShare} g) := by
  obtain ⟨hd, hu⟩ := rect2 h h' h0 h1 h1'
  have hdj : Disjoint (sl1 M off h).view.set (sl1 M off' h').view.set := by
    rw [set_slice_eq, set_slice_eq]; exact (Finset.disjoint_map _).mpr hd
  have hs : (sl1 M off h).view.set ∪ (sl1 M off' h').view.set = M.view.set := by
    rw [set_slice_eq, set_slice_eq, ← Finset.map_union, hu]; rfl
  have key (f g : Buf (Elt F) (M.view.loc (c : Thread nD τ))) :
      (iprop((M.view.loc (c : Thread nD τ) ↦[(sl1 M off h).view.set]{fullShare} f) ∗ (M.view.loc (c : Thread nD τ) ↦[(sl1 M off' h').view.set]{fullShare} g)) : sProp 𝕄)
        ⊢ (M.view.loc (c : Thread nD τ) ↦[M.view.set]{fullShare} ((sl1 M off' h').view.set.piecewise g f)) := by
    have := pointsTo_join (ℓ := M.view.loc (c : Thread nD τ)) (q := fullShare) (f := f) (g := g) (Val := Elt F) (Name := ℕ) (U := UU) (Lvl := ℕ) (Ix := Unit) hdj
    rwa [hs] at this
  unfold ow owns
  iintro ⟨⟨%f, -, H1⟩, ⟨%g, -, H2⟩⟩
  iexists ((sl1 M off' h').view.set.piecewise g f)
  iapply (key f g)
  isplitl [H1] <;> iassumption

theorem out_split (f : Buf (Elt F) ((c : Thread nD τ).loc main_v1)) :
    (((c : Thread nD τ).loc main_v1) ↦{fullShare} f : sProp 𝕄)
      ⊢ iprop(dE c (oB2 c) ∗ dE c (oB3 c) ∗ dE c (oB0 c) ∗ dE c (oB1 c) ∗ dE c (oB2 (px c)) ∗ dE c (oB0 (px c)) ∗ dE c (oB3 (py c)) ∗ dE c (oB1 (py c))) := by
  obtain ⟨hd, hu⟩ := rect8 (offsO c) (offsO_inb c) (offsO_col c) (offsO_mul c) (offsO_inj c) (offsO_surj c)
  have e := pts_split8 (F := F) c oM (fun j => Rect.unit (s := S4096x1024) (offsO c j) S512x1024.size (offsO_inb c j)) (fun _ _ => rfl) hd hu fullShare f
  rw [View.set_whole, bigSep_fin8] at e
  refine (Entails.of_eq e).trans ?_
  unfold dE
  iintro ⟨H0, H1, H2, H3, H4, H5, H6, H7⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7

/-- The argument array: half of it kept untouched, the other half cut into eight shares, one per transfer that reads it, each
    restricted to the rows that transfer reads. -/
theorem x_split :
    (((c : Thread nD τ).loc main_arg0) ↦{fullShare} X m c : sProp 𝕄)
      ⊢ iprop((((c : Thread nD τ).loc main_arg0) ↦{fullShare.left} X m c)
          ∗ ow c (xA0 c) (qx 0) (A0 m c) ∗ ow c (xA1 c) (qx 1) (A1 m c) ∗ ow c (xA2 c) (qx 2) (A2 m c) ∗ ow c (xA3 c) (qx 3) (A3 m c)
          ∗ ow c (xB0 c) (qx 4) (B0 m c) ∗ ow c (xB1 c) (qx 5) (B1 m c) ∗ ow c (xB2 c) (qx 6) (B2 m c) ∗ ow c (xB3 c) (qx 7) (B3 m c)) := by
  have hw (q : PosShare TreeShare) : (((c : Thread nD τ).loc main_arg0) ↦{q} X m c : sProp 𝕄) = (xM.view.loc (c : Thread nD τ) ↦[xM.view.set]{q} X m c) := by
    rw [View.set_whole]
  iintro H
  ihave H' := (pointsTo_share (PosShare.mem_left_op_right fullShare)).1 $$ H
  icases H' with ⟨HL, HR⟩
  ihave H' := (pointsTo_share (PosShare.mem_left_op_right fullShare.right)).1 $$ HR
  icases H' with ⟨HRL, HRR⟩
  ihave H' := (pointsTo_share (PosShare.mem_left_op_right fullShare.right.left)).1 $$ HRL
  icases H' with ⟨HRLL, HRLR⟩
  ihave H' := (pointsTo_share (PosShare.mem_left_op_right fullShare.right.right)).1 $$ HRR
  icases H' with ⟨HRRL, HRRR⟩
  ihave H' := (pointsTo_share (PosShare.mem_left_op_right fullShare.right.left.left)).1 $$ HRLL
  icases H' with ⟨Q0, Q1⟩
  ihave H' := (pointsTo_share (PosShare.mem_left_op_right fullShare.right.left.right)).1 $$ HRLR
  icases H' with ⟨Q2, Q3⟩
  ihave H' := (pointsTo_share (PosShare.mem_left_op_right fullShare.right.right.left)).1 $$ HRRL
  icases H' with ⟨Q4, Q5⟩
  ihave H' := (pointsTo_share (PosShare.mem_left_op_right fullShare.right.right.right)).1 $$ HRRR
  icases H' with ⟨Q6, Q7⟩
  isplitl [HL]; · iexact HL
  isplitl [Q0]; · iapply ((Entails.of_eq (hw _)).trans (ow_of_pts c xM _ (fun _ => rfl) _ _)); iexact Q0
  isplitl [Q1]; · iapply ((Entails.of_eq (hw _)).trans (ow_of_pts c xM _ (fun _ => rfl) _ _)); iexact Q1
  isplitl [Q2]; · iapply ((Entails.of_eq (hw _)).trans (ow_of_pts c xM _ (fun _ => rfl) _ _)); iexact Q2
  isplitl [Q3]; · iapply ((Entails.of_eq (hw _)).trans (ow_of_pts c xM _ (fun _ => rfl) _ _)); iexact Q3
  isplitl [Q4]; · iapply ((Entails.of_eq (hw _)).trans (ow_of_pts c xM _ (fun _ => rfl) _ _)); iexact Q4
  isplitl [Q5]; · iapply ((Entails.of_eq (hw _)).trans (ow_of_pts c xM _ (fun _ => rfl) _ _)); iexact Q5
  isplitl [Q6]; · iapply ((Entails.of_eq (hw _)).trans (ow_of_pts c xM _ (fun _ => rfl) _ _)); iexact Q6
  iapply ((Entails.of_eq (hw _)).trans (ow_of_pts c xM _ (fun _ => rfl) _ _)); iexact Q7

end Cut

end Cert.Kernel.Hand

end
-- ==== Proof.KBarRules.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KPrelude
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## The entry handshake with the partners' buffers spelt out -/

/-- The entry signal to `px c`: it hands over this device's buffers that `px c` writes. -/
theorem signal_barX {α : Type} {Q : α → sProp 𝕄} {k : PUnit → Prog (TpuEff nD τ sig (Elt F) Λ₀ .tc) α}
    (κ : ℕ) {O₀ : CellTallies nD τ sig Unit} (O : CellTallies nD τ sig Unit) (hO : O₀ = O + tallyAt (barCell (px c)) () 1) (W : Waits sig Unit) :
    iprop(cellInv ER (Rd m) κ (barCell (px c)) ∗ owes (c : Thread nD τ) O₀ W ∗ dutyTok ER (barCell (px c)) 0 false
        ∗ iprop(dE c (rPf c) ∗ dE c (rPo c) ∗ dE c rQ2 ∗ dE c (oB2 (px c)) ∗ dE c (oB0 (px c))) ∗ reached ER (barCell (px c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (px c : Thread nD τ) barS 1) k) Q) :=
  (sep_mono_right (sep_mono_right (sep_mono_right (sep_mono_left (barPay_px (F := F) c))))).trans
    (signal_bar m c (px c) false κ O hO W)

/-- The entry signal to `py c`. -/
theorem signal_barY {α : Type} {Q : α → sProp 𝕄} {k : PUnit → Prog (TpuEff nD τ sig (Elt F) Λ₀ .tc) α}
    (κ : ℕ) {O₀ : CellTallies nD τ sig Unit} (O : CellTallies nD τ sig Unit) (hO : O₀ = O + tallyAt (barCell (py c)) () 1) (W : Waits sig Unit) :
    iprop(cellInv ER (Rd m) κ (barCell (py c)) ∗ owes (c : Thread nD τ) O₀ W ∗ dutyTok ER (barCell (py c)) 0 true
        ∗ iprop(dE c (rQf c) ∗ dE c (rQo c) ∗ dE c rP2 ∗ dE c (oB3 (py c)) ∗ dE c (oB1 (py c))) ∗ reached ER (barCell (py c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (py c : Thread nD τ) barS 1) k) Q) :=
  (sep_mono_right (sep_mono_right (sep_mono_right (sep_mono_left (barPay_py (F := F) c))))).trans
    (signal_bar m c (py c) true κ O hO W)

/-- The wait for both partners' entry signals: their buffers this device writes. -/
theorem wait_bar' {α : Type} {Q : α → sProp 𝕄} {k : PUnit → Prog (TpuEff nD τ sig (Elt F) Λ₀ .tc) α}
    (κ : ℕ) (O : CellTallies nD τ sig Unit) (W : Waits sig Unit) :
    iprop(cellInv ER (Rd m) κ (barCell c) ∗ cred (tallyAt (barCell c) () 2) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0
              ∗ iprop(dE (px c) (rPf c) ∗ dE (px c) (rPo c) ∗ dE (px c) rQ2 ∗ dE (px c) (oB2 c) ∗ dE (px c) (oB0 c))
              ∗ iprop(dE (py c) (rQf c) ∗ dE (py c) (rQo c) ∗ dE (py c) rP2 ∗ dE (py c) (oB3 c) ∗ dE (py c) (oB1 c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  refine (wait_bar m c κ O W).trans (wand_mono_left ?_)
  exact wand_mono_left (sep_mono_right (sep_mono_right (BIClass.sep_mono (barGot_false (F := F) c) (barGot_true (F := F) c))))

end Cert.Kernel.Hand

end
-- ==== Proof.KMem.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KRules
import proofs.«900388_g7700000000000389_dist_rs_then_ag_i_m4096_n1024_v7x_i4_f32_1_alg».proof.Proof.KSplit
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Loads and stores through a block of 512 rows held at a value -/

section Mem
variable (c : Dev nD)

theorem hz2 : (![0, 0] : Fin 2 → Nat) = fun _ => 0 := funext fun a => by fin_cases a <;> rfl

theorem load_sl1 (M : Memref sig .tc .vmem S1024x1024 .f32) {off off' : Fin 2 → Nat} (e : off' = off)
    (h : ∀ a, off a + S512x1024.size a ≤ S1024x1024.size a) (h' : ∀ a, off' a + S512x1024.size a ≤ S1024x1024.size a)
    {hl : M.view.LoadsAt (Rect.unit (s := S1024x1024) off' S512x1024.size h').toLoadRect}
    (q : PosShare TreeShare) (v : Vec F S512x1024 .f32) {α : Type} {Q : α → sProp 𝕄}
    {k : (Vec F S512x1024 .f32) → Prog (TpuEff nD τ sig (Elt F) Λ₀ .tc) α} :
    (ow c (sl1 M off h) q v : sProp 𝕄)
      ⊢ iprop((ow c (sl1 M off h) q v -∗ wp frame (wpE (defs₀ (F := F)) 𝒱₀ (c : Thread nD τ) none) Set.univ (k v) Q)
          -∗ wp frame (wpE (defs₀ (F := F)) 𝒱₀ (c : Thread nD τ) none) Set.univ
            (.op (.load M (Rect.unit (s := S1024x1024) off' S512x1024.size h').toLoadRect hl) k) Q) := by
  subst e
  unfold ow owns
  iintro ⟨%f, %hf, H⟩ Hk
  iapply (wp_load 𝒱₀ (c : Thread nD τ) none Set.univ (m := M) (S := (sl1 M off' h).view.set)
      (by rw [set_slice_eq]; exact Finset.Subset.refl _)) $$ H
  iintro H
  rw [show M.view.readAt (Elt F) (Rect.unit (s := S1024x1024) off' S512x1024.size h').toLoadRect f = v from hf]
  iapply Hk
  iexists f; isplitr; · (ipureintro; exact hf)
  iexact H

theorem store_sl1 (M : Memref sig .tc .vmem S1024x1024 .f32) {off off' : Fin 2 → Nat} (e : off' = off)
    (h : ∀ a, off a + S512x1024.size a ≤ S1024x1024.size a) (h' : ∀ a, off' a + S512x1024.size a ≤ S1024x1024.size a)
    (w : Vec F S512x1024 .f32)
    {hx : (M.access (Rect.unit (s := S1024x1024) off' S512x1024.size h')).Stores Finset.univ}
    {hm : (Finset.univ : Finset (Rect.unit (s := S1024x1024) off' S512x1024.size h').shape.Idx) = Finset.univ ∨ ∀ a, (Rect.unit (s := S1024x1024) off' S512x1024.size h').stride a = 1}
    (v : Vec F S512x1024 .f32) {α : Type} {Q : α → sProp 𝕄}
    {k : PUnit → Prog (TpuEff nD τ sig (Elt F) Λ₀ .tc) α} :
    (ow c (sl1 M off h) fullShare v : sProp 𝕄)
      ⊢ iprop((ow c (sl1 M off h) fullShare w -∗ wp frame (wpE (defs₀ (F := F)) 𝒱₀ (c : Thread nD τ) none) Set.univ (k ⟨⟩) Q)
          -∗ wp frame (wpE (defs₀ (F := F)) 𝒱₀ (c : Thread nD τ) none) Set.univ
            (.op (.store M (Rect.unit (s := S1024x1024) off' S512x1024.size h') w Finset.univ hx hm) k) Q) := by
  subst e
  unfold ow owns
  iintro ⟨%f, -, H⟩ Hk
  iapply (wp_store 𝒱₀ (c : Thread nD τ) none Set.univ (m := M) (r := Rect.unit (s := S1024x1024) off' S512x1024.size h') (Mk := Finset.univ)
      (S := (sl1 M off' h).view.set) (Finset.Subset.refl _)) $$ H
  iintro H
  iapply Hk
  iexists ((sl1 M off' h).view.write (Elt F) f w Finset.univ); isplitr; · (ipureintro; exact View.read_write_univ _ _)
  iexact H

/-- A load of a whole buffer of 512 rows. -/
theorem load_rP2 {hl : (rP2 : Memref sig .tc .vmem S512x1024 .f32).view.LoadsAt (Rect.unit (s := S512x1024) ![0, 0] S512x1024.size inb_S512x1024_S512x1024_0_0).toLoadRect}
    (v : Vec F S512x1024 .f32) {α : Type} {Q : α → sProp 𝕄} {k : (Vec F S512x1024 .f32) → Prog (TpuEff nD τ sig (Elt F) Λ₀ .tc) α} :
    (ow c rP2 fullShare v : sProp 𝕄)
      ⊢ iprop((ow c rP2 fullShare v -∗ wp frame (wpE (defs₀ (F := F)) 𝒱₀ (c : Thread nD τ) none) Set.univ (k v) Q)
          -∗ wp frame (wpE (defs₀ (F := F)) 𝒱₀ (c : Thread nD τ) none) Set.univ
            (.op (.load rP2 (Rect.unit (s := S512x1024) ![0, 0] S512x1024.size inb_S512x1024_S512x1024_0_0).toLoadRect hl) k) Q) := by
  unfold ow owns
  iintro ⟨%f, %hf, H⟩ Hk
  iapply (wp_load 𝒱₀ (c : Thread nD τ) none Set.univ (m := rP2) (S := (rP2 : Memref sig .tc .vmem S512x1024 .f32).view.set) (View.setOn_subset_set _ _)) $$ H
  iintro H
  rw [show (rP2 : Memref sig .tc .vmem S512x1024 .f32).view.readAt (Elt F) (Rect.unit (s := S512x1024) ![0, 0] S512x1024.size inb_S512x1024_S512x1024_0_0).toLoadRect f = v from
    (Memref.readAt_unit_zero (Elt F) cc0_scratch3 hz2 _ f).trans hf]
  iapply Hk
  iexists f; isplitr; · (ipureintro; exact hf)
  iexact H
theorem load_rQ2 {hl : (rQ2 : Memref sig .tc .vmem S512x1024 .f32).view.LoadsAt (Rect.unit (s := S512x1024) ![0, 0] S512x1024.size inb_S512x1024_S512x1024_0_0).toLoadRect}
    (v : Vec F S512x1024 .f32) {α : Type} {Q : α → sProp 𝕄} {k : (Vec F S512x1024 .f32) → Prog (TpuEff nD τ sig (Elt F) Λ₀ .tc) α} :
    (ow c rQ2 fullShare v : sProp 𝕄)
      ⊢ iprop((ow c rQ2 fullShare v -∗ wp frame (wpE (defs₀ (F := F)) 𝒱₀ (c : Thread nD τ) none) Set.univ (k v) Q)
          -∗ wp frame (wpE (defs₀ (F := F)) 𝒱₀ (c : Thread nD τ) none) Set.univ
            (.op (.load rQ2 (Rect.unit (s := S512x1024) ![0, 0] S512x1024.size inb_S512x1024_S512x1024_0_0).toLoadRect hl) k) Q) := by
  unfold ow owns
  iintro ⟨%f, %hf, H⟩ Hk
  iapply (wp_load 𝒱₀ (c : Thread nD τ) none Set.univ (m := rQ2) (S := (rQ2 : Memref sig .tc .vmem S512x1024 .f32).view.set) (View.setOn_subset_set _ _)) $$ H
  iintro H
  rw [show (rQ2 : Memref sig .tc .vmem S512x1024 .f32).view.readAt (Elt F) (Rect.unit (s := S512x1024) ![0, 0] S512x1024.size inb_S512x1024_S512x1024_0_0).toLoadRect f = v from
    (Memref.readAt_unit_zero (Elt F) cc0_scratch5 hz2 _ f).trans hf]
  iapply Hk
  iexists f; isplitr; · (ipureintro; exact hf)
  iexact H

/-- A whole buffer's points-to, through the whole view. -/
theorem whole_pts (b : Ref sig .tc) (q : PosShare TreeShare) (f : Buf (Elt F) ((c : Thread nD τ).loc b)) :
    (((c : Thread nD τ).loc b) ↦{q} f : sProp 𝕄) = ((Memref.whole b).view.loc (c : Thread nD τ) ↦[(Memref.whole b).view.set]{q} f) := by
  rw [View.set_whole]

end Mem

end Cert.Kernel.Hand

end
-- ==== Proof.KSendAt.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KRules
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## The transfers, the peer named by a device the program computes -/

theorem send_owns_at {n p : Dev nD} (hn : n = p) {sp sp' : Space} {src : Memref sig .tc sp S512x1024 .f32} {dst : Memref sig .tc sp' S512x1024 .f32}
    {hsc : (dst : Memref sig (Dev.tc n : Thread nD τ).2.kind sp' S512x1024 .f32).view.ref.isScScratch = false} (kS kR : DmaSem sig)
    {hsrc : src.view.WordExact} {hdst : dst.view.WordExact}
    {hsem : DmaTarget.Typed sp (.dma kR) (.remote (Dev.tc n : Thread nD τ) dst (.dma kS) hsc)}
    {α : Type} {Q : α → sProp 𝕄} {k : PUnit → Prog (TpuEff nD τ sig (Elt F) Λ₀ .tc) α}
    (q : PosShare TreeShare) (v : Vec F S512x1024 .f32) (κ₁ κ₂ : ℕ) {O₀ : CellTallies nD τ sig Unit} (O : CellTallies nD τ sig Unit)
    (hO : O₀ = O + tallyAt (dCell p kR) () N) (W : Waits sig Unit)
    (hN : dst.view.amount (.dma kR) = N)
    (hpayS : (ow c src q v : sProp 𝕄) ⊢ Pd m c kS) (hpayR : (ow p dst fullShare v : sProp 𝕄) ⊢ Pd m p kR) :
    iprop(cellInv ER (Rd m) κ₁ (dCell c kS) ∗ cellInv ER (Rd m) κ₂ (dCell p kR) ∗ ow c src q v ∗ dE p dst ∗ owes (c : Thread nD τ) O₀ W
        ∗ dutyTok ER (dCell c kS) 0 false ∗ reached ER (dCell c kS) 0 ∗ dutyTok ER (dCell p kR) 0 false ∗ reached ER (dCell p kR) 0)
      ⊢ iprop(((cred (tallyAt (dCell c kS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma kS) hsc) (.dma kR) hsrc hdst hsem) k) Q) := by
  subst hn
  exact send_owns m c kS kR q v κ₁ κ₂ O hO W hN hpayS hpayR

theorem send_landing_owns_at {n p : Dev nD} (hn : n = p) {sp sp' : Space} {src : Memref sig .tc sp S512x1024 .f32} {dst : Memref sig .tc sp' S512x1024 .f32}
    {hsc : (dst : Memref sig (Dev.tc n : Thread nD τ).2.kind sp' S512x1024 .f32).view.ref.isScScratch = false} (kS kR : DmaSem sig)
    {hsrc : src.view.WordExact} {hdst : dst.view.WordExact}
    {hsem : DmaTarget.Typed sp (.dma kR) (.remote (Dev.tc n : Thread nD τ) dst (.dma kS) hsc)}
    {α : Type} {Q : α → sProp 𝕄} {k : PUnit → Prog (TpuEff nD τ sig (Elt F) Λ₀ .tc) α}
    (q : PosShare TreeShare) (v : Vec F S512x1024 .f32) (κ₁ κ₂ : ℕ) {O₀ : CellTallies nD τ sig Unit} (O : CellTallies nD τ sig Unit)
    (hO : O₀ = O + tallyAt (dCell p kR) () N) (W : Waits sig Unit)
    (hN : dst.view.amount (.dma kR) = N)
    (hpayS : (emp : sProp 𝕄) ⊢ Pd m c kS) (hpayR : (iprop(ow p dst fullShare v ∗ ow c src q v) : sProp 𝕄) ⊢ Pd m p kR) :
    iprop(cellInv ER (Rd m) κ₁ (dCell c kS) ∗ cellInv ER (Rd m) κ₂ (dCell p kR) ∗ ow c src q v ∗ dE p dst ∗ owes (c : Thread nD τ) O₀ W
        ∗ dutyTok ER (dCell c kS) 0 false ∗ reached ER (dCell c kS) 0 ∗ dutyTok ER (dCell p kR) 0 false ∗ reached ER (dCell p kR) 0)
      ⊢ iprop(((cred (tallyAt (dCell c kS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma kS) hsc) (.dma kR) hsrc hdst hsem) k) Q) := by
  subst hn
  exact send_landing_owns m c kS kR q v κ₁ κ₂ O hO W hN hpayS hpayR

end Cert.Kernel.Hand

end
-- ==== Proof.KPart1.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KBarRules
import proofs.«900388_g7700000000000389_dist_rs_then_ag_i_m4096_n1024_v7x_i4_f32_1_alg».proof.Proof.KMem
import proofs.«900388_g7700000000000389_dist_rs_then_ag_i_m4096_n1024_v7x_i4_f32_1_alg».proof.Proof.KSendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 1 of the body: what it takes from the device's holdings and what it leaves -/

set_option maxHeartbeats 4000000 in
set_option maxRecDepth 65536 in
theorem part1_spec (K : Dev nD × SemLoc sig → ℕ)  (Q : (Σ' (d0 : Dev nD) (v4 : BitVec 32) (v9 : BitVec 32) (v10 : BitVec 32) (v18 : BitVec 32) (v20 : BitVec 32) (v21 : BitVec 32) (v25 : BitVec 32) (v26 : BitVec 32), BitVec 32) → sProp 𝕄) :
    iprop(records m K ∗ levAts L lv ∗ (dE c (rPf c)) ∗ (dE c (rPo c)) ∗ (dE c rQ2) ∗ (dE c (oB2 (px c))) ∗ (dE c (oB0 (px c))) ∗ (dutyTok ER (barCell (px c)) 0 false) ∗ (iprop(∃ W : Waits sig Unit, owes (c : Thread nD τ) (O₀ c) W)) ∗ (dE c (rQf c)) ∗ (dE c (rQo c)) ∗ (dE c rP2) ∗ (dE c (oB3 (py c))) ∗ (dE c (oB1 (py c))) ∗ (dutyTok ER (barCell (py c)) 0 true) ∗ (cred (tallyAt (barCell c) () 1)) ∗ (cred (tallyAt (barCell c) () 1)) ∗ (atPos ER (barCell c) 0 ∅ 0)
        ∗ (∀ (v4 : BitVec 32) (v9 : BitVec 32) (v10 : BitVec 32) (v18 : BitVec 32) (v20 : BitVec 32) (v21 : BitVec 32) (v25 : BitVec 32) (v26 : BitVec 32) (c19 : BitVec 32), (iprop((iprop(∃ W : Waits sig Unit, owes (c : Thread nD τ) (Orest c 12) W)) ∗ (atPos ER (barCell c) 1 ∅ 0) ∗ (dE (px c) (rPf c)) ∗ (dE (px c) (rPo c)) ∗ (dE (px c) rQ2) ∗ (dE (px c) (oB2 c)) ∗ (dE (px c) (oB0 c)) ∗ (dE (py c) (rQf c)) ∗ (dE (py c) (rQo c)) ∗ (dE (py c) rP2) ∗ (dE (py c) (oB3 c)) ∗ (dE (py c) (oB1 c))) -∗ Q ⟨c, v4, v9, v10, v18, v20, v21, v25, v26, c19⟩)))
      ⊢ wp frame (wpE (defs₀ (F := F)) 𝒱₀ c none) Set.univ (k0_part1 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8) Q := by
  iintro ⟨#HR, #Hlev, HrPf, HrPo, HrQ2, Hox2, Hox0, HtBx, HO, HrQf, HrQo, HrP2, Hoy3, Hoy1, HtBy, HcB1, HcB2, HaB, Hk⟩
  icases HO with ⟨%W0, HO⟩
  simp only [k0_part1_eq_skeleton]; unfold k0_part1_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  iapply (signal_barX m c (K (px c, .reg barS)) (Orest c 12 + tallyAt (barCell (py c)) () 1) rfl _) $$ [HO HtBx HrPf HrPo HrQ2 Hox2 Hox0]
  · isplitr; · (iapply (inv_at m K (px c, .reg barS)) <;> iexact HR)
    isplitl [HO]; · iexact HO
    isplitl [HtBx]; · iexact HtBx
    isplitl [HrPf HrPo HrQ2 Hox2 Hox0]
    · isplitl [HrPf]; · iexact HrPf
      isplitl [HrPo]; · iexact HrPo
      isplitl [HrQ2]; · iexact HrQ2
      isplitl [Hox2]; · iexact Hox2
      iexact Hox0
    (iapply (reached_at m K (px c, .reg barS)) <;> iexact HR)
  iintro HO
  iapply (signal_barY m c (K (py c, .reg barS)) (Orest c 12) rfl _) $$ [HO HtBy HrQf HrQo HrP2 Hoy3 Hoy1]
  · isplitr; · (iapply (inv_at m K (py c, .reg barS)) <;> iexact HR)
    isplitl [HO]; · iexact HO
    isplitl [HtBy]; · iexact HtBy
    isplitl [HrQf HrQo HrP2 Hoy3 Hoy1]
    · isplitl [HrQf]; · iexact HrQf
      isplitl [HrQo]; · iexact HrQo
      isplitl [HrP2]; · iexact HrP2
      isplitl [Hoy3]; · iexact Hoy3
      iexact Hoy1
    (iapply (reached_at m K (py c, .reg barS)) <;> iexact HR)
  iintro HO
  ihave HcB := ((cred_add (tallyAt (barCell c) () 1) (tallyAt (barCell c) () 1)).2.trans (Entails.of_eq (congrArg cred (tallyAt_add (barCell c) () 1 1)))) $$ [HcB1 HcB2]
  · isplitl [HcB1] <;> iassumption
  ihave HM := (mayWait_rest (F := F) c (.reg barS) 12 (by decide)) $$ Hlev
  iapply (wait_bar' m c (K (c, .reg barS)) (Orest c 12) _) $$ [HcB HO HM HaB]
  · isplitr; · (iapply (inv_at m K (c, .reg barS)) <;> iexact HR)
    isplitl [HcB]; · iexact HcB
    isplitl [HO]; · iexact HO
    isplitl [HM]; · iexact HM
    iexact HaB
  iintro ⟨HO, HaB, ⟨DxRPf, DxRPo, DxRQ2, DxO2, DxO0⟩, ⟨DyRQf, DyRQo, DyRP2, DyO3, DyO1⟩⟩
  rw [wp_ret]; imodintro
  iapply Hk
  isplitl [HO]; · (iexists _; iexact HO)
  isplitl [HaB]; · iexact HaB
  isplitl [DxRPf]; · iexact DxRPf
  isplitl [DxRPo]; · iexact DxRPo
  isplitl [DxRQ2]; · iexact DxRQ2
  isplitl [DxO2]; · iexact DxO2
  isplitl [DxO0]; · iexact DxO0
  isplitl [DyRQf]; · iexact DyRQf
  isplitl [DyRQo]; · iexact DyRQo
  isplitl [DyRP2]; · iexact DyRP2
  isplitl [DyO3]; · iexact DyO3
  iexact DyO1

end Cert.Kernel.Hand

end
-- ==== Proof.KPart2.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KBarRules
import proofs.«900388_g7700000000000389_dist_rs_then_ag_i_m4096_n1024_v7x_i4_f32_1_alg».proof.Proof.KMem
import proofs.«900388_g7700000000000389_dist_rs_then_ag_i_m4096_n1024_v7x_i4_f32_1_alg».proof.Proof.KSendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 2 of the body: what it takes from the device's holdings and what it leaves -/

set_option maxHeartbeats 4000000 in
set_option maxRecDepth 65536 in
theorem part2_spec (K : Dev nD × SemLoc sig → ℕ) (v4 : BitVec 32) (v9 : BitVec 32) (v10 : BitVec 32) (v18 : BitVec 32) (v20 : BitVec 32) (v21 : BitVec 32) (v25 : BitVec 32) (v26 : BitVec 32) (c19 : BitVec 32) (Q : (Σ' (v30 : BitVec 32), BitVec 32) → sProp 𝕄) :
    iprop(records m K ∗ levAts L lv ∗ (ow c (xA0 c) (qx 0) (A0 m c)) ∗ (dE (px c) (rPf c)) ∗ (dutyTok ER (dCell c (0 : DmaSem sig)) 0 false) ∗ (dutyTok ER (dCell (px c) (12 : DmaSem sig)) 0 false) ∗ (iprop(∃ W : Waits sig Unit, owes (c : Thread nD τ) (Orest c 12) W)) ∗ (ow c (xA1 c) (qx 1) (A1 m c)) ∗ (dE (py c) (rQf c)) ∗ (dutyTok ER (dCell c (1 : DmaSem sig)) 0 false) ∗ (dutyTok ER (dCell (py c) (13 : DmaSem sig)) 0 false) ∗ (ow c (xA2 c) (qx 2) (A2 m c)) ∗ (dE (px c) (rPo c)) ∗ (dutyTok ER (dCell c (2 : DmaSem sig)) 0 false) ∗ (dutyTok ER (dCell (px c) (14 : DmaSem sig)) 0 false)
        ∗ (∀ (v30 : BitVec 32) (v31 : BitVec 32), (iprop((iprop(∃ W : Waits sig Unit, owes (c : Thread nD τ) (Orest c 9) W)) ∗ (cred (tallyAt (dCell c (0 : DmaSem sig)) () N)) ∗ (cred (tallyAt (dCell c (1 : DmaSem sig)) () N)) ∗ (cred (tallyAt (dCell c (2 : DmaSem sig)) () N))) -∗ Q ⟨v30, v31⟩)))
      ⊢ wp frame (wpE (defs₀ (F := F)) 𝒱₀ c none) Set.univ (k0_part2 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v4 v9 v10 v18 v20 v21 v25 v26 c19) Q := by
  iintro ⟨#HR, #Hlev, Hx0, DxRPf, HtS0, HtR0, HO, Hx1, DyRQf, HtS1, HtR1, Hx2, DxRPo, HtS2, HtR2, Hk⟩
  icases HO with ⟨%W0, HO⟩
  simp only [k0_part2_eq_skeleton]; unfold k0_part2_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  -- transfer 0, to `px c`
  iapply (send_owns_at m c (dev3_eq c) (0 : DmaSem sig) (12 : DmaSem sig) (qx 0) (A0 m c) (K (c, .dma (0 : DmaSem sig))) (K (px c, .dma (12 : DmaSem sig))) (Orest c 11) rfl _ (by rfl) (BI.Entails.refl _) (payR0 m c)) $$ [Hx0 DxRPf HO HtS0 HtR0]
  · isplitr; · (iapply (inv_at m K (c, .dma (0 : DmaSem sig))) <;> iexact HR)
    isplitr; · (iapply (inv_at m K (px c, .dma (12 : DmaSem sig))) <;> iexact HR)
    isplitl [Hx0]; · iexact Hx0
    isplitl [DxRPf]; · iexact DxRPf
    isplitl [HO]; · iexact HO
    isplitl [HtS0]; · iexact HtS0
    isplitr; · (iapply (reached_at m K (c, .dma (0 : DmaSem sig))) <;> iexact HR)
    isplitl [HtR0]; · iexact HtR0
    (iapply (reached_at m K (px c, .dma (12 : DmaSem sig))) <;> iexact HR)
  iintro ⟨HcS0, HO⟩
  -- transfer 1, to `py c`
  iapply (send_owns_at m c (dev4_eq c) (1 : DmaSem sig) (13 : DmaSem sig) (qx 1) (A1 m c) (K (c, .dma (1 : DmaSem sig))) (K (py c, .dma (13 : DmaSem sig))) (Orest c 10) rfl _ (by rfl) (BI.Entails.refl _) (payR1 m c)) $$ [Hx1 DyRQf HO HtS1 HtR1]
  · isplitr; · (iapply (inv_at m K (c, .dma (1 : DmaSem sig))) <;> iexact HR)
    isplitr; · (iapply (inv_at m K (py c, .dma (13 : DmaSem sig))) <;> iexact HR)
    isplitl [Hx1]; · iexact Hx1
    isplitl [DyRQf]; · iexact DyRQf
    isplitl [HO]; · iexact HO
    isplitl [HtS1]; · iexact HtS1
    isplitr; · (iapply (reached_at m K (c, .dma (1 : DmaSem sig))) <;> iexact HR)
    isplitl [HtR1]; · iexact HtR1
    (iapply (reached_at m K (py c, .dma (13 : DmaSem sig))) <;> iexact HR)
  iintro ⟨HcS1, HO⟩
  -- transfer 2, to `px c`
  iapply (send_owns_at m c (dev5_eq c) (2 : DmaSem sig) (14 : DmaSem sig) (qx 2) (A2 m c) (K (c, .dma (2 : DmaSem sig))) (K (px c, .dma (14 : DmaSem sig))) (Orest c 9) rfl _ (by rfl) (BI.Entails.refl _) (payR2 m c)) $$ [Hx2 DxRPo HO HtS2 HtR2]
  · isplitr; · (iapply (inv_at m K (c, .dma (2 : DmaSem sig))) <;> iexact HR)
    isplitr; · (iapply (inv_at m K (px c, .dma (14 : DmaSem sig))) <;> iexact HR)
    isplitl [Hx2]; · iexact Hx2
    isplitl [DxRPo]; · iexact DxRPo
    isplitl [HO]; · iexact HO
    isplitl [HtS2]; · iexact HtS2
    isplitr; · (iapply (reached_at m K (c, .dma (2 : DmaSem sig))) <;> iexact HR)
    isplitl [HtR2]; · iexact HtR2
    (iapply (reached_at m K (px c, .dma (14 : DmaSem sig))) <;> iexact HR)
  iintro ⟨HcS2, HO⟩
  rw [wp_ret]; imodintro
  iapply Hk
  isplitl [HO]; · (iexists _; iexact HO)
  isplitl [HcS0]; · iexact HcS0
  isplitl [HcS1]; · iexact HcS1
  iexact HcS2

end Cert.Kernel.Hand

end
-- ==== Proof.KPart3.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KBarRules
import proofs.«900388_g7700000000000389_dist_rs_then_ag_i_m4096_n1024_v7x_i4_f32_1_alg».proof.Proof.KMem
import proofs.«900388_g7700000000000389_dist_rs_then_ag_i_m4096_n1024_v7x_i4_f32_1_alg».proof.Proof.KSendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 3 of the body: what it takes from the device's holdings and what it leaves -/

set_option maxHeartbeats 4000000 in
set_option maxRecDepth 65536 in
theorem part3_spec (K : Dev nD × SemLoc sig → ℕ) (v10 : BitVec 32) (Q : PUnit → sProp 𝕄) :
    iprop(records m K ∗ levAts L lv ∗ (ow c (xA3 c) (qx 3) (A3 m c)) ∗ (dE (py c) (rQo c)) ∗ (dutyTok ER (dCell c (3 : DmaSem sig)) 0 false) ∗ (dutyTok ER (dCell (py c) (15 : DmaSem sig)) 0 false) ∗ (iprop(∃ W : Waits sig Unit, owes (c : Thread nD τ) (Orest c 9) W)) ∗ (ow c (xB0 c) (qx 4) (B0 m c)) ∗ (dE c (aPf c)) ∗ (dutyTok ER (dCell c (24 : DmaSem sig)) 0 false) ∗ (ow c (xB1 c) (qx 5) (B1 m c)) ∗ (dE c (aQf c)) ∗ (dutyTok ER (dCell c (25 : DmaSem sig)) 0 false) ∗ (ow c (xB2 c) (qx 6) (B2 m c)) ∗ (dE c (aPo c)) ∗ (dutyTok ER (dCell c (26 : DmaSem sig)) 0 false) ∗ (ow c (xB3 c) (qx 7) (B3 m c)) ∗ (dE c (aQo c)) ∗ (dutyTok ER (dCell c (27 : DmaSem sig)) 0 false) ∗ (atPos ER (dCell c (24 : DmaSem sig)) 0 ∅ 0)
        ∗ (iprop((iprop(∃ W : Waits sig Unit, owes (c : Thread nD τ) (Orest c 8) W)) ∗ (cred (tallyAt (dCell c (3 : DmaSem sig)) () N)) ∗ (cred (tallyAt (dCell c (25 : DmaSem sig)) () N)) ∗ (cred (tallyAt (dCell c (26 : DmaSem sig)) () N)) ∗ (cred (tallyAt (dCell c (27 : DmaSem sig)) () N)) ∗ (atPos ER (dCell c (24 : DmaSem sig)) 1 ∅ 0) ∗ (ow c (aPf c) fullShare (B0 m c))) -∗ Q ⟨⟩))
      ⊢ wp frame (wpE (defs₀ (F := F)) 𝒱₀ c none) Set.univ (k0_part3 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v10) Q := by
  iintro ⟨#HR, #Hlev, Hx3, DyRQo, HtS3, HtR3, HO, Hx4, HaPf, HtL0, Hx5, HaQf, HtL1, Hx6, HaPo, HtL2, Hx7, HaQo, HtL3, Ha24, Hk⟩
  icases HO with ⟨%W0, HO⟩
  simp only [k0_part3_eq_skeleton]; unfold k0_part3_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  -- transfer 3, to `py c`
  iapply (send_owns_at m c (dev6_eq c) (3 : DmaSem sig) (15 : DmaSem sig) (qx 3) (A3 m c) (K (c, .dma (3 : DmaSem sig))) (K (py c, .dma (15 : DmaSem sig))) (Orest c 8) rfl _ (by rfl) (BI.Entails.refl _) (payR3 m c)) $$ [Hx3 DyRQo HO HtS3 HtR3]
  · isplitr; · (iapply (inv_at m K (c, .dma (3 : DmaSem sig))) <;> iexact HR)
    isplitr; · (iapply (inv_at m K (py c, .dma (15 : DmaSem sig))) <;> iexact HR)
    isplitl [Hx3]; · iexact Hx3
    isplitl [DyRQo]; · iexact DyRQo
    isplitl [HO]; · iexact HO
    isplitl [HtS3]; · iexact HtS3
    isplitr; · (iapply (reached_at m K (c, .dma (3 : DmaSem sig))) <;> iexact HR)
    isplitl [HtR3]; · iexact HtR3
    (iapply (reached_at m K (py c, .dma (15 : DmaSem sig))) <;> iexact HR)
  iintro ⟨HcS3, HO⟩
  -- local copy 0
  iapply (copy_owns m c (24 : DmaSem sig) (qx 4) (B0 m c) (K (c, .dma (24 : DmaSem sig))) (by rfl) (BI.Entails.refl _)) $$ [Hx4 HaPf HtL0]
  · isplitr; · (iapply (inv_at m K (c, .dma (24 : DmaSem sig))) <;> iexact HR)
    isplitl [Hx4]; · iexact Hx4
    isplitl [HaPf]; · iexact HaPf
    isplitl [HtL0]; · iexact HtL0
    (iapply (reached_at m K (c, .dma (24 : DmaSem sig))) <;> iexact HR)
  iintro HcL0
  -- local copy 1
  iapply (copy_owns m c (25 : DmaSem sig) (qx 5) (B1 m c) (K (c, .dma (25 : DmaSem sig))) (by rfl) (BI.Entails.refl _)) $$ [Hx5 HaQf HtL1]
  · isplitr; · (iapply (inv_at m K (c, .dma (25 : DmaSem sig))) <;> iexact HR)
    isplitl [Hx5]; · iexact Hx5
    isplitl [HaQf]; · iexact HaQf
    isplitl [HtL1]; · iexact HtL1
    (iapply (reached_at m K (c, .dma (25 : DmaSem sig))) <;> iexact HR)
  iintro HcL1
  -- local copy 2
  iapply (copy_owns m c (26 : DmaSem sig) (qx 6) (B2 m c) (K (c, .dma (26 : DmaSem sig))) (by rfl) (BI.Entails.refl _)) $$ [Hx6 HaPo HtL2]
  · isplitr; · (iapply (inv_at m K (c, .dma (26 : DmaSem sig))) <;> iexact HR)
    isplitl [Hx6]; · iexact Hx6
    isplitl [HaPo]; · iexact HaPo
    isplitl [HtL2]; · iexact HtL2
    (iapply (reached_at m K (c, .dma (26 : DmaSem sig))) <;> iexact HR)
  iintro HcL2
  -- local copy 3
  iapply (copy_owns m c (27 : DmaSem sig) (qx 7) (B3 m c) (K (c, .dma (27 : DmaSem sig))) (by rfl) (BI.Entails.refl _)) $$ [Hx7 HaQo HtL3]
  · isplitr; · (iapply (inv_at m K (c, .dma (27 : DmaSem sig))) <;> iexact HR)
    isplitl [Hx7]; · iexact Hx7
    isplitl [HaQo]; · iexact HaQo
    isplitl [HtL3]; · iexact HtL3
    (iapply (reached_at m K (c, .dma (27 : DmaSem sig))) <;> iexact HR)
  iintro HcL3
  ihave HM := (mayWait_rest (F := F) c (.dma (24 : DmaSem sig)) 8 (by decide)) $$ Hlev
  iapply (wait_dma m c (24 : DmaSem sig) (by rfl) (K (c, .dma (24 : DmaSem sig))) (Orest c 8) _) $$ [HcL0 HO HM Ha24]
  · isplitr; · (iapply (inv_at m K (c, .dma (24 : DmaSem sig))) <;> iexact HR)
    isplitl [HcL0]; · iexact HcL0
    isplitl [HO]; · iexact HO
    isplitl [HM]; · iexact HM
    iexact Ha24
  iintro ⟨HO, Ha24, Hp⟩
  ihave Hp' := (show Pd m c (24 : DmaSem sig) ⊢ (iprop(ow c (aPf c) fullShare (B0 m c) ∗ ow c (xB0 c) (qx 4) (B0 m c)) : sProp 𝕄) from BI.Entails.refl _) $$ Hp
  icases Hp' with ⟨HaPf, -⟩
  rw [wp_ret]; imodintro
  iapply Hk
  isplitl [HO]; · (iexists _; iexact HO)
  isplitl [HcS3]; · iexact HcS3
  isplitl [HcL1]; · iexact HcL1
  isplitl [HcL2]; · iexact HcL2
  isplitl [HcL3]; · iexact HcL3
  isplitl [Ha24]; · iexact Ha24
  iexact HaPf

end Cert.Kernel.Hand

end
-- ==== Proof.KPart4.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KBarRules
import proofs.«900388_g7700000000000389_dist_rs_then_ag_i_m4096_n1024_v7x_i4_f32_1_alg».proof.Proof.KMem
import proofs.«900388_g7700000000000389_dist_rs_then_ag_i_m4096_n1024_v7x_i4_f32_1_alg».proof.Proof.KSendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 4 of the body: what it takes from the device's holdings and what it leaves -/

set_option maxHeartbeats 4000000 in
set_option maxRecDepth 65536 in
theorem part4_spec (K : Dev nD × SemLoc sig → ℕ) (v9 : BitVec 32) (v10 : BitVec 32) (v20 : BitVec 32) (Q : FVec F S512x1024 .f32 → sProp 𝕄) :
    iprop(records m K ∗ levAts L lv ∗ (cred (tallyAt (dCell c (25 : DmaSem sig)) () N)) ∗ (iprop(∃ W : Waits sig Unit, owes (c : Thread nD τ) (Orest c 8) W)) ∗ (atPos ER (dCell c (25 : DmaSem sig)) 0 ∅ 0) ∗ (cred (tallyAt (dCell c (0 : DmaSem sig)) () N)) ∗ (atPos ER (dCell c (0 : DmaSem sig)) 0 ∅ 0) ∗ (cred (tallyAt (dCell c (12 : DmaSem sig)) () N)) ∗ (atPos ER (dCell c (12 : DmaSem sig)) 0 ∅ 0) ∗ (cred (tallyAt (dCell c (1 : DmaSem sig)) () N)) ∗ (atPos ER (dCell c (1 : DmaSem sig)) 0 ∅ 0) ∗ (cred (tallyAt (dCell c (13 : DmaSem sig)) () N)) ∗ (atPos ER (dCell c (13 : DmaSem sig)) 0 ∅ 0) ∗ (ow c (aPf c) fullShare (B0 m c))
        ∗ (iprop((iprop(∃ W : Waits sig Unit, owes (c : Thread nD τ) (Orest c 8) W)) ∗ (atPos ER (dCell c (25 : DmaSem sig)) 1 ∅ 0) ∗ (ow c (aQf c) fullShare (B1 m c)) ∗ (atPos ER (dCell c (0 : DmaSem sig)) 1 ∅ 0) ∗ (atPos ER (dCell c (12 : DmaSem sig)) 1 ∅ 0) ∗ (ow c (rPf c) fullShare (A0 m (px c))) ∗ (atPos ER (dCell c (1 : DmaSem sig)) 1 ∅ 0) ∗ (atPos ER (dCell c (13 : DmaSem sig)) 1 ∅ 0) ∗ (ow c (rQf c) fullShare (A1 m (py c))) ∗ (ow c (aPf c) fullShare (B0 m c))) -∗ Q (k0_pay1 (B0 m c) (A0 m (px c)))))
      ⊢ wp frame (wpE (defs₀ (F := F)) 𝒱₀ c none) Set.univ (k0_part4 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v9 v10 v20) Q := by
  iintro ⟨#HR, #Hlev, HcL1, HO, Ha25, HcS0, Ha0, HcR0, Ha12, HcS1, Ha1, HcR1, Ha13, HaPf, Hk⟩
  icases HO with ⟨%W0, HO⟩
  simp only [k0_part4_eq_skeleton]; unfold k0_part4_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  ihave HM := (mayWait_rest (F := F) c (.dma (25 : DmaSem sig)) 8 (by decide)) $$ Hlev
  iapply (wait_dma m c (25 : DmaSem sig) (by rfl) (K (c, .dma (25 : DmaSem sig))) (Orest c 8) _) $$ [HcL1 HO HM Ha25]
  · isplitr; · (iapply (inv_at m K (c, .dma (25 : DmaSem sig))) <;> iexact HR)
    isplitl [HcL1]; · iexact HcL1
    isplitl [HO]; · iexact HO
    isplitl [HM]; · iexact HM
    iexact Ha25
  iintro ⟨HO, Ha25, Hp⟩
  ihave Hp' := (show Pd m c (25 : DmaSem sig) ⊢ (iprop(ow c (aQf c) fullShare (B1 m c) ∗ ow c (xB1 c) (qx 5) (B1 m c)) : sProp 𝕄) from BI.Entails.refl _) $$ Hp
  icases Hp' with ⟨HaQf, -⟩
  ihave HM := (mayWait_rest (F := F) c (.dma (0 : DmaSem sig)) 8 (by decide)) $$ Hlev
  iapply (wait_dma m c (0 : DmaSem sig) (by rfl) (K (c, .dma (0 : DmaSem sig))) (Orest c 8) _) $$ [HcS0 HO HM Ha0]
  · isplitr; · (iapply (inv_at m K (c, .dma (0 : DmaSem sig))) <;> iexact HR)
    isplitl [HcS0]; · iexact HcS0
    isplitl [HO]; · iexact HO
    isplitl [HM]; · iexact HM
    iexact Ha0
  iintro ⟨HO, Ha0, -⟩
  ihave HM := (mayWait_rest (F := F) c (.dma (12 : DmaSem sig)) 8 (by decide)) $$ Hlev
  iapply (wait_dma m c (12 : DmaSem sig) (by rfl) (K (c, .dma (12 : DmaSem sig))) (Orest c 8) _) $$ [HcR0 HO HM Ha12]
  · isplitr; · (iapply (inv_at m K (c, .dma (12 : DmaSem sig))) <;> iexact HR)
    isplitl [HcR0]; · iexact HcR0
    isplitl [HO]; · iexact HO
    isplitl [HM]; · iexact HM
    iexact Ha12
  iintro ⟨HO, Ha12, HpR⟩
  ihave HrPf := ((show (Pd m c (12 : DmaSem sig) : sProp 𝕄) ⊢ Pd m c (rIx 0) from BI.Entails.refl _).trans (gotR0 m c)) $$ HpR
  ihave HM := (mayWait_rest (F := F) c (.dma (1 : DmaSem sig)) 8 (by decide)) $$ Hlev
  iapply (wait_dma m c (1 : DmaSem sig) (by rfl) (K (c, .dma (1 : DmaSem sig))) (Orest c 8) _) $$ [HcS1 HO HM Ha1]
  · isplitr; · (iapply (inv_at m K (c, .dma (1 : DmaSem sig))) <;> iexact HR)
    isplitl [HcS1]; · iexact HcS1
    isplitl [HO]; · iexact HO
    isplitl [HM]; · iexact HM
    iexact Ha1
  iintro ⟨HO, Ha1, -⟩
  ihave HM := (mayWait_rest (F := F) c (.dma (13 : DmaSem sig)) 8 (by decide)) $$ Hlev
  iapply (wait_dma m c (13 : DmaSem sig) (by rfl) (K (c, .dma (13 : DmaSem sig))) (Orest c 8) _) $$ [HcR1 HO HM Ha13]
  · isplitr; · (iapply (inv_at m K (c, .dma (13 : DmaSem sig))) <;> iexact HR)
    isplitl [HcR1]; · iexact HcR1
    isplitl [HO]; · iexact HO
    isplitl [HM]; · iexact HM
    iexact Ha13
  iintro ⟨HO, Ha13, HpR⟩
  ihave HrQf := ((show (Pd m c (13 : DmaSem sig) : sProp 𝕄) ⊢ Pd m c (rIx 1) from BI.Entails.refl _).trans (gotR1 m c)) $$ HpR
  iapply (load_sl1 c aP (off13_eq c) (k0_off1_inb c) (k0_off13_inb c) fullShare (B0 m c)) $$ HaPf; iintro HaPf
  iapply (load_sl1 c rP1 (off13_eq c) (k0_off1_inb c) (k0_off13_inb c) fullShare (A0 m (px c))) $$ HrPf; iintro HrPf
  iapply (load_sl1 c aP (off13_eq c) (k0_off1_inb c) (k0_off13_inb c) fullShare (B0 m c)) $$ HaPf; iintro HaPf
  rw [wp_ret]; imodintro
  iapply Hk
  isplitl [HO]; · (iexists _; iexact HO)
  isplitl [Ha25]; · iexact Ha25
  isplitl [HaQf]; · iexact HaQf
  isplitl [Ha0]; · iexact Ha0
  isplitl [Ha12]; · iexact Ha12
  isplitl [HrPf]; · iexact HrPf
  isplitl [Ha1]; · iexact Ha1
  isplitl [Ha13]; · iexact Ha13
  isplitl [HrQf]; · iexact HrQf
  iexact HaPf

end Cert.Kernel.Hand

end
-- ==== Proof.KPart5.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KBarRules
import proofs.«900388_g7700000000000389_dist_rs_then_ag_i_m4096_n1024_v7x_i4_f32_1_alg».proof.Proof.KMem
import proofs.«900388_g7700000000000389_dist_rs_then_ag_i_m4096_n1024_v7x_i4_f32_1_alg».proof.Proof.KSendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 5 of the body: what it takes from the device's holdings and what it leaves -/

set_option maxHeartbeats 4000000 in
set_option maxRecDepth 65536 in
theorem part5_spec (K : Dev nD × SemLoc sig → ℕ) (v9 : BitVec 32) (v10 : BitVec 32) (v30 : BitVec 32) (Q : PUnit → sProp 𝕄) :
    iprop(records m K ∗ levAts L lv ∗ (ow c (aPf c) fullShare (B0 m c)) ∗ (ow c (aQf c) fullShare (B1 m c)) ∗ (ow c (rQf c) fullShare (A1 m (py c))) ∗ (dE (py c) rP2) ∗ (dutyTok ER (dCell c (4 : DmaSem sig)) 0 false) ∗ (dutyTok ER (dCell (py c) (16 : DmaSem sig)) 0 false) ∗ (iprop(∃ W : Waits sig Unit, owes (c : Thread nD τ) (Orest c 8) W)) ∗ (dE (px c) rQ2) ∗ (dutyTok ER (dCell c (5 : DmaSem sig)) 0 false) ∗ (dutyTok ER (dCell (px c) (17 : DmaSem sig)) 0 false) ∗ (cred (tallyAt (dCell c (26 : DmaSem sig)) () N)) ∗ (atPos ER (dCell c (26 : DmaSem sig)) 0 ∅ 0) ∗ (cred (tallyAt (dCell c (27 : DmaSem sig)) () N)) ∗ (atPos ER (dCell c (27 : DmaSem sig)) 0 ∅ 0)
        ∗ (iprop((ow c (rQf c) fullShare (A1 m (py c))) ∗ (iprop(∃ W : Waits sig Unit, owes (c : Thread nD τ) (Orest c 6) W)) ∗ (cred (tallyAt (dCell c (4 : DmaSem sig)) () N)) ∗ (cred (tallyAt (dCell c (5 : DmaSem sig)) () N)) ∗ (atPos ER (dCell c (26 : DmaSem sig)) 1 ∅ 0) ∗ (ow c (aPo c) fullShare (B2 m c)) ∗ (atPos ER (dCell c (27 : DmaSem sig)) 1 ∅ 0) ∗ (ow c (aQo c) fullShare (B3 m c))) -∗ Q ⟨⟩))
      ⊢ wp frame (wpE (defs₀ (F := F)) 𝒱₀ c none) Set.univ (k0_part5 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v9 v10 v30 (k0_pay1 (B0 m c) (A0 m (px c)))) Q := by
  iintro ⟨#HR, #Hlev, HaPf, HaQf, HrQf, DyRP2, HtS4, HtR4, HO, DxRQ2, HtS5, HtR5, HcL2, Ha26, HcL3, Ha27, Hk⟩
  icases HO with ⟨%W0, HO⟩
  simp only [k0_part5_eq_skeleton]; unfold k0_part5_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  iapply (store_sl1 c aP (off13_eq c) (k0_off1_inb c) (k0_off13_inb c) (sPf m c) (B0 m c)) $$ HaPf; iintro HaPf
  iapply (load_sl1 c aQ (off14_eq c) (k0_off3_inb c) (k0_off14_inb c) fullShare (B1 m c)) $$ HaQf; iintro HaQf
  iapply (load_sl1 c rQ1 (off14_eq c) (k0_off3_inb c) (k0_off14_inb c) fullShare (A1 m (py c))) $$ HrQf; iintro HrQf
  iapply (load_sl1 c aQ (off14_eq c) (k0_off3_inb c) (k0_off14_inb c) fullShare (B1 m c)) $$ HaQf; iintro HaQf
  iapply (store_sl1 c aQ (off14_eq c) (k0_off3_inb c) (k0_off14_inb c) (sQf m c) (B1 m c)) $$ HaQf; iintro HaQf
  -- transfer 4, to `py c`
  iapply (send_landing_owns_at m c (dev7_eq c) (4 : DmaSem sig) (16 : DmaSem sig) fullShare (sPf m c) (K (c, .dma (4 : DmaSem sig))) (K (py c, .dma (16 : DmaSem sig))) (Orest c 7) rfl _ (by rfl) (BI.Entails.refl _) (payR4 m c)) $$ [HaPf DyRP2 HO HtS4 HtR4]
  · isplitr; · (iapply (inv_at m K (c, .dma (4 : DmaSem sig))) <;> iexact HR)
    isplitr; · (iapply (inv_at m K (py c, .dma (16 : DmaSem sig))) <;> iexact HR)
    isplitl [HaPf]; · iexact HaPf
    isplitl [DyRP2]; · iexact DyRP2
    isplitl [HO]; · iexact HO
    isplitl [HtS4]; · iexact HtS4
    isplitr; · (iapply (reached_at m K (c, .dma (4 : DmaSem sig))) <;> iexact HR)
    isplitl [HtR4]; · iexact HtR4
    (iapply (reached_at m K (py c, .dma (16 : DmaSem sig))) <;> iexact HR)
  iintro ⟨HcS4, HO⟩
  -- transfer 5, to `px c`
  iapply (send_landing_owns_at m c (dev8_eq c) (5 : DmaSem sig) (17 : DmaSem sig) fullShare (sQf m c) (K (c, .dma (5 : DmaSem sig))) (K (px c, .dma (17 : DmaSem sig))) (Orest c 6) rfl _ (by rfl) (BI.Entails.refl _) (payR5 m c)) $$ [HaQf DxRQ2 HO HtS5 HtR5]
  · isplitr; · (iapply (inv_at m K (c, .dma (5 : DmaSem sig))) <;> iexact HR)
    isplitr; · (iapply (inv_at m K (px c, .dma (17 : DmaSem sig))) <;> iexact HR)
    isplitl [HaQf]; · iexact HaQf
    isplitl [DxRQ2]; · iexact DxRQ2
    isplitl [HO]; · iexact HO
    isplitl [HtS5]; · iexact HtS5
    isplitr; · (iapply (reached_at m K (c, .dma (5 : DmaSem sig))) <;> iexact HR)
    isplitl [HtR5]; · iexact HtR5
    (iapply (reached_at m K (px c, .dma (17 : DmaSem sig))) <;> iexact HR)
  iintro ⟨HcS5, HO⟩
  ihave HM := (mayWait_rest (F := F) c (.dma (26 : DmaSem sig)) 6 (by decide)) $$ Hlev
  iapply (wait_dma m c (26 : DmaSem sig) (by rfl) (K (c, .dma (26 : DmaSem sig))) (Orest c 6) _) $$ [HcL2 HO HM Ha26]
  · isplitr; · (iapply (inv_at m K (c, .dma (26 : DmaSem sig))) <;> iexact HR)
    isplitl [HcL2]; · iexact HcL2
    isplitl [HO]; · iexact HO
    isplitl [HM]; · iexact HM
    iexact Ha26
  iintro ⟨HO, Ha26, Hp⟩
  ihave Hp' := (show Pd m c (26 : DmaSem sig) ⊢ (iprop(ow c (aPo c) fullShare (B2 m c) ∗ ow c (xB2 c) (qx 6) (B2 m c)) : sProp 𝕄) from BI.Entails.refl _) $$ Hp
  icases Hp' with ⟨HaPo, -⟩
  ihave HM := (mayWait_rest (F := F) c (.dma (27 : DmaSem sig)) 6 (by decide)) $$ Hlev
  iapply (wait_dma m c (27 : DmaSem sig) (by rfl) (K (c, .dma (27 : DmaSem sig))) (Orest c 6) _) $$ [HcL3 HO HM Ha27]
  · isplitr; · (iapply (inv_at m K (c, .dma (27 : DmaSem sig))) <;> iexact HR)
    isplitl [HcL3]; · iexact HcL3
    isplitl [HO]; · iexact HO
    isplitl [HM]; · iexact HM
    iexact Ha27
  iintro ⟨HO, Ha27, Hp⟩
  ihave Hp' := (show Pd m c (27 : DmaSem sig) ⊢ (iprop(ow c (aQo c) fullShare (B3 m c) ∗ ow c (xB3 c) (qx 7) (B3 m c)) : sProp 𝕄) from BI.Entails.refl _) $$ Hp
  icases Hp' with ⟨HaQo, -⟩
  rw [wp_ret]; imodintro
  iapply Hk
  isplitl [HrQf]; · iexact HrQf
  isplitl [HO]; · (iexists _; iexact HO)
  isplitl [HcS4]; · iexact HcS4
  isplitl [HcS5]; · iexact HcS5
  isplitl [Ha26]; · iexact Ha26
  isplitl [HaPo]; · iexact HaPo
  isplitl [Ha27]; · iexact Ha27
  iexact HaQo

end Cert.Kernel.Hand

end
-- ==== Proof.KPart6.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KBarRules
import proofs.«900388_g7700000000000389_dist_rs_then_ag_i_m4096_n1024_v7x_i4_f32_1_alg».proof.Proof.KMem
import proofs.«900388_g7700000000000389_dist_rs_then_ag_i_m4096_n1024_v7x_i4_f32_1_alg».proof.Proof.KSendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 6 of the body: what it takes from the device's holdings and what it leaves -/

set_option maxHeartbeats 4000000 in
set_option maxRecDepth 65536 in
theorem part6_spec (K : Dev nD × SemLoc sig → ℕ) (v9 : BitVec 32) (v10 : BitVec 32) (v21 : BitVec 32) (v31 : BitVec 32) (Q : Vec F S512x1024 .f32 → sProp 𝕄) :
    iprop(records m K ∗ levAts L lv ∗ (cred (tallyAt (dCell c (2 : DmaSem sig)) () N)) ∗ (iprop(∃ W : Waits sig Unit, owes (c : Thread nD τ) (Orest c 6) W)) ∗ (atPos ER (dCell c (2 : DmaSem sig)) 0 ∅ 0) ∗ (cred (tallyAt (dCell c (14 : DmaSem sig)) () N)) ∗ (atPos ER (dCell c (14 : DmaSem sig)) 0 ∅ 0) ∗ (cred (tallyAt (dCell c (3 : DmaSem sig)) () N)) ∗ (atPos ER (dCell c (3 : DmaSem sig)) 0 ∅ 0) ∗ (cred (tallyAt (dCell c (15 : DmaSem sig)) () N)) ∗ (atPos ER (dCell c (15 : DmaSem sig)) 0 ∅ 0) ∗ (ow c (aPo c) fullShare (B2 m c)) ∗ (ow c (aQo c) fullShare (B3 m c))
        ∗ (iprop((iprop(∃ W : Waits sig Unit, owes (c : Thread nD τ) (Orest c 6) W)) ∗ (atPos ER (dCell c (2 : DmaSem sig)) 1 ∅ 0) ∗ (atPos ER (dCell c (14 : DmaSem sig)) 1 ∅ 0) ∗ (ow c (rPo c) fullShare (A2 m (px c))) ∗ (atPos ER (dCell c (3 : DmaSem sig)) 1 ∅ 0) ∗ (atPos ER (dCell c (15 : DmaSem sig)) 1 ∅ 0) ∗ (ow c (rQo c) fullShare (A3 m (py c))) ∗ (ow c (aPo c) fullShare (sPo m c)) ∗ (ow c (aQo c) fullShare (B3 m c))) -∗ Q (B3 m c)))
      ⊢ wp frame (wpE (defs₀ (F := F)) 𝒱₀ c none) Set.univ (k0_part6 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v9 v10 v21 v31) Q := by
  iintro ⟨#HR, #Hlev, HcS2, HO, Ha2, HcR2, Ha14, HcS3, Ha3, HcR3, Ha15, HaPo, HaQo, Hk⟩
  icases HO with ⟨%W0, HO⟩
  simp only [k0_part6_eq_skeleton]; unfold k0_part6_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  ihave HM := (mayWait_rest (F := F) c (.dma (2 : DmaSem sig)) 6 (by decide)) $$ Hlev
  iapply (wait_dma m c (2 : DmaSem sig) (by rfl) (K (c, .dma (2 : DmaSem sig))) (Orest c 6) _) $$ [HcS2 HO HM Ha2]
  · isplitr; · (iapply (inv_at m K (c, .dma (2 : DmaSem sig))) <;> iexact HR)
    isplitl [HcS2]; · iexact HcS2
    isplitl [HO]; · iexact HO
    isplitl [HM]; · iexact HM
    iexact Ha2
  iintro ⟨HO, Ha2, -⟩
  ihave HM := (mayWait_rest (F := F) c (.dma (14 : DmaSem sig)) 6 (by decide)) $$ Hlev
  iapply (wait_dma m c (14 : DmaSem sig) (by rfl) (K (c, .dma (14 : DmaSem sig))) (Orest c 6) _) $$ [HcR2 HO HM Ha14]
  · isplitr; · (iapply (inv_at m K (c, .dma (14 : DmaSem sig))) <;> iexact HR)
    isplitl [HcR2]; · iexact HcR2
    isplitl [HO]; · iexact HO
    isplitl [HM]; · iexact HM
    iexact Ha14
  iintro ⟨HO, Ha14, HpR⟩
  ihave HrPo := ((show (Pd m c (14 : DmaSem sig) : sProp 𝕄) ⊢ Pd m c (rIx 2) from BI.Entails.refl _).trans (gotR2 m c)) $$ HpR
  ihave HM := (mayWait_rest (F := F) c (.dma (3 : DmaSem sig)) 6 (by decide)) $$ Hlev
  iapply (wait_dma m c (3 : DmaSem sig) (by rfl) (K (c, .dma (3 : DmaSem sig))) (Orest c 6) _) $$ [HcS3 HO HM Ha3]
  · isplitr; · (iapply (inv_at m K (c, .dma (3 : DmaSem sig))) <;> iexact HR)
    isplitl [HcS3]; · iexact HcS3
    isplitl [HO]; · iexact HO
    isplitl [HM]; · iexact HM
    iexact Ha3
  iintro ⟨HO, Ha3, -⟩
  ihave HM := (mayWait_rest (F := F) c (.dma (15 : DmaSem sig)) 6 (by decide)) $$ Hlev
  iapply (wait_dma m c (15 : DmaSem sig) (by rfl) (K (c, .dma (15 : DmaSem sig))) (Orest c 6) _) $$ [HcR3 HO HM Ha15]
  · isplitr; · (iapply (inv_at m K (c, .dma (15 : DmaSem sig))) <;> iexact HR)
    isplitl [HcR3]; · iexact HcR3
    isplitl [HO]; · iexact HO
    isplitl [HM]; · iexact HM
    iexact Ha15
  iintro ⟨HO, Ha15, HpR⟩
  ihave HrQo := ((show (Pd m c (15 : DmaSem sig) : sProp 𝕄) ⊢ Pd m c (rIx 3) from BI.Entails.refl _).trans (gotR3 m c)) $$ HpR
  iapply (load_sl1 c aP (off15_eq c) (k0_off5_inb c) (k0_off15_inb c) fullShare (B2 m c)) $$ HaPo; iintro HaPo
  iapply (load_sl1 c rP1 (off15_eq c) (k0_off5_inb c) (k0_off15_inb c) fullShare (A2 m (px c))) $$ HrPo; iintro HrPo
  iapply (load_sl1 c aP (off15_eq c) (k0_off5_inb c) (k0_off15_inb c) fullShare (B2 m c)) $$ HaPo; iintro HaPo
  iapply (store_sl1 c aP (off15_eq c) (k0_off5_inb c) (k0_off15_inb c) (sPo m c) (B2 m c)) $$ HaPo; iintro HaPo
  iapply (load_sl1 c aQ (off16_eq c) (k0_off7_inb c) (k0_off16_inb c) fullShare (B3 m c)) $$ HaQo; iintro HaQo
  rw [wp_ret]; imodintro
  iapply Hk
  isplitl [HO]; · (iexists _; iexact HO)
  isplitl [Ha2]; · iexact Ha2
  isplitl [Ha14]; · iexact Ha14
  isplitl [HrPo]; · iexact HrPo
  isplitl [Ha3]; · iexact Ha3
  isplitl [Ha15]; · iexact Ha15
  isplitl [HrQo]; · iexact HrQo
  isplitl [HaPo]; · iexact HaPo
  iexact HaQo

end Cert.Kernel.Hand

end
-- ==== Proof.KPart7.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KBarRules
import proofs.«900388_g7700000000000389_dist_rs_then_ag_i_m4096_n1024_v7x_i4_f32_1_alg».proof.Proof.KMem
import proofs.«900388_g7700000000000389_dist_rs_then_ag_i_m4096_n1024_v7x_i4_f32_1_alg».proof.Proof.KSendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 7 of the body: what it takes from the device's holdings and what it leaves -/

set_option maxHeartbeats 4000000 in
set_option maxRecDepth 65536 in
theorem part7_spec (K : Dev nD × SemLoc sig → ℕ) (v9 : BitVec 32) (v10 : BitVec 32) (v21 : BitVec 32) (v31 : BitVec 32) (Q : PUnit → sProp 𝕄) :
    iprop(records m K ∗ levAts L lv ∗ (ow c (rQo c) fullShare (A3 m (py c))) ∗ (ow c (aQo c) fullShare (B3 m c)) ∗ (cred (tallyAt (dCell c (4 : DmaSem sig)) () N)) ∗ (iprop(∃ W : Waits sig Unit, owes (c : Thread nD τ) (Orest c 6) W)) ∗ (atPos ER (dCell c (4 : DmaSem sig)) 0 ∅ 0) ∗ (cred (tallyAt (dCell c (16 : DmaSem sig)) () N)) ∗ (atPos ER (dCell c (16 : DmaSem sig)) 0 ∅ 0) ∗ (cred (tallyAt (dCell c (5 : DmaSem sig)) () N)) ∗ (atPos ER (dCell c (5 : DmaSem sig)) 0 ∅ 0) ∗ (cred (tallyAt (dCell c (17 : DmaSem sig)) () N)) ∗ (atPos ER (dCell c (17 : DmaSem sig)) 0 ∅ 0) ∗ (ow c (aPo c) fullShare (sPo m c))
        ∗ (iprop((ow c (rQo c) fullShare (A3 m (py c))) ∗ (ow c (aQo c) fullShare (sQo m c)) ∗ (iprop(∃ W : Waits sig Unit, owes (c : Thread nD τ) (Orest c 6) W)) ∗ (atPos ER (dCell c (4 : DmaSem sig)) 1 ∅ 0) ∗ (atPos ER (dCell c (16 : DmaSem sig)) 1 ∅ 0) ∗ (ow c rP2 fullShare (sPf m (py c))) ∗ (ow (py c) (aPo c) fullShare (sPf m (py c))) ∗ (atPos ER (dCell c (5 : DmaSem sig)) 1 ∅ 0) ∗ (atPos ER (dCell c (17 : DmaSem sig)) 1 ∅ 0) ∗ (ow c rQ2 fullShare (sQf m (px c))) ∗ (ow (px c) (aQo c) fullShare (sQf m (px c))) ∗ (ow c (aPo c) fullShare (tP m c))) -∗ Q ⟨⟩))
      ⊢ wp frame (wpE (defs₀ (F := F)) 𝒱₀ c none) Set.univ (k0_part7 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v9 v10 v21 v31 (B3 m c)) Q := by
  iintro ⟨#HR, #Hlev, HrQo, HaQo, HcS4, HO, Ha4, HcR4, Ha16, HcS5, Ha5, HcR5, Ha17, HaPo, Hk⟩
  icases HO with ⟨%W0, HO⟩
  simp only [k0_part7_eq_skeleton]; unfold k0_part7_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  iapply (load_sl1 c rQ1 (off16_eq c) (k0_off7_inb c) (k0_off16_inb c) fullShare (A3 m (py c))) $$ HrQo; iintro HrQo
  iapply (load_sl1 c aQ (off16_eq c) (k0_off7_inb c) (k0_off16_inb c) fullShare (B3 m c)) $$ HaQo; iintro HaQo
  iapply (store_sl1 c aQ (off16_eq c) (k0_off7_inb c) (k0_off16_inb c) (sQo m c) (B3 m c)) $$ HaQo; iintro HaQo
  ihave HM := (mayWait_rest (F := F) c (.dma (4 : DmaSem sig)) 6 (by decide)) $$ Hlev
  iapply (wait_dma m c (4 : DmaSem sig) (by rfl) (K (c, .dma (4 : DmaSem sig))) (Orest c 6) _) $$ [HcS4 HO HM Ha4]
  · isplitr; · (iapply (inv_at m K (c, .dma (4 : DmaSem sig))) <;> iexact HR)
    isplitl [HcS4]; · iexact HcS4
    isplitl [HO]; · iexact HO
    isplitl [HM]; · iexact HM
    iexact Ha4
  iintro ⟨HO, Ha4, -⟩
  ihave HM := (mayWait_rest (F := F) c (.dma (16 : DmaSem sig)) 6 (by decide)) $$ Hlev
  iapply (wait_dma m c (16 : DmaSem sig) (by rfl) (K (c, .dma (16 : DmaSem sig))) (Orest c 6) _) $$ [HcR4 HO HM Ha16]
  · isplitr; · (iapply (inv_at m K (c, .dma (16 : DmaSem sig))) <;> iexact HR)
    isplitl [HcR4]; · iexact HcR4
    isplitl [HO]; · iexact HO
    isplitl [HM]; · iexact HM
    iexact Ha16
  iintro ⟨HO, Ha16, HpR⟩
  ihave HpR' := ((show (Pd m c (16 : DmaSem sig) : sProp 𝕄) ⊢ Pd m c (rIx 4) from BI.Entails.refl _).trans (gotR4 m c)) $$ HpR
  icases HpR' with ⟨HrP2, HyaPo⟩
  ihave HM := (mayWait_rest (F := F) c (.dma (5 : DmaSem sig)) 6 (by decide)) $$ Hlev
  iapply (wait_dma m c (5 : DmaSem sig) (by rfl) (K (c, .dma (5 : DmaSem sig))) (Orest c 6) _) $$ [HcS5 HO HM Ha5]
  · isplitr; · (iapply (inv_at m K (c, .dma (5 : DmaSem sig))) <;> iexact HR)
    isplitl [HcS5]; · iexact HcS5
    isplitl [HO]; · iexact HO
    isplitl [HM]; · iexact HM
    iexact Ha5
  iintro ⟨HO, Ha5, -⟩
  ihave HM := (mayWait_rest (F := F) c (.dma (17 : DmaSem sig)) 6 (by decide)) $$ Hlev
  iapply (wait_dma m c (17 : DmaSem sig) (by rfl) (K (c, .dma (17 : DmaSem sig))) (Orest c 6) _) $$ [HcR5 HO HM Ha17]
  · isplitr; · (iapply (inv_at m K (c, .dma (17 : DmaSem sig))) <;> iexact HR)
    isplitl [HcR5]; · iexact HcR5
    isplitl [HO]; · iexact HO
    isplitl [HM]; · iexact HM
    iexact Ha17
  iintro ⟨HO, Ha17, HpR⟩
  ihave HpR' := ((show (Pd m c (17 : DmaSem sig) : sProp 𝕄) ⊢ Pd m c (rIx 5) from BI.Entails.refl _).trans (gotR5 m c)) $$ HpR
  icases HpR' with ⟨HrQ2, HxaQo⟩
  iapply (load_sl1 c aP (off15_eq c) (k0_off5_inb c) (k0_off15_inb c) fullShare (sPo m c)) $$ HaPo; iintro HaPo
  iapply (load_rP2 c (sPf m (py c))) $$ HrP2; iintro HrP2
  iapply (load_sl1 c aP (off15_eq c) (k0_off5_inb c) (k0_off15_inb c) fullShare (sPo m c)) $$ HaPo; iintro HaPo
  iapply (store_sl1 c aP (off15_eq c) (k0_off5_inb c) (k0_off15_inb c) (tP m c) (sPo m c)) $$ HaPo; iintro HaPo
  rw [wp_ret]; imodintro
  iapply Hk
  isplitl [HrQo]; · iexact HrQo
  isplitl [HaQo]; · iexact HaQo
  isplitl [HO]; · (iexists _; iexact HO)
  isplitl [Ha4]; · iexact Ha4
  isplitl [Ha16]; · iexact Ha16
  isplitl [HrP2]; · iexact HrP2
  isplitl [HyaPo]; · iexact HyaPo
  isplitl [Ha5]; · iexact Ha5
  isplitl [Ha17]; · iexact Ha17
  isplitl [HrQ2]; · iexact HrQ2
  isplitl [HxaQo]; · iexact HxaQo
  iexact HaPo

end Cert.Kernel.Hand

end
-- ==== Proof.KPart8.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KBarRules
import proofs.«900388_g7700000000000389_dist_rs_then_ag_i_m4096_n1024_v7x_i4_f32_1_alg».proof.Proof.KMem
import proofs.«900388_g7700000000000389_dist_rs_then_ag_i_m4096_n1024_v7x_i4_f32_1_alg».proof.Proof.KSendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 8 of the body: what it takes from the device's holdings and what it leaves -/

set_option maxHeartbeats 4000000 in
set_option maxRecDepth 65536 in
theorem part8_spec (K : Dev nD × SemLoc sig → ℕ) (v9 : BitVec 32) (v10 : BitVec 32) (v31 : BitVec 32) (Q : PUnit → sProp 𝕄) :
    iprop(records m K ∗ levAts L lv ∗ (ow c (aQo c) fullShare (sQo m c)) ∗ (ow c rQ2 fullShare (sQf m (px c))) ∗ (ow c (aPo c) fullShare (tP m c)) ∗ (dE c (oB2 c)) ∗ (dutyTok ER (dCell c (28 : DmaSem sig)) 0 false) ∗ (dE c (oB3 c)) ∗ (dutyTok ER (dCell c (29 : DmaSem sig)) 0 false) ∗ (ow (py c) (aPo c) fullShare (sPf m (py c))) ∗ (dutyTok ER (dCell c (6 : DmaSem sig)) 0 false) ∗ (dutyTok ER (dCell (py c) (18 : DmaSem sig)) 0 false) ∗ (iprop(∃ W : Waits sig Unit, owes (c : Thread nD τ) (Orest c 6) W)) ∗ (ow (px c) (aQo c) fullShare (sQf m (px c))) ∗ (dutyTok ER (dCell c (7 : DmaSem sig)) 0 false) ∗ (dutyTok ER (dCell (px c) (19 : DmaSem sig)) 0 false)
        ∗ (iprop((ow c rQ2 fullShare (sQf m (px c))) ∗ (ow c (aPo c) fullShare.right.right (tP m c)) ∗ (ow c (aQo c) fullShare.right.right (tQ m c)) ∗ (cred (tallyAt (dCell c (28 : DmaSem sig)) () N)) ∗ (cred (tallyAt (dCell c (29 : DmaSem sig)) () N)) ∗ (iprop(∃ W : Waits sig Unit, owes (c : Thread nD τ) (Orest c 4) W)) ∗ (cred (tallyAt (dCell c (6 : DmaSem sig)) () N)) ∗ (cred (tallyAt (dCell c (7 : DmaSem sig)) () N))) -∗ Q ⟨⟩))
      ⊢ wp frame (wpE (defs₀ (F := F)) 𝒱₀ c none) Set.univ (k0_part8 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v9 v10 v31) Q := by
  iintro ⟨#HR, #Hlev, HaQo, HrQ2, HaPo, Hob2, HtL4, Hob3, HtL5, HyaPo, HtS6, HtR6, HO, HxaQo, HtS7, HtR7, Hk⟩
  icases HO with ⟨%W0, HO⟩
  simp only [k0_part8_eq_skeleton]; unfold k0_part8_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  iapply (load_sl1 c aQ (off16_eq c) (k0_off7_inb c) (k0_off16_inb c) fullShare (sQo m c)) $$ HaQo; iintro HaQo
  iapply (load_rQ2 c (sQf m (px c))) $$ HrQ2; iintro HrQ2
  iapply (load_sl1 c aQ (off16_eq c) (k0_off7_inb c) (k0_off16_inb c) fullShare (sQo m c)) $$ HaQo; iintro HaQo
  iapply (store_sl1 c aQ (off16_eq c) (k0_off7_inb c) (k0_off16_inb c) (tQ m c) (sQo m c)) $$ HaQo; iintro HaQo
  ihave HaPo' := (owns_share c (aPo c) (PosShare.mem_left_op_right fullShare) (tP m c)).1 $$ HaPo
  icases HaPo' with ⟨HaPoL, HaPoR⟩
  ihave HaPoR' := (owns_share c (aPo c) (PosShare.mem_left_op_right fullShare.right) (tP m c)).1 $$ HaPoR
  icases HaPoR' with ⟨HaPoRL, HaPoRR⟩
  ihave HaQo' := (owns_share c (aQo c) (PosShare.mem_left_op_right fullShare) (tQ m c)).1 $$ HaQo
  icases HaQo' with ⟨HaQoL, HaQoR⟩
  ihave HaQoR' := (owns_share c (aQo c) (PosShare.mem_left_op_right fullShare.right) (tQ m c)).1 $$ HaQoR
  icases HaQoR' with ⟨HaQoRL, HaQoRR⟩
  -- local copy 4
  iapply (copy_owns m c (28 : DmaSem sig) fullShare.left (tP m c) (K (c, .dma (28 : DmaSem sig))) (by rfl) (BI.Entails.refl _)) $$ [HaPoL Hob2 HtL4]
  · isplitr; · (iapply (inv_at m K (c, .dma (28 : DmaSem sig))) <;> iexact HR)
    isplitl [HaPoL]; · iexact HaPoL
    isplitl [Hob2]; · iexact Hob2
    isplitl [HtL4]; · iexact HtL4
    (iapply (reached_at m K (c, .dma (28 : DmaSem sig))) <;> iexact HR)
  iintro HcL4
  -- local copy 5
  iapply (copy_owns m c (29 : DmaSem sig) fullShare.left (tQ m c) (K (c, .dma (29 : DmaSem sig))) (by rfl) (BI.Entails.refl _)) $$ [HaQoL Hob3 HtL5]
  · isplitr; · (iapply (inv_at m K (c, .dma (29 : DmaSem sig))) <;> iexact HR)
    isplitl [HaQoL]; · iexact HaQoL
    isplitl [Hob3]; · iexact Hob3
    isplitl [HtL5]; · iexact HtL5
    (iapply (reached_at m K (c, .dma (29 : DmaSem sig))) <;> iexact HR)
  iintro HcL5
  ihave DyaPo := (owns_dE (py c) (aPo c) (sPf m (py c))) $$ HyaPo
  -- transfer 6, to `py c`
  iapply (send_owns_at m c (dev9_eq c) (6 : DmaSem sig) (18 : DmaSem sig) fullShare.right.left (tP m c) (K (c, .dma (6 : DmaSem sig))) (K (py c, .dma (18 : DmaSem sig))) (Orest c 5) rfl _ (by rfl) (BI.Entails.refl _) (payR6 m c)) $$ [HaPoRL DyaPo HO HtS6 HtR6]
  · isplitr; · (iapply (inv_at m K (c, .dma (6 : DmaSem sig))) <;> iexact HR)
    isplitr; · (iapply (inv_at m K (py c, .dma (18 : DmaSem sig))) <;> iexact HR)
    isplitl [HaPoRL]; · iexact HaPoRL
    isplitl [DyaPo]; · iexact DyaPo
    isplitl [HO]; · iexact HO
    isplitl [HtS6]; · iexact HtS6
    isplitr; · (iapply (reached_at m K (c, .dma (6 : DmaSem sig))) <;> iexact HR)
    isplitl [HtR6]; · iexact HtR6
    (iapply (reached_at m K (py c, .dma (18 : DmaSem sig))) <;> iexact HR)
  iintro ⟨HcS6, HO⟩
  ihave DxaQo := (owns_dE (px c) (aQo c) (sQf m (px c))) $$ HxaQo
  -- transfer 7, to `px c`
  iapply (send_owns_at m c (dev10_eq c) (7 : DmaSem sig) (19 : DmaSem sig) fullShare.right.left (tQ m c) (K (c, .dma (7 : DmaSem sig))) (K (px c, .dma (19 : DmaSem sig))) (Orest c 4) rfl _ (by rfl) (BI.Entails.refl _) (payR7 m c)) $$ [HaQoRL DxaQo HO HtS7 HtR7]
  · isplitr; · (iapply (inv_at m K (c, .dma (7 : DmaSem sig))) <;> iexact HR)
    isplitr; · (iapply (inv_at m K (px c, .dma (19 : DmaSem sig))) <;> iexact HR)
    isplitl [HaQoRL]; · iexact HaQoRL
    isplitl [DxaQo]; · iexact DxaQo
    isplitl [HO]; · iexact HO
    isplitl [HtS7]; · iexact HtS7
    isplitr; · (iapply (reached_at m K (c, .dma (7 : DmaSem sig))) <;> iexact HR)
    isplitl [HtR7]; · iexact HtR7
    (iapply (reached_at m K (px c, .dma (19 : DmaSem sig))) <;> iexact HR)
  iintro ⟨HcS7, HO⟩
  rw [wp_ret]; imodintro
  iapply Hk
  isplitl [HrQ2]; · iexact HrQ2
  isplitl [HaPoRR]; · iexact HaPoRR
  isplitl [HaQoRR]; · iexact HaQoRR
  isplitl [HcL4]; · iexact HcL4
  isplitl [HcL5]; · iexact HcL5
  isplitl [HO]; · (iexists _; iexact HO)
  isplitl [HcS6]; · iexact HcS6
  iexact HcS7

end Cert.Kernel.Hand

end
-- ==== Proof.KPart9.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KBarRules
import proofs.«900388_g7700000000000389_dist_rs_then_ag_i_m4096_n1024_v7x_i4_f32_1_alg».proof.Proof.KMem
import proofs.«900388_g7700000000000389_dist_rs_then_ag_i_m4096_n1024_v7x_i4_f32_1_alg».proof.Proof.KSendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 9 of the body: what it takes from the device's holdings and what it leaves -/

set_option maxHeartbeats 4000000 in
set_option maxRecDepth 65536 in
theorem part9_spec (K : Dev nD × SemLoc sig → ℕ) (v9 : BitVec 32) (v10 : BitVec 32) (Q : PUnit → sProp 𝕄) :
    iprop(records m K ∗ levAts L lv ∗ (ow c (aPo c) fullShare.right.right (tP m c)) ∗ (dE (px c) (oB2 c)) ∗ (dutyTok ER (dCell c (8 : DmaSem sig)) 0 false) ∗ (dutyTok ER (dCell (px c) (20 : DmaSem sig)) 0 false) ∗ (iprop(∃ W : Waits sig Unit, owes (c : Thread nD τ) (Orest c 4) W)) ∗ (ow c (aQo c) fullShare.right.right (tQ m c)) ∗ (dE (py c) (oB3 c)) ∗ (dutyTok ER (dCell c (9 : DmaSem sig)) 0 false) ∗ (dutyTok ER (dCell (py c) (21 : DmaSem sig)) 0 false) ∗ (cred (tallyAt (dCell c (6 : DmaSem sig)) () N)) ∗ (atPos ER (dCell c (6 : DmaSem sig)) 0 ∅ 0) ∗ (cred (tallyAt (dCell c (18 : DmaSem sig)) () N)) ∗ (atPos ER (dCell c (18 : DmaSem sig)) 0 ∅ 0)
        ∗ (iprop((iprop(∃ W : Waits sig Unit, owes (c : Thread nD τ) (Orest c 2) W)) ∗ (cred (tallyAt (dCell c (8 : DmaSem sig)) () N)) ∗ (cred (tallyAt (dCell c (9 : DmaSem sig)) () N)) ∗ (atPos ER (dCell c (6 : DmaSem sig)) 1 ∅ 0) ∗ (ow c (aPo c) fullShare.right.left (tP m c)) ∗ (atPos ER (dCell c (18 : DmaSem sig)) 1 ∅ 0) ∗ (ow c (aPf c) fullShare (tP m (py c)))) -∗ Q ⟨⟩))
      ⊢ wp frame (wpE (defs₀ (F := F)) 𝒱₀ c none) Set.univ (k0_part9 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v9 v10) Q := by
  iintro ⟨#HR, #Hlev, HaPoRR, DxO2, HtS8, HtR8, HO, HaQoRR, DyO3, HtS9, HtR9, HcS6, Ha6, HcR6, Ha18, Hk⟩
  icases HO with ⟨%W0, HO⟩
  simp only [k0_part9_eq_skeleton]; unfold k0_part9_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  -- transfer 8, to `px c`
  iapply (send_owns_at m c (dev11_eq c) (8 : DmaSem sig) (20 : DmaSem sig) fullShare.right.right (tP m c) (K (c, .dma (8 : DmaSem sig))) (K (px c, .dma (20 : DmaSem sig))) (Orest c 3) rfl _ (by rfl) (BI.Entails.refl _) (payR8 m c)) $$ [HaPoRR DxO2 HO HtS8 HtR8]
  · isplitr; · (iapply (inv_at m K (c, .dma (8 : DmaSem sig))) <;> iexact HR)
    isplitr; · (iapply (inv_at m K (px c, .dma (20 : DmaSem sig))) <;> iexact HR)
    isplitl [HaPoRR]; · iexact HaPoRR
    isplitl [DxO2]; · iexact DxO2
    isplitl [HO]; · iexact HO
    isplitl [HtS8]; · iexact HtS8
    isplitr; · (iapply (reached_at m K (c, .dma (8 : DmaSem sig))) <;> iexact HR)
    isplitl [HtR8]; · iexact HtR8
    (iapply (reached_at m K (px c, .dma (20 : DmaSem sig))) <;> iexact HR)
  iintro ⟨HcS8, HO⟩
  -- transfer 9, to `py c`
  iapply (send_owns_at m c (dev12_eq c) (9 : DmaSem sig) (21 : DmaSem sig) fullShare.right.right (tQ m c) (K (c, .dma (9 : DmaSem sig))) (K (py c, .dma (21 : DmaSem sig))) (Orest c 2) rfl _ (by rfl) (BI.Entails.refl _) (payR9 m c)) $$ [HaQoRR DyO3 HO HtS9 HtR9]
  · isplitr; · (iapply (inv_at m K (c, .dma (9 : DmaSem sig))) <;> iexact HR)
    isplitr; · (iapply (inv_at m K (py c, .dma (21 : DmaSem sig))) <;> iexact HR)
    isplitl [HaQoRR]; · iexact HaQoRR
    isplitl [DyO3]; · iexact DyO3
    isplitl [HO]; · iexact HO
    isplitl [HtS9]; · iexact HtS9
    isplitr; · (iapply (reached_at m K (c, .dma (9 : DmaSem sig))) <;> iexact HR)
    isplitl [HtR9]; · iexact HtR9
    (iapply (reached_at m K (py c, .dma (21 : DmaSem sig))) <;> iexact HR)
  iintro ⟨HcS9, HO⟩
  ihave HM := (mayWait_rest (F := F) c (.dma (6 : DmaSem sig)) 2 (by decide)) $$ Hlev
  iapply (wait_dma m c (6 : DmaSem sig) (by rfl) (K (c, .dma (6 : DmaSem sig))) (Orest c 2) _) $$ [HcS6 HO HM Ha6]
  · isplitr; · (iapply (inv_at m K (c, .dma (6 : DmaSem sig))) <;> iexact HR)
    isplitl [HcS6]; · iexact HcS6
    isplitl [HO]; · iexact HO
    isplitl [HM]; · iexact HM
    iexact Ha6
  iintro ⟨HO, Ha6, Hp⟩
  ihave HaPoRL := (show Pd m c (6 : DmaSem sig) ⊢ (ow c (aPo c) fullShare.right.left (tP m c) : sProp 𝕄) from BI.Entails.refl _) $$ Hp
  ihave HM := (mayWait_rest (F := F) c (.dma (18 : DmaSem sig)) 2 (by decide)) $$ Hlev
  iapply (wait_dma m c (18 : DmaSem sig) (by rfl) (K (c, .dma (18 : DmaSem sig))) (Orest c 2) _) $$ [HcR6 HO HM Ha18]
  · isplitr; · (iapply (inv_at m K (c, .dma (18 : DmaSem sig))) <;> iexact HR)
    isplitl [HcR6]; · iexact HcR6
    isplitl [HO]; · iexact HO
    isplitl [HM]; · iexact HM
    iexact Ha18
  iintro ⟨HO, Ha18, HpR⟩
  ihave HaPf := ((show (Pd m c (18 : DmaSem sig) : sProp 𝕄) ⊢ Pd m c (rIx 6) from BI.Entails.refl _).trans (gotR6 m c)) $$ HpR
  rw [wp_ret]; imodintro
  iapply Hk
  isplitl [HO]; · (iexists _; iexact HO)
  isplitl [HcS8]; · iexact HcS8
  isplitl [HcS9]; · iexact HcS9
  isplitl [Ha6]; · iexact Ha6
  isplitl [HaPoRL]; · iexact HaPoRL
  isplitl [Ha18]; · iexact Ha18
  iexact HaPf

end Cert.Kernel.Hand

end
-- ==== Proof.KPart10.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KBarRules
import proofs.«900388_g7700000000000389_dist_rs_then_ag_i_m4096_n1024_v7x_i4_f32_1_alg».proof.Proof.KMem
import proofs.«900388_g7700000000000389_dist_rs_then_ag_i_m4096_n1024_v7x_i4_f32_1_alg».proof.Proof.KSendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 10 of the body: what it takes from the device's holdings and what it leaves -/

set_option maxHeartbeats 4000000 in
set_option maxRecDepth 65536 in
theorem part10_spec (K : Dev nD × SemLoc sig → ℕ) (v9 : BitVec 32) (v10 : BitVec 32) (Q : PUnit → sProp 𝕄) :
    iprop(records m K ∗ levAts L lv ∗ (cred (tallyAt (dCell c (7 : DmaSem sig)) () N)) ∗ (iprop(∃ W : Waits sig Unit, owes (c : Thread nD τ) (Orest c 2) W)) ∗ (atPos ER (dCell c (7 : DmaSem sig)) 0 ∅ 0) ∗ (cred (tallyAt (dCell c (19 : DmaSem sig)) () N)) ∗ (atPos ER (dCell c (19 : DmaSem sig)) 0 ∅ 0) ∗ (ow c (aPf c) fullShare (tP m (py c))) ∗ (dE c (oB0 c)) ∗ (dutyTok ER (dCell c (30 : DmaSem sig)) 0 false) ∗ (dE c (oB1 c)) ∗ (dutyTok ER (dCell c (31 : DmaSem sig)) 0 false) ∗ (dE (px c) (oB0 c)) ∗ (dutyTok ER (dCell c (10 : DmaSem sig)) 0 false) ∗ (dutyTok ER (dCell (px c) (22 : DmaSem sig)) 0 false)
        ∗ (iprop((iprop(∃ W : Waits sig Unit, owes (c : Thread nD τ) (Orest c 1) W)) ∗ (atPos ER (dCell c (7 : DmaSem sig)) 1 ∅ 0) ∗ (ow c (aQo c) fullShare.right.left (tQ m c)) ∗ (atPos ER (dCell c (19 : DmaSem sig)) 1 ∅ 0) ∗ (ow c (aQf c) fullShare.right (tQ m (px c))) ∗ (cred (tallyAt (dCell c (30 : DmaSem sig)) () N)) ∗ (cred (tallyAt (dCell c (31 : DmaSem sig)) () N)) ∗ (cred (tallyAt (dCell c (10 : DmaSem sig)) () N))) -∗ Q ⟨⟩))
      ⊢ wp frame (wpE (defs₀ (F := F)) 𝒱₀ c none) Set.univ (k0_part10 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v9 v10) Q := by
  iintro ⟨#HR, #Hlev, HcS7, HO, Ha7, HcR7, Ha19, HaPf, Hob0, HtL6, Hob1, HtL7, DxO0, HtS10, HtR10, Hk⟩
  icases HO with ⟨%W0, HO⟩
  simp only [k0_part10_eq_skeleton]; unfold k0_part10_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  ihave HM := (mayWait_rest (F := F) c (.dma (7 : DmaSem sig)) 2 (by decide)) $$ Hlev
  iapply (wait_dma m c (7 : DmaSem sig) (by rfl) (K (c, .dma (7 : DmaSem sig))) (Orest c 2) _) $$ [HcS7 HO HM Ha7]
  · isplitr; · (iapply (inv_at m K (c, .dma (7 : DmaSem sig))) <;> iexact HR)
    isplitl [HcS7]; · iexact HcS7
    isplitl [HO]; · iexact HO
    isplitl [HM]; · iexact HM
    iexact Ha7
  iintro ⟨HO, Ha7, Hp⟩
  ihave HaQoRL := (show Pd m c (7 : DmaSem sig) ⊢ (ow c (aQo c) fullShare.right.left (tQ m c) : sProp 𝕄) from BI.Entails.refl _) $$ Hp
  ihave HM := (mayWait_rest (F := F) c (.dma (19 : DmaSem sig)) 2 (by decide)) $$ Hlev
  iapply (wait_dma m c (19 : DmaSem sig) (by rfl) (K (c, .dma (19 : DmaSem sig))) (Orest c 2) _) $$ [HcR7 HO HM Ha19]
  · isplitr; · (iapply (inv_at m K (c, .dma (19 : DmaSem sig))) <;> iexact HR)
    isplitl [HcR7]; · iexact HcR7
    isplitl [HO]; · iexact HO
    isplitl [HM]; · iexact HM
    iexact Ha19
  iintro ⟨HO, Ha19, HpR⟩
  ihave HaQf := ((show (Pd m c (19 : DmaSem sig) : sProp 𝕄) ⊢ Pd m c (rIx 7) from BI.Entails.refl _).trans (gotR7 m c)) $$ HpR
  ihave HaPf' := (owns_share c (aPf c) (PosShare.mem_left_op_right fullShare) (tP m (py c))).1 $$ HaPf
  icases HaPf' with ⟨HaPfL, HaPfR⟩
  ihave HaQf' := (owns_share c (aQf c) (PosShare.mem_left_op_right fullShare) (tQ m (px c))).1 $$ HaQf
  icases HaQf' with ⟨HaQfL, HaQfR⟩
  -- local copy 6
  iapply (copy_owns m c (30 : DmaSem sig) fullShare.left (tP m (py c)) (K (c, .dma (30 : DmaSem sig))) (by rfl) (BI.Entails.refl _)) $$ [HaPfL Hob0 HtL6]
  · isplitr; · (iapply (inv_at m K (c, .dma (30 : DmaSem sig))) <;> iexact HR)
    isplitl [HaPfL]; · iexact HaPfL
    isplitl [Hob0]; · iexact Hob0
    isplitl [HtL6]; · iexact HtL6
    (iapply (reached_at m K (c, .dma (30 : DmaSem sig))) <;> iexact HR)
  iintro HcL6
  -- local copy 7
  iapply (copy_owns m c (31 : DmaSem sig) fullShare.left (tQ m (px c)) (K (c, .dma (31 : DmaSem sig))) (by rfl) (BI.Entails.refl _)) $$ [HaQfL Hob1 HtL7]
  · isplitr; · (iapply (inv_at m K (c, .dma (31 : DmaSem sig))) <;> iexact HR)
    isplitl [HaQfL]; · iexact HaQfL
    isplitl [Hob1]; · iexact Hob1
    isplitl [HtL7]; · iexact HtL7
    (iapply (reached_at m K (c, .dma (31 : DmaSem sig))) <;> iexact HR)
  iintro HcL7
  -- transfer 10, to `px c`
  iapply (send_owns_at m c (dev13_eq c) (10 : DmaSem sig) (22 : DmaSem sig) fullShare.right (tP m (py c)) (K (c, .dma (10 : DmaSem sig))) (K (px c, .dma (22 : DmaSem sig))) (Orest c 1) rfl _ (by rfl) (BI.Entails.refl _) (payR10 m c)) $$ [HaPfR DxO0 HO HtS10 HtR10]
  · isplitr; · (iapply (inv_at m K (c, .dma (10 : DmaSem sig))) <;> iexact HR)
    isplitr; · (iapply (inv_at m K (px c, .dma (22 : DmaSem sig))) <;> iexact HR)
    isplitl [HaPfR]; · iexact HaPfR
    isplitl [DxO0]; · iexact DxO0
    isplitl [HO]; · iexact HO
    isplitl [HtS10]; · iexact HtS10
    isplitr; · (iapply (reached_at m K (c, .dma (10 : DmaSem sig))) <;> iexact HR)
    isplitl [HtR10]; · iexact HtR10
    (iapply (reached_at m K (px c, .dma (22 : DmaSem sig))) <;> iexact HR)
  iintro ⟨HcS10, HO⟩
  rw [wp_ret]; imodintro
  iapply Hk
  isplitl [HO]; · (iexists _; iexact HO)
  isplitl [Ha7]; · iexact Ha7
  isplitl [HaQoRL]; · iexact HaQoRL
  isplitl [Ha19]; · iexact Ha19
  isplitl [HaQfR]; · iexact HaQfR
  isplitl [HcL6]; · iexact HcL6
  isplitl [HcL7]; · iexact HcL7
  iexact HcS10

end Cert.Kernel.Hand

end
-- ==== Proof.KPart11.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KBarRules
import proofs.«900388_g7700000000000389_dist_rs_then_ag_i_m4096_n1024_v7x_i4_f32_1_alg».proof.Proof.KMem
import proofs.«900388_g7700000000000389_dist_rs_then_ag_i_m4096_n1024_v7x_i4_f32_1_alg».proof.Proof.KSendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 11 of the body: what it takes from the device's holdings and what it leaves -/

set_option maxHeartbeats 4000000 in
set_option maxRecDepth 65536 in
theorem part11_spec (K : Dev nD × SemLoc sig → ℕ) (v9 : BitVec 32) (v10 : BitVec 32) (Q : BitVec 32 → sProp 𝕄) :
    iprop(records m K ∗ levAts L lv ∗ (ow c (aQf c) fullShare.right (tQ m (px c))) ∗ (dE (py c) (oB1 c)) ∗ (dutyTok ER (dCell c (11 : DmaSem sig)) 0 false) ∗ (dutyTok ER (dCell (py c) (23 : DmaSem sig)) 0 false) ∗ (iprop(∃ W : Waits sig Unit, owes (c : Thread nD τ) (Orest c 1) W)) ∗ (cred (tallyAt (dCell c (8 : DmaSem sig)) () N)) ∗ (atPos ER (dCell c (8 : DmaSem sig)) 0 ∅ 0) ∗ (cred (tallyAt (dCell c (20 : DmaSem sig)) () N)) ∗ (atPos ER (dCell c (20 : DmaSem sig)) 0 ∅ 0) ∗ (cred (tallyAt (dCell c (9 : DmaSem sig)) () N)) ∗ (atPos ER (dCell c (9 : DmaSem sig)) 0 ∅ 0) ∗ (cred (tallyAt (dCell c (21 : DmaSem sig)) () N)) ∗ (atPos ER (dCell c (21 : DmaSem sig)) 0 ∅ 0) ∗ (cred (tallyAt (dCell c (10 : DmaSem sig)) () N)) ∗ (atPos ER (dCell c (10 : DmaSem sig)) 0 ∅ 0)
        ∗ (∀ (w : BitVec 32), (iprop((iprop(∃ W : Waits sig Unit, owes (c : Thread nD τ) (Orest c 0) W)) ∗ (cred (tallyAt (dCell c (11 : DmaSem sig)) () N)) ∗ (atPos ER (dCell c (8 : DmaSem sig)) 1 ∅ 0) ∗ (ow c (aPo c) fullShare.right.right (tP m c)) ∗ (atPos ER (dCell c (20 : DmaSem sig)) 1 ∅ 0) ∗ (ow c (oB2 (px c)) fullShare (tP m (px c))) ∗ (atPos ER (dCell c (9 : DmaSem sig)) 1 ∅ 0) ∗ (ow c (aQo c) fullShare.right.right (tQ m c)) ∗ (atPos ER (dCell c (21 : DmaSem sig)) 1 ∅ 0) ∗ (ow c (oB3 (py c)) fullShare (tQ m (py c))) ∗ (atPos ER (dCell c (10 : DmaSem sig)) 1 ∅ 0) ∗ (ow c (aPf c) fullShare.right (tP m (py c)))) -∗ Q w)))
      ⊢ wp frame (wpE (defs₀ (F := F)) 𝒱₀ c none) Set.univ (k0_part11 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v9 v10) Q := by
  iintro ⟨#HR, #Hlev, HaQfR, DyO1, HtS11, HtR11, HO, HcS8, Ha8, HcR8, Ha20, HcS9, Ha9, HcR9, Ha21, HcS10, Ha10, Hk⟩
  icases HO with ⟨%W0, HO⟩
  simp only [k0_part11_eq_skeleton]; unfold k0_part11_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  -- transfer 11, to `py c`
  iapply (send_owns_at m c (dev14_eq c) (11 : DmaSem sig) (23 : DmaSem sig) fullShare.right (tQ m (px c)) (K (c, .dma (11 : DmaSem sig))) (K (py c, .dma (23 : DmaSem sig))) (Orest c 0) rfl _ (by rfl) (BI.Entails.refl _) (payR11 m c)) $$ [HaQfR DyO1 HO HtS11 HtR11]
  · isplitr; · (iapply (inv_at m K (c, .dma (11 : DmaSem sig))) <;> iexact HR)
    isplitr; · (iapply (inv_at m K (py c, .dma (23 : DmaSem sig))) <;> iexact HR)
    isplitl [HaQfR]; · iexact HaQfR
    isplitl [DyO1]; · iexact DyO1
    isplitl [HO]; · iexact HO
    isplitl [HtS11]; · iexact HtS11
    isplitr; · (iapply (reached_at m K (c, .dma (11 : DmaSem sig))) <;> iexact HR)
    isplitl [HtR11]; · iexact HtR11
    (iapply (reached_at m K (py c, .dma (23 : DmaSem sig))) <;> iexact HR)
  iintro ⟨HcS11, HO⟩
  ihave HM := (mayWait_rest (F := F) c (.dma (8 : DmaSem sig)) 0 (by decide)) $$ Hlev
  iapply (wait_dma m c (8 : DmaSem sig) (by rfl) (K (c, .dma (8 : DmaSem sig))) (Orest c 0) _) $$ [HcS8 HO HM Ha8]
  · isplitr; · (iapply (inv_at m K (c, .dma (8 : DmaSem sig))) <;> iexact HR)
    isplitl [HcS8]; · iexact HcS8
    isplitl [HO]; · iexact HO
    isplitl [HM]; · iexact HM
    iexact Ha8
  iintro ⟨HO, Ha8, Hp⟩
  ihave HaPoRR := (show Pd m c (8 : DmaSem sig) ⊢ (ow c (aPo c) fullShare.right.right (tP m c) : sProp 𝕄) from BI.Entails.refl _) $$ Hp
  ihave HM := (mayWait_rest (F := F) c (.dma (20 : DmaSem sig)) 0 (by decide)) $$ Hlev
  iapply (wait_dma m c (20 : DmaSem sig) (by rfl) (K (c, .dma (20 : DmaSem sig))) (Orest c 0) _) $$ [HcR8 HO HM Ha20]
  · isplitr; · (iapply (inv_at m K (c, .dma (20 : DmaSem sig))) <;> iexact HR)
    isplitl [HcR8]; · iexact HcR8
    isplitl [HO]; · iexact HO
    isplitl [HM]; · iexact HM
    iexact Ha20
  iintro ⟨HO, Ha20, Hp⟩
  ihave HoX2 := (show Pd m c (20 : DmaSem sig) ⊢ (ow c (oB2 (px c)) fullShare (tP m (px c)) : sProp 𝕄) from BI.Entails.refl _) $$ Hp
  ihave HM := (mayWait_rest (F := F) c (.dma (9 : DmaSem sig)) 0 (by decide)) $$ Hlev
  iapply (wait_dma m c (9 : DmaSem sig) (by rfl) (K (c, .dma (9 : DmaSem sig))) (Orest c 0) _) $$ [HcS9 HO HM Ha9]
  · isplitr; · (iapply (inv_at m K (c, .dma (9 : DmaSem sig))) <;> iexact HR)
    isplitl [HcS9]; · iexact HcS9
    isplitl [HO]; · iexact HO
    isplitl [HM]; · iexact HM
    iexact Ha9
  iintro ⟨HO, Ha9, Hp⟩
  ihave HaQoRR := (show Pd m c (9 : DmaSem sig) ⊢ (ow c (aQo c) fullShare.right.right (tQ m c) : sProp 𝕄) from BI.Entails.refl _) $$ Hp
  ihave HM := (mayWait_rest (F := F) c (.dma (21 : DmaSem sig)) 0 (by decide)) $$ Hlev
  iapply (wait_dma m c (21 : DmaSem sig) (by rfl) (K (c, .dma (21 : DmaSem sig))) (Orest c 0) _) $$ [HcR9 HO HM Ha21]
  · isplitr; · (iapply (inv_at m K (c, .dma (21 : DmaSem sig))) <;> iexact HR)
    isplitl [HcR9]; · iexact HcR9
    isplitl [HO]; · iexact HO
    isplitl [HM]; · iexact HM
    iexact Ha21
  iintro ⟨HO, Ha21, Hp⟩
  ihave HoY3 := (show Pd m c (21 : DmaSem sig) ⊢ (ow c (oB3 (py c)) fullShare (tQ m (py c)) : sProp 𝕄) from BI.Entails.refl _) $$ Hp
  ihave HM := (mayWait_rest (F := F) c (.dma (10 : DmaSem sig)) 0 (by decide)) $$ Hlev
  iapply (wait_dma m c (10 : DmaSem sig) (by rfl) (K (c, .dma (10 : DmaSem sig))) (Orest c 0) _) $$ [HcS10 HO HM Ha10]
  · isplitr; · (iapply (inv_at m K (c, .dma (10 : DmaSem sig))) <;> iexact HR)
    isplitl [HcS10]; · iexact HcS10
    isplitl [HO]; · iexact HO
    isplitl [HM]; · iexact HM
    iexact Ha10
  iintro ⟨HO, Ha10, Hp⟩
  ihave HaPfR := (show Pd m c (10 : DmaSem sig) ⊢ (ow c (aPf c) fullShare.right (tP m (py c)) : sProp 𝕄) from BI.Entails.refl _) $$ Hp
  rw [wp_ret]; imodintro
  iapply Hk
  isplitl [HO]; · (iexists _; iexact HO)
  isplitl [HcS11]; · iexact HcS11
  isplitl [Ha8]; · iexact Ha8
  isplitl [HaPoRR]; · iexact HaPoRR
  isplitl [Ha20]; · iexact Ha20
  isplitl [HoX2]; · iexact HoX2
  isplitl [Ha9]; · iexact Ha9
  isplitl [HaQoRR]; · iexact HaQoRR
  isplitl [Ha21]; · iexact Ha21
  isplitl [HoY3]; · iexact HoY3
  isplitl [Ha10]; · iexact Ha10
  iexact HaPfR

end Cert.Kernel.Hand

end
-- ==== Proof.KPart12.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KBarRules
import proofs.«900388_g7700000000000389_dist_rs_then_ag_i_m4096_n1024_v7x_i4_f32_1_alg».proof.Proof.KMem
import proofs.«900388_g7700000000000389_dist_rs_then_ag_i_m4096_n1024_v7x_i4_f32_1_alg».proof.Proof.KSendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 12 of the body: what it takes from the device's holdings and what it leaves -/

set_option maxHeartbeats 4000000 in
set_option maxRecDepth 65536 in
theorem part12_spec (K : Dev nD × SemLoc sig → ℕ) (v9 : BitVec 32) (v10 : BitVec 32) (w : BitVec 32) (Q : PUnit → sProp 𝕄) :
    iprop(records m K ∗ levAts L lv ∗ (cred (tallyAt (dCell c (22 : DmaSem sig)) () N)) ∗ (iprop(∃ W : Waits sig Unit, owes (c : Thread nD τ) (Orest c 0) W)) ∗ (atPos ER (dCell c (22 : DmaSem sig)) 0 ∅ 0) ∗ (cred (tallyAt (dCell c (11 : DmaSem sig)) () N)) ∗ (atPos ER (dCell c (11 : DmaSem sig)) 0 ∅ 0) ∗ (cred (tallyAt (dCell c (23 : DmaSem sig)) () N)) ∗ (atPos ER (dCell c (23 : DmaSem sig)) 0 ∅ 0) ∗ (cred (tallyAt (dCell c (28 : DmaSem sig)) () N)) ∗ (atPos ER (dCell c (28 : DmaSem sig)) 0 ∅ 0) ∗ (cred (tallyAt (dCell c (29 : DmaSem sig)) () N)) ∗ (atPos ER (dCell c (29 : DmaSem sig)) 0 ∅ 0) ∗ (cred (tallyAt (dCell c (30 : DmaSem sig)) () N)) ∗ (atPos ER (dCell c (30 : DmaSem sig)) 0 ∅ 0)
        ∗ (iprop((iprop(∃ W : Waits sig Unit, owes (c : Thread nD τ) (Orest c 0) W)) ∗ (atPos ER (dCell c (22 : DmaSem sig)) 1 ∅ 0) ∗ (ow c (oB0 (px c)) fullShare (tP m (py (px c)))) ∗ (atPos ER (dCell c (11 : DmaSem sig)) 1 ∅ 0) ∗ (ow c (aQf c) fullShare.right (tQ m (px c))) ∗ (atPos ER (dCell c (23 : DmaSem sig)) 1 ∅ 0) ∗ (ow c (oB1 (py c)) fullShare (tQ m (px (py c)))) ∗ (atPos ER (dCell c (28 : DmaSem sig)) 1 ∅ 0) ∗ (ow c (oB2 c) fullShare (tP m c)) ∗ (ow c (aPo c) fullShare.left (tP m c)) ∗ (atPos ER (dCell c (29 : DmaSem sig)) 1 ∅ 0) ∗ (ow c (oB3 c) fullShare (tQ m c)) ∗ (ow c (aQo c) fullShare.left (tQ m c)) ∗ (atPos ER (dCell c (30 : DmaSem sig)) 1 ∅ 0) ∗ (ow c (oB0 c) fullShare (tP m (py c))) ∗ (ow c (aPf c) fullShare.left (tP m (py c)))) -∗ Q ⟨⟩))
      ⊢ wp frame (wpE (defs₀ (F := F)) 𝒱₀ c none) Set.univ (k0_part12 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v9 v10 w) Q := by
  iintro ⟨#HR, #Hlev, HcR10, HO, Ha22, HcS11, Ha11, HcR11, Ha23, HcL4, Ha28, HcL5, Ha29, HcL6, Ha30, Hk⟩
  icases HO with ⟨%W0, HO⟩
  simp only [k0_part12_eq_skeleton]; unfold k0_part12_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  ihave HM := (mayWait_rest (F := F) c (.dma (22 : DmaSem sig)) 0 (by decide)) $$ Hlev
  iapply (wait_dma m c (22 : DmaSem sig) (by rfl) (K (c, .dma (22 : DmaSem sig))) (Orest c 0) _) $$ [HcR10 HO HM Ha22]
  · isplitr; · (iapply (inv_at m K (c, .dma (22 : DmaSem sig))) <;> iexact HR)
    isplitl [HcR10]; · iexact HcR10
    isplitl [HO]; · iexact HO
    isplitl [HM]; · iexact HM
    iexact Ha22
  iintro ⟨HO, Ha22, Hp⟩
  ihave HoX0 := (show Pd m c (22 : DmaSem sig) ⊢ (ow c (oB0 (px c)) fullShare (tP m (py (px c))) : sProp 𝕄) from BI.Entails.refl _) $$ Hp
  ihave HM := (mayWait_rest (F := F) c (.dma (11 : DmaSem sig)) 0 (by decide)) $$ Hlev
  iapply (wait_dma m c (11 : DmaSem sig) (by rfl) (K (c, .dma (11 : DmaSem sig))) (Orest c 0) _) $$ [HcS11 HO HM Ha11]
  · isplitr; · (iapply (inv_at m K (c, .dma (11 : DmaSem sig))) <;> iexact HR)
    isplitl [HcS11]; · iexact HcS11
    isplitl [HO]; · iexact HO
    isplitl [HM]; · iexact HM
    iexact Ha11
  iintro ⟨HO, Ha11, Hp⟩
  ihave HaQfR := (show Pd m c (11 : DmaSem sig) ⊢ (ow c (aQf c) fullShare.right (tQ m (px c)) : sProp 𝕄) from BI.Entails.refl _) $$ Hp
  ihave HM := (mayWait_rest (F := F) c (.dma (23 : DmaSem sig)) 0 (by decide)) $$ Hlev
  iapply (wait_dma m c (23 : DmaSem sig) (by rfl) (K (c, .dma (23 : DmaSem sig))) (Orest c 0) _) $$ [HcR11 HO HM Ha23]
  · isplitr; · (iapply (inv_at m K (c, .dma (23 : DmaSem sig))) <;> iexact HR)
    isplitl [HcR11]; · iexact HcR11
    isplitl [HO]; · iexact HO
    isplitl [HM]; · iexact HM
    iexact Ha23
  iintro ⟨HO, Ha23, Hp⟩
  ihave HoY1 := (show Pd m c (23 : DmaSem sig) ⊢ (ow c (oB1 (py c)) fullShare (tQ m (px (py c))) : sProp 𝕄) from BI.Entails.refl _) $$ Hp
  ihave HM := (mayWait_rest (F := F) c (.dma (28 : DmaSem sig)) 0 (by decide)) $$ Hlev
  iapply (wait_dma m c (28 : DmaSem sig) (by rfl) (K (c, .dma (28 : DmaSem sig))) (Orest c 0) _) $$ [HcL4 HO HM Ha28]
  · isplitr; · (iapply (inv_at m K (c, .dma (28 : DmaSem sig))) <;> iexact HR)
    isplitl [HcL4]; · iexact HcL4
    isplitl [HO]; · iexact HO
    isplitl [HM]; · iexact HM
    iexact Ha28
  iintro ⟨HO, Ha28, Hp⟩
  ihave Hp' := (show Pd m c (28 : DmaSem sig) ⊢ (iprop(ow c (oB2 c) fullShare (tP m c) ∗ ow c (aPo c) fullShare.left (tP m c)) : sProp 𝕄) from BI.Entails.refl _) $$ Hp
  icases Hp' with ⟨Hob2, HaPoL⟩
  ihave HM := (mayWait_rest (F := F) c (.dma (29 : DmaSem sig)) 0 (by decide)) $$ Hlev
  iapply (wait_dma m c (29 : DmaSem sig) (by rfl) (K (c, .dma (29 : DmaSem sig))) (Orest c 0) _) $$ [HcL5 HO HM Ha29]
  · isplitr; · (iapply (inv_at m K (c, .dma (29 : DmaSem sig))) <;> iexact HR)
    isplitl [HcL5]; · iexact HcL5
    isplitl [HO]; · iexact HO
    isplitl [HM]; · iexact HM
    iexact Ha29
  iintro ⟨HO, Ha29, Hp⟩
  ihave Hp' := (show Pd m c (29 : DmaSem sig) ⊢ (iprop(ow c (oB3 c) fullShare (tQ m c) ∗ ow c (aQo c) fullShare.left (tQ m c)) : sProp 𝕄) from BI.Entails.refl _) $$ Hp
  icases Hp' with ⟨Hob3, HaQoL⟩
  ihave HM := (mayWait_rest (F := F) c (.dma (30 : DmaSem sig)) 0 (by decide)) $$ Hlev
  iapply (wait_dma m c (30 : DmaSem sig) (by rfl) (K (c, .dma (30 : DmaSem sig))) (Orest c 0) _) $$ [HcL6 HO HM Ha30]
  · isplitr; · (iapply (inv_at m K (c, .dma (30 : DmaSem sig))) <;> iexact HR)
    isplitl [HcL6]; · iexact HcL6
    isplitl [HO]; · iexact HO
    isplitl [HM]; · iexact HM
    iexact Ha30
  iintro ⟨HO, Ha30, Hp⟩
  ihave Hp' := (show Pd m c (30 : DmaSem sig) ⊢ (iprop(ow c (oB0 c) fullShare (tP m (py c)) ∗ ow c (aPf c) fullShare.left (tP m (py c))) : sProp 𝕄) from BI.Entails.refl _) $$ Hp
  icases Hp' with ⟨Hob0, HaPfL⟩
  rw [wp_ret]; imodintro
  iapply Hk
  isplitl [HO]; · (iexists _; iexact HO)
  isplitl [Ha22]; · iexact Ha22
  isplitl [HoX0]; · iexact HoX0
  isplitl [Ha11]; · iexact Ha11
  isplitl [HaQfR]; · iexact HaQfR
  isplitl [Ha23]; · iexact Ha23
  isplitl [HoY1]; · iexact HoY1
  isplitl [Ha28]; · iexact Ha28
  isplitl [Hob2]; · iexact Hob2
  isplitl [HaPoL]; · iexact HaPoL
  isplitl [Ha29]; · iexact Ha29
  isplitl [Hob3]; · iexact Hob3
  isplitl [HaQoL]; · iexact HaQoL
  isplitl [Ha30]; · iexact Ha30
  isplitl [Hob0]; · iexact Hob0
  iexact HaPfL

end Cert.Kernel.Hand

end
-- ==== Proof.KBody.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KPart1
import proofs.«900388_g7700000000000389_dist_rs_then_ag_i_m4096_n1024_v7x_i4_f32_1_alg».proof.Proof.KPart2
import proofs.«900388_g7700000000000389_dist_rs_then_ag_i_m4096_n1024_v7x_i4_f32_1_alg».proof.Proof.KPart3
import proofs.«900388_g7700000000000389_dist_rs_then_ag_i_m4096_n1024_v7x_i4_f32_1_alg».proof.Proof.KPart4
import proofs.«900388_g7700000000000389_dist_rs_then_ag_i_m4096_n1024_v7x_i4_f32_1_alg».proof.Proof.KPart5
import proofs.«900388_g7700000000000389_dist_rs_then_ag_i_m4096_n1024_v7x_i4_f32_1_alg».proof.Proof.KPart6
import proofs.«900388_g7700000000000389_dist_rs_then_ag_i_m4096_n1024_v7x_i4_f32_1_alg».proof.Proof.KPart7
import proofs.«900388_g7700000000000389_dist_rs_then_ag_i_m4096_n1024_v7x_i4_f32_1_alg».proof.Proof.KPart8
import proofs.«900388_g7700000000000389_dist_rs_then_ag_i_m4096_n1024_v7x_i4_f32_1_alg».proof.Proof.KPart9
import proofs.«900388_g7700000000000389_dist_rs_then_ag_i_m4096_n1024_v7x_i4_f32_1_alg».proof.Proof.KPart10
import proofs.«900388_g7700000000000389_dist_rs_then_ag_i_m4096_n1024_v7x_i4_f32_1_alg».proof.Proof.KPart11
import proofs.«900388_g7700000000000389_dist_rs_then_ag_i_m4096_n1024_v7x_i4_f32_1_alg».proof.Proof.KPart12
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body of one device, from its starting holdings to its final ones -/

section Body
variable (c : Dev nD)

theorem scr_of_join (b : Ref sig .tc) :
    (iprop(∃ g : Buf (Elt F) ((Memref.whole b).view.loc (c : Thread nD τ)), (Memref.whole b).view.loc (c : Thread nD τ) ↦[(Memref.whole b).view.set]{fullShare} g) : sProp 𝕄)
      ⊢ iprop(∃ f : Buf (Elt F) ((c : Thread nD τ).loc b), ((c : Thread nD τ).loc b) ↦{fullShare} f) := by
  iintro ⟨%g, H⟩; iexists g; rw [whole_pts]; iexact H
theorem scr_of_rP2 (v : Vec F S512x1024 .f32) :
    (ow c rP2 fullShare v : sProp 𝕄) ⊢ iprop(∃ f : Buf (Elt F) ((c : Thread nD τ).loc cc0_scratch3), ((c : Thread nD τ).loc cc0_scratch3) ↦{fullShare} f) := by
  unfold ow owns; iintro ⟨%f, -, H⟩; iexists f; rw [whole_pts]; iexact H
theorem scr_of_rQ2 (v : Vec F S512x1024 .f32) :
    (ow c rQ2 fullShare v : sProp 𝕄) ⊢ iprop(∃ f : Buf (Elt F) ((c : Thread nD τ).loc cc0_scratch5), ((c : Thread nD τ).loc cc0_scratch5) ↦{fullShare} f) := by
  unfold ow owns; iintro ⟨%f, -, H⟩; iexists f; rw [whole_pts]; iexact H

theorem peerL0 : peer 0 c = px c := rfl
theorem peerL1 : peer 1 c = py c := rfl
theorem peerL2 : peer 2 c = px c := rfl
theorem peerL3 : peer 3 c = py c := rfl
theorem peerL4 : peer 4 c = py c := rfl
theorem peerL5 : peer 5 c = px c := rfl
theorem peerL6 : peer 6 c = py c := rfl
theorem peerL7 : peer 7 c = px c := rfl
theorem peerL8 : peer 8 c = px c := rfl
theorem peerL9 : peer 9 c = py c := rfl
theorem peerL10 : peer 10 c = px c := rfl
theorem peerL11 : peer 11 c = py c := rfl

set_option maxHeartbeats 8000000 in
set_option maxRecDepth 65536 in
theorem sound_body (K : Dev nD × SemLoc sig → ℕ) (W : Waits sig Unit) (Kt : PUnit → sProp 𝕄) :
    iprop((ghost m K c ∗ credR c 12 ∗ cred (tallyAt (barCell c) () 1) ∗ cred (tallyAt (barCell c) () 1) ∗ levAts L lv
        ∗ (((c : Thread nD τ).loc main_arg0) ↦{fullShare} X m c)
        ∗ (((c : Thread nD τ).loc main_v1) ↦{fullShare} m ((c : Thread nD τ).loc main_v1))
        ∗ scr c ∗ owes (c : Thread nD τ) (O₀ c) W)
      ∗ (iprop(Φ₁ m c ∗ ∃ W', owes (c : Thread nD τ) 0 W') -∗ Kt ⟨⟩))
      ⊢ wp frame (wpE (defs₀ (F := F)) 𝒱₀ c none) Set.univ (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8) Kt := by
  unfold ghost poss payToks scr
  rw [show (credR (F := F) c 12) = iprop((((((((((((((emp : sProp 𝕄) ∗ cred (tallyAt (dCell c (rIx 11)) () N)) ∗ cred (tallyAt (dCell c (rIx 10)) () N)) ∗ cred (tallyAt (dCell c (rIx 9)) () N)) ∗ cred (tallyAt (dCell c (rIx 8)) () N)) ∗ cred (tallyAt (dCell c (rIx 7)) () N)) ∗ cred (tallyAt (dCell c (rIx 6)) () N)) ∗ cred (tallyAt (dCell c (rIx 5)) () N)) ∗ cred (tallyAt (dCell c (rIx 4)) () N)) ∗ cred (tallyAt (dCell c (rIx 3)) () N)) ∗ cred (tallyAt (dCell c (rIx 2)) () N)) ∗ cred (tallyAt (dCell c (rIx 1)) () N)) ∗ cred (tallyAt (dCell c (rIx 0)) () N))) from rfl]
  simp only [bigSep_semLoc, bigSep_fin12, bigSep_fin8, peerL0 c, peerL1 c, peerL2 c, peerL3 c, peerL4 c, peerL5 c, peerL6 c, peerL7 c, peerL8 c, peerL9 c, peerL10 c, peerL11 c]
  iintro ⟨⟨⟨#HR, ⟨HaB, Ha0, Ha1, Ha2, Ha3, Ha4, Ha5, Ha6, Ha7, Ha8, Ha9, Ha10, Ha11, Ha12, Ha13, Ha14, Ha15, Ha16, Ha17, Ha18, Ha19, Ha20, Ha21, Ha22, Ha23, Ha24, Ha25, Ha26, Ha27, Ha28, Ha29, Ha30, Ha31⟩, HtBx, HtBy, ⟨HtR0, HtR1, HtR2, HtR3, HtR4, HtR5, HtR6, HtR7, HtR8, HtR9, HtR10, HtR11⟩, ⟨HtS0, HtS1, HtS2, HtS3, HtS4, HtS5, HtS6, HtS7, HtS8, HtS9, HtS10, HtS11⟩, ⟨HtL0, HtL1, HtL2, HtL3, HtL4, HtL5, HtL6, HtL7⟩⟩, ⟨⟨⟨⟨⟨⟨⟨⟨⟨⟨⟨⟨-, HcR11⟩, HcR10⟩, HcR9⟩, HcR8⟩, HcR7⟩, HcR6⟩, HcR5⟩, HcR4⟩, HcR3⟩, HcR2⟩, HcR1⟩, HcR0⟩, HcB1, HcB2, #Hlev, Hx, Hout, ⟨Hs0, Hs1, Hs2, Hs3, Hs4, Hs5⟩, HO⟩, Hk⟩
  -- the buffers cut into their blocks
  ihave Hx' := (x_split m c) $$ Hx
  icases Hx' with ⟨HxK, Hx0, Hx1, Hx2, Hx3, Hx4, Hx5, Hx6, Hx7⟩
  ihave Ho' := (out_split c _) $$ Hout
  icases Ho' with ⟨Hob2, Hob3, Hob0, Hob1, Hox2, Hox0, Hoy3, Hoy1⟩
  icases Hs0 with ⟨%fHs0, Hs0⟩
  ihave Hs0' := ((Entails.of_eq (whole_pts c cc0_scratch0 fullShare fHs0)).trans (dE_split2 c aP (k0_off1_inb c) (k0_off5_inb c) (pair15 c) (col1 c) (col5 c) fHs0)) $$ Hs0
  icases Hs0' with ⟨HaPf, HaPo⟩
  icases Hs1 with ⟨%fHs1, Hs1⟩
  ihave Hs1' := ((Entails.of_eq (whole_pts c cc0_scratch1 fullShare fHs1)).trans (dE_split2 c aQ (k0_off3_inb c) (k0_off7_inb c) (pair37 c) (col3 c) (col7 c) fHs1)) $$ Hs1
  icases Hs1' with ⟨HaQf, HaQo⟩
  icases Hs2 with ⟨%fHs2, Hs2⟩
  ihave Hs2' := ((Entails.of_eq (whole_pts c cc0_scratch2 fullShare fHs2)).trans (dE_split2 c rP1 (k0_off1_inb c) (k0_off5_inb c) (pair15 c) (col1 c) (col5 c) fHs2)) $$ Hs2
  icases Hs2' with ⟨HrPf, HrPo⟩
  icases Hs4 with ⟨%fHs4, Hs4⟩
  ihave Hs4' := ((Entails.of_eq (whole_pts c cc0_scratch4 fullShare fHs4)).trans (dE_split2 c rQ1 (k0_off3_inb c) (k0_off7_inb c) (pair37 c) (col3 c) (col7 c) fHs4)) $$ Hs4
  icases Hs4' with ⟨HrQf, HrQo⟩
  icases Hs3 with ⟨%fHs3, Hs3⟩
  ihave HrP2 := (show (((c : Thread nD τ).loc cc0_scratch3) ↦{fullShare} fHs3 : sProp 𝕄) ⊢ dE c rP2 from by unfold dE; rw [whole_pts c cc0_scratch3 fullShare fHs3]; iintro H; iexists fHs3; iexact H) $$ Hs3
  icases Hs5 with ⟨%fHs5, Hs5⟩
  ihave HrQ2 := (show (((c : Thread nD τ).loc cc0_scratch5) ↦{fullShare} fHs5 : sProp 𝕄) ⊢ dE c rQ2 from by unfold dE; rw [whole_pts c cc0_scratch5 fullShare fHs5]; iintro H; iexists fHs5; iexact H) $$ Hs5
  -- the program, part by part
  simp only [cc0_body_eq_skeleton]; unfold cc0_body_skel
  -- part 1
  rw [wp_bind]
  iapply (part1_spec m c K  _)
  isplitr; · iexact HR
  isplitr; · iexact Hlev
  isplitl [HrPf]; · iexact HrPf
  isplitl [HrPo]; · iexact HrPo
  isplitl [HrQ2]; · iexact HrQ2
  isplitl [Hox2]; · iexact Hox2
  isplitl [Hox0]; · iexact Hox0
  isplitl [HtBx]; · iexact HtBx
  isplitl [HO]; · (iexists _; iexact HO)
  isplitl [HrQf]; · iexact HrQf
  isplitl [HrQo]; · iexact HrQo
  isplitl [HrP2]; · iexact HrP2
  isplitl [Hoy3]; · iexact Hoy3
  isplitl [Hoy1]; · iexact Hoy1
  isplitl [HtBy]; · iexact HtBy
  isplitl [HcB1]; · iexact HcB1
  isplitl [HcB2]; · iexact HcB2
  isplitl [HaB]; · iexact HaB
  iintro %v4 %v9 %v10 %v18 %v20 %v21 %v25 %v26 %c19 ⟨HO, HaB, DxRPf, DxRPo, DxRQ2, DxO2, DxO0, DyRQf, DyRQo, DyRP2, DyO3, DyO1⟩
  icases HO with ⟨%W1, HO⟩
  try dsimp only
  -- part 2
  rw [wp_bind]
  iapply (part2_spec m c K v4 v9 v10 v18 v20 v21 v25 v26 c19 _)
  isplitr; · iexact HR
  isplitr; · iexact Hlev
  isplitl [Hx0]; · iexact Hx0
  isplitl [DxRPf]; · iexact DxRPf
  isplitl [HtS0]; · iexact HtS0
  isplitl [HtR0]; · iexact HtR0
  isplitl [HO]; · (iexists _; iexact HO)
  isplitl [Hx1]; · iexact Hx1
  isplitl [DyRQf]; · iexact DyRQf
  isplitl [HtS1]; · iexact HtS1
  isplitl [HtR1]; · iexact HtR1
  isplitl [Hx2]; · iexact Hx2
  isplitl [DxRPo]; · iexact DxRPo
  isplitl [HtS2]; · iexact HtS2
  isplitl [HtR2]; · iexact HtR2
  iintro %v30 %v31 ⟨HO, HcS0, HcS1, HcS2⟩
  icases HO with ⟨%W2, HO⟩
  try dsimp only
  -- part 3
  rw [wp_bind]
  iapply (part3_spec m c K v10 _)
  isplitr; · iexact HR
  isplitr; · iexact Hlev
  isplitl [Hx3]; · iexact Hx3
  isplitl [DyRQo]; · iexact DyRQo
  isplitl [HtS3]; · iexact HtS3
  isplitl [HtR3]; · iexact HtR3
  isplitl [HO]; · (iexists _; iexact HO)
  isplitl [Hx4]; · iexact Hx4
  isplitl [HaPf]; · iexact HaPf
  isplitl [HtL0]; · iexact HtL0
  isplitl [Hx5]; · iexact Hx5
  isplitl [HaQf]; · iexact HaQf
  isplitl [HtL1]; · iexact HtL1
  isplitl [Hx6]; · iexact Hx6
  isplitl [HaPo]; · iexact HaPo
  isplitl [HtL2]; · iexact HtL2
  isplitl [Hx7]; · iexact Hx7
  isplitl [HaQo]; · iexact HaQo
  isplitl [HtL3]; · iexact HtL3
  isplitl [Ha24]; · iexact Ha24
  iintro ⟨HO, HcS3, HcL1, HcL2, HcL3, Ha24, HaPf⟩
  icases HO with ⟨%W3, HO⟩
  try dsimp only
  -- part 4
  rw [wp_bind]
  iapply (part4_spec m c K v9 v10 v20 _)
  isplitr; · iexact HR
  isplitr; · iexact Hlev
  isplitl [HcL1]; · iexact HcL1
  isplitl [HO]; · (iexists _; iexact HO)
  isplitl [Ha25]; · iexact Ha25
  isplitl [HcS0]; · iexact HcS0
  isplitl [Ha0]; · iexact Ha0
  isplitl [HcR0]; · iexact HcR0
  isplitl [Ha12]; · iexact Ha12
  isplitl [HcS1]; · iexact HcS1
  isplitl [Ha1]; · iexact Ha1
  isplitl [HcR1]; · iexact HcR1
  isplitl [Ha13]; · iexact Ha13
  isplitl [HaPf]; · iexact HaPf
  iintro ⟨HO, Ha25, HaQf, Ha0, Ha12, HrPf, Ha1, Ha13, HrQf, HaPf⟩
  icases HO with ⟨%W4, HO⟩
  try dsimp only
  -- part 5
  rw [wp_bind]
  iapply (part5_spec m c K v9 v10 v30 _)
  isplitr; · iexact HR
  isplitr; · iexact Hlev
  isplitl [HaPf]; · iexact HaPf
  isplitl [HaQf]; · iexact HaQf
  isplitl [HrQf]; · iexact HrQf
  isplitl [DyRP2]; · iexact DyRP2
  isplitl [HtS4]; · iexact HtS4
  isplitl [HtR4]; · iexact HtR4
  isplitl [HO]; · (iexists _; iexact HO)
  isplitl [DxRQ2]; · iexact DxRQ2
  isplitl [HtS5]; · iexact HtS5
  isplitl [HtR5]; · iexact HtR5
  isplitl [HcL2]; · iexact HcL2
  isplitl [Ha26]; · iexact Ha26
  isplitl [HcL3]; · iexact HcL3
  isplitl [Ha27]; · iexact Ha27
  iintro ⟨HrQf, HO, HcS4, HcS5, Ha26, HaPo, Ha27, HaQo⟩
  icases HO with ⟨%W5, HO⟩
  try dsimp only
  -- part 6
  rw [wp_bind]
  iapply (part6_spec m c K v9 v10 v21 v31 _)
  isplitr; · iexact HR
  isplitr; · iexact Hlev
  isplitl [HcS2]; · iexact HcS2
  isplitl [HO]; · (iexists _; iexact HO)
  isplitl [Ha2]; · iexact Ha2
  isplitl [HcR2]; · iexact HcR2
  isplitl [Ha14]; · iexact Ha14
  isplitl [HcS3]; · iexact HcS3
  isplitl [Ha3]; · iexact Ha3
  isplitl [HcR3]; · iexact HcR3
  isplitl [Ha15]; · iexact Ha15
  isplitl [HaPo]; · iexact HaPo
  isplitl [HaQo]; · iexact HaQo
  iintro ⟨HO, Ha2, Ha14, HrPo, Ha3, Ha15, HrQo, HaPo, HaQo⟩
  icases HO with ⟨%W6, HO⟩
  try dsimp only
  -- part 7
  rw [wp_bind]
  iapply (part7_spec m c K v9 v10 v21 v31 _)
  isplitr; · iexact HR
  isplitr; · iexact Hlev
  isplitl [HrQo]; · iexact HrQo
  isplitl [HaQo]; · iexact HaQo
  isplitl [HcS4]; · iexact HcS4
  isplitl [HO]; · (iexists _; iexact HO)
  isplitl [Ha4]; · iexact Ha4
  isplitl [HcR4]; · iexact HcR4
  isplitl [Ha16]; · iexact Ha16
  isplitl [HcS5]; · iexact HcS5
  isplitl [Ha5]; · iexact Ha5
  isplitl [HcR5]; · iexact HcR5
  isplitl [Ha17]; · iexact Ha17
  isplitl [HaPo]; · iexact HaPo
  iintro ⟨HrQo, HaQo, HO, Ha4, Ha16, HrP2, HyaPo, Ha5, Ha17, HrQ2, HxaQo, HaPo⟩
  icases HO with ⟨%W7, HO⟩
  try dsimp only
  -- part 8
  rw [wp_bind]
  iapply (part8_spec m c K v9 v10 v31 _)
  isplitr; · iexact HR
  isplitr; · iexact Hlev
  isplitl [HaQo]; · iexact HaQo
  isplitl [HrQ2]; · iexact HrQ2
  isplitl [HaPo]; · iexact HaPo
  isplitl [Hob2]; · iexact Hob2
  isplitl [HtL4]; · iexact HtL4
  isplitl [Hob3]; · iexact Hob3
  isplitl [HtL5]; · iexact HtL5
  isplitl [HyaPo]; · iexact HyaPo
  isplitl [HtS6]; · iexact HtS6
  isplitl [HtR6]; · iexact HtR6
  isplitl [HO]; · (iexists _; iexact HO)
  isplitl [HxaQo]; · iexact HxaQo
  isplitl [HtS7]; · iexact HtS7
  isplitl [HtR7]; · iexact HtR7
  iintro ⟨HrQ2, HaPoRR, HaQoRR, HcL4, HcL5, HO, HcS6, HcS7⟩
  icases HO with ⟨%W8, HO⟩
  try dsimp only
  -- part 9
  rw [wp_bind]
  iapply (part9_spec m c K v9 v10 _)
  isplitr; · iexact HR
  isplitr; · iexact Hlev
  isplitl [HaPoRR]; · iexact HaPoRR
  isplitl [DxO2]; · iexact DxO2
  isplitl [HtS8]; · iexact HtS8
  isplitl [HtR8]; · iexact HtR8
  isplitl [HO]; · (iexists _; iexact HO)
  isplitl [HaQoRR]; · iexact HaQoRR
  isplitl [DyO3]; · iexact DyO3
  isplitl [HtS9]; · iexact HtS9
  isplitl [HtR9]; · iexact HtR9
  isplitl [HcS6]; · iexact HcS6
  isplitl [Ha6]; · iexact Ha6
  isplitl [HcR6]; · iexact HcR6
  isplitl [Ha18]; · iexact Ha18
  iintro ⟨HO, HcS8, HcS9, Ha6, HaPoRL, Ha18, HaPf⟩
  icases HO with ⟨%W9, HO⟩
  try dsimp only
  -- part 10
  rw [wp_bind]
  iapply (part10_spec m c K v9 v10 _)
  isplitr; · iexact HR
  isplitr; · iexact Hlev
  isplitl [HcS7]; · iexact HcS7
  isplitl [HO]; · (iexists _; iexact HO)
  isplitl [Ha7]; · iexact Ha7
  isplitl [HcR7]; · iexact HcR7
  isplitl [Ha19]; · iexact Ha19
  isplitl [HaPf]; · iexact HaPf
  isplitl [Hob0]; · iexact Hob0
  isplitl [HtL6]; · iexact HtL6
  isplitl [Hob1]; · iexact Hob1
  isplitl [HtL7]; · iexact HtL7
  isplitl [DxO0]; · iexact DxO0
  isplitl [HtS10]; · iexact HtS10
  isplitl [HtR10]; · iexact HtR10
  iintro ⟨HO, Ha7, HaQoRL, Ha19, HaQfR, HcL6, HcL7, HcS10⟩
  icases HO with ⟨%W10, HO⟩
  try dsimp only
  -- part 11
  rw [wp_bind]
  iapply (part11_spec m c K v9 v10 _)
  isplitr; · iexact HR
  isplitr; · iexact Hlev
  isplitl [HaQfR]; · iexact HaQfR
  isplitl [DyO1]; · iexact DyO1
  isplitl [HtS11]; · iexact HtS11
  isplitl [HtR11]; · iexact HtR11
  isplitl [HO]; · (iexists _; iexact HO)
  isplitl [HcS8]; · iexact HcS8
  isplitl [Ha8]; · iexact Ha8
  isplitl [HcR8]; · iexact HcR8
  isplitl [Ha20]; · iexact Ha20
  isplitl [HcS9]; · iexact HcS9
  isplitl [Ha9]; · iexact Ha9
  isplitl [HcR9]; · iexact HcR9
  isplitl [Ha21]; · iexact Ha21
  isplitl [HcS10]; · iexact HcS10
  isplitl [Ha10]; · iexact Ha10
  iintro %w ⟨HO, HcS11, Ha8, HaPoRR, Ha20, HoX2, Ha9, HaQoRR, Ha21, HoY3, Ha10, HaPfR⟩
  icases HO with ⟨%W11, HO⟩
  try dsimp only
  -- part 12
  rw [wp_bind]
  iapply (part12_spec m c K v9 v10 w _)
  isplitr; · iexact HR
  isplitr; · iexact Hlev
  isplitl [HcR10]; · iexact HcR10
  isplitl [HO]; · (iexists _; iexact HO)
  isplitl [Ha22]; · iexact Ha22
  isplitl [HcS11]; · iexact HcS11
  isplitl [Ha11]; · iexact Ha11
  isplitl [HcR11]; · iexact HcR11
  isplitl [Ha23]; · iexact Ha23
  isplitl [HcL4]; · iexact HcL4
  isplitl [Ha28]; · iexact Ha28
  isplitl [HcL5]; · iexact HcL5
  isplitl [Ha29]; · iexact Ha29
  isplitl [HcL6]; · iexact HcL6
  isplitl [Ha30]; · iexact Ha30
  iintro ⟨HO, Ha22, HoX0, Ha11, HaQfR, Ha23, HoY1, Ha28, Hob2, HaPoL, Ha29, Hob3, HaQoL, Ha30, Hob0, HaPfL⟩
  icases HO with ⟨%W12, HO⟩
  try dsimp only
  -- the tail of the body
  simp only [Prog.lift, Prog.bind_op, Prog.bind_ret, Prog.pure_eq_ret]
  ihave HM := (mayWait_rest (F := F) c (.dma (31 : DmaSem sig)) 0 (by decide)) $$ Hlev
  iapply (wait_dma m c (31 : DmaSem sig) (by rfl) (K (c, .dma (31 : DmaSem sig))) (Orest c 0) _) $$ [HcL7 HO HM Ha31]
  · isplitr; · (iapply (inv_at m K (c, .dma (31 : DmaSem sig))) <;> iexact HR)
    isplitl [HcL7]; · iexact HcL7
    isplitl [HO]; · iexact HO
    isplitl [HM]; · iexact HM
    iexact Ha31
  iintro ⟨HO, Ha31, Hp⟩
  ihave Hp' := (show Pd m c (31 : DmaSem sig) ⊢ (iprop(ow c (oB1 c) fullShare (tQ m (px c)) ∗ ow c (aQf c) fullShare.left (tQ m (px c))) : sProp 𝕄) from BI.Entails.refl _) $$ Hp
  icases Hp' with ⟨Hob1, HaQfL⟩
  -- every DMA cell's one round is consumed: the cells close, their counters at zero
  imod (close_cell m (dCell c (0 : DmaSem sig)) (K (c, .dma (0 : DmaSem sig)))) $$ [Ha0] with Hz0
  · isplitr; · (iapply (inv_at m K (c, .dma (0 : DmaSem sig))) <;> iexact HR)
    iexact Ha0
  imod (close_cell m (dCell c (1 : DmaSem sig)) (K (c, .dma (1 : DmaSem sig)))) $$ [Ha1] with Hz1
  · isplitr; · (iapply (inv_at m K (c, .dma (1 : DmaSem sig))) <;> iexact HR)
    iexact Ha1
  imod (close_cell m (dCell c (2 : DmaSem sig)) (K (c, .dma (2 : DmaSem sig)))) $$ [Ha2] with Hz2
  · isplitr; · (iapply (inv_at m K (c, .dma (2 : DmaSem sig))) <;> iexact HR)
    iexact Ha2
  imod (close_cell m (dCell c (3 : DmaSem sig)) (K (c, .dma (3 : DmaSem sig)))) $$ [Ha3] with Hz3
  · isplitr; · (iapply (inv_at m K (c, .dma (3 : DmaSem sig))) <;> iexact HR)
    iexact Ha3
  imod (close_cell m (dCell c (4 : DmaSem sig)) (K (c, .dma (4 : DmaSem sig)))) $$ [Ha4] with Hz4
  · isplitr; · (iapply (inv_at m K (c, .dma (4 : DmaSem sig))) <;> iexact HR)
    iexact Ha4
  imod (close_cell m (dCell c (5 : DmaSem sig)) (K (c, .dma (5 : DmaSem sig)))) $$ [Ha5] with Hz5
  · isplitr; · (iapply (inv_at m K (c, .dma (5 : DmaSem sig))) <;> iexact HR)
    iexact Ha5
  imod (close_cell m (dCell c (6 : DmaSem sig)) (K (c, .dma (6 : DmaSem sig)))) $$ [Ha6] with Hz6
  · isplitr; · (iapply (inv_at m K (c, .dma (6 : DmaSem sig))) <;> iexact HR)
    iexact Ha6
  imod (close_cell m (dCell c (7 : DmaSem sig)) (K (c, .dma (7 : DmaSem sig)))) $$ [Ha7] with Hz7
  · isplitr; · (iapply (inv_at m K (c, .dma (7 : DmaSem sig))) <;> iexact HR)
    iexact Ha7
  imod (close_cell m (dCell c (8 : DmaSem sig)) (K (c, .dma (8 : DmaSem sig)))) $$ [Ha8] with Hz8
  · isplitr; · (iapply (inv_at m K (c, .dma (8 : DmaSem sig))) <;> iexact HR)
    iexact Ha8
  imod (close_cell m (dCell c (9 : DmaSem sig)) (K (c, .dma (9 : DmaSem sig)))) $$ [Ha9] with Hz9
  · isplitr; · (iapply (inv_at m K (c, .dma (9 : DmaSem sig))) <;> iexact HR)
    iexact Ha9
  imod (close_cell m (dCell c (10 : DmaSem sig)) (K (c, .dma (10 : DmaSem sig)))) $$ [Ha10] with Hz10
  · isplitr; · (iapply (inv_at m K (c, .dma (10 : DmaSem sig))) <;> iexact HR)
    iexact Ha10
  imod (close_cell m (dCell c (11 : DmaSem sig)) (K (c, .dma (11 : DmaSem sig)))) $$ [Ha11] with Hz11
  · isplitr; · (iapply (inv_at m K (c, .dma (11 : DmaSem sig))) <;> iexact HR)
    iexact Ha11
  imod (close_cell m (dCell c (12 : DmaSem sig)) (K (c, .dma (12 : DmaSem sig)))) $$ [Ha12] with Hz12
  · isplitr; · (iapply (inv_at m K (c, .dma (12 : DmaSem sig))) <;> iexact HR)
    iexact Ha12
  imod (close_cell m (dCell c (13 : DmaSem sig)) (K (c, .dma (13 : DmaSem sig)))) $$ [Ha13] with Hz13
  · isplitr; · (iapply (inv_at m K (c, .dma (13 : DmaSem sig))) <;> iexact HR)
    iexact Ha13
  imod (close_cell m (dCell c (14 : DmaSem sig)) (K (c, .dma (14 : DmaSem sig)))) $$ [Ha14] with Hz14
  · isplitr; · (iapply (inv_at m K (c, .dma (14 : DmaSem sig))) <;> iexact HR)
    iexact Ha14
  imod (close_cell m (dCell c (15 : DmaSem sig)) (K (c, .dma (15 : DmaSem sig)))) $$ [Ha15] with Hz15
  · isplitr; · (iapply (inv_at m K (c, .dma (15 : DmaSem sig))) <;> iexact HR)
    iexact Ha15
  imod (close_cell m (dCell c (16 : DmaSem sig)) (K (c, .dma (16 : DmaSem sig)))) $$ [Ha16] with Hz16
  · isplitr; · (iapply (inv_at m K (c, .dma (16 : DmaSem sig))) <;> iexact HR)
    iexact Ha16
  imod (close_cell m (dCell c (17 : DmaSem sig)) (K (c, .dma (17 : DmaSem sig)))) $$ [Ha17] with Hz17
  · isplitr; · (iapply (inv_at m K (c, .dma (17 : DmaSem sig))) <;> iexact HR)
    iexact Ha17
  imod (close_cell m (dCell c (18 : DmaSem sig)) (K (c, .dma (18 : DmaSem sig)))) $$ [Ha18] with Hz18
  · isplitr; · (iapply (inv_at m K (c, .dma (18 : DmaSem sig))) <;> iexact HR)
    iexact Ha18
  imod (close_cell m (dCell c (19 : DmaSem sig)) (K (c, .dma (19 : DmaSem sig)))) $$ [Ha19] with Hz19
  · isplitr; · (iapply (inv_at m K (c, .dma (19 : DmaSem sig))) <;> iexact HR)
    iexact Ha19
  imod (close_cell m (dCell c (20 : DmaSem sig)) (K (c, .dma (20 : DmaSem sig)))) $$ [Ha20] with Hz20
  · isplitr; · (iapply (inv_at m K (c, .dma (20 : DmaSem sig))) <;> iexact HR)
    iexact Ha20
  imod (close_cell m (dCell c (21 : DmaSem sig)) (K (c, .dma (21 : DmaSem sig)))) $$ [Ha21] with Hz21
  · isplitr; · (iapply (inv_at m K (c, .dma (21 : DmaSem sig))) <;> iexact HR)
    iexact Ha21
  imod (close_cell m (dCell c (22 : DmaSem sig)) (K (c, .dma (22 : DmaSem sig)))) $$ [Ha22] with Hz22
  · isplitr; · (iapply (inv_at m K (c, .dma (22 : DmaSem sig))) <;> iexact HR)
    iexact Ha22
  imod (close_cell m (dCell c (23 : DmaSem sig)) (K (c, .dma (23 : DmaSem sig)))) $$ [Ha23] with Hz23
  · isplitr; · (iapply (inv_at m K (c, .dma (23 : DmaSem sig))) <;> iexact HR)
    iexact Ha23
  imod (close_cell m (dCell c (24 : DmaSem sig)) (K (c, .dma (24 : DmaSem sig)))) $$ [Ha24] with Hz24
  · isplitr; · (iapply (inv_at m K (c, .dma (24 : DmaSem sig))) <;> iexact HR)
    iexact Ha24
  imod (close_cell m (dCell c (25 : DmaSem sig)) (K (c, .dma (25 : DmaSem sig)))) $$ [Ha25] with Hz25
  · isplitr; · (iapply (inv_at m K (c, .dma (25 : DmaSem sig))) <;> iexact HR)
    iexact Ha25
  imod (close_cell m (dCell c (26 : DmaSem sig)) (K (c, .dma (26 : DmaSem sig)))) $$ [Ha26] with Hz26
  · isplitr; · (iapply (inv_at m K (c, .dma (26 : DmaSem sig))) <;> iexact HR)
    iexact Ha26
  imod (close_cell m (dCell c (27 : DmaSem sig)) (K (c, .dma (27 : DmaSem sig)))) $$ [Ha27] with Hz27
  · isplitr; · (iapply (inv_at m K (c, .dma (27 : DmaSem sig))) <;> iexact HR)
    iexact Ha27
  imod (close_cell m (dCell c (28 : DmaSem sig)) (K (c, .dma (28 : DmaSem sig)))) $$ [Ha28] with Hz28
  · isplitr; · (iapply (inv_at m K (c, .dma (28 : DmaSem sig))) <;> iexact HR)
    iexact Ha28
  imod (close_cell m (dCell c (29 : DmaSem sig)) (K (c, .dma (29 : DmaSem sig)))) $$ [Ha29] with Hz29
  · isplitr; · (iapply (inv_at m K (c, .dma (29 : DmaSem sig))) <;> iexact HR)
    iexact Ha29
  imod (close_cell m (dCell c (30 : DmaSem sig)) (K (c, .dma (30 : DmaSem sig)))) $$ [Ha30] with Hz30
  · isplitr; · (iapply (inv_at m K (c, .dma (30 : DmaSem sig))) <;> iexact HR)
    iexact Ha30
  imod (close_cell m (dCell c (31 : DmaSem sig)) (K (c, .dma (31 : DmaSem sig)))) $$ [Ha31] with Hz31
  · isplitr; · (iapply (inv_at m K (c, .dma (31 : DmaSem sig))) <;> iexact HR)
    iexact Ha31
  -- the shares of the accumulators' blocks joined, the blocks joined into the buffers
  ihave HaPoR := (owns_share c (aPo c) (PosShare.mem_left_op_right fullShare.right) (tP m c)).2 $$ [HaPoRL HaPoRR]
  · isplitl [HaPoRL] <;> iassumption
  ihave HaPo := (owns_share c (aPo c) (PosShare.mem_left_op_right fullShare) (tP m c)).2 $$ [HaPoL HaPoR]
  · isplitl [HaPoL] <;> iassumption
  ihave HaQoR := (owns_share c (aQo c) (PosShare.mem_left_op_right fullShare.right) (tQ m c)).2 $$ [HaQoRL HaQoRR]
  · isplitl [HaQoRL] <;> iassumption
  ihave HaQo := (owns_share c (aQo c) (PosShare.mem_left_op_right fullShare) (tQ m c)).2 $$ [HaQoL HaQoR]
  · isplitl [HaQoL] <;> iassumption
  ihave HaPf := (owns_share c (aPf c) (PosShare.mem_left_op_right fullShare) (tP m (py c))).2 $$ [HaPfL HaPfR]
  · isplitl [HaPfL] <;> iassumption
  ihave HaQf := (owns_share c (aQf c) (PosShare.mem_left_op_right fullShare) (tQ m (px c))).2 $$ [HaQfL HaQfR]
  · isplitl [HaQfL] <;> iassumption
  ihave Hs0 := ((ow_join2 c aP (k0_off1_inb c) (k0_off5_inb c) (pair15 c) (col1 c) (col5 c) _ _).trans (scr_of_join c cc0_scratch0)) $$ [HaPf HaPo]
  · isplitl [HaPf] <;> iassumption
  ihave Hs1 := ((ow_join2 c aQ (k0_off3_inb c) (k0_off7_inb c) (pair37 c) (col3 c) (col7 c) _ _).trans (scr_of_join c cc0_scratch1)) $$ [HaQf HaQo]
  · isplitl [HaQf] <;> iassumption
  ihave Hs2 := ((ow_join2 c rP1 (k0_off1_inb c) (k0_off5_inb c) (pair15 c) (col1 c) (col5 c) _ _).trans (scr_of_join c cc0_scratch2)) $$ [HrPf HrPo]
  · isplitl [HrPf] <;> iassumption
  ihave Hs4 := ((ow_join2 c rQ1 (k0_off3_inb c) (k0_off7_inb c) (pair37 c) (col3 c) (col7 c) _ _).trans (scr_of_join c cc0_scratch4)) $$ [HrQf HrQo]
  · isplitl [HrQf] <;> iassumption
  ihave Hs3 := (scr_of_rP2 c _) $$ HrP2
  ihave Hs5 := (scr_of_rQ2 c _) $$ HrQ2
  rw [wp_ret]; imodintro
  iapply Hk
  isplitr [HO]
  · unfold Φ₁ outs scr
    rw [bigSep_dma]
    isplitl [HxK]; · iexact HxK
    isplitl [Hob2 Hob3 Hob0 Hob1 HoX2 HoY3 HoX0 HoY1]
    · isplitl [Hob2]; · iexact Hob2
      isplitl [Hob3]; · iexact Hob3
      isplitl [Hob0]; · iexact Hob0
      isplitl [Hob1]; · iexact Hob1
      isplitl [HoX2]; · iexact HoX2
      isplitl [HoY3]; · iexact HoY3
      isplitl [HoX0]; · iexact HoX0
      iexact HoY1
    isplitl [Hz0 Hz1 Hz2 Hz3 Hz4 Hz5 Hz6 Hz7 Hz8 Hz9 Hz10 Hz11 Hz12 Hz13 Hz14 Hz15 Hz16 Hz17 Hz18 Hz19 Hz20 Hz21 Hz22 Hz23 Hz24 Hz25 Hz26 Hz27 Hz28 Hz29 Hz30 Hz31]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      isplitl [Hz10]; · iexact Hz10
      isplitl [Hz11]; · iexact Hz11
      isplitl [Hz12]; · iexact Hz12
      isplitl [Hz13]; · iexact Hz13
      isplitl [Hz14]; · iexact Hz14
      isplitl [Hz15]; · iexact Hz15
      isplitl [Hz16]; · iexact Hz16
      isplitl [Hz17]; · iexact Hz17
      isplitl [Hz18]; · iexact Hz18
      isplitl [Hz19]; · iexact Hz19
      isplitl [Hz20]; · iexact Hz20
      isplitl [Hz21]; · iexact Hz21
      isplitl [Hz22]; · iexact Hz22
      isplitl [Hz23]; · iexact Hz23
      isplitl [Hz24]; · iexact Hz24
      isplitl [Hz25]; · iexact Hz25
      isplitl [Hz26]; · iexact Hz26
      isplitl [Hz27]; · iexact Hz27
      isplitl [Hz28]; · iexact Hz28
      isplitl [Hz29]; · iexact Hz29
      isplitl [Hz30]; · iexact Hz30
      iexact Hz31
    isplitl [Hs0]; · iexact Hs0
    isplitl [Hs1]; · iexact Hs1
    isplitl [Hs2]; · iexact Hs2
    isplitl [Hs3]; · iexact Hs3
    isplitl [Hs4]; · iexact Hs4
    iexact Hs5
  · iexists _; iexact HO

end Body

end Cert.Kernel.Hand

end
-- ==== Proof.KLaunch.lean ====
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.KBody
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

set_option maxRecDepth 8000 in
theorem body_obligation (c : Dev nD) : Pipeline.BodyObligationLoose (dats (F := F) m 0 c) (defs₀ (F := F)) 𝒱₀ () Set.univ := fun t => by
  rw [fin_N0 t]
  simp only [Finset.univ_eq_empty, bigSep_empty]
  show iprop(Φ₀ m c ∗ (dats (F := F) m 0 c).owesAt () (t0_0 : Fin cfg0.N).castSucc ∗ emp)
    ⊢ wp frame (wpE (defs₀ (F := F)) 𝒱₀ c none) Set.univ (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8)
        (fun _ => iprop(Φ₁ m c ∗ (dats (F := F) m 0 c).owesAt () (t0_0 : Fin cfg0.N).succ ∗ emp))
  unfold Φ₀ start Dat.owesAt Pipeline.owesWithin
  iintro ⟨⟨⟨⟨%K, Hg⟩, HcR, Hc1, Hc2, Hlev, Hx, Hout⟩, Hscr⟩, ⟨%W, %hW, HO⟩, -⟩
  rw [show (dats (F := F) m 0 c).owed (t0_0 : Fin cfg0.N).castSucc = O₀ c from rfl]
  iapply (sound_body m c K W _)
  isplitl [Hg HcR Hc1 Hc2 Hlev Hx Hout Hscr HO]
  · isplitl [Hg]; · iexact Hg
    isplitl [HcR]; · iexact HcR
    isplitl [Hc1]; · iexact Hc1
    isplitl [Hc2]; · iexact Hc2
    isplitl [Hlev]; · iexact Hlev
    isplitl [Hx]; · iexact Hx
    isplitl [Hout]; · iexact Hout
    isplitl [Hscr]; · iexact Hscr
    iexact HO
  · iintro ⟨HΦ, ⟨%W', HO⟩⟩
    isplitl [HΦ]; · iexact HΦ
    isplitl [HO]
    · rw [show (dats (F := F) m 0 c).owed (t0_0 : Fin cfg0.N).succ = 0 from rfl]
      iexists W'
      isplitr; · (ipureintro; exact fun _ _ => Or.inl trivial)
      iexact HO
    · iempintro

/-! ## The launch -/

abbrev osem : DmaSem sig → SemLoc sig := fun k => .dma k
theorem ownSemFacts : Pipeline.OwnSemFacts cfg0.spec osem := by decide

theorem share_eq (c : Dev nD) (w : Fin cfg0.W) : (dats (F := F) m 0 c).share w = fullShare := w.elim0

theorem kcell_injective : Function.Injective (kcell : Dev nD × SemLoc sig → GSem nD τ sig) := by
  rintro ⟨c, s⟩ ⟨c', s'⟩ h
  have h1 : c = c' := congrArg (fun g : GSem nD τ sig => g.1.1) h
  have h2 : s = s' := congrArg Prod.snd h
  subst h1; subst h2; rfl
def ringCells : Finset (GSem nD τ sig) := Finset.univ.map ⟨kcell, kcell_injective⟩

/-- The DMA cells, grouped: receive, send, local. -/
abbrev dIx : Fin 12 ⊕ (Fin 12 ⊕ Fin 8) → DmaSem sig
  | .inl k => rIx k | .inr (.inl k) => sIx k | .inr (.inr k) => lIx k
theorem dIx_injective : Function.Injective dIx := by decide

/-- A device's own cells' duty tokens as minted: its barrier cell's two, one per DMA cell. -/
abbrev tokOf (cj : Dev nD × (Bool ⊕ (Fin 12 ⊕ (Fin 12 ⊕ Fin 8)))) : GSem nD τ sig × ℕ × Bool := match cj.2 with
  | .inl d => (barCell cj.1, 0, d) | .inr k => (dCell cj.1 (dIx k), 0, false)
theorem tokOf_injective : Function.Injective (tokOf : Dev nD × (Bool ⊕ (Fin 12 ⊕ (Fin 12 ⊕ Fin 8))) → GSem nD τ sig × ℕ × Bool) := by
  rintro ⟨c, j⟩ ⟨c', j'⟩ h
  have h1 : c = c' := by
    have := congrArg (fun x : GSem nD τ sig × ℕ × Bool => x.1.1.1) h
    cases j <;> cases j' <;> exact this
  subst h1
  cases j with
  | inl d => cases j' with
    | inl d' => have := congrArg (fun x : GSem nD τ sig × ℕ × Bool => x.2.2) h; exact congrArg (fun d => (c, Sum.inl d)) this
    | inr k' => exact absurd (congrArg (fun x : GSem nD τ sig × ℕ × Bool => x.1.2) h) (fun h' => by cases h')
  | inr k => cases j' with
    | inl d' => exact absurd (congrArg (fun x : GSem nD τ sig × ℕ × Bool => x.1.2) h) (fun h' => by cases h')
    | inr k' =>
      have h2 : (SemLoc.dma (dIx k) : SemLoc sig) = .dma (dIx k') := congrArg (fun x : GSem nD τ sig × ℕ × Bool => x.1.2) h
      have h3 : dIx k = dIx k' := SemLoc.dma.inj h2
      have := dIx_injective h3
      subst this; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ dutyTok ER (barCell c) 0 true)
    ∗ (bigSep Finset.univ fun k : Fin 12 => dutyTok ER (dCell c (rIx k)) 0 false)
    ∗ (bigSep Finset.univ fun k : Fin 12 => dutyTok ER (dCell c (sIx k)) 0 false)
    ∗ (bigSep Finset.univ fun k : Fin 8 => dutyTok ER (dCell c (lIx k)) 0 false))

/-- What the launch element deals device `c`. -/
def G (c : Dev nD) : sProp 𝕄 :=
  iprop((bigSep Finset.univ fun sm : SemLoc sig => roundState ER (Rd m) (kcell (c, sm)) 0)
    ∗ (bigSep Finset.univ fun sm : SemLoc sig => iprop(atPos ER (kcell (c, sm)) 0 ∅ 0 ∗ reached ER (kcell (c, sm)) 0)) ∗ toks c)

/-- What the global step makes of it. -/
def G' (c : Dev nD) : sProp 𝕄 := iprop(∃ K, ghost m K c)

theorem bigSep_bool (Φ : Bool → sProp 𝕄) : bigSep Finset.univ Φ = iprop(Φ false ∗ Φ true) :=
  bigSep_univ_eq_bigSepL [false, true] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun sm : SemLoc sig => Φ (kcell (c, sm)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_bool, bigSep_univ_sum, bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun k : DmaSem sig => semVal (dCell c k) 0 := rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun sm : SemLoc sig => semVal (kcell (c, sm)) 0 : sProp 𝕄) := by
  rw [ownSems0_eq, unscopedSems0_eq, bigSep_semLoc, bigSep_dma]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm : SemLoc sig => iprop(∃ κ : ℕ, cellInv ER (Rd m) κ (kcell (c, sm))))
          ∗ (bigSep Finset.univ fun sm : SemLoc sig => iprop(atPos ER (kcell (c, sm)) 0 ∅ 0 ∗ reached ER (kcell (c, sm)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun sm : SemLoc sig => semVal (kcell (c, sm)) 0) ∗ bigSep Finset.univ fun sm : SemLoc sig => roundState ER (Rd m) (kcell (c, sm)) 0)
      ⊢ (|={Set.univ}=> bigSep Finset.univ fun sm : SemLoc sig => iprop(∃ κ : ℕ, cellInv ER (Rd m) κ (kcell (c, sm))) : sProp 𝕄) from by
        rw [← bigSep_sep']
        exact (bigSep_mono fun sm _ => (Rounds.body_intro ER (Rd m) (kcell (c, sm))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt to the devices that pay them: a barrier cell's `false` token to its `px` partner, its `true` token to its
    `py` partner, receive cell `k`'s to transfer `k`'s peer; send and local cells' stay. -/
theorem toks_around : (bigSep Finset.univ fun c : Dev nD => (toks c : sProp 𝕄)) ⊢ bigSep Finset.univ fun c : Dev nD => payToks c := by
  have hR : (bigSep Finset.univ fun c : Dev nD => bigSep Finset.univ fun k : Fin 12 => (dutyTok ER (dCell c (rIx k)) 0 false : sProp 𝕄))
      = bigSep Finset.univ fun c : Dev nD => bigSep Finset.univ fun k : Fin 12 => dutyTok ER (dCell (peer k c) (rIx k)) 0 false := by
    rw [bigSep_univ_comm, bigSep_univ_comm (fun (c : Dev nD) (k : Fin 12) => (dutyTok ER (dCell (peer k c) (rIx k)) 0 false : sProp 𝕄))]
    exact bigSep_congr fun k _ => bigSep_univ_equiv ⟨peer k, peer k, peer_peer k, peer_peer k⟩ (fun c : Dev nD => (dutyTok ER (dCell c (rIx k)) 0 false : sProp 𝕄))
  unfold toks payToks
  rw [bigSep_sep', bigSep_sep', bigSep_sep', bigSep_sep', bigSep_sep', bigSep_sep', bigSep_sep', bigSep_sep',
    bigSep_univ_equiv pxE (fun c : Dev nD => (dutyTok ER (barCell c) 0 false : sProp 𝕄)),
    bigSep_univ_equiv pyE (fun c : Dev nD => (dutyTok ER (barCell c) 0 true : sProp 𝕄)), hR]
  iintro ⟨⟨H1, H2⟩, H3, H4, H5⟩
  isplitl [H1]; · iexact H1
  isplitl [H2]; · iexact H2
  isplitl [H3]; · iexact H3
  isplitl [H4]; · iexact H4
  iexact H5

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun sm : SemLoc sig => iprop(∃ κ : ℕ, cellInv ER (Rd m) κ (kcell (c, sm))))
          ∗ (bigSep Finset.univ fun sm : SemLoc sig => iprop(atPos ER (kcell (c, sm)) 0 ∅ 0 ∗ reached ER (kcell (c, sm)) 0)) ∗ toks c) : sProp 𝕄)
      ⊢ bigSep Finset.univ (G' m) := by
  rw [bigSep_sep', bigSep_sep', ← bigSep_univ_prod (fun ck : Dev nD × SemLoc sig => iprop(∃ κ : ℕ, cellInv ER (Rd m) κ (kcell ck))),
    bigSep_congr (s := Finset.univ) (fun (c : Dev nD) _ => bigSep_sep' Finset.univ (fun sm : SemLoc sig => (atPos ER (kcell (c, sm)) 0 ∅ 0 : sProp 𝕄)) (fun sm => reached ER (kcell (c, sm)) 0)),
    bigSep_sep', ← bigSep_univ_prod (fun ck : Dev nD × SemLoc sig => (reached ER (kcell ck) 0 : sProp 𝕄))]
  iintro ⟨HI, ⟨Hat, #HRr⟩, Htok⟩
  ihave HK := (BI.bigSep_exists_pi Finset.univ (fun (ck : Dev nD × SemLoc sig) (κ : ℕ) => (cellInv ER (Rd m) κ (kcell ck) : sProp 𝕄))) $$ HI
  icases HK with ⟨%K, #HI⟩
  ihave Htk := (toks_around (F := F)) $$ Htok
  iapply (bigSep_with_persistent (R := records m K) fun c _ => show iprop(records m K ∗ iprop(poss c ∗ payToks c)) ⊢ G' m c from by
    unfold G' ghost
    iintro ⟨#HR, Hp, Ht⟩
    iexists K
    isplitr; · iexact HR
    isplitl [Hp] <;> iassumption)
  isplitr
  · unfold records; isplitl; · iexact HI
    iexact HRr
  · iapply (Entails.of_eq (bigSep_sep' Finset.univ (fun c : Dev nD => (poss c : sProp 𝕄)) payToks).symm)
    isplitl [Hat]; · (unfold poss; iexact Hat)
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hout⟩, Hlev, Hcr, -, HG⟩
  ihave Hc := (creds (F := F) c) $$ Hcr
  icases Hc with ⟨HR, H1, H2⟩
  imodintro
  unfold start G'
  isplitl
  · isplitl [HG]; · iexact HG
    isplitl [HR]; · iexact HR
    isplitl [H1]; · iexact H1
    isplitl [H2]; · iexact H2
    isplitl [Hlev]; · iexact Hlev
    isplitl [Hx]; · iexact Hx
    iexact Hout
  · iempintro

theorem phi0_intro (c : Dev nD) :
    iprop(start m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = Φ₀ m c from rfl, scopedRest0_eq]
  unfold Φ₀ scr
  iintro ⟨Hs, -, Hr⟩
  isplitl [Hs]; · iexact Hs
  iexact Hr

/-- What a device keeps after the kernel: half a share of its argument array, untouched, and its result's eight blocks. -/
def Yc (c : Dev nD) : sProp 𝕄 := iprop((((c : Thread nD τ).loc main_arg0) ↦{fullShare.left} X m c) ∗ outs m c)

theorem phi1_exit (c : Dev nD) :
    (dats (F := F) m 0 c).Φ (Fin.last cfg0.N) ⊢ iprop(Yc m c ∗ Pipeline.ownSems0 osem c ∗ Pipeline.scopedRest cfg0.spec c) := by
  rw [show (dats (F := F) m 0 c).Φ (Fin.last cfg0.N) = Φ₁ m c from rfl, scopedRest0_eq, ownSems0_eq]
  unfold Φ₁ Yc scr
  iintro ⟨Hx, Ho, Hz, Hs⟩
  isplitl [Hx Ho]
  · isplitl [Hx] <;> iassumption
  isplitl [Hz] <;> iassumption

theorem waits (c : Dev nD) : (levAts L lv : sProp 𝕄) ⊢ Pipeline.cellsWaits cfgs (dats (F := F) m) () 0 c :=
  Pipeline.cellsWaits_intro cfgs (dats m) () 0 c fun w s t => w.elim0

/-! ### The run -/

/-- What the run leaves on device `c`: its argument array as it was, and each of the result's eight blocks at its value. -/
def QYc (c : Dev nD) (s : MemSt nD τ sig (Elt F)) : Prop :=
  s.mem ((c : Thread nD τ).loc main_arg0) = m ((c : Thread nD τ).loc main_arg0)
  ∧ (oB2 c).view.read (Elt F) (s.mem ((c : Thread nD τ).loc main_v1)) = tP m c
  ∧ (oB3 c).view.read (Elt F) (s.mem ((c : Thread nD τ).loc main_v1)) = tQ m c
  ∧ (oB0 c).view.read (Elt F) (s.mem ((c : Thread nD τ).loc main_v1)) = tP m (py c)
  ∧ (oB1 c).view.read (Elt F) (s.mem ((c : Thread nD τ).loc main_v1)) = tQ m (px c)
  ∧ (oB2 (px c)).view.read (Elt F) (s.mem ((c : Thread nD τ).loc main_v1)) = tP m (px c)
  ∧ (oB3 (py c)).view.read (Elt F) (s.mem ((c : Thread nD τ).loc main_v1)) = tQ m (py c)
  ∧ (oB0 (px c)).view.read (Elt F) (s.mem ((c : Thread nD τ).loc main_v1)) = tP m (py (px c))
  ∧ (oB1 (py c)).view.read (Elt F) (s.mem ((c : Thread nD τ).loc main_v1)) = tQ m (px (py c))

theorem SI_ow (c : Dev nD) {sp : Space} {s : Shape} (M : Memref sig .tc sp s .f32) (q : PosShare TreeShare) (v : Vec F s .f32) (st : Phys nD τ sig (Elt F)) :
    (iprop(SI st ∗ ow c M q v) : sProp 𝕄) ⊢ ⌜M.view.read (Elt F) (st.mem.mem (M.view.loc (c : Thread nD τ))) = v⌝ := by
  unfold ow owns
  iintro ⟨HSI, ⟨%f, %hf, H⟩⟩
  ihave h := (SI_pointsTo_agree) $$ [HSI H]
  · isplitl [HSI] <;> iassumption
  icases h with %h
  ipureintro
  exact (View.read_congr h).trans hf

theorem hY (c : Dev nD) (s' : Phys nD τ sig (Elt F)) :
    (iprop(Yc m c ∗ iprop(emp) ∗ SI s') : sProp 𝕄) ⊢ |={Set.univ}=> iprop(⌜QYc m c s'.mem⌝ ∗ SI s') := by
  unfold Yc outs
  iintro ⟨⟨Hx, H1, H2, H3, H4, H5, H6, H7, H8⟩, -, HSI⟩
  ihave Hq := (persistent_entails_right (SI_pointsTo_agree)) $$ [HSI Hx]
  · isplitl [HSI] <;> iassumption
  icases Hq with ⟨%hx, HSI, Hx⟩
  ihave Hq := (persistent_entails_right (SI_ow c _ _ _ s')) $$ [HSI H1]
  · isplitl [HSI] <;> iassumption
  icases Hq with ⟨%h1, HSI, H1⟩
  ihave Hq := (persistent_entails_right (SI_ow c _ _ _ s')) $$ [HSI H2]
  · isplitl [HSI] <;> iassumption
  icases Hq with ⟨%h2, HSI, H2⟩
  ihave Hq := (persistent_entails_right (SI_ow c _ _ _ s')) $$ [HSI H3]
  · isplitl [HSI] <;> iassumption
  icases Hq with ⟨%h3, HSI, H3⟩
  ihave Hq := (persistent_entails_right (SI_ow c _ _ _ s')) $$ [HSI H4]
  · isplitl [HSI] <;> iassumption
  icases Hq with ⟨%h4, HSI, H4⟩
  ihave Hq := (persistent_entails_right (SI_ow c _ _ _ s')) $$ [HSI H5]
  · isplitl [HSI] <;> iassumption
  icases Hq with ⟨%h5, HSI, H5⟩
  ihave Hq := (persistent_entails_right (SI_ow c _ _ _ s')) $$ [HSI H6]
  · isplitl [HSI] <;> iassumption
  icases Hq with ⟨%h6, HSI, H6⟩
  ihave Hq := (persistent_entails_right (SI_ow c _ _ _ s')) $$ [HSI H7]
  · isplitl [HSI] <;> iassumption
  icases Hq with ⟨%h7, HSI, H7⟩
  ihave Hq := (persistent_entails_right (SI_ow c _ _ _ s')) $$ [HSI H8]
  · isplitl [HSI] <;> iassumption
  icases Hq with ⟨%h8, HSI, H8⟩
  imodintro
  isplitr
  · ipureintro
    exact ⟨funext fun i => hx i (Finset.mem_univ i), h1, h2, h3, h4, h5, h6, h7, h8⟩
  iexact HSI

set_option maxRecDepth 8000 in
/-- At the compiled mesh of four devices, for any float values, from any memory with zero counters: every weakly fair execution of
    @main terminates, and every final state has each device's argument array unchanged and each block of 512 rows of its result at the
    kernel's sum. -/
theorem run_main : θ_run defs (onTc (τ := τ) (main (F := F))) ⟨m, fun _ => 0, ρ⟩ (fun r => ∀ c : Dev nD, QYc m c r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := QYc m)
    (hY := hY m)
    (hQ := fun _ h c => (h c).2.2)

end Cert.Kernel.Hand

end
-- ==== Proof.Proto.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The two partners of a device on the 2×2 arrangement of the four devices

Device `c` has coordinates `xv = [c ≥ 2]`, `yv = [c = 1 ∨ c = 2]`; `px` flips `xv` (`3 - c`), `py` flips `yv`
(`c xor 1`). Both are involutions. -/

def px (c : Dev nD) : Dev nD := (![3, 2, 1, 0] : Fin 4 → Fin 4) c
def py (c : Dev nD) : Dev nD := (![1, 0, 3, 2] : Fin 4 → Fin 4) c

theorem px_px (c : Dev nD) : px (px c) = c := by revert c; decide
theorem py_py (c : Dev nD) : py (py c) = c := by revert c; decide
theorem px_py (c : Dev nD) : px (py c) = py (px c) := by revert c; decide

def pxE : Dev nD ≃ Dev nD := ⟨px, px, px_px, px_px⟩
def pyE : Dev nD ≃ Dev nD := ⟨py, py, py_py, py_py⟩

/-- The peer of transfer `k`: the first exchange of the rows' lower half, the second of the upper half and the
    write-backs of the lower half go across `x`; the others across `y`. -/
def peer (k : Fin 12) (c : Dev nD) : Dev nD :=
  if k.val = 0 ∨ k.val = 2 ∨ k.val = 5 ∨ k.val = 7 ∨ k.val = 8 ∨ k.val = 10 then px c else py c

theorem peer_peer (k : Fin 12) (c : Dev nD) : peer k (peer k c) = c := by
  unfold peer; split <;> [exact px_px c; exact py_py c]

/-- The kernel's `device_id` chains. -/
theorem dev1_eq (c : Dev nD) : (⟨k0_dev1 c, k0_dev1_lt c⟩ : Dev nD) = px c := by revert c; decide +kernel
theorem dev2_eq (c : Dev nD) : (⟨k0_dev2 c, k0_dev2_lt c⟩ : Dev nD) = py c := by revert c; decide +kernel
theorem dev3_eq (c : Dev nD) : (⟨k0_dev3 c, k0_dev3_lt c⟩ : Dev nD) = px c := by revert c; decide +kernel
theorem dev4_eq (c : Dev nD) : (⟨k0_dev4 c, k0_dev4_lt c⟩ : Dev nD) = py c := by revert c; decide +kernel
theorem dev5_eq (c : Dev nD) : (⟨k0_dev5 c, k0_dev5_lt c⟩ : Dev nD) = px c := by revert c; decide +kernel
theorem dev6_eq (c : Dev nD) : (⟨k0_dev6 c, k0_dev6_lt c⟩ : Dev nD) = py c := by revert c; decide +kernel
theorem dev7_eq (c : Dev nD) : (⟨k0_dev7 c, k0_dev7_lt c⟩ : Dev nD) = py c := by revert c; decide +kernel
theorem dev8_eq (c : Dev nD) : (⟨k0_dev8 c, k0_dev8_lt c⟩ : Dev nD) = px c := by revert c; decide +kernel
theorem dev9_eq (c : Dev nD) : (⟨k0_dev9 c, k0_dev9_lt c⟩ : Dev nD) = py c := by revert c; decide +kernel
theorem dev10_eq (c : Dev nD) : (⟨k0_dev10 c, k0_dev10_lt c⟩ : Dev nD) = px c := by revert c; decide +kernel
theorem dev11_eq (c : Dev nD) : (⟨k0_dev11 c, k0_dev11_lt c⟩ : Dev nD) = px c := by revert c; decide +kernel
theorem dev12_eq (c : Dev nD) : (⟨k0_dev12 c, k0_dev12_lt c⟩ : Dev nD) = py c := by revert c; decide +kernel
theorem dev13_eq (c : Dev nD) : (⟨k0_dev13 c, k0_dev13_lt c⟩ : Dev nD) = px c := by revert c; decide +kernel
theorem dev14_eq (c : Dev nD) : (⟨k0_dev14 c, k0_dev14_lt c⟩ : Dev nD) = py c := by revert c; decide +kernel

/-! ## The buffers, whole, and their slices of 512 rows -/

abbrev xM : Memref sig .tc .hbm S4096x1024 .f32 := Memref.whole main_arg0
abbrev oM : Memref sig .tc .hbm S4096x1024 .f32 := Memref.whole main_v1
abbrev aP : Memref sig .tc .vmem S1024x1024 .f32 := Memref.whole cc0_scratch0
abbrev aQ : Memref sig .tc .vmem S1024x1024 .f32 := Memref.whole cc0_scratch1
abbrev rP1 : Memref sig .tc .vmem S1024x1024 .f32 := Memref.whole cc0_scratch2
abbrev rP2 : Memref sig .tc .vmem S512x1024 .f32 := Memref.whole cc0_scratch3
abbrev rQ1 : Memref sig .tc .vmem S1024x1024 .f32 := Memref.whole cc0_scratch4
abbrev rQ2 : Memref sig .tc .vmem S512x1024 .f32 := Memref.whole cc0_scratch5

/-- Rows `[off 0, off 0 + 512)` of a buffer of 1024 rows. -/
abbrev sl1 (M : Memref sig .tc .vmem S1024x1024 .f32) (off : Fin 2 → Nat) (h : ∀ a, off a + S512x1024.size a ≤ S1024x1024.size a) :
    Memref sig .tc .vmem S512x1024 .f32 :=
  M.slice (Rect.unit (s := S1024x1024) off S512x1024.size h) (fun _ => rfl)
/-- Rows `[off 0, off 0 + 512)` of an array of 4096 rows. -/
abbrev sl4 (M : Memref sig .tc .hbm S4096x1024 .f32) (off : Fin 2 → Nat) (h : ∀ a, off a + S512x1024.size a ≤ S4096x1024.size a) :
    Memref sig .tc .hbm S512x1024 .f32 :=
  M.slice (Rect.unit (s := S4096x1024) off S512x1024.size h) (fun _ => rfl)

theorem sl1_congr (M : Memref sig .tc .vmem S1024x1024 .f32) {off off' : Fin 2 → Nat} (e : off = off') (h h') : sl1 M off h = sl1 M off' h' := by
  subst e; rfl
theorem sl4_congr (M : Memref sig .tc .hbm S4096x1024 .f32) {off off' : Fin 2 → Nat} (e : off = off') (h h') : sl4 M off h = sl4 M off' h' := by
  subst e; rfl

/-! ## The cells -/

abbrev barS : Sem sig := (SemArray.scalar (sig.barrier 0 rfl) : Sems sig S_).sem
abbrev barCell (c : Dev nD) : GSem nD τ sig := ((c : Thread nD τ), .reg barS)
abbrev dCell (c : Dev nD) (k : DmaSem sig) : GSem nD τ sig := ((c : Thread nD τ), .dma k)
/-- Send cell `k`, receive cell `k` (`k < 12`), local cell `k` (`k < 8`): the DMA semaphores `k`, `12 + k`, `24 + k`. -/
abbrev sIx (k : Fin 12) : DmaSem sig := ⟨k.val, by have := k.isLt; show k.val < 32; omega⟩
abbrev rIx (k : Fin 12) : DmaSem sig := ⟨12 + k.val, by have := k.isLt; show 12 + k.val < 32; omega⟩
abbrev lIx (k : Fin 8) : DmaSem sig := ⟨24 + k.val, by have := k.isLt; show 24 + k.val < 32; omega⟩

/-- The credit of one transfer of 512 rows. -/
abbrev N : ℕ := (rP2 : Memref sig .tc .vmem S512x1024 .f32).view.dmaCredit
theorem N_pos : 0 < N := View.dmaCredit_pos _ (by decide)

variable (m : (ℓ : Loc nD τ sig) → Buf (Elt F) ℓ) (ρ : Dev nD → PrngReg)

/-- The memory at launch. -/
def s₀ : MemSt nD τ sig (Elt F) := ⟨m, fun _ => 0, ρ⟩

/-! ## Values: the eight blocks of 512 rows of a device's argument, and the sums the kernel forms -/

abbrev V512 : Type := S512x1024.Idx → Elt F .f32

/-- Rows `[off 0, off 0 + 512)` of device `c`'s argument array. -/
def xb (c : Dev nD) (off : Fin 2 → Nat) (h : ∀ a, off a + S512x1024.size a ≤ S4096x1024.size a) : V512 (F := F) :=
  (sl4 xM off h).view.read (Elt F) (m ((c : Thread nD τ).loc main_arg0))

/-! ## The slices by name

`f` marks the 512 rows a device forwards after the first exchange, `o` the 512 rows it ends up owning; `P` the rows'
lower half (exchanged across `x` first), `Q` the upper half (across `y` first). -/

abbrev xA0 (c : Dev nD) := sl4 xM (k0_off2 c) (k0_off2_inb c)
abbrev xA1 (c : Dev nD) := sl4 xM (k0_off4 c) (k0_off4_inb c)
abbrev xA2 (c : Dev nD) := sl4 xM (k0_off6 c) (k0_off6_inb c)
abbrev xA3 (c : Dev nD) := sl4 xM (k0_off8 c) (k0_off8_inb c)
abbrev xB0 (c : Dev nD) := sl4 xM (k0_off9 c) (k0_off9_inb c)
abbrev xB1 (c : Dev nD) := sl4 xM (k0_off10 c) (k0_off10_inb c)
abbrev xB2 (c : Dev nD) := sl4 xM (k0_off11 c) (k0_off11_inb c)
abbrev xB3 (c : Dev nD) := sl4 xM (k0_off12 c) (k0_off12_inb c)
abbrev oB0 (c : Dev nD) := sl4 oM (k0_off9 c) (k0_off9_inb c)
abbrev oB1 (c : Dev nD) := sl4 oM (k0_off10 c) (k0_off10_inb c)
abbrev oB2 (c : Dev nD) := sl4 oM (k0_off11 c) (k0_off11_inb c)
abbrev oB3 (c : Dev nD) := sl4 oM (k0_off12 c) (k0_off12_inb c)
abbrev aPf (c : Dev nD) := sl1 aP (k0_off1 c) (k0_off1_inb c)
abbrev aPo (c : Dev nD) := sl1 aP (k0_off5 c) (k0_off5_inb c)
abbrev aQf (c : Dev nD) := sl1 aQ (k0_off3 c) (k0_off3_inb c)
abbrev aQo (c : Dev nD) := sl1 aQ (k0_off7 c) (k0_off7_inb c)
abbrev rPf (c : Dev nD) := sl1 rP1 (k0_off1 c) (k0_off1_inb c)
abbrev rPo (c : Dev nD) := sl1 rP1 (k0_off5 c) (k0_off5_inb c)
abbrev rQf (c : Dev nD) := sl1 rQ1 (k0_off3 c) (k0_off3_inb c)
abbrev rQo (c : Dev nD) := sl1 rQ1 (k0_off7 c) (k0_off7_inb c)

/-! ## Values -/

abbrev X (c : Dev nD) : Buf (Elt F) ((c : Thread nD τ).loc main_arg0) := m ((c : Thread nD τ).loc main_arg0)

def A0 (c : Dev nD) : Vec F S512x1024 .f32 := (xA0 c).view.read (Elt F) (X m c)
def A1 (c : Dev nD) : Vec F S512x1024 .f32 := (xA1 c).view.read (Elt F) (X m c)
def A2 (c : Dev nD) : Vec F S512x1024 .f32 := (xA2 c).view.read (Elt F) (X m c)
def A3 (c : Dev nD) : Vec F S512x1024 .f32 := (xA3 c).view.read (Elt F) (X m c)
def B0 (c : Dev nD) : Vec F S512x1024 .f32 := (xB0 c).view.read (Elt F) (X m c)
def B1 (c : Dev nD) : Vec F S512x1024 .f32 := (xB1 c).view.read (Elt F) (X m c)
def B2 (c : Dev nD) : Vec F S512x1024 .f32 := (xB2 c).view.read (Elt F) (X m c)
def B3 (c : Dev nD) : Vec F S512x1024 .f32 := (xB3 c).view.read (Elt F) (X m c)

/-- After the first exchange: a device's own rows plus its first partner's. -/
def sPf (c : Dev nD) : Vec F S512x1024 .f32 := k0_pay2 (k0_pay1 (B0 m c) (A0 m (px c)))
def sQf (c : Dev nD) : Vec F S512x1024 .f32 := k0_pay3 (B1 m c) (A1 m (py c))
def sPo (c : Dev nD) : Vec F S512x1024 .f32 := k0_pay4 (B2 m c) (A2 m (px c))
def sQo (c : Dev nD) : Vec F S512x1024 .f32 := k0_pay5 (B3 m c) (A3 m (py c))
/-- After the second: plus the second partner's partial sum — the rows' sum over the four devices. -/
def tP (c : Dev nD) : Vec F S512x1024 .f32 := k0_pay6 (sPo m c) (sPf m (py c))
def tQ (c : Dev nD) : Vec F S512x1024 .f32 := k0_pay7 (sQo m c) (sQf m (px c))

/-! ## The schedule -/

/-- Some contents under a view on device `p`, held whole. -/
def dE (p : Dev nD) {sp : Space} {s : Shape} (M : Memref sig .tc sp s .f32) : sProp 𝕄 :=
  iprop(∃ f : Buf (Elt F) (M.view.loc (p : Thread nD τ)), M.view.loc (p : Thread nD τ) ↦[M.view.set]{fullShare} f)

abbrev ow (p : Dev nD) {sp : Space} {s : Shape} (M : Memref sig .tc sp s .f32) (q : PosShare TreeShare) (v : Vec F s .f32) : sProp 𝕄 :=
  owns (Ix := Unit) (Name := ℕ) (U := UU) (Lvl := ℕ) (p : Thread nD τ) M q v

/-- What a partner's entry signal hands device `c`: the partner's buffers that `c`'s transfers write —
    duty `false` from `px c`, duty `true` from `py c`. -/
def barPay (c : Dev nD) (d : Bool) : sProp 𝕄 :=
  if d then iprop(dE (py c) (rQf c) ∗ dE (py c) (rQo c) ∗ dE (py c) rP2 ∗ dE (py c) (oB3 c) ∗ dE (py c) (oB1 c))
  else iprop(dE (px c) (rPf c) ∗ dE (px c) (rPo c) ∗ dE (px c) rQ2 ∗ dE (px c) (oB2 c) ∗ dE (px c) (oB0 c))

abbrev qh : PosShare TreeShare := fullShare
abbrev qx (i : Fin 8) : PosShare TreeShare := match i with
  | 0 => fullShare.right.left.left.left | 1 => fullShare.right.left.left.right | 2 => fullShare.right.left.right.left | 3 => fullShare.right.left.right.right
  | 4 => fullShare.right.right.left.left | 5 => fullShare.right.right.left.right | 6 => fullShare.right.right.right.left | 7 => fullShare.right.right.right.right

/-- What the one duty of each DMA cell of device `c` hands it when it lands: a send cell the source share back (nothing for
    the two transfers whose source goes to the receiver); a receive cell the rows landed (and, for those two, the sender's
    source rows, which the receiver will overwrite); a local cell both ends. -/
def Pd (c : Dev nD) : DmaSem sig → sProp 𝕄 := fun k => match k with
  | ⟨0, _⟩ => ow c (xA0 c) (qx 0) (A0 m c)
  | ⟨1, _⟩ => ow c (xA1 c) (qx 1) (A1 m c)
  | ⟨2, _⟩ => ow c (xA2 c) (qx 2) (A2 m c)
  | ⟨3, _⟩ => ow c (xA3 c) (qx 3) (A3 m c)
  | ⟨4, _⟩ => iprop(emp)
  | ⟨5, _⟩ => iprop(emp)
  | ⟨6, _⟩ => ow c (aPo c) fullShare.right.left (tP m c)
  | ⟨7, _⟩ => ow c (aQo c) fullShare.right.left (tQ m c)
  | ⟨8, _⟩ => ow c (aPo c) fullShare.right.right (tP m c)
  | ⟨9, _⟩ => ow c (aQo c) fullShare.right.right (tQ m c)
  | ⟨10, _⟩ => ow c (aPf c) fullShare.right (tP m (py c))
  | ⟨11, _⟩ => ow c (aQf c) fullShare.right (tQ m (px c))
  | ⟨12, _⟩ => ow c (rPf (px c)) fullShare (A0 m (px c))
  | ⟨13, _⟩ => ow c (rQf (py c)) fullShare (A1 m (py c))
  | ⟨14, _⟩ => ow c (rPo (px c)) fullShare (A2 m (px c))
  | ⟨15, _⟩ => ow c (rQo (py c)) fullShare (A3 m (py c))
  | ⟨16, _⟩ => iprop(ow c rP2 fullShare (sPf m (py c)) ∗ ow (py c) (aPf (py c)) fullShare (sPf m (py c)))
  | ⟨17, _⟩ => iprop(ow c rQ2 fullShare (sQf m (px c)) ∗ ow (px c) (aQf (px c)) fullShare (sQf m (px c)))
  | ⟨18, _⟩ => ow c (aPo (py c)) fullShare (tP m (py c))
  | ⟨19, _⟩ => ow c (aQo (px c)) fullShare (tQ m (px c))
  | ⟨20, _⟩ => ow c (oB2 (px c)) fullShare (tP m (px c))
  | ⟨21, _⟩ => ow c (oB3 (py c)) fullShare (tQ m (py c))
  | ⟨22, _⟩ => ow c (oB0 (px c)) fullShare (tP m (py (px c)))
  | ⟨23, _⟩ => ow c (oB1 (py c)) fullShare (tQ m (px (py c)))
  | ⟨24, _⟩ => iprop(ow c (aPf c) fullShare (B0 m c) ∗ ow c (xB0 c) (qx 4) (B0 m c))
  | ⟨25, _⟩ => iprop(ow c (aQf c) fullShare (B1 m c) ∗ ow c (xB1 c) (qx 5) (B1 m c))
  | ⟨26, _⟩ => iprop(ow c (aPo c) fullShare (B2 m c) ∗ ow c (xB2 c) (qx 6) (B2 m c))
  | ⟨27, _⟩ => iprop(ow c (aQo c) fullShare (B3 m c) ∗ ow c (xB3 c) (qx 7) (B3 m c))
  | ⟨28, _⟩ => iprop(ow c (oB2 c) fullShare (tP m c) ∗ ow c (aPo c) fullShare.left (tP m c))
  | ⟨29, _⟩ => iprop(ow c (oB3 c) fullShare (tQ m c) ∗ ow c (aQo c) fullShare.left (tQ m c))
  | ⟨30, _⟩ => iprop(ow c (oB0 c) fullShare (tP m (py c)) ∗ ow c (aPf c) fullShare.left (tP m (py c)))
  | ⟨31, _⟩ => iprop(ow c (oB1 c) fullShare (tQ m (px c)) ∗ ow c (aQf c) fullShare.left (tQ m (px c)))
  | _ => iprop(emp)

/-- One round per cell. A barrier cell: two duties of one unit, one per partner. A DMA cell: one duty of a transfer's credit. -/
def Rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma _ => N
  payload g _ d := match g.2 with | .reg _ => barPay g.1.1 d | .dma k => Pd m g.1.1 k
  amount_pos g _ _ _ := by
    cases g.2 with
    | reg _ => exact Nat.one_pos
    | dma _ => exact N_pos

instance dE_storable (p : Dev nD) {sp : Space} {s : Shape} (M : Memref sig .tc sp s .f32) : BI.Storable (upEmb : UEmb _ 𝕄) (dE (F := F) p M) := by
  unfold dE; infer_instance

instance barPay_storable (c : Dev nD) (d : Bool) : BI.Storable (upEmb : UEmb _ 𝕄) (barPay (F := F) c d) := by
  unfold barPay; split <;> infer_instance

instance Pd_storable (c : Dev nD) (k : DmaSem sig) : BI.Storable (upEmb : UEmb _ 𝕄) (Pd m c k) := by
  unfold Pd; split <;> infer_instance

instance Rd_payload_storable (g : GSem nD τ sig) (r : ℕ) (d : Bool) : BI.Storable (upEmb : UEmb _ 𝕄) ((Rd (F := F) m).payload g r d) := by
  show BI.Storable upEmb (match g.2 with | .reg _ => barPay g.1.1 d | .dma k => Pd m g.1.1 k)
  split <;> infer_instance

section Tables
variable (c : Dev nD) (k : DmaSem sig)

theorem duties_bar : (Rd (F := F) m).duties (barCell c) 0 = Finset.univ := by dsimp only [Rd]; exact if_pos ⟨rfl, rfl⟩
theorem duties_dma : (Rd (F := F) m).duties (dCell c k) 0 = {false} := by dsimp only [Rd]; exact if_pos ⟨rfl, rfl⟩
theorem duties_later (g : GSem nD τ sig) : ∀ r, 1 ≤ r → (Rd (F := F) m).duties g r = ∅ :=
  fun r hr => by dsimp only [Rd]; rw [if_neg fun h => by omega]
theorem amount_bar (d : Bool) : (Rd (F := F) m).amount (barCell c) 0 d = 1 := rfl
theorem amount_dma (d : Bool) : (Rd (F := F) m).amount (dCell c k) 0 d = N := rfl
theorem payload_bar (d : Bool) : (Rd (F := F) m).payload (barCell c) 0 d = barPay c d := rfl
theorem payload_dma (d : Bool) : (Rd (F := F) m).payload (dCell c k) 0 d = Pd m c k := rfl

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma : (Rd (F := F) m).expect (dCell c k) 0 = N := by
  unfold Schedule.expect Schedule.amountOf; rw [duties_dma, Finset.sum_singleton, amount_dma]

theorem rest_bar : bigSep ((Rd (F := F) m).duties (barCell c) 0 \ ∅) (fun d => (Rd (F := F) m).payload (barCell c) 0 d) = iprop(barPay c false ∗ barPay c true) := by
  rw [Finset.sdiff_empty, duties_bar, bigSep_univ_eq_bigSepL [false, true] (by decide) (by decide), bigSepL_cons_cons, bigSepL_singleton]
  rfl
theorem rest_dma : bigSep ((Rd (F := F) m).duties (dCell c k) 0 \ ∅) (fun d => (Rd (F := F) m).payload (dCell c k) 0 d) = Pd m c k := by
  rw [Finset.sdiff_empty, duties_dma, bigSep_singleton, payload_dma]

end Tables

example : ((cc0_scratch6.slice (Rect.unit (s := S12) ![0] S1.size inb_S12_S1_0)).squeeze S_ squeezes_S1_S_).sem = (⟨0, by decide⟩ : DmaSem sig) := rfl
example : ((cc0_scratch7.slice (Rect.unit (s := S12) ![5] S1.size inb_S12_S1_5)).squeeze S_ squeezes_S1_S_).sem = (⟨17, by decide⟩ : DmaSem sig) := rfl

end Cert.KernelIdeal.Hand

end
-- ==== Proof.Rules.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.Proto
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## Holding a view's elements at a value: shares, forgetting the value -/

section Owns
variable {sp : Space} {s : Shape} (p : Dev nD) (M : Memref sig .tc sp s .f32)

/-- Two contents a view reads alike agree on the view's elements. -/
theorem agree_of_read_eq (f g : Buf (Elt F) (M.view.loc (p : Thread nD τ))) (h : M.view.read (Elt F) f = M.view.read (Elt F) g) :
    ∀ i ∈ M.view.set, f i = g i := by
  intro i hi
  obtain ⟨y, rfl⟩ := View.exists_emb_of_mem_set M.view hi
  have h2 := congrFun h y
  simp only [View.read_apply] at h2
  exact (cast_inj _).mp h2

theorem owns_share {q q₁ q₂ : PosShare TreeShare} (hq : q ∈ PCS.op q₁ q₂) (v : Vec F s .f32) :
    (ow p M q v : sProp 𝕄) ⊣⊢ iprop(ow p M q₁ v ∗ ow p M q₂ v) := by
  constructor
  · unfold ow owns
    iintro ⟨%f, %hf, H⟩
    ihave H' := (pointsTo_share hq).1 $$ H
    icases H' with ⟨H1, H2⟩
    isplitl [H1]
    · iexists f; isplitr; · (ipureintro; exact hf)
      iexact H1
    · iexists f; isplitr; · (ipureintro; exact hf)
      iexact H2
  · unfold ow owns
    iintro ⟨⟨%f, %hf, H1⟩, ⟨%g, %hg, H2⟩⟩
    ihave H2' := (Entails.of_eq (pointsTo_congr (q := q₂) (agree_of_read_eq p M g f (hg.trans hf.symm)))) $$ H2
    iexists f; isplitr; · (ipureintro; exact hf)
    iapply (pointsTo_share hq).2
    isplitl [H1] <;> iassumption

theorem owns_dE (v : Vec F s .f32) : (ow p M fullShare v : sProp 𝕄) ⊢ dE p M := by
  unfold ow owns dE
  iintro ⟨%f, -, H⟩
  iexists f; iexact H

end Owns

/-! ## The transfers, the waits and the signals at this schedule -/

section Steps
variable (c : Dev nD)

/-- A transfer to a partner: the source rows at a share in, the partner's destination rows (any contents) in; the send cell's
    duty is paid with the source share, the partner's receive cell's with the rows landed. -/
theorem send_owns {p : Dev nD} {sp sp' : Space} {src : Memref sig .tc sp S512x1024 .f32} {dst : Memref sig .tc sp' S512x1024 .f32}
    {hsc : (dst : Memref sig (Dev.tc p : Thread nD τ).2.kind sp' S512x1024 .f32).view.ref.isScScratch = false} (kS kR : DmaSem sig)
    {hsrc : src.view.WordExact} {hdst : dst.view.WordExact}
    {hsem : DmaTarget.Typed sp (.dma kR) (.remote (Dev.tc p : Thread nD τ) dst (.dma kS) hsc)}
    {α : Type} {Q : α → sProp 𝕄} {k : PUnit → Prog (TpuEff nD τ sig (Elt F) Λ₀ .tc) α}
    (q : PosShare TreeShare) (v : Vec F S512x1024 .f32) (κ₁ κ₂ : ℕ) {O₀ : CellTallies nD τ sig Unit} (O : CellTallies nD τ sig Unit)
    (hO : O₀ = O + tallyAt (dCell p kR) () N) (W : Waits sig Unit)
    (hN : dst.view.amount (.dma kR) = N)
    (hpayS : (ow c src q v : sProp 𝕄) ⊢ Pd m c kS) (hpayR : (ow p dst fullShare v : sProp 𝕄) ⊢ Pd m p kR) :
    iprop(cellInv ER (Rd m) κ₁ (dCell c kS) ∗ cellInv ER (Rd m) κ₂ (dCell p kR) ∗ ow c src q v ∗ dE p dst ∗ owes (c : Thread nD τ) O₀ W
        ∗ dutyTok ER (dCell c kS) 0 false ∗ reached ER (dCell c kS) 0 ∗ dutyTok ER (dCell p kR) 0 false ∗ reached ER (dCell p kR) 0)
      ⊢ iprop(((cred (tallyAt (dCell c kS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p : Thread nD τ) dst (.dma kS) hsc) (.dma kR) hsrc hdst hsem) k) Q) := by
  unfold ow owns dE
  iintro ⟨HI1, HI2, ⟨%fs, %hfs, Hsrc⟩, ⟨%fd, Hdst⟩, HO, Ht1, Hr1, Ht2, Hr2⟩
  iapply (Rounds.wp_send_pointsTo 𝒱₀ ER (Rd m) (c : Thread nD τ) none (κ₁ := κ₁) (κ₂ := κ₂) (r₁ := 0) (r₂ := 0) (d₁ := false) (d₂ := false)
      (fd := fd) (fs := fs) (q := q)
      (by rw [duties_dma]; exact Finset.mem_singleton_self _) (by rw [duties_dma]; exact Finset.mem_singleton_self _)
      () () N hN (amount_dma m c kS false) (amount_dma m p kR false) O hO (W := W)
      (by
        rw [payload_dma]; refine BIBase.Entails.trans ?_ hpayS
        unfold ow owns; iintro H; iexists fs; isplitr; · (ipureintro; exact hfs)
        iexact H)
      (by
        rw [payload_dma]; refine BIBase.Entails.trans ?_ hpayR
        unfold ow owns; iintro H; iexists (dst.view.write (Elt F) fd (src.view.read (Elt F) fs) Finset.univ); isplitr; · (ipureintro; rw [View.read_write_univ]; exact hfs)
        iexact H))
    $$ [HI1 HI2 Hsrc Hdst HO Ht1 Hr1 Ht2 Hr2]
  isplitl [HI1]; · iexact HI1
  isplitl [HI2]; · iexact HI2
  isplitl [Hsrc]; · iexact Hsrc
  isplitl [Hdst]; · iexact Hdst
  isplitl [HO]; · iexact HO
  isplitl [Ht1]; · iexact Ht1
  isplitl [Hr1]; · iexact Hr1
  isplitl [Ht2]; · iexact Ht2
  iexact Hr2

/-- The same, the source rows going to the partner with the landing (the partner overwrites them later): nothing comes back
    with the send cell's credit. -/
theorem send_landing_owns {p : Dev nD} {sp sp' : Space} {src : Memref sig .tc sp S512x1024 .f32} {dst : Memref sig .tc sp' S512x1024 .f32}
    {hsc : (dst : Memref sig (Dev.tc p : Thread nD τ).2.kind sp' S512x1024 .f32).view.ref.isScScratch = false} (kS kR : DmaSem sig)
    {hsrc : src.view.WordExact} {hdst : dst.view.WordExact}
    {hsem : DmaTarget.Typed sp (.dma kR) (.remote (Dev.tc p : Thread nD τ) dst (.dma kS) hsc)}
    {α : Type} {Q : α → sProp 𝕄} {k : PUnit → Prog (TpuEff nD τ sig (Elt F) Λ₀ .tc) α}
    (q : PosShare TreeShare) (v : Vec F S512x1024 .f32) (κ₁ κ₂ : ℕ) {O₀ : CellTallies nD τ sig Unit} (O : CellTallies nD τ sig Unit)
    (hO : O₀ = O + tallyAt (dCell p kR) () N) (W : Waits sig Unit)
    (hN : dst.view.amount (.dma kR) = N)
    (hpayS : (emp : sProp 𝕄) ⊢ Pd m c kS) (hpayR : (iprop(ow p dst fullShare v ∗ ow c src q v) : sProp 𝕄) ⊢ Pd m p kR) :
    iprop(cellInv ER (Rd m) κ₁ (dCell c kS) ∗ cellInv ER (Rd m) κ₂ (dCell p kR) ∗ ow c src q v ∗ dE p dst ∗ owes (c : Thread nD τ) O₀ W
        ∗ dutyTok ER (dCell c kS) 0 false ∗ reached ER (dCell c kS) 0 ∗ dutyTok ER (dCell p kR) 0 false ∗ reached ER (dCell p kR) 0)
      ⊢ iprop(((cred (tallyAt (dCell c kS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p : Thread nD τ) dst (.dma kS) hsc) (.dma kR) hsrc hdst hsem) k) Q) := by
  unfold ow owns dE
  iintro ⟨HI1, HI2, ⟨%fs, %hfs, Hsrc⟩, ⟨%fd, Hdst⟩, HO, Ht1, Hr1, Ht2, Hr2⟩
  iapply (Rounds.wp_send_landing_pointsTo 𝒱₀ ER (Rd m) (c : Thread nD τ) none (κ₁ := κ₁) (κ₂ := κ₂) (r₁ := 0) (r₂ := 0) (d₁ := false) (d₂ := false)
      (fd := fd) (fs := fs) (q := q)
      (by rw [duties_dma]; exact Finset.mem_singleton_self _) (by rw [duties_dma]; exact Finset.mem_singleton_self _)
      () () N hN (amount_dma m c kS false) (amount_dma m p kR false) O hO (W := W)
      (by rw [payload_dma]; exact hpayS)
      (by
        rw [payload_dma]; refine BIBase.Entails.trans ?_ hpayR
        unfold ow owns; iintro ⟨H, H'⟩
        isplitl [H]
        · iexists (dst.view.write (Elt F) fd (src.view.read (Elt F) fs) Finset.univ); isplitr; · (ipureintro; rw [View.read_write_univ]; exact hfs)
          iexact H
        · iexists fs; isplitr; · (ipureintro; exact hfs)
          iexact H'))
    $$ [HI1 HI2 Hsrc Hdst HO Ht1 Hr1 Ht2 Hr2]
  isplitl [HI1]; · iexact HI1
  isplitl [HI2]; · iexact HI2
  isplitl [Hsrc]; · iexact Hsrc
  isplitl [Hdst]; · iexact Hdst
  isplitl [HO]; · iexact HO
  isplitl [Ht1]; · iexact Ht1
  isplitl [Hr1]; · iexact Hr1
  isplitl [Ht2]; · iexact Ht2
  iexact Hr2

/-- A local copy: both ends come back with the local cell's credit. -/
theorem copy_owns {sp sp' : Space} {src : Memref sig .tc sp S512x1024 .f32} {dst : Memref sig .tc sp' S512x1024 .f32} (kL : DmaSem sig)
    {hsrc : src.view.WordExact} {hdst : dst.view.WordExact} {hsem : DmaTarget.Typed (nD := nD) sp (.dma kL) (DmaTarget.here (p := (Proc.tc : Proc τ)) dst)}
    {α : Type} {Q : α → sProp 𝕄} {k : PUnit → Prog (TpuEff nD τ sig (Elt F) Λ₀ .tc) α}
    (q : PosShare TreeShare) (v : Vec F S512x1024 .f32) (κ : ℕ)
    (hN : dst.view.amount (.dma kL) = N)
    (hpay : (iprop(ow c dst fullShare v ∗ ow c src q v) : sProp 𝕄) ⊢ Pd m c kL) :
    iprop(cellInv ER (Rd m) κ (dCell c kL) ∗ ow c src q v ∗ dE c dst ∗ dutyTok ER (dCell c kL) 0 false ∗ reached ER (dCell c kL) 0)
      ⊢ iprop((cred (tallyAt (dCell c kL) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (DmaTarget.here (p := (Proc.tc : Proc τ)) dst) (.dma kL) hsrc hdst hsem) k) Q) := by
  unfold ow owns dE
  iintro ⟨HI, ⟨%fs, %hfs, Hsrc⟩, ⟨%fd, Hdst⟩, Ht, Hr⟩
  iapply (Rounds.wp_copy_pointsTo 𝒱₀ ER (Rd m) (c : Thread nD τ) none (κ := κ) (r := 0) (d := false) (fd := fd) (fs := fs) (q := q)
      (by rw [duties_dma]; exact Finset.mem_singleton_self _) () N hN (amount_dma m c kL false)
      (by
        rw [payload_dma]; refine BIBase.Entails.trans ?_ hpay
        unfold ow owns; iintro ⟨H, H'⟩
        isplitl [H]
        · iexists (dst.view.write (Elt F) fd (src.view.read (Elt F) fs) Finset.univ); isplitr; · (ipureintro; rw [View.read_write_univ]; exact hfs)
          iexact H
        · iexists fs; isplitr; · (ipureintro; exact hfs)
          iexact H'))
    $$ [HI Hsrc Hdst Ht Hr]
  isplitl [HI]; · iexact HI
  isplitl [Hsrc]; · iexact Hsrc
  isplitl [Hdst]; · iexact Hdst
  isplitl [Ht]; · iexact Ht
  iexact Hr

/-- The wait for a DMA cell's one round: its duty's payload. -/
theorem wait_dma {sp sp' : Space} {s s' : Shape} {src : Memref sig .tc sp' s' .f32} {κ' : Kind} {dst : Memref sig κ' sp s .f32}
    {hsrc : src.view.WordExact} {hdst : dst.view.WordExact} (kk : DmaSem sig) (hN : dst.view.dmaCredit = N)
    {α : Type} {Q : α → sProp 𝕄} {k : PUnit → Prog (TpuEff nD τ sig (Elt F) Λ₀ .tc) α}
    (κ : ℕ) (O : CellTallies nD τ sig Unit) (W : Waits sig Unit) :
    iprop(cellInv ER (Rd m) κ (dCell c kk) ∗ cred (tallyAt (dCell c kk) () N) ∗ owes (c : Thread nD τ) O W
        ∗ MayWait (c : Thread nD τ) (.dma kk) () O ∗ atPos ER (dCell c kk) 0 ∅ 0)
      ⊢ iprop(((owes (c : Thread nD τ) O (insert (SemLoc.dma kk, ()) W) ∗ atPos ER (dCell c kk) 1 ∅ 0 ∗ Pd m c kk)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 kk src dst hsrc hdst) k) Q) := by
  iintro ⟨HI, Hc, HO, HM, Hat⟩ Hk
  iapply (Rounds.wp_wait_rest_token 𝒱₀ ER (Rd m) (c : Thread nD τ) none (κ := κ)
      (wpE_waitDma2_eq 𝒱₀ (c : Thread nD τ) none Set.univ) (Set.mem_univ _) () (O := O) (W := W) (R := 0) (m := 0) (T := ∅)
      (by rw [Nat.zero_add, expect_dma]; exact hN)) $$ [HI Hc HO HM Hat]
  · isplitl [HI]; · iexact HI
    isplitl [Hc]; · (rw [hN]; iexact Hc)
    isplitl [HO]; · iexact HO
    isplitl [HM]; · iexact HM
    iexact Hat
  iintro ⟨HO, Hat, -, Hpay⟩
  iapply Hk
  isplitl [HO]; · iexact HO
  isplitl [Hat]; · iexact Hat
  ihave Hp := (Entails.of_eq (rest_dma m c kk)) $$ Hpay
  iexact Hp

/-- The wait for both partners' entry signals: their buffers. -/
theorem wait_bar {α : Type} {Q : α → sProp 𝕄} {k : PUnit → Prog (TpuEff nD τ sig (Elt F) Λ₀ .tc) α}
    (κ : ℕ) (O : CellTallies nD τ sig Unit) (W : Waits sig Unit) :
    iprop(cellInv ER (Rd m) κ (barCell c) ∗ cred (tallyAt (barCell c) () 2) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ barPay c false ∗ barPay c true)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  iintro ⟨HI, Hc, HO, HM, Hat⟩ Hk
  iapply (Rounds.wp_wait_rest_token 𝒱₀ ER (Rd m) (c : Thread nD τ) none (κ := κ)
      (wpE_semWait_eq 𝒱₀ (c : Thread nD τ) none Set.univ) (Set.mem_univ _) () (O := O) (W := W) (R := 0) (m := 0) (T := ∅)
      (by rw [expect_bar])) $$ [HI Hc HO HM Hat]
  · isplitl [HI]; · iexact HI
    isplitl [Hc]; · iexact Hc
    isplitl [HO]; · iexact HO
    isplitl [HM]; · iexact HM
    iexact Hat
  iintro ⟨HO, Hat, -, Hpay⟩
  iapply Hk
  isplitl [HO]; · iexact HO
  isplitl [Hat]; · iexact Hat
  ihave Hp := (Entails.of_eq (rest_bar m c)) $$ Hpay
  iexact Hp

/-- The entry signal to a partner, paying duty `d` of its barrier cell with the buffers it may write. -/
theorem signal_bar (p : Dev nD) (d : Bool) {α : Type} {Q : α → sProp 𝕄} {k : PUnit → Prog (TpuEff nD τ sig (Elt F) Λ₀ .tc) α}
    (κ : ℕ) {O₀ : CellTallies nD τ sig Unit} (O : CellTallies nD τ sig Unit) (hO : O₀ = O + tallyAt (barCell p) () 1) (W : Waits sig Unit) :
    iprop(cellInv ER (Rd m) κ (barCell p) ∗ owes (c : Thread nD τ) O₀ W ∗ dutyTok ER (barCell p) 0 d ∗ barPay p d ∗ reached ER (barCell p) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p : Thread nD τ) barS 1) k) Q) :=
  Rounds.wp_signal 𝒱₀ ER (Rd m) (c : Thread nD τ) none (dst := (p : Thread nD τ)) (κ := κ) (d := d)
    (by rw [duties_bar]; exact Finset.mem_univ _) (amount_bar m p d) () O hO

/-- A cell whose one round is consumed closes: its counter, at zero, is the core's again. -/
theorem close_cell (g : GSem nD τ sig) (κ : ℕ) :
    iprop(cellInv ER (Rd m) κ g ∗ atPos ER g 1 ∅ 0) ⊢ (iprop(|={Set.univ}=> semVal g 0) : sProp 𝕄) :=
  Rounds.cell_close ER (Rd m) (Set.mem_univ κ) (fun h => h) (R := 1) (duties_later m g)

end Steps

end Cert.KernelIdeal.Hand

end
-- ==== Proof.Levels.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.Proto
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Levels: why no wait can deadlock

Send and local cells (paid by their own device) sit at level 0, a barrier cell at 1, receive cell `k` at `k + 2`. A device
owes the receive cell of transfer `k` on its peer until it issues transfer `k`; every wait it makes before that is on a cell
strictly below. -/

def L (g : GSem nD τ sig) : Finset Unit := if g.1.2 = .tc then {()} else ∅
def lvS : SemLoc sig → ℕ
  | .reg _ => 1
  | .dma k => if 12 ≤ k.val ∧ k.val < 24 then k.val - 10 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- The credit transfer `k` of device `c` owes its peer's receive cell. -/
abbrev T (c : Dev nD) (k : Fin 12) : CellTallies nD τ sig Unit := tallyAt (dCell (peer k c) (rIx k)) () N

/-- What device `c` owes while its last `n` transfers are still to be issued, the next one the last summand. -/
def Orest (c : Dev nD) : ℕ → CellTallies nD τ sig Unit
  | 0 => 0
  | n + 1 => Orest c n + T c ⟨11 - n, by omega⟩

/-- At launch: all twelve, and one unit to each partner's barrier cell (to `px c` first). -/
def O₀ (c : Dev nD) : CellTallies nD τ sig Unit := (Orest c 12 + tallyAt (barCell (py c)) () 1) + tallyAt (barCell (px c)) () 1

theorem Orest_pos {c : Dev nD} {n : ℕ} {g : GSem nD τ sig} {u : Unit} (h : 0 < Orest c n g u) :
    ∃ k : Fin 12, 12 ≤ k.val + n ∧ g = dCell (peer k c) (rIx k) := by
  induction n with
  | zero => exact absurd h (by simp [Orest])
  | succ n ih =>
    rcases Pipeline.add_pos_cases (show 0 < (Orest c n + T c ⟨11 - n, by omega⟩) g u from h) with h1 | h2
    · obtain ⟨k, hk, e⟩ := ih h1; exact ⟨k, by omega, e⟩
    · rw [tallyAt_apply] at h2
      by_cases hg : g = dCell (peer ⟨11 - n, by omega⟩ c) (rIx ⟨11 - n, by omega⟩) ∧ u = ()
      · exact ⟨⟨11 - n, by omega⟩, by show 12 ≤ (11 - n) + (n + 1); omega, hg.1⟩
      · rw [if_neg hg] at h2; exact absurd h2 (Nat.lt_irrefl 0)

theorem lvS_r (k : Fin 12) : lvS (SemLoc.dma (rIx k) : SemLoc sig) = k.val + 2 := by
  have := k.isLt
  show (if 12 ≤ 12 + k.val ∧ 12 + k.val < 24 then 12 + k.val - 10 else 0) = k.val + 2
  rw [if_pos ⟨by omega, by omega⟩]; omega

/-- The wait evidence: a wait on a cell of level `ℓ` while the last `n` transfers are owed, `ℓ + n < 14`. -/
theorem mayWait_rest (c : Dev nD) (sm : SemLoc sig) (n : ℕ) (h : lvS sm + n < 14) :
    (levAts L lv : sProp 𝕄) ⊢ MayWait (c : Thread nD τ) sm () (Orest c n) :=
  Pipeline.mayWait_of_levAts (by rw [L_tc]; exact Finset.mem_singleton_self _) fun g i hg => by
    obtain ⟨k, hk, rfl⟩ := Orest_pos hg
    refine ⟨by rw [L_tc]; exact Finset.mem_singleton_self _, ?_⟩
    show lvS sm < lvS (.dma (rIx k))
    rw [lvS_r]; omega

/-! ## The launch credit -/

/-- The credit tokens of the last `n` receive cells of device `c`. -/
def credR (c : Dev nD) : ℕ → sProp 𝕄
  | 0 => iprop(emp)
  | n + 1 => iprop(credR c n ∗ cred (tallyAt (dCell c (rIx ⟨11 - n, by omega⟩)) () N))

theorem launch_rest (c : Dev nD) (n : ℕ) : (Pipeline.launchCred (fun d => Orest d n) c : sProp 𝕄) ⊢ credR c n := by
  induction n with
  | zero => exact Entails.of_eq (Pipeline.launchCred_zero c)
  | succ n ih =>
    rw [show (fun d => Orest d (n + 1)) = fun d => Orest d n + T d ⟨11 - n, by omega⟩ from rfl, Pipeline.launchCred_add]
    exact BIClass.sep_mono ih (Pipeline.launchCred_tallyAt (.dma (rIx ⟨11 - n, by omega⟩)) (peer ⟨11 - n, by omega⟩) (peer ⟨11 - n, by omega⟩)
      (peer_peer _) (peer_peer _) () N c)

/-- What the launch deals device `c`: its barrier cell's two units and its twelve receive cells' credits. -/
theorem creds (c : Dev nD) :
    (Pipeline.launchCred O₀ c : sProp 𝕄) ⊢ iprop(credR c 12 ∗ cred (tallyAt (barCell c) () 1) ∗ cred (tallyAt (barCell c) () 1)) := by
  rw [show (O₀ : Dev nD → CellTallies nD τ sig Unit) = fun d => (Orest d 12 + tallyAt (barCell (py d)) () 1) + tallyAt (barCell (px d)) () 1 from rfl,
    Pipeline.launchCred_add, Pipeline.launchCred_add]
  iintro ⟨⟨H1, H2⟩, H3⟩
  isplitl [H1]; · iapply (launch_rest c 12); iexact H1
  isplitl [H2]
  · iapply (Pipeline.launchCred_tallyAt (.reg barS) py py py_py py_py () 1 c); iexact H2
  · iapply (Pipeline.launchCred_tallyAt (.reg barS) px px px_px px_px () 1 c); iexact H3

end Cert.KernelIdeal.Hand

end
-- ==== Proof.Ghost.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.Rules
import proofs.«900388_g7700000000000389_dist_rs_then_ag_i_m4096_n1024_v7x_i4_f32_1_alg».proof.Proof.Levels
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Enumerations -/

theorem bigSep_fin12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_dma (Φ : DmaSem sig → sProp 𝕄) : bigSep Finset.univ Φ = iprop(Φ ⟨0, by decide⟩ ∗ Φ ⟨1, by decide⟩ ∗ Φ ⟨2, by decide⟩ ∗ Φ ⟨3, by decide⟩ ∗ Φ ⟨4, by decide⟩ ∗ Φ ⟨5, by decide⟩ ∗ Φ ⟨6, by decide⟩ ∗ Φ ⟨7, by decide⟩ ∗ Φ ⟨8, by decide⟩ ∗ Φ ⟨9, by decide⟩ ∗ Φ ⟨10, by decide⟩ ∗ Φ ⟨11, by decide⟩ ∗ Φ ⟨12, by decide⟩ ∗ Φ ⟨13, by decide⟩ ∗ Φ ⟨14, by decide⟩ ∗ Φ ⟨15, by decide⟩ ∗ Φ ⟨16, by decide⟩ ∗ Φ ⟨17, by decide⟩ ∗ Φ ⟨18, by decide⟩ ∗ Φ ⟨19, by decide⟩ ∗ Φ ⟨20, by decide⟩ ∗ Φ ⟨21, by decide⟩ ∗ Φ ⟨22, by decide⟩ ∗ Φ ⟨23, by decide⟩ ∗ Φ ⟨24, by decide⟩ ∗ Φ ⟨25, by decide⟩ ∗ Φ ⟨26, by decide⟩ ∗ Φ ⟨27, by decide⟩ ∗ Φ ⟨28, by decide⟩ ∗ Φ ⟨29, by decide⟩ ∗ Φ ⟨30, by decide⟩ ∗ Φ ⟨31, by decide⟩) :=
  bigSep_univ_eq_bigSepL ([⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩, ⟨28, by decide⟩, ⟨29, by decide⟩, ⟨30, by decide⟩, ⟨31, by decide⟩] : List (DmaSem sig)) (by decide) (by decide) Φ
theorem bigSep_semLoc (Φ : SemLoc sig → sProp 𝕄) : bigSep Finset.univ Φ = iprop(Φ (SemLoc.reg barS) ∗ Φ (SemLoc.dma (⟨0, by decide⟩ : DmaSem sig)) ∗ Φ (SemLoc.dma (⟨1, by decide⟩ : DmaSem sig)) ∗ Φ (SemLoc.dma (⟨2, by decide⟩ : DmaSem sig)) ∗ Φ (SemLoc.dma (⟨3, by decide⟩ : DmaSem sig)) ∗ Φ (SemLoc.dma (⟨4, by decide⟩ : DmaSem sig)) ∗ Φ (SemLoc.dma (⟨5, by decide⟩ : DmaSem sig)) ∗ Φ (SemLoc.dma (⟨6, by decide⟩ : DmaSem sig)) ∗ Φ (SemLoc.dma (⟨7, by decide⟩ : DmaSem sig)) ∗ Φ (SemLoc.dma (⟨8, by decide⟩ : DmaSem sig)) ∗ Φ (SemLoc.dma (⟨9, by decide⟩ : DmaSem sig)) ∗ Φ (SemLoc.dma (⟨10, by decide⟩ : DmaSem sig)) ∗ Φ (SemLoc.dma (⟨11, by decide⟩ : DmaSem sig)) ∗ Φ (SemLoc.dma (⟨12, by decide⟩ : DmaSem sig)) ∗ Φ (SemLoc.dma (⟨13, by decide⟩ : DmaSem sig)) ∗ Φ (SemLoc.dma (⟨14, by decide⟩ : DmaSem sig)) ∗ Φ (SemLoc.dma (⟨15, by decide⟩ : DmaSem sig)) ∗ Φ (SemLoc.dma (⟨16, by decide⟩ : DmaSem sig)) ∗ Φ (SemLoc.dma (⟨17, by decide⟩ : DmaSem sig)) ∗ Φ (SemLoc.dma (⟨18, by decide⟩ : DmaSem sig)) ∗ Φ (SemLoc.dma (⟨19, by decide⟩ : DmaSem sig)) ∗ Φ (SemLoc.dma (⟨20, by decide⟩ : DmaSem sig)) ∗ Φ (SemLoc.dma (⟨21, by decide⟩ : DmaSem sig)) ∗ Φ (SemLoc.dma (⟨22, by decide⟩ : DmaSem sig)) ∗ Φ (SemLoc.dma (⟨23, by decide⟩ : DmaSem sig)) ∗ Φ (SemLoc.dma (⟨24, by decide⟩ : DmaSem sig)) ∗ Φ (SemLoc.dma (⟨25, by decide⟩ : DmaSem sig)) ∗ Φ (SemLoc.dma (⟨26, by decide⟩ : DmaSem sig)) ∗ Φ (SemLoc.dma (⟨27, by decide⟩ : DmaSem sig)) ∗ Φ (SemLoc.dma (⟨28, by decide⟩ : DmaSem sig)) ∗ Φ (SemLoc.dma (⟨29, by decide⟩ : DmaSem sig)) ∗ Φ (SemLoc.dma (⟨30, by decide⟩ : DmaSem sig)) ∗ Φ (SemLoc.dma (⟨31, by decide⟩ : DmaSem sig))) :=
  bigSep_univ_eq_bigSepL [SemLoc.reg barS, SemLoc.dma (⟨0, by decide⟩ : DmaSem sig), SemLoc.dma (⟨1, by decide⟩ : DmaSem sig), SemLoc.dma (⟨2, by decide⟩ : DmaSem sig), SemLoc.dma (⟨3, by decide⟩ : DmaSem sig), SemLoc.dma (⟨4, by decide⟩ : DmaSem sig), SemLoc.dma (⟨5, by decide⟩ : DmaSem sig), SemLoc.dma (⟨6, by decide⟩ : DmaSem sig), SemLoc.dma (⟨7, by decide⟩ : DmaSem sig), SemLoc.dma (⟨8, by decide⟩ : DmaSem sig), SemLoc.dma (⟨9, by decide⟩ : DmaSem sig), SemLoc.dma (⟨10, by decide⟩ : DmaSem sig), SemLoc.dma (⟨11, by decide⟩ : DmaSem sig), SemLoc.dma (⟨12, by decide⟩ : DmaSem sig), SemLoc.dma (⟨13, by decide⟩ : DmaSem sig), SemLoc.dma (⟨14, by decide⟩ : DmaSem sig), SemLoc.dma (⟨15, by decide⟩ : DmaSem sig), SemLoc.dma (⟨16, by decide⟩ : DmaSem sig), SemLoc.dma (⟨17, by decide⟩ : DmaSem sig), SemLoc.dma (⟨18, by decide⟩ : DmaSem sig), SemLoc.dma (⟨19, by decide⟩ : DmaSem sig), SemLoc.dma (⟨20, by decide⟩ : DmaSem sig), SemLoc.dma (⟨21, by decide⟩ : DmaSem sig), SemLoc.dma (⟨22, by decide⟩ : DmaSem sig), SemLoc.dma (⟨23, by decide⟩ : DmaSem sig), SemLoc.dma (⟨24, by decide⟩ : DmaSem sig), SemLoc.dma (⟨25, by decide⟩ : DmaSem sig), SemLoc.dma (⟨26, by decide⟩ : DmaSem sig), SemLoc.dma (⟨27, by decide⟩ : DmaSem sig), SemLoc.dma (⟨28, by decide⟩ : DmaSem sig), SemLoc.dma (⟨29, by decide⟩ : DmaSem sig), SemLoc.dma (⟨30, by decide⟩ : DmaSem sig), SemLoc.dma (⟨31, by decide⟩ : DmaSem sig)] (by decide) (by decide) Φ

/-! ## What a device starts from -/

abbrev kcell (ck : Dev nD × SemLoc sig) : GSem nD τ sig := ((ck.1 : Thread nD τ), ck.2)

/-- Every cell's invariant, under the names the launch allocated them at, and that every cell is at round 0. -/
def records (K : Dev nD × SemLoc sig → ℕ) : sProp 𝕄 :=
  iprop((bigSep Finset.univ fun ck : Dev nD × SemLoc sig => cellInv ER (Rd m) (K ck) (kcell ck))
    ∗ bigSep Finset.univ fun ck : Dev nD × SemLoc sig => reached ER (kcell ck) 0)

instance records_persistent (K : Dev nD × SemLoc sig → ℕ) : BI.Persistent (records m K) := by unfold records; infer_instance

theorem inv_at (K : Dev nD × SemLoc sig → ℕ) (ck : Dev nD × SemLoc sig) : records m K ⊢ cellInv ER (Rd m) (K ck) (kcell ck) := by
  unfold records
  refine BIBase.Entails.trans ?_ (bigSep_elim (Φ := fun ck : Dev nD × SemLoc sig => (cellInv ER (Rd m) (K ck) (kcell ck) : sProp 𝕄)) (Finset.mem_univ ck))
  iintro ⟨H, -⟩; iexact H
theorem reached_at (K : Dev nD × SemLoc sig → ℕ) (ck : Dev nD × SemLoc sig) : records m K ⊢ reached ER (kcell ck) 0 := by
  unfold records
  refine BIBase.Entails.trans ?_ (bigSep_elim (Φ := fun ck : Dev nD × SemLoc sig => (reached ER (kcell ck) 0 : sProp 𝕄)) (Finset.mem_univ ck))
  iintro ⟨-, H⟩; iexact H

/-- The tokens of the duties device `c` pays: one unit on each partner's barrier cell, the receive cell of each of its twelve
    transfers on that transfer's peer, its own send and local cells. -/
def payToks (c : Dev nD) : sProp 𝕄 :=
  iprop(dutyTok ER (barCell (px c)) 0 false ∗ dutyTok ER (barCell (py c)) 0 true
    ∗ (bigSep Finset.univ fun k : Fin 12 => dutyTok ER (dCell (peer k c) (rIx k)) 0 false)
    ∗ (bigSep Finset.univ fun k : Fin 12 => dutyTok ER (dCell c (sIx k)) 0 false)
    ∗ (bigSep Finset.univ fun k : Fin 8 => dutyTok ER (dCell c (lIx k)) 0 false))

/-- Its positions: round 0 of every cell of its own. -/
def poss (c : Dev nD) : sProp 𝕄 := bigSep Finset.univ fun sm : SemLoc sig => atPos ER (kcell (c, sm)) 0 ∅ 0

def ghost (K : Dev nD × SemLoc sig → ℕ) (c : Dev nD) : sProp 𝕄 := iprop(records m K ∗ poss c ∗ payToks c)

/-- The six scratch buffers, whole, at some contents. -/
def scr (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f))

def start (c : Dev nD) : sProp 𝕄 :=
  iprop((∃ K, ghost m K c) ∗ credR c 12 ∗ cred (tallyAt (barCell c) () 1) ∗ cred (tallyAt (barCell c) () 1) ∗ levAts L lv
    ∗ (((c : Thread nD τ).loc main_arg0) ↦{fullShare} X m c)
    ∗ (((c : Thread nD τ).loc main_v1) ↦{fullShare} m ((c : Thread nD τ).loc main_v1)))

def Φ₀ (c : Dev nD) : sProp 𝕄 := iprop(start m c ∗ scr c)

/-- The eight blocks of 512 rows of the result on device `c`: four it wrote itself, two each partner wrote. -/
def outs (c : Dev nD) : sProp 𝕄 :=
  iprop(ow c (oB2 c) fullShare (tP m c) ∗ ow c (oB3 c) fullShare (tQ m c) ∗ ow c (oB0 c) fullShare (tP m (py c)) ∗ ow c (oB1 c) fullShare (tQ m (px c))
    ∗ ow c (oB2 (px c)) fullShare (tP m (px c)) ∗ ow c (oB3 (py c)) fullShare (tQ m (py c))
    ∗ ow c (oB0 (px c)) fullShare (tP m (py (px c))) ∗ ow c (oB1 (py c)) fullShare (tQ m (px (py c))))

/-- After the body: a share of the argument array untouched, the result's eight blocks, every DMA semaphore back at zero, the
    scratch buffers whole. -/
def Φ₁ (c : Dev nD) : sProp 𝕄 :=
  iprop((((c : Thread nD τ).loc main_arg0) ↦{fullShare.left} X m c) ∗ outs m c
    ∗ (bigSep Finset.univ fun k : DmaSem sig => semVal (dCell c k) 0) ∗ scr c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.Hand

end
-- ==== Proof.Split.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.Proto
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cutting a buffer's rows into blocks of 512 -/

section Rects

/-- Membership in a block of 512 rows starting at column 0: the row lies in the block. -/
theorem mem_rows1k {off : Fin 2 → Nat} (h : ∀ a, off a + S512x1024.size a ≤ S1024x1024.size a) (h1 : off 1 = 0) (i : S1024x1024.Idx) :
    i ∈ (Rect.unit (s := S1024x1024) off S512x1024.size h).set ↔ off 0 ≤ (i 0 : Nat) ∧ (i 0 : Nat) < off 0 + 512 := by
  rw [Rect.mem_set_unit, Fin.forall_fin_two]
  constructor
  · intro ha; exact ha.1
  · intro ha; exact ⟨ha, by rw [h1]; exact ⟨Nat.zero_le _, by rw [Nat.zero_add]; exact (i 1).isLt⟩⟩
theorem mem_rows4k {off : Fin 2 → Nat} (h : ∀ a, off a + S512x1024.size a ≤ S4096x1024.size a) (h1 : off 1 = 0) (i : S4096x1024.Idx) :
    i ∈ (Rect.unit (s := S4096x1024) off S512x1024.size h).set ↔ off 0 ≤ (i 0 : Nat) ∧ (i 0 : Nat) < off 0 + 512 := by
  rw [Rect.mem_set_unit, Fin.forall_fin_two]
  constructor
  · intro ha; exact ha.1
  · intro ha; exact ⟨ha, by rw [h1]; exact ⟨Nat.zero_le _, by rw [Nat.zero_add]; exact (i 1).isLt⟩⟩

/-- Two blocks of 512 rows of a 1024×1024 buffer, one at row 0 and one at row 512, are disjoint and cover it. -/
theorem rect2 {off off' : Fin 2 → Nat} (h : ∀ a, off a + S512x1024.size a ≤ S1024x1024.size a) (h' : ∀ a, off' a + S512x1024.size a ≤ S1024x1024.size a)
    (h0 : (off 0 = 0 ∧ off' 0 = 512) ∨ (off 0 = 512 ∧ off' 0 = 0)) (h1 : off 1 = 0) (h1' : off' 1 = 0) :
    Disjoint (Rect.unit (s := S1024x1024) off S512x1024.size h).set (Rect.unit (s := S1024x1024) off' S512x1024.size h').set
      ∧ (Rect.unit (s := S1024x1024) off S512x1024.size h).set ∪ (Rect.unit (s := S1024x1024) off' S512x1024.size h').set = Finset.univ := by
  constructor
  · rw [Finset.disjoint_left]
    intro i hi hi'
    rw [mem_rows1k h h1] at hi; rw [mem_rows1k h' h1'] at hi'
    omega
  · ext i
    simp only [Finset.mem_union, Finset.mem_univ, iff_true]
    rw [mem_rows1k h h1, mem_rows1k h' h1']
    have hi0 : (i 0 : Nat) < 1024 := (i 0).isLt
    omega

/-- Eight blocks of 512 rows of a 4096×1024 array at the eight multiples of 512 are pairwise disjoint and cover it. -/
theorem rect8 (offs : Fin 8 → Fin 2 → Nat) (h : ∀ j a, offs j a + S512x1024.size a ≤ S4096x1024.size a)
    (hcol : ∀ j, offs j 1 = 0) (hmul : ∀ j, offs j 0 % 512 = 0) (hinj : ∀ j j', j ≠ j' → offs j 0 ≠ offs j' 0)
    (hsurj : ∀ t : Fin 8, ∃ j, offs j 0 = 512 * t.val) :
    (∀ j ∈ (Finset.univ : Finset (Fin 8)), ∀ j' ∈ (Finset.univ : Finset (Fin 8)), j ≠ j' →
        Disjoint (Rect.unit (s := S4096x1024) (offs j) S512x1024.size (h j)).set (Rect.unit (s := S4096x1024) (offs j') S512x1024.size (h j')).set)
      ∧ (Finset.univ : Finset (Fin 8)).biUnion (fun j => (Rect.unit (s := S4096x1024) (offs j) S512x1024.size (h j)).set) = Finset.univ := by
  constructor
  · intro j _ j' _ hne
    rw [Finset.disjoint_left]
    intro i hi hi'
    rw [mem_rows4k (h j) (hcol j)] at hi; rw [mem_rows4k (h j') (hcol j')] at hi'
    have := hinj j j' hne; have := hmul j; have := hmul j'
    omega
  · ext i
    simp only [Finset.mem_biUnion, Finset.mem_univ, true_and, iff_true]
    have hi0 : (i 0 : Nat) < 4096 := (i 0).isLt
    obtain ⟨j, hj⟩ := hsurj ⟨(i 0 : Nat) / 512, by omega⟩
    refine ⟨j, ?_⟩
    rw [mem_rows4k (h j) (hcol j), hj]
    show 512 * ((i 0 : Nat) / 512) ≤ (i 0 : Nat) ∧ (i 0 : Nat) < 512 * ((i 0 : Nat) / 512) + 512
    omega

end Rects

/-! ## The points-to of a whole buffer along its blocks -/

section Pts
variable {sp : Space} {s : Shape} (c : Dev nD) (M : Memref sig .tc sp s .f32)

theorem set_slice_eq (r : Rect s) (hr : ∀ a, r.stride a = 1) : (M.slice r hr).view.set = r.set.map M.view.emb :=
  View.set_slice (v := M.view) r

/-- Along two blocks that are disjoint and cover the view. -/
theorem pts_split2 (r r' : Rect s) (hr : ∀ a, r.stride a = 1) (hr' : ∀ a, r'.stride a = 1)
    (hd : Disjoint r.set r'.set) (hu : r.set ∪ r'.set = Finset.univ) (q : PosShare TreeShare) (f : Buf (Elt F) (M.view.loc (c : Thread nD τ))) :
    (M.view.loc (c : Thread nD τ) ↦[M.view.set]{q} f : sProp 𝕄)
      ⊣⊢ iprop((M.view.loc (c : Thread nD τ) ↦[(M.slice r hr).view.set]{q} f) ∗ (M.view.loc (c : Thread nD τ) ↦[(M.slice r' hr').view.set]{q} f)) := by
  rw [set_slice_eq, set_slice_eq]
  have hs : M.view.set = r.set.map M.view.emb ∪ r'.set.map M.view.emb := by
    rw [← Finset.map_union, hu]; rfl
  rw [hs]
  exact pointsTo_union ((Finset.disjoint_map _).mpr hd)

/-- Along a family of pairwise disjoint blocks that cover the view. -/
theorem pts_split8 (r : Fin 8 → Rect s) (hr : ∀ j a, (r j).stride a = 1)
    (hd : ∀ j ∈ (Finset.univ : Finset (Fin 8)), ∀ j' ∈ (Finset.univ : Finset (Fin 8)), j ≠ j' → Disjoint (r j).set (r j').set)
    (hu : (Finset.univ : Finset (Fin 8)).biUnion (fun j => (r j).set) = Finset.univ) (q : PosShare TreeShare) (f : Buf (Elt F) (M.view.loc (c : Thread nD τ))) :
    (M.view.loc (c : Thread nD τ) ↦[M.view.set]{q} f : sProp 𝕄)
      = bigSep Finset.univ fun j : Fin 8 => (M.view.loc (c : Thread nD τ) ↦[(M.slice (r j) (hr j)).view.set]{q} f) := by
  have hs : M.view.set = (Finset.univ : Finset (Fin 8)).biUnion (fun j => (M.slice (r j) (hr j)).view.set) := by
    ext i
    constructor
    · intro hi
      obtain ⟨y, rfl⟩ := View.exists_emb_of_mem_set M.view hi
      have hy : y ∈ (Finset.univ : Finset (Fin 8)).biUnion (fun j => (r j).set) := by rw [hu]; exact Finset.mem_univ y
      obtain ⟨j, -, hj⟩ := Finset.mem_biUnion.mp hy
      refine Finset.mem_biUnion.mpr ⟨j, Finset.mem_univ j, ?_⟩
      rw [set_slice_eq]; exact Finset.mem_map_of_mem _ hj
    · intro hi
      obtain ⟨j, -, hj⟩ := Finset.mem_biUnion.mp hi
      exact View.set_slice_subset M.view (r j) hj
  rw [hs]
  exact pointsTo_biUnion Finset.univ _ fun j hj j' hj' hne => by
    rw [set_slice_eq, set_slice_eq]; exact (Finset.disjoint_map _).mpr (hd j hj j' hj' hne)

end Pts

end Cert.KernelIdeal.Hand

end
-- ==== Proof.Prelude.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.Ghost
import proofs.«900388_g7700000000000389_dist_rs_then_ag_i_m4096_n1024_v7x_i4_f32_1_alg».proof.Proof.Split
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The offsets on a device and on its partners -/

section Offsets
variable (c : Dev nD)

theorem off1_px : k0_off1 (px c) = k0_off1 c := by revert c; decide +kernel
theorem off5_px : k0_off5 (px c) = k0_off5 c := by revert c; decide +kernel
theorem off3_py : k0_off3 (py c) = k0_off3 c := by revert c; decide +kernel
theorem off7_py : k0_off7 (py c) = k0_off7 c := by revert c; decide +kernel
theorem off1_py : k0_off1 (py c) = k0_off5 c := by revert c; decide +kernel
theorem off5_py : k0_off5 (py c) = k0_off1 c := by revert c; decide +kernel
theorem off3_px : k0_off3 (px c) = k0_off7 c := by revert c; decide +kernel
theorem off7_px : k0_off7 (px c) = k0_off3 c := by revert c; decide +kernel
theorem off13_eq : k0_off13 c = k0_off1 c := (k0_off13_eq c).trans (k0_off1_eq c).symm
theorem off14_eq : k0_off14 c = k0_off3 c := (k0_off14_eq c).trans (k0_off3_eq c).symm
theorem off15_eq : k0_off15 c = k0_off5 c := (k0_off15_eq c).trans (k0_off5_eq c).symm
theorem off16_eq : k0_off16 c = k0_off7 c := (k0_off16_eq c).trans (k0_off7_eq c).symm

theorem rPf_px : rPf (px c) = rPf c := sl1_congr rP1 (off1_px c) _ _
theorem rPo_px : rPo (px c) = rPo c := sl1_congr rP1 (off5_px c) _ _
theorem rQf_py : rQf (py c) = rQf c := sl1_congr rQ1 (off3_py c) _ _
theorem rQo_py : rQo (py c) = rQo c := sl1_congr rQ1 (off7_py c) _ _
theorem aPf_py : aPf (py c) = aPo c := sl1_congr aP (off1_py c) _ _
theorem aPo_py : aPo (py c) = aPf c := sl1_congr aP (off5_py c) _ _
theorem aQf_px : aQf (px c) = aQo c := sl1_congr aQ (off3_px c) _ _
theorem aQo_px : aQo (px c) = aQf c := sl1_congr aQ (off7_px c) _ _

theorem pair15 : (k0_off1 c 0 = 0 ∧ k0_off5 c 0 = 512) ∨ (k0_off1 c 0 = 512 ∧ k0_off5 c 0 = 0) := by revert c; decide +kernel
theorem pair37 : (k0_off3 c 0 = 0 ∧ k0_off7 c 0 = 512) ∨ (k0_off3 c 0 = 512 ∧ k0_off7 c 0 = 0) := by revert c; decide +kernel
theorem col1 : k0_off1 c 1 = 0 := by revert c; decide +kernel
theorem col3 : k0_off3 c 1 = 0 := by revert c; decide +kernel
theorem col5 : k0_off5 c 1 = 0 := by revert c; decide +kernel
theorem col7 : k0_off7 c 1 = 0 := by revert c; decide +kernel

/-- The eight blocks of the result array on device `c`, by who writes them: itself (four), `px c` (two), `py c` (two). -/
def offsO : Fin 8 → Fin 2 → Nat :=
  ![k0_off11 c, k0_off12 c, k0_off9 c, k0_off10 c, k0_off11 (px c), k0_off9 (px c), k0_off12 (py c), k0_off10 (py c)]

theorem offsO_inb : ∀ j a, offsO c j a + S512x1024.size a ≤ S4096x1024.size a := by revert c; decide +kernel
theorem offsO_col : ∀ j, offsO c j 1 = 0 := by revert c; decide +kernel
theorem offsO_mul : ∀ j, offsO c j 0 % 512 = 0 := by revert c; decide +kernel
theorem offsO_inj : ∀ j j', j ≠ j' → offsO c j 0 ≠ offsO c j' 0 := by revert c; decide +kernel
theorem offsO_surj : ∀ t : Fin 8, ∃ j, offsO c j 0 = 512 * t.val := by revert c; decide +kernel

end Offsets

/-! ## Payloads: what each transfer hands over, and what each wait gets -/

section Pay
variable (c : Dev nD)

theorem payR0 : (ow (px c) (rPf c) fullShare (A0 m c) : sProp 𝕄) ⊢ Pd m (px c) (rIx 0) := by
  show _ ⊢ ow (px c) (rPf (px (px c))) fullShare (A0 m (px (px c)))
  rw [px_px]
theorem payR1 : (ow (py c) (rQf c) fullShare (A1 m c) : sProp 𝕄) ⊢ Pd m (py c) (rIx 1) := by
  show _ ⊢ ow (py c) (rQf (py (py c))) fullShare (A1 m (py (py c)))
  rw [py_py]
theorem payR2 : (ow (px c) (rPo c) fullShare (A2 m c) : sProp 𝕄) ⊢ Pd m (px c) (rIx 2) := by
  show _ ⊢ ow (px c) (rPo (px (px c))) fullShare (A2 m (px (px c)))
  rw [px_px]
theorem payR3 : (ow (py c) (rQo c) fullShare (A3 m c) : sProp 𝕄) ⊢ Pd m (py c) (rIx 3) := by
  show _ ⊢ ow (py c) (rQo (py (py c))) fullShare (A3 m (py (py c)))
  rw [py_py]
theorem payR4 : (iprop(ow (py c) rP2 fullShare (sPf m c) ∗ ow c (aPf c) fullShare (sPf m c)) : sProp 𝕄) ⊢ Pd m (py c) (rIx 4) := by
  show _ ⊢ iprop(ow (py c) rP2 fullShare (sPf m (py (py c))) ∗ ow (py (py c)) (aPf (py (py c))) fullShare (sPf m (py (py c))))
  rw [py_py]
theorem payR5 : (iprop(ow (px c) rQ2 fullShare (sQf m c) ∗ ow c (aQf c) fullShare (sQf m c)) : sProp 𝕄) ⊢ Pd m (px c) (rIx 5) := by
  show _ ⊢ iprop(ow (px c) rQ2 fullShare (sQf m (px (px c))) ∗ ow (px (px c)) (aQf (px (px c))) fullShare (sQf m (px (px c))))
  rw [px_px]
theorem payR6 : (ow (py c) (aPo c) fullShare (tP m c) : sProp 𝕄) ⊢ Pd m (py c) (rIx 6) := by
  show _ ⊢ ow (py c) (aPo (py (py c))) fullShare (tP m (py (py c)))
  rw [py_py]
theorem payR7 : (ow (px c) (aQo c) fullShare (tQ m c) : sProp 𝕄) ⊢ Pd m (px c) (rIx 7) := by
  show _ ⊢ ow (px c) (aQo (px (px c))) fullShare (tQ m (px (px c)))
  rw [px_px]
theorem payR8 : (ow (px c) (oB2 c) fullShare (tP m c) : sProp 𝕄) ⊢ Pd m (px c) (rIx 8) := by
  show _ ⊢ ow (px c) (oB2 (px (px c))) fullShare (tP m (px (px c)))
  rw [px_px]
theorem payR9 : (ow (py c) (oB3 c) fullShare (tQ m c) : sProp 𝕄) ⊢ Pd m (py c) (rIx 9) := by
  show _ ⊢ ow (py c) (oB3 (py (py c))) fullShare (tQ m (py (py c)))
  rw [py_py]
theorem payR10 : (ow (px c) (oB0 c) fullShare (tP m (py c)) : sProp 𝕄) ⊢ Pd m (px c) (rIx 10) := by
  show _ ⊢ ow (px c) (oB0 (px (px c))) fullShare (tP m (py (px (px c))))
  rw [px_px]
theorem payR11 : (ow (py c) (oB1 c) fullShare (tQ m (px c)) : sProp 𝕄) ⊢ Pd m (py c) (rIx 11) := by
  show _ ⊢ ow (py c) (oB1 (py (py c))) fullShare (tQ m (px (py (py c))))
  rw [py_py]

/-- What the receive waits hand device `c`, the views respelt at its own offsets. -/
theorem gotR0 : Pd m c (rIx 0) ⊢ (ow c (rPf c) fullShare (A0 m (px c)) : sProp 𝕄) := by
  show ow c (rPf (px c)) fullShare (A0 m (px c)) ⊢ _
  rw [rPf_px]
theorem gotR1 : Pd m c (rIx 1) ⊢ (ow c (rQf c) fullShare (A1 m (py c)) : sProp 𝕄) := by
  show ow c (rQf (py c)) fullShare (A1 m (py c)) ⊢ _
  rw [rQf_py]
theorem gotR2 : Pd m c (rIx 2) ⊢ (ow c (rPo c) fullShare (A2 m (px c)) : sProp 𝕄) := by
  show ow c (rPo (px c)) fullShare (A2 m (px c)) ⊢ _
  rw [rPo_px]
theorem gotR3 : Pd m c (rIx 3) ⊢ (ow c (rQo c) fullShare (A3 m (py c)) : sProp 𝕄) := by
  show ow c (rQo (py c)) fullShare (A3 m (py c)) ⊢ _
  rw [rQo_py]
theorem gotR4 : Pd m c (rIx 4) ⊢ (iprop(ow c rP2 fullShare (sPf m (py c)) ∗ ow (py c) (aPo c) fullShare (sPf m (py c))) : sProp 𝕄) := by
  show iprop(ow c rP2 fullShare (sPf m (py c)) ∗ ow (py c) (aPf (py c)) fullShare (sPf m (py c))) ⊢ _
  rw [aPf_py]
theorem gotR5 : Pd m c (rIx 5) ⊢ (iprop(ow c rQ2 fullShare (sQf m (px c)) ∗ ow (px c) (aQo c) fullShare (sQf m (px c))) : sProp 𝕄) := by
  show iprop(ow c rQ2 fullShare (sQf m (px c)) ∗ ow (px c) (aQf (px c)) fullShare (sQf m (px c))) ⊢ _
  rw [aQf_px]
theorem gotR6 : Pd m c (rIx 6) ⊢ (ow c (aPf c) fullShare (tP m (py c)) : sProp 𝕄) := by
  show ow c (aPo (py c)) fullShare (tP m (py c)) ⊢ _
  rw [aPo_py]
theorem gotR7 : Pd m c (rIx 7) ⊢ (ow c (aQf c) fullShare (tQ m (px c)) : sProp 𝕄) := by
  show ow c (aQo (px c)) fullShare (tQ m (px c)) ⊢ _
  rw [aQo_px]

theorem barPay_px : (iprop(dE c (rPf c) ∗ dE c (rPo c) ∗ dE c rQ2 ∗ dE c (oB2 (px c)) ∗ dE c (oB0 (px c))) : sProp 𝕄) ⊢ barPay (px c) false := by
  unfold barPay; rw [if_neg Bool.false_ne_true, px_px, rPf_px, rPo_px]
theorem barPay_py : (iprop(dE c (rQf c) ∗ dE c (rQo c) ∗ dE c rP2 ∗ dE c (oB3 (py c)) ∗ dE c (oB1 (py c))) : sProp 𝕄) ⊢ barPay (py c) true := by
  unfold barPay; rw [if_pos rfl, py_py, rQf_py, rQo_py]
theorem barGot_false : barPay c false ⊢ (iprop(dE (px c) (rPf c) ∗ dE (px c) (rPo c) ∗ dE (px c) rQ2 ∗ dE (px c) (oB2 c) ∗ dE (px c) (oB0 c)) : sProp 𝕄) := by
  unfold barPay; rw [if_neg Bool.false_ne_true]
theorem barGot_true : barPay c true ⊢ (iprop(dE (py c) (rQf c) ∗ dE (py c) (rQo c) ∗ dE (py c) rP2 ∗ dE (py c) (oB3 c) ∗ dE (py c) (oB1 c)) : sProp 𝕄) := by
  unfold barPay; rw [if_pos rfl]

end Pay

/-! ## Cutting the buffers at entry, joining them at exit -/

section Cut
variable (c : Dev nD)

theorem ow_of_pts {sp : Space} {s : Shape} (M : Memref sig .tc sp s .f32) (r : Rect s) (hr : ∀ a, r.stride a = 1) (q : PosShare TreeShare)
    (f : Buf (Elt F) (M.view.loc (c : Thread nD τ))) :
    (M.view.loc (c : Thread nD τ) ↦[M.view.set]{q} f : sProp 𝕄) ⊢ ow c (M.slice r hr) q ((M.slice r hr).view.read (Elt F) f) := by
  unfold ow owns
  iintro H
  iexists f
  isplitr; · (ipureintro; rfl)
  ihave H' := (pointsTo_split_subset (View.set_slice_subset M.view r)).1 $$ H
  icases H' with ⟨H1, -⟩
  iexact H1

theorem dE_split2 (M : Memref sig .tc .vmem S1024x1024 .f32) {off off' : Fin 2 → Nat} (h : ∀ a, off a + S512x1024.size a ≤ S1024x1024.size a)
    (h' : ∀ a, off' a + S512x1024.size a ≤ S1024x1024.size a) (h0 : (off 0 = 0 ∧ off' 0 = 512) ∨ (off 0 = 512 ∧ off' 0 = 0)) (h1 : off 1 = 0) (h1' : off' 1 = 0)
    (f : Buf (Elt F) (M.view.loc (c : Thread nD τ))) :
    (M.view.loc (c : Thread nD τ) ↦[M.view.set]{fullShare} f : sProp 𝕄) ⊢ iprop(dE c (sl1 M off h) ∗ dE c (sl1 M off' h')) := by
  obtain ⟨hd, hu⟩ := rect2 h h' h0 h1 h1'
  refine (pts_split2 c M _ _ (fun _ => rfl) (fun _ => rfl) hd hu fullShare f).1.trans ?_
  unfold dE
  iintro ⟨H1, H2⟩
  isplitl [H1]; · iexists f; iexact H1
  iexists f; iexact H2

theorem ow_join2 (M : Memref sig .tc .vmem S1024x1024 .f32) {off off' : Fin 2 → Nat} (h : ∀ a, off a + S512x1024.size a ≤ S1024x1024.size a)
    (h' : ∀ a, off' a + S512x1024.size a ≤ S1024x1024.size a) (h0 : (off 0 = 0 ∧ off' 0 = 512) ∨ (off 0 = 512 ∧ off' 0 = 0)) (h1 : off 1 = 0) (h1' : off' 1 = 0)
    (v v' : Vec F S512x1024 .f32) :
    (iprop(ow c (sl1 M off h) fullShare v ∗ ow c (sl1 M off' h') fullShare v') : sProp 𝕄)
      ⊢ iprop(∃ g : Buf (Elt F) (M.view.loc (c : Thread nD τ)), M.view.loc (c : Thread nD τ) ↦[M.view.set]{fullShare} g) := by
  obtain ⟨hd, hu⟩ := rect2 h h' h0 h1 h1'
  have hdj : Disjoint (sl1 M off h).view.set (sl1 M off' h').view.set := by
    rw [set_slice_eq, set_slice_eq]; exact (Finset.disjoint_map _).mpr hd
  have hs : (sl1 M off h).view.set ∪ (sl1 M off' h').view.set = M.view.set := by
    rw [set_slice_eq, set_slice_eq, ← Finset.map_union, hu]; rfl
  have key (f g : Buf (Elt F) (M.view.loc (c : Thread nD τ))) :
      (iprop((M.view.loc (c : Thread nD τ) ↦[(sl1 M off h).view.set]{fullShare} f) ∗ (M.view.loc (c : Thread nD τ) ↦[(sl1 M off' h').view.set]{fullShare} g)) : sProp 𝕄)
        ⊢ (M.view.loc (c : Thread nD τ) ↦[M.view.set]{fullShare} ((sl1 M off' h').view.set.piecewise g f)) := by
    have := pointsTo_join (ℓ := M.view.loc (c : Thread nD τ)) (q := fullShare) (f := f) (g := g) (Val := Elt F) (Name := ℕ) (U := UU) (Lvl := ℕ) (Ix := Unit) hdj
    rwa [hs] at this
  unfold ow owns
  iintro ⟨⟨%f, -, H1⟩, ⟨%g, -, H2⟩⟩
  iexists ((sl1 M off' h').view.set.piecewise g f)
  iapply (key f g)
  isplitl [H1] <;> iassumption

theorem out_split (f : Buf (Elt F) ((c : Thread nD τ).loc main_v1)) :
    (((c : Thread nD τ).loc main_v1) ↦{fullShare} f : sProp 𝕄)
      ⊢ iprop(dE c (oB2 c) ∗ dE c (oB3 c) ∗ dE c (oB0 c) ∗ dE c (oB1 c) ∗ dE c (oB2 (px c)) ∗ dE c (oB0 (px c)) ∗ dE c (oB3 (py c)) ∗ dE c (oB1 (py c))) := by
  obtain ⟨hd, hu⟩ := rect8 (offsO c) (offsO_inb c) (offsO_col c) (offsO_mul c) (offsO_inj c) (offsO_surj c)
  have e := pts_split8 (F := F) c oM (fun j => Rect.unit (s := S4096x1024) (offsO c j) S512x1024.size (offsO_inb c j)) (fun _ _ => rfl) hd hu fullShare f
  rw [View.set_whole, bigSep_fin8] at e
  refine (Entails.of_eq e).trans ?_
  unfold dE
  iintro ⟨H0, H1, H2, H3, H4, H5, H6, H7⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7

/-- The argument array: half of it kept untouched, the other half cut into eight shares, one per transfer that reads it, each
    restricted to the rows that transfer reads. -/
theorem x_split :
    (((c : Thread nD τ).loc main_arg0) ↦{fullShare} X m c : sProp 𝕄)
      ⊢ iprop((((c : Thread nD τ).loc main_arg0) ↦{fullShare.left} X m c)
          ∗ ow c (xA0 c) (qx 0) (A0 m c) ∗ ow c (xA1 c) (qx 1) (A1 m c) ∗ ow c (xA2 c) (qx 2) (A2 m c) ∗ ow c (xA3 c) (qx 3) (A3 m c)
          ∗ ow c (xB0 c) (qx 4) (B0 m c) ∗ ow c (xB1 c) (qx 5) (B1 m c) ∗ ow c (xB2 c) (qx 6) (B2 m c) ∗ ow c (xB3 c) (qx 7) (B3 m c)) := by
  have hw (q : PosShare TreeShare) : (((c : Thread nD τ).loc main_arg0) ↦{q} X m c : sProp 𝕄) = (xM.view.loc (c : Thread nD τ) ↦[xM.view.set]{q} X m c) := by
    rw [View.set_whole]
  iintro H
  ihave H' := (pointsTo_share (PosShare.mem_left_op_right fullShare)).1 $$ H
  icases H' with ⟨HL, HR⟩
  ihave H' := (pointsTo_share (PosShare.mem_left_op_right fullShare.right)).1 $$ HR
  icases H' with ⟨HRL, HRR⟩
  ihave H' := (pointsTo_share (PosShare.mem_left_op_right fullShare.right.left)).1 $$ HRL
  icases H' with ⟨HRLL, HRLR⟩
  ihave H' := (pointsTo_share (PosShare.mem_left_op_right fullShare.right.right)).1 $$ HRR
  icases H' with ⟨HRRL, HRRR⟩
  ihave H' := (pointsTo_share (PosShare.mem_left_op_right fullShare.right.left.left)).1 $$ HRLL
  icases H' with ⟨Q0, Q1⟩
  ihave H' := (pointsTo_share (PosShare.mem_left_op_right fullShare.right.left.right)).1 $$ HRLR
  icases H' with ⟨Q2, Q3⟩
  ihave H' := (pointsTo_share (PosShare.mem_left_op_right fullShare.right.right.left)).1 $$ HRRL
  icases H' with ⟨Q4, Q5⟩
  ihave H' := (pointsTo_share (PosShare.mem_left_op_right fullShare.right.right.right)).1 $$ HRRR
  icases H' with ⟨Q6, Q7⟩
  isplitl [HL]; · iexact HL
  isplitl [Q0]; · iapply ((Entails.of_eq (hw _)).trans (ow_of_pts c xM _ (fun _ => rfl) _ _)); iexact Q0
  isplitl [Q1]; · iapply ((Entails.of_eq (hw _)).trans (ow_of_pts c xM _ (fun _ => rfl) _ _)); iexact Q1
  isplitl [Q2]; · iapply ((Entails.of_eq (hw _)).trans (ow_of_pts c xM _ (fun _ => rfl) _ _)); iexact Q2
  isplitl [Q3]; · iapply ((Entails.of_eq (hw _)).trans (ow_of_pts c xM _ (fun _ => rfl) _ _)); iexact Q3
  isplitl [Q4]; · iapply ((Entails.of_eq (hw _)).trans (ow_of_pts c xM _ (fun _ => rfl) _ _)); iexact Q4
  isplitl [Q5]; · iapply ((Entails.of_eq (hw _)).trans (ow_of_pts c xM _ (fun _ => rfl) _ _)); iexact Q5
  isplitl [Q6]; · iapply ((Entails.of_eq (hw _)).trans (ow_of_pts c xM _ (fun _ => rfl) _ _)); iexact Q6
  iapply ((Entails.of_eq (hw _)).trans (ow_of_pts c xM _ (fun _ => rfl) _ _)); iexact Q7

end Cut

end Cert.KernelIdeal.Hand

end
-- ==== Proof.BarRules.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.Prelude
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## The entry handshake with the partners' buffers spelt out -/

/-- The entry signal to `px c`: it hands over this device's buffers that `px c` writes. -/
theorem signal_barX {α : Type} {Q : α → sProp 𝕄} {k : PUnit → Prog (TpuEff nD τ sig (Elt F) Λ₀ .tc) α}
    (κ : ℕ) {O₀ : CellTallies nD τ sig Unit} (O : CellTallies nD τ sig Unit) (hO : O₀ = O + tallyAt (barCell (px c)) () 1) (W : Waits sig Unit) :
    iprop(cellInv ER (Rd m) κ (barCell (px c)) ∗ owes (c : Thread nD τ) O₀ W ∗ dutyTok ER (barCell (px c)) 0 false
        ∗ iprop(dE c (rPf c) ∗ dE c (rPo c) ∗ dE c rQ2 ∗ dE c (oB2 (px c)) ∗ dE c (oB0 (px c))) ∗ reached ER (barCell (px c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (px c : Thread nD τ) barS 1) k) Q) :=
  (sep_mono_right (sep_mono_right (sep_mono_right (sep_mono_left (barPay_px (F := F) c))))).trans
    (signal_bar m c (px c) false κ O hO W)

/-- The entry signal to `py c`. -/
theorem signal_barY {α : Type} {Q : α → sProp 𝕄} {k : PUnit → Prog (TpuEff nD τ sig (Elt F) Λ₀ .tc) α}
    (κ : ℕ) {O₀ : CellTallies nD τ sig Unit} (O : CellTallies nD τ sig Unit) (hO : O₀ = O + tallyAt (barCell (py c)) () 1) (W : Waits sig Unit) :
    iprop(cellInv ER (Rd m) κ (barCell (py c)) ∗ owes (c : Thread nD τ) O₀ W ∗ dutyTok ER (barCell (py c)) 0 true
        ∗ iprop(dE c (rQf c) ∗ dE c (rQo c) ∗ dE c rP2 ∗ dE c (oB3 (py c)) ∗ dE c (oB1 (py c))) ∗ reached ER (barCell (py c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (py c : Thread nD τ) barS 1) k) Q) :=
  (sep_mono_right (sep_mono_right (sep_mono_right (sep_mono_left (barPay_py (F := F) c))))).trans
    (signal_bar m c (py c) true κ O hO W)

/-- The wait for both partners' entry signals: their buffers this device writes. -/
theorem wait_bar' {α : Type} {Q : α → sProp 𝕄} {k : PUnit → Prog (TpuEff nD τ sig (Elt F) Λ₀ .tc) α}
    (κ : ℕ) (O : CellTallies nD τ sig Unit) (W : Waits sig Unit) :
    iprop(cellInv ER (Rd m) κ (barCell c) ∗ cred (tallyAt (barCell c) () 2) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0
              ∗ iprop(dE (px c) (rPf c) ∗ dE (px c) (rPo c) ∗ dE (px c) rQ2 ∗ dE (px c) (oB2 c) ∗ dE (px c) (oB0 c))
              ∗ iprop(dE (py c) (rQf c) ∗ dE (py c) (rQo c) ∗ dE (py c) rP2 ∗ dE (py c) (oB3 c) ∗ dE (py c) (oB1 c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  refine (wait_bar m c κ O W).trans (wand_mono_left ?_)
  exact wand_mono_left (sep_mono_right (sep_mono_right (BIClass.sep_mono (barGot_false (F := F) c) (barGot_true (F := F) c))))

end Cert.KernelIdeal.Hand

end
-- ==== Proof.Mem.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.Rules
import proofs.«900388_g7700000000000389_dist_rs_then_ag_i_m4096_n1024_v7x_i4_f32_1_alg».proof.Proof.Split
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Loads and stores through a block of 512 rows held at a value -/

section Mem
variable (c : Dev nD)

theorem hz2 : (![0, 0] : Fin 2 → Nat) = fun _ => 0 := funext fun a => by fin_cases a <;> rfl

theorem load_sl1 (M : Memref sig .tc .vmem S1024x1024 .f32) {off off' : Fin 2 → Nat} (e : off' = off)
    (h : ∀ a, off a + S512x1024.size a ≤ S1024x1024.size a) (h' : ∀ a, off' a + S512x1024.size a ≤ S1024x1024.size a)
    {hl : M.view.LoadsAt (Rect.unit (s := S1024x1024) off' S512x1024.size h').toLoadRect}
    (q : PosShare TreeShare) (v : Vec F S512x1024 .f32) {α : Type} {Q : α → sProp 𝕄}
    {k : (Vec F S512x1024 .f32) → Prog (TpuEff nD τ sig (Elt F) Λ₀ .tc) α} :
    (ow c (sl1 M off h) q v : sProp 𝕄)
      ⊢ iprop((ow c (sl1 M off h) q v -∗ wp frame (wpE (defs₀ (F := F)) 𝒱₀ (c : Thread nD τ) none) Set.univ (k v) Q)
          -∗ wp frame (wpE (defs₀ (F := F)) 𝒱₀ (c : Thread nD τ) none) Set.univ
            (.op (.load M (Rect.unit (s := S1024x1024) off' S512x1024.size h').toLoadRect hl) k) Q) := by
  subst e
  unfold ow owns
  iintro ⟨%f, %hf, H⟩ Hk
  iapply (wp_load 𝒱₀ (c : Thread nD τ) none Set.univ (m := M) (S := (sl1 M off' h).view.set)
      (by rw [set_slice_eq]; exact Finset.Subset.refl _)) $$ H
  iintro H
  rw [show M.view.readAt (Elt F) (Rect.unit (s := S1024x1024) off' S512x1024.size h').toLoadRect f = v from hf]
  iapply Hk
  iexists f; isplitr; · (ipureintro; exact hf)
  iexact H

theorem store_sl1 (M : Memref sig .tc .vmem S1024x1024 .f32) {off off' : Fin 2 → Nat} (e : off' = off)
    (h : ∀ a, off a + S512x1024.size a ≤ S1024x1024.size a) (h' : ∀ a, off' a + S512x1024.size a ≤ S1024x1024.size a)
    (w : Vec F S512x1024 .f32)
    {hx : (M.access (Rect.unit (s := S1024x1024) off' S512x1024.size h')).Stores Finset.univ}
    {hm : (Finset.univ : Finset (Rect.unit (s := S1024x1024) off' S512x1024.size h').shape.Idx) = Finset.univ ∨ ∀ a, (Rect.unit (s := S1024x1024) off' S512x1024.size h').stride a = 1}
    (v : Vec F S512x1024 .f32) {α : Type} {Q : α → sProp 𝕄}
    {k : PUnit → Prog (TpuEff nD τ sig (Elt F) Λ₀ .tc) α} :
    (ow c (sl1 M off h) fullShare v : sProp 𝕄)
      ⊢ iprop((ow c (sl1 M off h) fullShare w -∗ wp frame (wpE (defs₀ (F := F)) 𝒱₀ (c : Thread nD τ) none) Set.univ (k ⟨⟩) Q)
          -∗ wp frame (wpE (defs₀ (F := F)) 𝒱₀ (c : Thread nD τ) none) Set.univ
            (.op (.store M (Rect.unit (s := S1024x1024) off' S512x1024.size h') w Finset.univ hx hm) k) Q) := by
  subst e
  unfold ow owns
  iintro ⟨%f, -, H⟩ Hk
  iapply (wp_store 𝒱₀ (c : Thread nD τ) none Set.univ (m := M) (r := Rect.unit (s := S1024x1024) off' S512x1024.size h') (Mk := Finset.univ)
      (S := (sl1 M off' h).view.set) (Finset.Subset.refl _)) $$ H
  iintro H
  iapply Hk
  iexists ((sl1 M off' h).view.write (Elt F) f w Finset.univ); isplitr; · (ipureintro; exact View.read_write_univ _ _)
  iexact H

/-- A load of a whole buffer of 512 rows. -/
theorem load_rP2 {hl : (rP2 : Memref sig .tc .vmem S512x1024 .f32).view.LoadsAt (Rect.unit (s := S512x1024) ![0, 0] S512x1024.size inb_S512x1024_S512x1024_0_0).toLoadRect}
    (v : Vec F S512x1024 .f32) {α : Type} {Q : α → sProp 𝕄} {k : (Vec F S512x1024 .f32) → Prog (TpuEff nD τ sig (Elt F) Λ₀ .tc) α} :
    (ow c rP2 fullShare v : sProp 𝕄)
      ⊢ iprop((ow c rP2 fullShare v -∗ wp frame (wpE (defs₀ (F := F)) 𝒱₀ (c : Thread nD τ) none) Set.univ (k v) Q)
          -∗ wp frame (wpE (defs₀ (F := F)) 𝒱₀ (c : Thread nD τ) none) Set.univ
            (.op (.load rP2 (Rect.unit (s := S512x1024) ![0, 0] S512x1024.size inb_S512x1024_S512x1024_0_0).toLoadRect hl) k) Q) := by
  unfold ow owns
  iintro ⟨%f, %hf, H⟩ Hk
  iapply (wp_load 𝒱₀ (c : Thread nD τ) none Set.univ (m := rP2) (S := (rP2 : Memref sig .tc .vmem S512x1024 .f32).view.set) (View.setOn_subset_set _ _)) $$ H
  iintro H
  rw [show (rP2 : Memref sig .tc .vmem S512x1024 .f32).view.readAt (Elt F) (Rect.unit (s := S512x1024) ![0, 0] S512x1024.size inb_S512x1024_S512x1024_0_0).toLoadRect f = v from
    (Memref.readAt_unit_zero (Elt F) cc0_scratch3 hz2 _ f).trans hf]
  iapply Hk
  iexists f; isplitr; · (ipureintro; exact hf)
  iexact H
theorem load_rQ2 {hl : (rQ2 : Memref sig .tc .vmem S512x1024 .f32).view.LoadsAt (Rect.unit (s := S512x1024) ![0, 0] S512x1024.size inb_S512x1024_S512x1024_0_0).toLoadRect}
    (v : Vec F S512x1024 .f32) {α : Type} {Q : α → sProp 𝕄} {k : (Vec F S512x1024 .f32) → Prog (TpuEff nD τ sig (Elt F) Λ₀ .tc) α} :
    (ow c rQ2 fullShare v : sProp 𝕄)
      ⊢ iprop((ow c rQ2 fullShare v -∗ wp frame (wpE (defs₀ (F := F)) 𝒱₀ (c : Thread nD τ) none) Set.univ (k v) Q)
          -∗ wp frame (wpE (defs₀ (F := F)) 𝒱₀ (c : Thread nD τ) none) Set.univ
            (.op (.load rQ2 (Rect.unit (s := S512x1024) ![0, 0] S512x1024.size inb_S512x1024_S512x1024_0_0).toLoadRect hl) k) Q) := by
  unfold ow owns
  iintro ⟨%f, %hf, H⟩ Hk
  iapply (wp_load 𝒱₀ (c : Thread nD τ) none Set.univ (m := rQ2) (S := (rQ2 : Memref sig .tc .vmem S512x1024 .f32).view.set) (View.setOn_subset_set _ _)) $$ H
  iintro H
  rw [show (rQ2 : Memref sig .tc .vmem S512x1024 .f32).view.readAt (Elt F) (Rect.unit (s := S512x1024) ![0, 0] S512x1024.size inb_S512x1024_S512x1024_0_0).toLoadRect f = v from
    (Memref.readAt_unit_zero (Elt F) cc0_scratch5 hz2 _ f).trans hf]
  iapply Hk
  iexists f; isplitr; · (ipureintro; exact hf)
  iexact H

/-- A whole buffer's points-to, through the whole view. -/
theorem whole_pts (b : Ref sig .tc) (q : PosShare TreeShare) (f : Buf (Elt F) ((c : Thread nD τ).loc b)) :
    (((c : Thread nD τ).loc b) ↦{q} f : sProp 𝕄) = ((Memref.whole b).view.loc (c : Thread nD τ) ↦[(Memref.whole b).view.set]{q} f) := by
  rw [View.set_whole]

end Mem

end Cert.KernelIdeal.Hand

end
-- ==== Proof.SendAt.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.Rules
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## The transfers, the peer named by a device the program computes -/

theorem send_owns_at {n p : Dev nD} (hn : n = p) {sp sp' : Space} {src : Memref sig .tc sp S512x1024 .f32} {dst : Memref sig .tc sp' S512x1024 .f32}
    {hsc : (dst : Memref sig (Dev.tc n : Thread nD τ).2.kind sp' S512x1024 .f32).view.ref.isScScratch = false} (kS kR : DmaSem sig)
    {hsrc : src.view.WordExact} {hdst : dst.view.WordExact}
    {hsem : DmaTarget.Typed sp (.dma kR) (.remote (Dev.tc n : Thread nD τ) dst (.dma kS) hsc)}
    {α : Type} {Q : α → sProp 𝕄} {k : PUnit → Prog (TpuEff nD τ sig (Elt F) Λ₀ .tc) α}
    (q : PosShare TreeShare) (v : Vec F S512x1024 .f32) (κ₁ κ₂ : ℕ) {O₀ : CellTallies nD τ sig Unit} (O : CellTallies nD τ sig Unit)
    (hO : O₀ = O + tallyAt (dCell p kR) () N) (W : Waits sig Unit)
    (hN : dst.view.amount (.dma kR) = N)
    (hpayS : (ow c src q v : sProp 𝕄) ⊢ Pd m c kS) (hpayR : (ow p dst fullShare v : sProp 𝕄) ⊢ Pd m p kR) :
    iprop(cellInv ER (Rd m) κ₁ (dCell c kS) ∗ cellInv ER (Rd m) κ₂ (dCell p kR) ∗ ow c src q v ∗ dE p dst ∗ owes (c : Thread nD τ) O₀ W
        ∗ dutyTok ER (dCell c kS) 0 false ∗ reached ER (dCell c kS) 0 ∗ dutyTok ER (dCell p kR) 0 false ∗ reached ER (dCell p kR) 0)
      ⊢ iprop(((cred (tallyAt (dCell c kS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma kS) hsc) (.dma kR) hsrc hdst hsem) k) Q) := by
  subst hn
  exact send_owns m c kS kR q v κ₁ κ₂ O hO W hN hpayS hpayR

theorem send_landing_owns_at {n p : Dev nD} (hn : n = p) {sp sp' : Space} {src : Memref sig .tc sp S512x1024 .f32} {dst : Memref sig .tc sp' S512x1024 .f32}
    {hsc : (dst : Memref sig (Dev.tc n : Thread nD τ).2.kind sp' S512x1024 .f32).view.ref.isScScratch = false} (kS kR : DmaSem sig)
    {hsrc : src.view.WordExact} {hdst : dst.view.WordExact}
    {hsem : DmaTarget.Typed sp (.dma kR) (.remote (Dev.tc n : Thread nD τ) dst (.dma kS) hsc)}
    {α : Type} {Q : α → sProp 𝕄} {k : PUnit → Prog (TpuEff nD τ sig (Elt F) Λ₀ .tc) α}
    (q : PosShare TreeShare) (v : Vec F S512x1024 .f32) (κ₁ κ₂ : ℕ) {O₀ : CellTallies nD τ sig Unit} (O : CellTallies nD τ sig Unit)
    (hO : O₀ = O + tallyAt (dCell p kR) () N) (W : Waits sig Unit)
    (hN : dst.view.amount (.dma kR) = N)
    (hpayS : (emp : sProp 𝕄) ⊢ Pd m c kS) (hpayR : (iprop(ow p dst fullShare v ∗ ow c src q v) : sProp 𝕄) ⊢ Pd m p kR) :
    iprop(cellInv ER (Rd m) κ₁ (dCell c kS) ∗ cellInv ER (Rd m) κ₂ (dCell p kR) ∗ ow c src q v ∗ dE p dst ∗ owes (c : Thread nD τ) O₀ W
        ∗ dutyTok ER (dCell c kS) 0 false ∗ reached ER (dCell c kS) 0 ∗ dutyTok ER (dCell p kR) 0 false ∗ reached ER (dCell p kR) 0)
      ⊢ iprop(((cred (tallyAt (dCell c kS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma kS) hsc) (.dma kR) hsrc hdst hsem) k) Q) := by
  subst hn
  exact send_landing_owns m c kS kR q v κ₁ κ₂ O hO W hN hpayS hpayR

end Cert.KernelIdeal.Hand

end
-- ==== Proof.Part1.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.BarRules
import proofs.«900388_g7700000000000389_dist_rs_then_ag_i_m4096_n1024_v7x_i4_f32_1_alg».proof.Proof.Mem
import proofs.«900388_g7700000000000389_dist_rs_then_ag_i_m4096_n1024_v7x_i4_f32_1_alg».proof.Proof.SendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 1 of the body: what it takes from the device's holdings and what it leaves -/

set_option maxHeartbeats 4000000 in
set_option maxRecDepth 65536 in
theorem part1_spec (K : Dev nD × SemLoc sig → ℕ)  (Q : (Σ' (d0 : Dev nD) (v4 : BitVec 32) (v9 : BitVec 32) (v10 : BitVec 32) (v18 : BitVec 32) (v20 : BitVec 32) (v21 : BitVec 32) (v25 : BitVec 32) (v26 : BitVec 32), BitVec 32) → sProp 𝕄) :
    iprop(records m K ∗ levAts L lv ∗ (dE c (rPf c)) ∗ (dE c (rPo c)) ∗ (dE c rQ2) ∗ (dE c (oB2 (px c))) ∗ (dE c (oB0 (px c))) ∗ (dutyTok ER (barCell (px c)) 0 false) ∗ (iprop(∃ W : Waits sig Unit, owes (c : Thread nD τ) (O₀ c) W)) ∗ (dE c (rQf c)) ∗ (dE c (rQo c)) ∗ (dE c rP2) ∗ (dE c (oB3 (py c))) ∗ (dE c (oB1 (py c))) ∗ (dutyTok ER (barCell (py c)) 0 true) ∗ (cred (tallyAt (barCell c) () 1)) ∗ (cred (tallyAt (barCell c) () 1)) ∗ (atPos ER (barCell c) 0 ∅ 0)
        ∗ (∀ (v4 : BitVec 32) (v9 : BitVec 32) (v10 : BitVec 32) (v18 : BitVec 32) (v20 : BitVec 32) (v21 : BitVec 32) (v25 : BitVec 32) (v26 : BitVec 32) (c19 : BitVec 32), (iprop((iprop(∃ W : Waits sig Unit, owes (c : Thread nD τ) (Orest c 12) W)) ∗ (atPos ER (barCell c) 1 ∅ 0) ∗ (dE (px c) (rPf c)) ∗ (dE (px c) (rPo c)) ∗ (dE (px c) rQ2) ∗ (dE (px c) (oB2 c)) ∗ (dE (px c) (oB0 c)) ∗ (dE (py c) (rQf c)) ∗ (dE (py c) (rQo c)) ∗ (dE (py c) rP2) ∗ (dE (py c) (oB3 c)) ∗ (dE (py c) (oB1 c))) -∗ Q ⟨c, v4, v9, v10, v18, v20, v21, v25, v26, c19⟩)))
      ⊢ wp frame (wpE (defs₀ (F := F)) 𝒱₀ c none) Set.univ (k0_part1 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8) Q := by
  iintro ⟨#HR, #Hlev, HrPf, HrPo, HrQ2, Hox2, Hox0, HtBx, HO, HrQf, HrQo, HrP2, Hoy3, Hoy1, HtBy, HcB1, HcB2, HaB, Hk⟩
  icases HO with ⟨%W0, HO⟩
  simp only [k0_part1_eq_skeleton]; unfold k0_part1_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  iapply (signal_barX m c (K (px c, .reg barS)) (Orest c 12 + tallyAt (barCell (py c)) () 1) rfl _) $$ [HO HtBx HrPf HrPo HrQ2 Hox2 Hox0]
  · isplitr; · (iapply (inv_at m K (px c, .reg barS)) <;> iexact HR)
    isplitl [HO]; · iexact HO
    isplitl [HtBx]; · iexact HtBx
    isplitl [HrPf HrPo HrQ2 Hox2 Hox0]
    · isplitl [HrPf]; · iexact HrPf
      isplitl [HrPo]; · iexact HrPo
      isplitl [HrQ2]; · iexact HrQ2
      isplitl [Hox2]; · iexact Hox2
      iexact Hox0
    (iapply (reached_at m K (px c, .reg barS)) <;> iexact HR)
  iintro HO
  iapply (signal_barY m c (K (py c, .reg barS)) (Orest c 12) rfl _) $$ [HO HtBy HrQf HrQo HrP2 Hoy3 Hoy1]
  · isplitr; · (iapply (inv_at m K (py c, .reg barS)) <;> iexact HR)
    isplitl [HO]; · iexact HO
    isplitl [HtBy]; · iexact HtBy
    isplitl [HrQf HrQo HrP2 Hoy3 Hoy1]
    · isplitl [HrQf]; · iexact HrQf
      isplitl [HrQo]; · iexact HrQo
      isplitl [HrP2]; · iexact HrP2
      isplitl [Hoy3]; · iexact Hoy3
      iexact Hoy1
    (iapply (reached_at m K (py c, .reg barS)) <;> iexact HR)
  iintro HO
  ihave HcB := ((cred_add (tallyAt (barCell c) () 1) (tallyAt (barCell c) () 1)).2.trans (Entails.of_eq (congrArg cred (tallyAt_add (barCell c) () 1 1)))) $$ [HcB1 HcB2]
  · isplitl [HcB1] <;> iassumption
  ihave HM := (mayWait_rest (F := F) c (.reg barS) 12 (by decide)) $$ Hlev
  iapply (wait_bar' m c (K (c, .reg barS)) (Orest c 12) _) $$ [HcB HO HM HaB]
  · isplitr; · (iapply (inv_at m K (c, .reg barS)) <;> iexact HR)
    isplitl [HcB]; · iexact HcB
    isplitl [HO]; · iexact HO
    isplitl [HM]; · iexact HM
    iexact HaB
  iintro ⟨HO, HaB, ⟨DxRPf, DxRPo, DxRQ2, DxO2, DxO0⟩, ⟨DyRQf, DyRQo, DyRP2, DyO3, DyO1⟩⟩
  rw [wp_ret]; imodintro
  iapply Hk
  isplitl [HO]; · (iexists _; iexact HO)
  isplitl [HaB]; · iexact HaB
  isplitl [DxRPf]; · iexact DxRPf
  isplitl [DxRPo]; · iexact DxRPo
  isplitl [DxRQ2]; · iexact DxRQ2
  isplitl [DxO2]; · iexact DxO2
  isplitl [DxO0]; · iexact DxO0
  isplitl [DyRQf]; · iexact DyRQf
  isplitl [DyRQo]; · iexact DyRQo
  isplitl [DyRP2]; · iexact DyRP2
  isplitl [DyO3]; · iexact DyO3
  iexact DyO1

end Cert.KernelIdeal.Hand

end
-- ==== Proof.Part2.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.BarRules
import proofs.«900388_g7700000000000389_dist_rs_then_ag_i_m4096_n1024_v7x_i4_f32_1_alg».proof.Proof.Mem
import proofs.«900388_g7700000000000389_dist_rs_then_ag_i_m4096_n1024_v7x_i4_f32_1_alg».proof.Proof.SendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 2 of the body: what it takes from the device's holdings and what it leaves -/

set_option maxHeartbeats 4000000 in
set_option maxRecDepth 65536 in
theorem part2_spec (K : Dev nD × SemLoc sig → ℕ) (v4 : BitVec 32) (v9 : BitVec 32) (v10 : BitVec 32) (v18 : BitVec 32) (v20 : BitVec 32) (v21 : BitVec 32) (v25 : BitVec 32) (v26 : BitVec 32) (c19 : BitVec 32) (Q : (Σ' (v30 : BitVec 32), BitVec 32) → sProp 𝕄) :
    iprop(records m K ∗ levAts L lv ∗ (ow c (xA0 c) (qx 0) (A0 m c)) ∗ (dE (px c) (rPf c)) ∗ (dutyTok ER (dCell c (0 : DmaSem sig)) 0 false) ∗ (dutyTok ER (dCell (px c) (12 : DmaSem sig)) 0 false) ∗ (iprop(∃ W : Waits sig Unit, owes (c : Thread nD τ) (Orest c 12) W)) ∗ (ow c (xA1 c) (qx 1) (A1 m c)) ∗ (dE (py c) (rQf c)) ∗ (dutyTok ER (dCell c (1 : DmaSem sig)) 0 false) ∗ (dutyTok ER (dCell (py c) (13 : DmaSem sig)) 0 false) ∗ (ow c (xA2 c) (qx 2) (A2 m c)) ∗ (dE (px c) (rPo c)) ∗ (dutyTok ER (dCell c (2 : DmaSem sig)) 0 false) ∗ (dutyTok ER (dCell (px c) (14 : DmaSem sig)) 0 false)
        ∗ (∀ (v30 : BitVec 32) (v31 : BitVec 32), (iprop((iprop(∃ W : Waits sig Unit, owes (c : Thread nD τ) (Orest c 9) W)) ∗ (cred (tallyAt (dCell c (0 : DmaSem sig)) () N)) ∗ (cred (tallyAt (dCell c (1 : DmaSem sig)) () N)) ∗ (cred (tallyAt (dCell c (2 : DmaSem sig)) () N))) -∗ Q ⟨v30, v31⟩)))
      ⊢ wp frame (wpE (defs₀ (F := F)) 𝒱₀ c none) Set.univ (k0_part2 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v4 v9 v10 v18 v20 v21 v25 v26 c19) Q := by
  iintro ⟨#HR, #Hlev, Hx0, DxRPf, HtS0, HtR0, HO, Hx1, DyRQf, HtS1, HtR1, Hx2, DxRPo, HtS2, HtR2, Hk⟩
  icases HO with ⟨%W0, HO⟩
  simp only [k0_part2_eq_skeleton]; unfold k0_part2_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  -- transfer 0, to `px c`
  iapply (send_owns_at m c (dev3_eq c) (0 : DmaSem sig) (12 : DmaSem sig) (qx 0) (A0 m c) (K (c, .dma (0 : DmaSem sig))) (K (px c, .dma (12 : DmaSem sig))) (Orest c 11) rfl _ (by rfl) (BI.Entails.refl _) (payR0 m c)) $$ [Hx0 DxRPf HO HtS0 HtR0]
  · isplitr; · (iapply (inv_at m K (c, .dma (0 : DmaSem sig))) <;> iexact HR)
    isplitr; · (iapply (inv_at m K (px c, .dma (12 : DmaSem sig))) <;> iexact HR)
    isplitl [Hx0]; · iexact Hx0
    isplitl [DxRPf]; · iexact DxRPf
    isplitl [HO]; · iexact HO
    isplitl [HtS0]; · iexact HtS0
    isplitr; · (iapply (reached_at m K (c, .dma (0 : DmaSem sig))) <;> iexact HR)
    isplitl [HtR0]; · iexact HtR0
    (iapply (reached_at m K (px c, .dma (12 : DmaSem sig))) <;> iexact HR)
  iintro ⟨HcS0, HO⟩
  -- transfer 1, to `py c`
  iapply (send_owns_at m c (dev4_eq c) (1 : DmaSem sig) (13 : DmaSem sig) (qx 1) (A1 m c) (K (c, .dma (1 : DmaSem sig))) (K (py c, .dma (13 : DmaSem sig))) (Orest c 10) rfl _ (by rfl) (BI.Entails.refl _) (payR1 m c)) $$ [Hx1 DyRQf HO HtS1 HtR1]
  · isplitr; · (iapply (inv_at m K (c, .dma (1 : DmaSem sig))) <;> iexact HR)
    isplitr; · (iapply (inv_at m K (py c, .dma (13 : DmaSem sig))) <;> iexact HR)
    isplitl [Hx1]; · iexact Hx1
    isplitl [DyRQf]; · iexact DyRQf
    isplitl [HO]; · iexact HO
    isplitl [HtS1]; · iexact HtS1
    isplitr; · (iapply (reached_at m K (c, .dma (1 : DmaSem sig))) <;> iexact HR)
    isplitl [HtR1]; · iexact HtR1
    (iapply (reached_at m K (py c, .dma (13 : DmaSem sig))) <;> iexact HR)
  iintro ⟨HcS1, HO⟩
  -- transfer 2, to `px c`
  iapply (send_owns_at m c (dev5_eq c) (2 : DmaSem sig) (14 : DmaSem sig) (qx 2) (A2 m c) (K (c, .dma (2 : DmaSem sig))) (K (px c, .dma (14 : DmaSem sig))) (Orest c 9) rfl _ (by rfl) (BI.Entails.refl _) (payR2 m c)) $$ [Hx2 DxRPo HO HtS2 HtR2]
  · isplitr; · (iapply (inv_at m K (c, .dma (2 : DmaSem sig))) <;> iexact HR)
    isplitr; · (iapply (inv_at m K (px c, .dma (14 : DmaSem sig))) <;> iexact HR)
    isplitl [Hx2]; · iexact Hx2
    isplitl [DxRPo]; · iexact DxRPo
    isplitl [HO]; · iexact HO
    isplitl [HtS2]; · iexact HtS2
    isplitr; · (iapply (reached_at m K (c, .dma (2 : DmaSem sig))) <;> iexact HR)
    isplitl [HtR2]; · iexact HtR2
    (iapply (reached_at m K (px c, .dma (14 : DmaSem sig))) <;> iexact HR)
  iintro ⟨HcS2, HO⟩
  rw [wp_ret]; imodintro
  iapply Hk
  isplitl [HO]; · (iexists _; iexact HO)
  isplitl [HcS0]; · iexact HcS0
  isplitl [HcS1]; · iexact HcS1
  iexact HcS2

end Cert.KernelIdeal.Hand

end
-- ==== Proof.Part3.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.BarRules
import proofs.«900388_g7700000000000389_dist_rs_then_ag_i_m4096_n1024_v7x_i4_f32_1_alg».proof.Proof.Mem
import proofs.«900388_g7700000000000389_dist_rs_then_ag_i_m4096_n1024_v7x_i4_f32_1_alg».proof.Proof.SendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 3 of the body: what it takes from the device's holdings and what it leaves -/

set_option maxHeartbeats 4000000 in
set_option maxRecDepth 65536 in
theorem part3_spec (K : Dev nD × SemLoc sig → ℕ) (v10 : BitVec 32) (Q : PUnit → sProp 𝕄) :
    iprop(records m K ∗ levAts L lv ∗ (ow c (xA3 c) (qx 3) (A3 m c)) ∗ (dE (py c) (rQo c)) ∗ (dutyTok ER (dCell c (3 : DmaSem sig)) 0 false) ∗ (dutyTok ER (dCell (py c) (15 : DmaSem sig)) 0 false) ∗ (iprop(∃ W : Waits sig Unit, owes (c : Thread nD τ) (Orest c 9) W)) ∗ (ow c (xB0 c) (qx 4) (B0 m c)) ∗ (dE c (aPf c)) ∗ (dutyTok ER (dCell c (24 : DmaSem sig)) 0 false) ∗ (ow c (xB1 c) (qx 5) (B1 m c)) ∗ (dE c (aQf c)) ∗ (dutyTok ER (dCell c (25 : DmaSem sig)) 0 false) ∗ (ow c (xB2 c) (qx 6) (B2 m c)) ∗ (dE c (aPo c)) ∗ (dutyTok ER (dCell c (26 : DmaSem sig)) 0 false) ∗ (ow c (xB3 c) (qx 7) (B3 m c)) ∗ (dE c (aQo c)) ∗ (dutyTok ER (dCell c (27 : DmaSem sig)) 0 false) ∗ (atPos ER (dCell c (24 : DmaSem sig)) 0 ∅ 0)
        ∗ (iprop((iprop(∃ W : Waits sig Unit, owes (c : Thread nD τ) (Orest c 8) W)) ∗ (cred (tallyAt (dCell c (3 : DmaSem sig)) () N)) ∗ (cred (tallyAt (dCell c (25 : DmaSem sig)) () N)) ∗ (cred (tallyAt (dCell c (26 : DmaSem sig)) () N)) ∗ (cred (tallyAt (dCell c (27 : DmaSem sig)) () N)) ∗ (atPos ER (dCell c (24 : DmaSem sig)) 1 ∅ 0) ∗ (ow c (aPf c) fullShare (B0 m c))) -∗ Q ⟨⟩))
      ⊢ wp frame (wpE (defs₀ (F := F)) 𝒱₀ c none) Set.univ (k0_part3 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v10) Q := by
  iintro ⟨#HR, #Hlev, Hx3, DyRQo, HtS3, HtR3, HO, Hx4, HaPf, HtL0, Hx5, HaQf, HtL1, Hx6, HaPo, HtL2, Hx7, HaQo, HtL3, Ha24, Hk⟩
  icases HO with ⟨%W0, HO⟩
  simp only [k0_part3_eq_skeleton]; unfold k0_part3_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  -- transfer 3, to `py c`
  iapply (send_owns_at m c (dev6_eq c) (3 : DmaSem sig) (15 : DmaSem sig) (qx 3) (A3 m c) (K (c, .dma (3 : DmaSem sig))) (K (py c, .dma (15 : DmaSem sig))) (Orest c 8) rfl _ (by rfl) (BI.Entails.refl _) (payR3 m c)) $$ [Hx3 DyRQo HO HtS3 HtR3]
  · isplitr; · (iapply (inv_at m K (c, .dma (3 : DmaSem sig))) <;> iexact HR)
    isplitr; · (iapply (inv_at m K (py c, .dma (15 : DmaSem sig))) <;> iexact HR)
    isplitl [Hx3]; · iexact Hx3
    isplitl [DyRQo]; · iexact DyRQo
    isplitl [HO]; · iexact HO
    isplitl [HtS3]; · iexact HtS3
    isplitr; · (iapply (reached_at m K (c, .dma (3 : DmaSem sig))) <;> iexact HR)
    isplitl [HtR3]; · iexact HtR3
    (iapply (reached_at m K (py c, .dma (15 : DmaSem sig))) <;> iexact HR)
  iintro ⟨HcS3, HO⟩
  -- local copy 0
  iapply (copy_owns m c (24 : DmaSem sig) (qx 4) (B0 m c) (K (c, .dma (24 : DmaSem sig))) (by rfl) (BI.Entails.refl _)) $$ [Hx4 HaPf HtL0]
  · isplitr; · (iapply (inv_at m K (c, .dma (24 : DmaSem sig))) <;> iexact HR)
    isplitl [Hx4]; · iexact Hx4
    isplitl [HaPf]; · iexact HaPf
    isplitl [HtL0]; · iexact HtL0
    (iapply (reached_at m K (c, .dma (24 : DmaSem sig))) <;> iexact HR)
  iintro HcL0
  -- local copy 1
  iapply (copy_owns m c (25 : DmaSem sig) (qx 5) (B1 m c) (K (c, .dma (25 : DmaSem sig))) (by rfl) (BI.Entails.refl _)) $$ [Hx5 HaQf HtL1]
  · isplitr; · (iapply (inv_at m K (c, .dma (25 : DmaSem sig))) <;> iexact HR)
    isplitl [Hx5]; · iexact Hx5
    isplitl [HaQf]; · iexact HaQf
    isplitl [HtL1]; · iexact HtL1
    (iapply (reached_at m K (c, .dma (25 : DmaSem sig))) <;> iexact HR)
  iintro HcL1
  -- local copy 2
  iapply (copy_owns m c (26 : DmaSem sig) (qx 6) (B2 m c) (K (c, .dma (26 : DmaSem sig))) (by rfl) (BI.Entails.refl _)) $$ [Hx6 HaPo HtL2]
  · isplitr; · (iapply (inv_at m K (c, .dma (26 : DmaSem sig))) <;> iexact HR)
    isplitl [Hx6]; · iexact Hx6
    isplitl [HaPo]; · iexact HaPo
    isplitl [HtL2]; · iexact HtL2
    (iapply (reached_at m K (c, .dma (26 : DmaSem sig))) <;> iexact HR)
  iintro HcL2
  -- local copy 3
  iapply (copy_owns m c (27 : DmaSem sig) (qx 7) (B3 m c) (K (c, .dma (27 : DmaSem sig))) (by rfl) (BI.Entails.refl _)) $$ [Hx7 HaQo HtL3]
  · isplitr; · (iapply (inv_at m K (c, .dma (27 : DmaSem sig))) <;> iexact HR)
    isplitl [Hx7]; · iexact Hx7
    isplitl [HaQo]; · iexact HaQo
    isplitl [HtL3]; · iexact HtL3
    (iapply (reached_at m K (c, .dma (27 : DmaSem sig))) <;> iexact HR)
  iintro HcL3
  ihave HM := (mayWait_rest (F := F) c (.dma (24 : DmaSem sig)) 8 (by decide)) $$ Hlev
  iapply (wait_dma m c (24 : DmaSem sig) (by rfl) (K (c, .dma (24 : DmaSem sig))) (Orest c 8) _) $$ [HcL0 HO HM Ha24]
  · isplitr; · (iapply (inv_at m K (c, .dma (24 : DmaSem sig))) <;> iexact HR)
    isplitl [HcL0]; · iexact HcL0
    isplitl [HO]; · iexact HO
    isplitl [HM]; · iexact HM
    iexact Ha24
  iintro ⟨HO, Ha24, Hp⟩
  ihave Hp' := (show Pd m c (24 : DmaSem sig) ⊢ (iprop(ow c (aPf c) fullShare (B0 m c) ∗ ow c (xB0 c) (qx 4) (B0 m c)) : sProp 𝕄) from BI.Entails.refl _) $$ Hp
  icases Hp' with ⟨HaPf, -⟩
  rw [wp_ret]; imodintro
  iapply Hk
  isplitl [HO]; · (iexists _; iexact HO)
  isplitl [HcS3]; · iexact HcS3
  isplitl [HcL1]; · iexact HcL1
  isplitl [HcL2]; · iexact HcL2
  isplitl [HcL3]; · iexact HcL3
  isplitl [Ha24]; · iexact Ha24
  iexact HaPf

end Cert.KernelIdeal.Hand

end
-- ==== Proof.Part4.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.BarRules
import proofs.«900388_g7700000000000389_dist_rs_then_ag_i_m4096_n1024_v7x_i4_f32_1_alg».proof.Proof.Mem
import proofs.«900388_g7700000000000389_dist_rs_then_ag_i_m4096_n1024_v7x_i4_f32_1_alg».proof.Proof.SendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 4 of the body: what it takes from the device's holdings and what it leaves -/

set_option maxHeartbeats 4000000 in
set_option maxRecDepth 65536 in
theorem part4_spec (K : Dev nD × SemLoc sig → ℕ) (v9 : BitVec 32) (v10 : BitVec 32) (v20 : BitVec 32) (Q : FVec F S512x1024 .f32 → sProp 𝕄) :
    iprop(records m K ∗ levAts L lv ∗ (cred (tallyAt (dCell c (25 : DmaSem sig)) () N)) ∗ (iprop(∃ W : Waits sig Unit, owes (c : Thread nD τ) (Orest c 8) W)) ∗ (atPos ER (dCell c (25 : DmaSem sig)) 0 ∅ 0) ∗ (cred (tallyAt (dCell c (0 : DmaSem sig)) () N)) ∗ (atPos ER (dCell c (0 : DmaSem sig)) 0 ∅ 0) ∗ (cred (tallyAt (dCell c (12 : DmaSem sig)) () N)) ∗ (atPos ER (dCell c (12 : DmaSem sig)) 0 ∅ 0) ∗ (cred (tallyAt (dCell c (1 : DmaSem sig)) () N)) ∗ (atPos ER (dCell c (1 : DmaSem sig)) 0 ∅ 0) ∗ (cred (tallyAt (dCell c (13 : DmaSem sig)) () N)) ∗ (atPos ER (dCell c (13 : DmaSem sig)) 0 ∅ 0) ∗ (ow c (aPf c) fullShare (B0 m c))
        ∗ (iprop((iprop(∃ W : Waits sig Unit, owes (c : Thread nD τ) (Orest c 8) W)) ∗ (atPos ER (dCell c (25 : DmaSem sig)) 1 ∅ 0) ∗ (ow c (aQf c) fullShare (B1 m c)) ∗ (atPos ER (dCell c (0 : DmaSem sig)) 1 ∅ 0) ∗ (atPos ER (dCell c (12 : DmaSem sig)) 1 ∅ 0) ∗ (ow c (rPf c) fullShare (A0 m (px c))) ∗ (atPos ER (dCell c (1 : DmaSem sig)) 1 ∅ 0) ∗ (atPos ER (dCell c (13 : DmaSem sig)) 1 ∅ 0) ∗ (ow c (rQf c) fullShare (A1 m (py c))) ∗ (ow c (aPf c) fullShare (B0 m c))) -∗ Q (k0_pay1 (B0 m c) (A0 m (px c)))))
      ⊢ wp frame (wpE (defs₀ (F := F)) 𝒱₀ c none) Set.univ (k0_part4 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v9 v10 v20) Q := by
  iintro ⟨#HR, #Hlev, HcL1, HO, Ha25, HcS0, Ha0, HcR0, Ha12, HcS1, Ha1, HcR1, Ha13, HaPf, Hk⟩
  icases HO with ⟨%W0, HO⟩
  simp only [k0_part4_eq_skeleton]; unfold k0_part4_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  ihave HM := (mayWait_rest (F := F) c (.dma (25 : DmaSem sig)) 8 (by decide)) $$ Hlev
  iapply (wait_dma m c (25 : DmaSem sig) (by rfl) (K (c, .dma (25 : DmaSem sig))) (Orest c 8) _) $$ [HcL1 HO HM Ha25]
  · isplitr; · (iapply (inv_at m K (c, .dma (25 : DmaSem sig))) <;> iexact HR)
    isplitl [HcL1]; · iexact HcL1
    isplitl [HO]; · iexact HO
    isplitl [HM]; · iexact HM
    iexact Ha25
  iintro ⟨HO, Ha25, Hp⟩
  ihave Hp' := (show Pd m c (25 : DmaSem sig) ⊢ (iprop(ow c (aQf c) fullShare (B1 m c) ∗ ow c (xB1 c) (qx 5) (B1 m c)) : sProp 𝕄) from BI.Entails.refl _) $$ Hp
  icases Hp' with ⟨HaQf, -⟩
  ihave HM := (mayWait_rest (F := F) c (.dma (0 : DmaSem sig)) 8 (by decide)) $$ Hlev
  iapply (wait_dma m c (0 : DmaSem sig) (by rfl) (K (c, .dma (0 : DmaSem sig))) (Orest c 8) _) $$ [HcS0 HO HM Ha0]
  · isplitr; · (iapply (inv_at m K (c, .dma (0 : DmaSem sig))) <;> iexact HR)
    isplitl [HcS0]; · iexact HcS0
    isplitl [HO]; · iexact HO
    isplitl [HM]; · iexact HM
    iexact Ha0
  iintro ⟨HO, Ha0, -⟩
  ihave HM := (mayWait_rest (F := F) c (.dma (12 : DmaSem sig)) 8 (by decide)) $$ Hlev
  iapply (wait_dma m c (12 : DmaSem sig) (by rfl) (K (c, .dma (12 : DmaSem sig))) (Orest c 8) _) $$ [HcR0 HO HM Ha12]
  · isplitr; · (iapply (inv_at m K (c, .dma (12 : DmaSem sig))) <;> iexact HR)
    isplitl [HcR0]; · iexact HcR0
    isplitl [HO]; · iexact HO
    isplitl [HM]; · iexact HM
    iexact Ha12
  iintro ⟨HO, Ha12, HpR⟩
  ihave HrPf := ((show (Pd m c (12 : DmaSem sig) : sProp 𝕄) ⊢ Pd m c (rIx 0) from BI.Entails.refl _).trans (gotR0 m c)) $$ HpR
  ihave HM := (mayWait_rest (F := F) c (.dma (1 : DmaSem sig)) 8 (by decide)) $$ Hlev
  iapply (wait_dma m c (1 : DmaSem sig) (by rfl) (K (c, .dma (1 : DmaSem sig))) (Orest c 8) _) $$ [HcS1 HO HM Ha1]
  · isplitr; · (iapply (inv_at m K (c, .dma (1 : DmaSem sig))) <;> iexact HR)
    isplitl [HcS1]; · iexact HcS1
    isplitl [HO]; · iexact HO
    isplitl [HM]; · iexact HM
    iexact Ha1
  iintro ⟨HO, Ha1, -⟩
  ihave HM := (mayWait_rest (F := F) c (.dma (13 : DmaSem sig)) 8 (by decide)) $$ Hlev
  iapply (wait_dma m c (13 : DmaSem sig) (by rfl) (K (c, .dma (13 : DmaSem sig))) (Orest c 8) _) $$ [HcR1 HO HM Ha13]
  · isplitr; · (iapply (inv_at m K (c, .dma (13 : DmaSem sig))) <;> iexact HR)
    isplitl [HcR1]; · iexact HcR1
    isplitl [HO]; · iexact HO
    isplitl [HM]; · iexact HM
    iexact Ha13
  iintro ⟨HO, Ha13, HpR⟩
  ihave HrQf := ((show (Pd m c (13 : DmaSem sig) : sProp 𝕄) ⊢ Pd m c (rIx 1) from BI.Entails.refl _).trans (gotR1 m c)) $$ HpR
  iapply (load_sl1 c aP (off13_eq c) (k0_off1_inb c) (k0_off13_inb c) fullShare (B0 m c)) $$ HaPf; iintro HaPf
  iapply (load_sl1 c rP1 (off13_eq c) (k0_off1_inb c) (k0_off13_inb c) fullShare (A0 m (px c))) $$ HrPf; iintro HrPf
  iapply (load_sl1 c aP (off13_eq c) (k0_off1_inb c) (k0_off13_inb c) fullShare (B0 m c)) $$ HaPf; iintro HaPf
  rw [wp_ret]; imodintro
  iapply Hk
  isplitl [HO]; · (iexists _; iexact HO)
  isplitl [Ha25]; · iexact Ha25
  isplitl [HaQf]; · iexact HaQf
  isplitl [Ha0]; · iexact Ha0
  isplitl [Ha12]; · iexact Ha12
  isplitl [HrPf]; · iexact HrPf
  isplitl [Ha1]; · iexact Ha1
  isplitl [Ha13]; · iexact Ha13
  isplitl [HrQf]; · iexact HrQf
  iexact HaPf

end Cert.KernelIdeal.Hand

end
-- ==== Proof.Part5.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.BarRules
import proofs.«900388_g7700000000000389_dist_rs_then_ag_i_m4096_n1024_v7x_i4_f32_1_alg».proof.Proof.Mem
import proofs.«900388_g7700000000000389_dist_rs_then_ag_i_m4096_n1024_v7x_i4_f32_1_alg».proof.Proof.SendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 5 of the body: what it takes from the device's holdings and what it leaves -/

set_option maxHeartbeats 4000000 in
set_option maxRecDepth 65536 in
theorem part5_spec (K : Dev nD × SemLoc sig → ℕ) (v9 : BitVec 32) (v10 : BitVec 32) (v30 : BitVec 32) (Q : PUnit → sProp 𝕄) :
    iprop(records m K ∗ levAts L lv ∗ (ow c (aPf c) fullShare (B0 m c)) ∗ (ow c (aQf c) fullShare (B1 m c)) ∗ (ow c (rQf c) fullShare (A1 m (py c))) ∗ (dE (py c) rP2) ∗ (dutyTok ER (dCell c (4 : DmaSem sig)) 0 false) ∗ (dutyTok ER (dCell (py c) (16 : DmaSem sig)) 0 false) ∗ (iprop(∃ W : Waits sig Unit, owes (c : Thread nD τ) (Orest c 8) W)) ∗ (dE (px c) rQ2) ∗ (dutyTok ER (dCell c (5 : DmaSem sig)) 0 false) ∗ (dutyTok ER (dCell (px c) (17 : DmaSem sig)) 0 false) ∗ (cred (tallyAt (dCell c (26 : DmaSem sig)) () N)) ∗ (atPos ER (dCell c (26 : DmaSem sig)) 0 ∅ 0) ∗ (cred (tallyAt (dCell c (27 : DmaSem sig)) () N)) ∗ (atPos ER (dCell c (27 : DmaSem sig)) 0 ∅ 0)
        ∗ (iprop((ow c (rQf c) fullShare (A1 m (py c))) ∗ (iprop(∃ W : Waits sig Unit, owes (c : Thread nD τ) (Orest c 6) W)) ∗ (cred (tallyAt (dCell c (4 : DmaSem sig)) () N)) ∗ (cred (tallyAt (dCell c (5 : DmaSem sig)) () N)) ∗ (atPos ER (dCell c (26 : DmaSem sig)) 1 ∅ 0) ∗ (ow c (aPo c) fullShare (B2 m c)) ∗ (atPos ER (dCell c (27 : DmaSem sig)) 1 ∅ 0) ∗ (ow c (aQo c) fullShare (B3 m c))) -∗ Q ⟨⟩))
      ⊢ wp frame (wpE (defs₀ (F := F)) 𝒱₀ c none) Set.univ (k0_part5 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v9 v10 v30 (k0_pay1 (B0 m c) (A0 m (px c)))) Q := by
  iintro ⟨#HR, #Hlev, HaPf, HaQf, HrQf, DyRP2, HtS4, HtR4, HO, DxRQ2, HtS5, HtR5, HcL2, Ha26, HcL3, Ha27, Hk⟩
  icases HO with ⟨%W0, HO⟩
  simp only [k0_part5_eq_skeleton]; unfold k0_part5_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  iapply (store_sl1 c aP (off13_eq c) (k0_off1_inb c) (k0_off13_inb c) (sPf m c) (B0 m c)) $$ HaPf; iintro HaPf
  iapply (load_sl1 c aQ (off14_eq c) (k0_off3_inb c) (k0_off14_inb c) fullShare (B1 m c)) $$ HaQf; iintro HaQf
  iapply (load_sl1 c rQ1 (off14_eq c) (k0_off3_inb c) (k0_off14_inb c) fullShare (A1 m (py c))) $$ HrQf; iintro HrQf
  iapply (load_sl1 c aQ (off14_eq c) (k0_off3_inb c) (k0_off14_inb c) fullShare (B1 m c)) $$ HaQf; iintro HaQf
  iapply (store_sl1 c aQ (off14_eq c) (k0_off3_inb c) (k0_off14_inb c) (sQf m c) (B1 m c)) $$ HaQf; iintro HaQf
  -- transfer 4, to `py c`
  iapply (send_landing_owns_at m c (dev7_eq c) (4 : DmaSem sig) (16 : DmaSem sig) fullShare (sPf m c) (K (c, .dma (4 : DmaSem sig))) (K (py c, .dma (16 : DmaSem sig))) (Orest c 7) rfl _ (by rfl) (BI.Entails.refl _) (payR4 m c)) $$ [HaPf DyRP2 HO HtS4 HtR4]
  · isplitr; · (iapply (inv_at m K (c, .dma (4 : DmaSem sig))) <;> iexact HR)
    isplitr; · (iapply (inv_at m K (py c, .dma (16 : DmaSem sig))) <;> iexact HR)
    isplitl [HaPf]; · iexact HaPf
    isplitl [DyRP2]; · iexact DyRP2
    isplitl [HO]; · iexact HO
    isplitl [HtS4]; · iexact HtS4
    isplitr; · (iapply (reached_at m K (c, .dma (4 : DmaSem sig))) <;> iexact HR)
    isplitl [HtR4]; · iexact HtR4
    (iapply (reached_at m K (py c, .dma (16 : DmaSem sig))) <;> iexact HR)
  iintro ⟨HcS4, HO⟩
  -- transfer 5, to `px c`
  iapply (send_landing_owns_at m c (dev8_eq c) (5 : DmaSem sig) (17 : DmaSem sig) fullShare (sQf m c) (K (c, .dma (5 : DmaSem sig))) (K (px c, .dma (17 : DmaSem sig))) (Orest c 6) rfl _ (by rfl) (BI.Entails.refl _) (payR5 m c)) $$ [HaQf DxRQ2 HO HtS5 HtR5]
  · isplitr; · (iapply (inv_at m K (c, .dma (5 : DmaSem sig))) <;> iexact HR)
    isplitr; · (iapply (inv_at m K (px c, .dma (17 : DmaSem sig))) <;> iexact HR)
    isplitl [HaQf]; · iexact HaQf
    isplitl [DxRQ2]; · iexact DxRQ2
    isplitl [HO]; · iexact HO
    isplitl [HtS5]; · iexact HtS5
    isplitr; · (iapply (reached_at m K (c, .dma (5 : DmaSem sig))) <;> iexact HR)
    isplitl [HtR5]; · iexact HtR5
    (iapply (reached_at m K (px c, .dma (17 : DmaSem sig))) <;> iexact HR)
  iintro ⟨HcS5, HO⟩
  ihave HM := (mayWait_rest (F := F) c (.dma (26 : DmaSem sig)) 6 (by decide)) $$ Hlev
  iapply (wait_dma m c (26 : DmaSem sig) (by rfl) (K (c, .dma (26 : DmaSem sig))) (Orest c 6) _) $$ [HcL2 HO HM Ha26]
  · isplitr; · (iapply (inv_at m K (c, .dma (26 : DmaSem sig))) <;> iexact HR)
    isplitl [HcL2]; · iexact HcL2
    isplitl [HO]; · iexact HO
    isplitl [HM]; · iexact HM
    iexact Ha26
  iintro ⟨HO, Ha26, Hp⟩
  ihave Hp' := (show Pd m c (26 : DmaSem sig) ⊢ (iprop(ow c (aPo c) fullShare (B2 m c) ∗ ow c (xB2 c) (qx 6) (B2 m c)) : sProp 𝕄) from BI.Entails.refl _) $$ Hp
  icases Hp' with ⟨HaPo, -⟩
  ihave HM := (mayWait_rest (F := F) c (.dma (27 : DmaSem sig)) 6 (by decide)) $$ Hlev
  iapply (wait_dma m c (27 : DmaSem sig) (by rfl) (K (c, .dma (27 : DmaSem sig))) (Orest c 6) _) $$ [HcL3 HO HM Ha27]
  · isplitr; · (iapply (inv_at m K (c, .dma (27 : DmaSem sig))) <;> iexact HR)
    isplitl [HcL3]; · iexact HcL3
    isplitl [HO]; · iexact HO
    isplitl [HM]; · iexact HM
    iexact Ha27
  iintro ⟨HO, Ha27, Hp⟩
  ihave Hp' := (show Pd m c (27 : DmaSem sig) ⊢ (iprop(ow c (aQo c) fullShare (B3 m c) ∗ ow c (xB3 c) (qx 7) (B3 m c)) : sProp 𝕄) from BI.Entails.refl _) $$ Hp
  icases Hp' with ⟨HaQo, -⟩
  rw [wp_ret]; imodintro
  iapply Hk
  isplitl [HrQf]; · iexact HrQf
  isplitl [HO]; · (iexists _; iexact HO)
  isplitl [HcS4]; · iexact HcS4
  isplitl [HcS5]; · iexact HcS5
  isplitl [Ha26]; · iexact Ha26
  isplitl [HaPo]; · iexact HaPo
  isplitl [Ha27]; · iexact Ha27
  iexact HaQo

end Cert.KernelIdeal.Hand

end
-- ==== Proof.Part6.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.BarRules
import proofs.«900388_g7700000000000389_dist_rs_then_ag_i_m4096_n1024_v7x_i4_f32_1_alg».proof.Proof.Mem
import proofs.«900388_g7700000000000389_dist_rs_then_ag_i_m4096_n1024_v7x_i4_f32_1_alg».proof.Proof.SendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 6 of the body: what it takes from the device's holdings and what it leaves -/

set_option maxHeartbeats 4000000 in
set_option maxRecDepth 65536 in
theorem part6_spec (K : Dev nD × SemLoc sig → ℕ) (v9 : BitVec 32) (v10 : BitVec 32) (v21 : BitVec 32) (v31 : BitVec 32) (Q : Vec F S512x1024 .f32 → sProp 𝕄) :
    iprop(records m K ∗ levAts L lv ∗ (cred (tallyAt (dCell c (2 : DmaSem sig)) () N)) ∗ (iprop(∃ W : Waits sig Unit, owes (c : Thread nD τ) (Orest c 6) W)) ∗ (atPos ER (dCell c (2 : DmaSem sig)) 0 ∅ 0) ∗ (cred (tallyAt (dCell c (14 : DmaSem sig)) () N)) ∗ (atPos ER (dCell c (14 : DmaSem sig)) 0 ∅ 0) ∗ (cred (tallyAt (dCell c (3 : DmaSem sig)) () N)) ∗ (atPos ER (dCell c (3 : DmaSem sig)) 0 ∅ 0) ∗ (cred (tallyAt (dCell c (15 : DmaSem sig)) () N)) ∗ (atPos ER (dCell c (15 : DmaSem sig)) 0 ∅ 0) ∗ (ow c (aPo c) fullShare (B2 m c)) ∗ (ow c (aQo c) fullShare (B3 m c))
        ∗ (iprop((iprop(∃ W : Waits sig Unit, owes (c : Thread nD τ) (Orest c 6) W)) ∗ (atPos ER (dCell c (2 : DmaSem sig)) 1 ∅ 0) ∗ (atPos ER (dCell c (14 : DmaSem sig)) 1 ∅ 0) ∗ (ow c (rPo c) fullShare (A2 m (px c))) ∗ (atPos ER (dCell c (3 : DmaSem sig)) 1 ∅ 0) ∗ (atPos ER (dCell c (15 : DmaSem sig)) 1 ∅ 0) ∗ (ow c (rQo c) fullShare (A3 m (py c))) ∗ (ow c (aPo c) fullShare (sPo m c)) ∗ (ow c (aQo c) fullShare (B3 m c))) -∗ Q (B3 m c)))
      ⊢ wp frame (wpE (defs₀ (F := F)) 𝒱₀ c none) Set.univ (k0_part6 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v9 v10 v21 v31) Q := by
  iintro ⟨#HR, #Hlev, HcS2, HO, Ha2, HcR2, Ha14, HcS3, Ha3, HcR3, Ha15, HaPo, HaQo, Hk⟩
  icases HO with ⟨%W0, HO⟩
  simp only [k0_part6_eq_skeleton]; unfold k0_part6_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  ihave HM := (mayWait_rest (F := F) c (.dma (2 : DmaSem sig)) 6 (by decide)) $$ Hlev
  iapply (wait_dma m c (2 : DmaSem sig) (by rfl) (K (c, .dma (2 : DmaSem sig))) (Orest c 6) _) $$ [HcS2 HO HM Ha2]
  · isplitr; · (iapply (inv_at m K (c, .dma (2 : DmaSem sig))) <;> iexact HR)
    isplitl [HcS2]; · iexact HcS2
    isplitl [HO]; · iexact HO
    isplitl [HM]; · iexact HM
    iexact Ha2
  iintro ⟨HO, Ha2, -⟩
  ihave HM := (mayWait_rest (F := F) c (.dma (14 : DmaSem sig)) 6 (by decide)) $$ Hlev
  iapply (wait_dma m c (14 : DmaSem sig) (by rfl) (K (c, .dma (14 : DmaSem sig))) (Orest c 6) _) $$ [HcR2 HO HM Ha14]
  · isplitr; · (iapply (inv_at m K (c, .dma (14 : DmaSem sig))) <;> iexact HR)
    isplitl [HcR2]; · iexact HcR2
    isplitl [HO]; · iexact HO
    isplitl [HM]; · iexact HM
    iexact Ha14
  iintro ⟨HO, Ha14, HpR⟩
  ihave HrPo := ((show (Pd m c (14 : DmaSem sig) : sProp 𝕄) ⊢ Pd m c (rIx 2) from BI.Entails.refl _).trans (gotR2 m c)) $$ HpR
  ihave HM := (mayWait_rest (F := F) c (.dma (3 : DmaSem sig)) 6 (by decide)) $$ Hlev
  iapply (wait_dma m c (3 : DmaSem sig) (by rfl) (K (c, .dma (3 : DmaSem sig))) (Orest c 6) _) $$ [HcS3 HO HM Ha3]
  · isplitr; · (iapply (inv_at m K (c, .dma (3 : DmaSem sig))) <;> iexact HR)
    isplitl [HcS3]; · iexact HcS3
    isplitl [HO]; · iexact HO
    isplitl [HM]; · iexact HM
    iexact Ha3
  iintro ⟨HO, Ha3, -⟩
  ihave HM := (mayWait_rest (F := F) c (.dma (15 : DmaSem sig)) 6 (by decide)) $$ Hlev
  iapply (wait_dma m c (15 : DmaSem sig) (by rfl) (K (c, .dma (15 : DmaSem sig))) (Orest c 6) _) $$ [HcR3 HO HM Ha15]
  · isplitr; · (iapply (inv_at m K (c, .dma (15 : DmaSem sig))) <;> iexact HR)
    isplitl [HcR3]; · iexact HcR3
    isplitl [HO]; · iexact HO
    isplitl [HM]; · iexact HM
    iexact Ha15
  iintro ⟨HO, Ha15, HpR⟩
  ihave HrQo := ((show (Pd m c (15 : DmaSem sig) : sProp 𝕄) ⊢ Pd m c (rIx 3) from BI.Entails.refl _).trans (gotR3 m c)) $$ HpR
  iapply (load_sl1 c aP (off15_eq c) (k0_off5_inb c) (k0_off15_inb c) fullShare (B2 m c)) $$ HaPo; iintro HaPo
  iapply (load_sl1 c rP1 (off15_eq c) (k0_off5_inb c) (k0_off15_inb c) fullShare (A2 m (px c))) $$ HrPo; iintro HrPo
  iapply (load_sl1 c aP (off15_eq c) (k0_off5_inb c) (k0_off15_inb c) fullShare (B2 m c)) $$ HaPo; iintro HaPo
  iapply (store_sl1 c aP (off15_eq c) (k0_off5_inb c) (k0_off15_inb c) (sPo m c) (B2 m c)) $$ HaPo; iintro HaPo
  iapply (load_sl1 c aQ (off16_eq c) (k0_off7_inb c) (k0_off16_inb c) fullShare (B3 m c)) $$ HaQo; iintro HaQo
  rw [wp_ret]; imodintro
  iapply Hk
  isplitl [HO]; · (iexists _; iexact HO)
  isplitl [Ha2]; · iexact Ha2
  isplitl [Ha14]; · iexact Ha14
  isplitl [HrPo]; · iexact HrPo
  isplitl [Ha3]; · iexact Ha3
  isplitl [Ha15]; · iexact Ha15
  isplitl [HrQo]; · iexact HrQo
  isplitl [HaPo]; · iexact HaPo
  iexact HaQo

end Cert.KernelIdeal.Hand

end
-- ==== Proof.Part7.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.BarRules
import proofs.«900388_g7700000000000389_dist_rs_then_ag_i_m4096_n1024_v7x_i4_f32_1_alg».proof.Proof.Mem
import proofs.«900388_g7700000000000389_dist_rs_then_ag_i_m4096_n1024_v7x_i4_f32_1_alg».proof.Proof.SendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 7 of the body: what it takes from the device's holdings and what it leaves -/

set_option maxHeartbeats 4000000 in
set_option maxRecDepth 65536 in
theorem part7_spec (K : Dev nD × SemLoc sig → ℕ) (v9 : BitVec 32) (v10 : BitVec 32) (v21 : BitVec 32) (v31 : BitVec 32) (Q : PUnit → sProp 𝕄) :
    iprop(records m K ∗ levAts L lv ∗ (ow c (rQo c) fullShare (A3 m (py c))) ∗ (ow c (aQo c) fullShare (B3 m c)) ∗ (cred (tallyAt (dCell c (4 : DmaSem sig)) () N)) ∗ (iprop(∃ W : Waits sig Unit, owes (c : Thread nD τ) (Orest c 6) W)) ∗ (atPos ER (dCell c (4 : DmaSem sig)) 0 ∅ 0) ∗ (cred (tallyAt (dCell c (16 : DmaSem sig)) () N)) ∗ (atPos ER (dCell c (16 : DmaSem sig)) 0 ∅ 0) ∗ (cred (tallyAt (dCell c (5 : DmaSem sig)) () N)) ∗ (atPos ER (dCell c (5 : DmaSem sig)) 0 ∅ 0) ∗ (cred (tallyAt (dCell c (17 : DmaSem sig)) () N)) ∗ (atPos ER (dCell c (17 : DmaSem sig)) 0 ∅ 0) ∗ (ow c (aPo c) fullShare (sPo m c))
        ∗ (iprop((ow c (rQo c) fullShare (A3 m (py c))) ∗ (ow c (aQo c) fullShare (sQo m c)) ∗ (iprop(∃ W : Waits sig Unit, owes (c : Thread nD τ) (Orest c 6) W)) ∗ (atPos ER (dCell c (4 : DmaSem sig)) 1 ∅ 0) ∗ (atPos ER (dCell c (16 : DmaSem sig)) 1 ∅ 0) ∗ (ow c rP2 fullShare (sPf m (py c))) ∗ (ow (py c) (aPo c) fullShare (sPf m (py c))) ∗ (atPos ER (dCell c (5 : DmaSem sig)) 1 ∅ 0) ∗ (atPos ER (dCell c (17 : DmaSem sig)) 1 ∅ 0) ∗ (ow c rQ2 fullShare (sQf m (px c))) ∗ (ow (px c) (aQo c) fullShare (sQf m (px c))) ∗ (ow c (aPo c) fullShare (tP m c))) -∗ Q ⟨⟩))
      ⊢ wp frame (wpE (defs₀ (F := F)) 𝒱₀ c none) Set.univ (k0_part7 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v9 v10 v21 v31 (B3 m c)) Q := by
  iintro ⟨#HR, #Hlev, HrQo, HaQo, HcS4, HO, Ha4, HcR4, Ha16, HcS5, Ha5, HcR5, Ha17, HaPo, Hk⟩
  icases HO with ⟨%W0, HO⟩
  simp only [k0_part7_eq_skeleton]; unfold k0_part7_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  iapply (load_sl1 c rQ1 (off16_eq c) (k0_off7_inb c) (k0_off16_inb c) fullShare (A3 m (py c))) $$ HrQo; iintro HrQo
  iapply (load_sl1 c aQ (off16_eq c) (k0_off7_inb c) (k0_off16_inb c) fullShare (B3 m c)) $$ HaQo; iintro HaQo
  iapply (store_sl1 c aQ (off16_eq c) (k0_off7_inb c) (k0_off16_inb c) (sQo m c) (B3 m c)) $$ HaQo; iintro HaQo
  ihave HM := (mayWait_rest (F := F) c (.dma (4 : DmaSem sig)) 6 (by decide)) $$ Hlev
  iapply (wait_dma m c (4 : DmaSem sig) (by rfl) (K (c, .dma (4 : DmaSem sig))) (Orest c 6) _) $$ [HcS4 HO HM Ha4]
  · isplitr; · (iapply (inv_at m K (c, .dma (4 : DmaSem sig))) <;> iexact HR)
    isplitl [HcS4]; · iexact HcS4
    isplitl [HO]; · iexact HO
    isplitl [HM]; · iexact HM
    iexact Ha4
  iintro ⟨HO, Ha4, -⟩
  ihave HM := (mayWait_rest (F := F) c (.dma (16 : DmaSem sig)) 6 (by decide)) $$ Hlev
  iapply (wait_dma m c (16 : DmaSem sig) (by rfl) (K (c, .dma (16 : DmaSem sig))) (Orest c 6) _) $$ [HcR4 HO HM Ha16]
  · isplitr; · (iapply (inv_at m K (c, .dma (16 : DmaSem sig))) <;> iexact HR)
    isplitl [HcR4]; · iexact HcR4
    isplitl [HO]; · iexact HO
    isplitl [HM]; · iexact HM
    iexact Ha16
  iintro ⟨HO, Ha16, HpR⟩
  ihave HpR' := ((show (Pd m c (16 : DmaSem sig) : sProp 𝕄) ⊢ Pd m c (rIx 4) from BI.Entails.refl _).trans (gotR4 m c)) $$ HpR
  icases HpR' with ⟨HrP2, HyaPo⟩
  ihave HM := (mayWait_rest (F := F) c (.dma (5 : DmaSem sig)) 6 (by decide)) $$ Hlev
  iapply (wait_dma m c (5 : DmaSem sig) (by rfl) (K (c, .dma (5 : DmaSem sig))) (Orest c 6) _) $$ [HcS5 HO HM Ha5]
  · isplitr; · (iapply (inv_at m K (c, .dma (5 : DmaSem sig))) <;> iexact HR)
    isplitl [HcS5]; · iexact HcS5
    isplitl [HO]; · iexact HO
    isplitl [HM]; · iexact HM
    iexact Ha5
  iintro ⟨HO, Ha5, -⟩
  ihave HM := (mayWait_rest (F := F) c (.dma (17 : DmaSem sig)) 6 (by decide)) $$ Hlev
  iapply (wait_dma m c (17 : DmaSem sig) (by rfl) (K (c, .dma (17 : DmaSem sig))) (Orest c 6) _) $$ [HcR5 HO HM Ha17]
  · isplitr; · (iapply (inv_at m K (c, .dma (17 : DmaSem sig))) <;> iexact HR)
    isplitl [HcR5]; · iexact HcR5
    isplitl [HO]; · iexact HO
    isplitl [HM]; · iexact HM
    iexact Ha17
  iintro ⟨HO, Ha17, HpR⟩
  ihave HpR' := ((show (Pd m c (17 : DmaSem sig) : sProp 𝕄) ⊢ Pd m c (rIx 5) from BI.Entails.refl _).trans (gotR5 m c)) $$ HpR
  icases HpR' with ⟨HrQ2, HxaQo⟩
  iapply (load_sl1 c aP (off15_eq c) (k0_off5_inb c) (k0_off15_inb c) fullShare (sPo m c)) $$ HaPo; iintro HaPo
  iapply (load_rP2 c (sPf m (py c))) $$ HrP2; iintro HrP2
  iapply (load_sl1 c aP (off15_eq c) (k0_off5_inb c) (k0_off15_inb c) fullShare (sPo m c)) $$ HaPo; iintro HaPo
  iapply (store_sl1 c aP (off15_eq c) (k0_off5_inb c) (k0_off15_inb c) (tP m c) (sPo m c)) $$ HaPo; iintro HaPo
  rw [wp_ret]; imodintro
  iapply Hk
  isplitl [HrQo]; · iexact HrQo
  isplitl [HaQo]; · iexact HaQo
  isplitl [HO]; · (iexists _; iexact HO)
  isplitl [Ha4]; · iexact Ha4
  isplitl [Ha16]; · iexact Ha16
  isplitl [HrP2]; · iexact HrP2
  isplitl [HyaPo]; · iexact HyaPo
  isplitl [Ha5]; · iexact Ha5
  isplitl [Ha17]; · iexact Ha17
  isplitl [HrQ2]; · iexact HrQ2
  isplitl [HxaQo]; · iexact HxaQo
  iexact HaPo

end Cert.KernelIdeal.Hand

end
-- ==== Proof.Part8.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.BarRules
import proofs.«900388_g7700000000000389_dist_rs_then_ag_i_m4096_n1024_v7x_i4_f32_1_alg».proof.Proof.Mem
import proofs.«900388_g7700000000000389_dist_rs_then_ag_i_m4096_n1024_v7x_i4_f32_1_alg».proof.Proof.SendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 8 of the body: what it takes from the device's holdings and what it leaves -/

set_option maxHeartbeats 4000000 in
set_option maxRecDepth 65536 in
theorem part8_spec (K : Dev nD × SemLoc sig → ℕ) (v9 : BitVec 32) (v10 : BitVec 32) (v31 : BitVec 32) (Q : PUnit → sProp 𝕄) :
    iprop(records m K ∗ levAts L lv ∗ (ow c (aQo c) fullShare (sQo m c)) ∗ (ow c rQ2 fullShare (sQf m (px c))) ∗ (ow c (aPo c) fullShare (tP m c)) ∗ (dE c (oB2 c)) ∗ (dutyTok ER (dCell c (28 : DmaSem sig)) 0 false) ∗ (dE c (oB3 c)) ∗ (dutyTok ER (dCell c (29 : DmaSem sig)) 0 false) ∗ (ow (py c) (aPo c) fullShare (sPf m (py c))) ∗ (dutyTok ER (dCell c (6 : DmaSem sig)) 0 false) ∗ (dutyTok ER (dCell (py c) (18 : DmaSem sig)) 0 false) ∗ (iprop(∃ W : Waits sig Unit, owes (c : Thread nD τ) (Orest c 6) W)) ∗ (ow (px c) (aQo c) fullShare (sQf m (px c))) ∗ (dutyTok ER (dCell c (7 : DmaSem sig)) 0 false) ∗ (dutyTok ER (dCell (px c) (19 : DmaSem sig)) 0 false)
        ∗ (iprop((ow c rQ2 fullShare (sQf m (px c))) ∗ (ow c (aPo c) fullShare.right.right (tP m c)) ∗ (ow c (aQo c) fullShare.right.right (tQ m c)) ∗ (cred (tallyAt (dCell c (28 : DmaSem sig)) () N)) ∗ (cred (tallyAt (dCell c (29 : DmaSem sig)) () N)) ∗ (iprop(∃ W : Waits sig Unit, owes (c : Thread nD τ) (Orest c 4) W)) ∗ (cred (tallyAt (dCell c (6 : DmaSem sig)) () N)) ∗ (cred (tallyAt (dCell c (7 : DmaSem sig)) () N))) -∗ Q ⟨⟩))
      ⊢ wp frame (wpE (defs₀ (F := F)) 𝒱₀ c none) Set.univ (k0_part8 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v9 v10 v31) Q := by
  iintro ⟨#HR, #Hlev, HaQo, HrQ2, HaPo, Hob2, HtL4, Hob3, HtL5, HyaPo, HtS6, HtR6, HO, HxaQo, HtS7, HtR7, Hk⟩
  icases HO with ⟨%W0, HO⟩
  simp only [k0_part8_eq_skeleton]; unfold k0_part8_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  iapply (load_sl1 c aQ (off16_eq c) (k0_off7_inb c) (k0_off16_inb c) fullShare (sQo m c)) $$ HaQo; iintro HaQo
  iapply (load_rQ2 c (sQf m (px c))) $$ HrQ2; iintro HrQ2
  iapply (load_sl1 c aQ (off16_eq c) (k0_off7_inb c) (k0_off16_inb c) fullShare (sQo m c)) $$ HaQo; iintro HaQo
  iapply (store_sl1 c aQ (off16_eq c) (k0_off7_inb c) (k0_off16_inb c) (tQ m c) (sQo m c)) $$ HaQo; iintro HaQo
  ihave HaPo' := (owns_share c (aPo c) (PosShare.mem_left_op_right fullShare) (tP m c)).1 $$ HaPo
  icases HaPo' with ⟨HaPoL, HaPoR⟩
  ihave HaPoR' := (owns_share c (aPo c) (PosShare.mem_left_op_right fullShare.right) (tP m c)).1 $$ HaPoR
  icases HaPoR' with ⟨HaPoRL, HaPoRR⟩
  ihave HaQo' := (owns_share c (aQo c) (PosShare.mem_left_op_right fullShare) (tQ m c)).1 $$ HaQo
  icases HaQo' with ⟨HaQoL, HaQoR⟩
  ihave HaQoR' := (owns_share c (aQo c) (PosShare.mem_left_op_right fullShare.right) (tQ m c)).1 $$ HaQoR
  icases HaQoR' with ⟨HaQoRL, HaQoRR⟩
  -- local copy 4
  iapply (copy_owns m c (28 : DmaSem sig) fullShare.left (tP m c) (K (c, .dma (28 : DmaSem sig))) (by rfl) (BI.Entails.refl _)) $$ [HaPoL Hob2 HtL4]
  · isplitr; · (iapply (inv_at m K (c, .dma (28 : DmaSem sig))) <;> iexact HR)
    isplitl [HaPoL]; · iexact HaPoL
    isplitl [Hob2]; · iexact Hob2
    isplitl [HtL4]; · iexact HtL4
    (iapply (reached_at m K (c, .dma (28 : DmaSem sig))) <;> iexact HR)
  iintro HcL4
  -- local copy 5
  iapply (copy_owns m c (29 : DmaSem sig) fullShare.left (tQ m c) (K (c, .dma (29 : DmaSem sig))) (by rfl) (BI.Entails.refl _)) $$ [HaQoL Hob3 HtL5]
  · isplitr; · (iapply (inv_at m K (c, .dma (29 : DmaSem sig))) <;> iexact HR)
    isplitl [HaQoL]; · iexact HaQoL
    isplitl [Hob3]; · iexact Hob3
    isplitl [HtL5]; · iexact HtL5
    (iapply (reached_at m K (c, .dma (29 : DmaSem sig))) <;> iexact HR)
  iintro HcL5
  ihave DyaPo := (owns_dE (py c) (aPo c) (sPf m (py c))) $$ HyaPo
  -- transfer 6, to `py c`
  iapply (send_owns_at m c (dev9_eq c) (6 : DmaSem sig) (18 : DmaSem sig) fullShare.right.left (tP m c) (K (c, .dma (6 : DmaSem sig))) (K (py c, .dma (18 : DmaSem sig))) (Orest c 5) rfl _ (by rfl) (BI.Entails.refl _) (payR6 m c)) $$ [HaPoRL DyaPo HO HtS6 HtR6]
  · isplitr; · (iapply (inv_at m K (c, .dma (6 : DmaSem sig))) <;> iexact HR)
    isplitr; · (iapply (inv_at m K (py c, .dma (18 : DmaSem sig))) <;> iexact HR)
    isplitl [HaPoRL]; · iexact HaPoRL
    isplitl [DyaPo]; · iexact DyaPo
    isplitl [HO]; · iexact HO
    isplitl [HtS6]; · iexact HtS6
    isplitr; · (iapply (reached_at m K (c, .dma (6 : DmaSem sig))) <;> iexact HR)
    isplitl [HtR6]; · iexact HtR6
    (iapply (reached_at m K (py c, .dma (18 : DmaSem sig))) <;> iexact HR)
  iintro ⟨HcS6, HO⟩
  ihave DxaQo := (owns_dE (px c) (aQo c) (sQf m (px c))) $$ HxaQo
  -- transfer 7, to `px c`
  iapply (send_owns_at m c (dev10_eq c) (7 : DmaSem sig) (19 : DmaSem sig) fullShare.right.left (tQ m c) (K (c, .dma (7 : DmaSem sig))) (K (px c, .dma (19 : DmaSem sig))) (Orest c 4) rfl _ (by rfl) (BI.Entails.refl _) (payR7 m c)) $$ [HaQoRL DxaQo HO HtS7 HtR7]
  · isplitr; · (iapply (inv_at m K (c, .dma (7 : DmaSem sig))) <;> iexact HR)
    isplitr; · (iapply (inv_at m K (px c, .dma (19 : DmaSem sig))) <;> iexact HR)
    isplitl [HaQoRL]; · iexact HaQoRL
    isplitl [DxaQo]; · iexact DxaQo
    isplitl [HO]; · iexact HO
    isplitl [HtS7]; · iexact HtS7
    isplitr; · (iapply (reached_at m K (c, .dma (7 : DmaSem sig))) <;> iexact HR)
    isplitl [HtR7]; · iexact HtR7
    (iapply (reached_at m K (px c, .dma (19 : DmaSem sig))) <;> iexact HR)
  iintro ⟨HcS7, HO⟩
  rw [wp_ret]; imodintro
  iapply Hk
  isplitl [HrQ2]; · iexact HrQ2
  isplitl [HaPoRR]; · iexact HaPoRR
  isplitl [HaQoRR]; · iexact HaQoRR
  isplitl [HcL4]; · iexact HcL4
  isplitl [HcL5]; · iexact HcL5
  isplitl [HO]; · (iexists _; iexact HO)
  isplitl [HcS6]; · iexact HcS6
  iexact HcS7

end Cert.KernelIdeal.Hand

end
-- ==== Proof.Part9.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.BarRules
import proofs.«900388_g7700000000000389_dist_rs_then_ag_i_m4096_n1024_v7x_i4_f32_1_alg».proof.Proof.Mem
import proofs.«900388_g7700000000000389_dist_rs_then_ag_i_m4096_n1024_v7x_i4_f32_1_alg».proof.Proof.SendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 9 of the body: what it takes from the device's holdings and what it leaves -/

set_option maxHeartbeats 4000000 in
set_option maxRecDepth 65536 in
theorem part9_spec (K : Dev nD × SemLoc sig → ℕ) (v9 : BitVec 32) (v10 : BitVec 32) (Q : PUnit → sProp 𝕄) :
    iprop(records m K ∗ levAts L lv ∗ (ow c (aPo c) fullShare.right.right (tP m c)) ∗ (dE (px c) (oB2 c)) ∗ (dutyTok ER (dCell c (8 : DmaSem sig)) 0 false) ∗ (dutyTok ER (dCell (px c) (20 : DmaSem sig)) 0 false) ∗ (iprop(∃ W : Waits sig Unit, owes (c : Thread nD τ) (Orest c 4) W)) ∗ (ow c (aQo c) fullShare.right.right (tQ m c)) ∗ (dE (py c) (oB3 c)) ∗ (dutyTok ER (dCell c (9 : DmaSem sig)) 0 false) ∗ (dutyTok ER (dCell (py c) (21 : DmaSem sig)) 0 false) ∗ (cred (tallyAt (dCell c (6 : DmaSem sig)) () N)) ∗ (atPos ER (dCell c (6 : DmaSem sig)) 0 ∅ 0) ∗ (cred (tallyAt (dCell c (18 : DmaSem sig)) () N)) ∗ (atPos ER (dCell c (18 : DmaSem sig)) 0 ∅ 0)
        ∗ (iprop((iprop(∃ W : Waits sig Unit, owes (c : Thread nD τ) (Orest c 2) W)) ∗ (cred (tallyAt (dCell c (8 : DmaSem sig)) () N)) ∗ (cred (tallyAt (dCell c (9 : DmaSem sig)) () N)) ∗ (atPos ER (dCell c (6 : DmaSem sig)) 1 ∅ 0) ∗ (ow c (aPo c) fullShare.right.left (tP m c)) ∗ (atPos ER (dCell c (18 : DmaSem sig)) 1 ∅ 0) ∗ (ow c (aPf c) fullShare (tP m (py c)))) -∗ Q ⟨⟩))
      ⊢ wp frame (wpE (defs₀ (F := F)) 𝒱₀ c none) Set.univ (k0_part9 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v9 v10) Q := by
  iintro ⟨#HR, #Hlev, HaPoRR, DxO2, HtS8, HtR8, HO, HaQoRR, DyO3, HtS9, HtR9, HcS6, Ha6, HcR6, Ha18, Hk⟩
  icases HO with ⟨%W0, HO⟩
  simp only [k0_part9_eq_skeleton]; unfold k0_part9_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  -- transfer 8, to `px c`
  iapply (send_owns_at m c (dev11_eq c) (8 : DmaSem sig) (20 : DmaSem sig) fullShare.right.right (tP m c) (K (c, .dma (8 : DmaSem sig))) (K (px c, .dma (20 : DmaSem sig))) (Orest c 3) rfl _ (by rfl) (BI.Entails.refl _) (payR8 m c)) $$ [HaPoRR DxO2 HO HtS8 HtR8]
  · isplitr; · (iapply (inv_at m K (c, .dma (8 : DmaSem sig))) <;> iexact HR)
    isplitr; · (iapply (inv_at m K (px c, .dma (20 : DmaSem sig))) <;> iexact HR)
    isplitl [HaPoRR]; · iexact HaPoRR
    isplitl [DxO2]; · iexact DxO2
    isplitl [HO]; · iexact HO
    isplitl [HtS8]; · iexact HtS8
    isplitr; · (iapply (reached_at m K (c, .dma (8 : DmaSem sig))) <;> iexact HR)
    isplitl [HtR8]; · iexact HtR8
    (iapply (reached_at m K (px c, .dma (20 : DmaSem sig))) <;> iexact HR)
  iintro ⟨HcS8, HO⟩
  -- transfer 9, to `py c`
  iapply (send_owns_at m c (dev12_eq c) (9 : DmaSem sig) (21 : DmaSem sig) fullShare.right.right (tQ m c) (K (c, .dma (9 : DmaSem sig))) (K (py c, .dma (21 : DmaSem sig))) (Orest c 2) rfl _ (by rfl) (BI.Entails.refl _) (payR9 m c)) $$ [HaQoRR DyO3 HO HtS9 HtR9]
  · isplitr; · (iapply (inv_at m K (c, .dma (9 : DmaSem sig))) <;> iexact HR)
    isplitr; · (iapply (inv_at m K (py c, .dma (21 : DmaSem sig))) <;> iexact HR)
    isplitl [HaQoRR]; · iexact HaQoRR
    isplitl [DyO3]; · iexact DyO3
    isplitl [HO]; · iexact HO
    isplitl [HtS9]; · iexact HtS9
    isplitr; · (iapply (reached_at m K (c, .dma (9 : DmaSem sig))) <;> iexact HR)
    isplitl [HtR9]; · iexact HtR9
    (iapply (reached_at m K (py c, .dma (21 : DmaSem sig))) <;> iexact HR)
  iintro ⟨HcS9, HO⟩
  ihave HM := (mayWait_rest (F := F) c (.dma (6 : DmaSem sig)) 2 (by decide)) $$ Hlev
  iapply (wait_dma m c (6 : DmaSem sig) (by rfl) (K (c, .dma (6 : DmaSem sig))) (Orest c 2) _) $$ [HcS6 HO HM Ha6]
  · isplitr; · (iapply (inv_at m K (c, .dma (6 : DmaSem sig))) <;> iexact HR)
    isplitl [HcS6]; · iexact HcS6
    isplitl [HO]; · iexact HO
    isplitl [HM]; · iexact HM
    iexact Ha6
  iintro ⟨HO, Ha6, Hp⟩
  ihave HaPoRL := (show Pd m c (6 : DmaSem sig) ⊢ (ow c (aPo c) fullShare.right.left (tP m c) : sProp 𝕄) from BI.Entails.refl _) $$ Hp
  ihave HM := (mayWait_rest (F := F) c (.dma (18 : DmaSem sig)) 2 (by decide)) $$ Hlev
  iapply (wait_dma m c (18 : DmaSem sig) (by rfl) (K (c, .dma (18 : DmaSem sig))) (Orest c 2) _) $$ [HcR6 HO HM Ha18]
  · isplitr; · (iapply (inv_at m K (c, .dma (18 : DmaSem sig))) <;> iexact HR)
    isplitl [HcR6]; · iexact HcR6
    isplitl [HO]; · iexact HO
    isplitl [HM]; · iexact HM
    iexact Ha18
  iintro ⟨HO, Ha18, HpR⟩
  ihave HaPf := ((show (Pd m c (18 : DmaSem sig) : sProp 𝕄) ⊢ Pd m c (rIx 6) from BI.Entails.refl _).trans (gotR6 m c)) $$ HpR
  rw [wp_ret]; imodintro
  iapply Hk
  isplitl [HO]; · (iexists _; iexact HO)
  isplitl [HcS8]; · iexact HcS8
  isplitl [HcS9]; · iexact HcS9
  isplitl [Ha6]; · iexact Ha6
  isplitl [HaPoRL]; · iexact HaPoRL
  isplitl [Ha18]; · iexact Ha18
  iexact HaPf

end Cert.KernelIdeal.Hand

end
-- ==== Proof.Part10.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.BarRules
import proofs.«900388_g7700000000000389_dist_rs_then_ag_i_m4096_n1024_v7x_i4_f32_1_alg».proof.Proof.Mem
import proofs.«900388_g7700000000000389_dist_rs_then_ag_i_m4096_n1024_v7x_i4_f32_1_alg».proof.Proof.SendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 10 of the body: what it takes from the device's holdings and what it leaves -/

set_option maxHeartbeats 4000000 in
set_option maxRecDepth 65536 in
theorem part10_spec (K : Dev nD × SemLoc sig → ℕ) (v9 : BitVec 32) (v10 : BitVec 32) (Q : PUnit → sProp 𝕄) :
    iprop(records m K ∗ levAts L lv ∗ (cred (tallyAt (dCell c (7 : DmaSem sig)) () N)) ∗ (iprop(∃ W : Waits sig Unit, owes (c : Thread nD τ) (Orest c 2) W)) ∗ (atPos ER (dCell c (7 : DmaSem sig)) 0 ∅ 0) ∗ (cred (tallyAt (dCell c (19 : DmaSem sig)) () N)) ∗ (atPos ER (dCell c (19 : DmaSem sig)) 0 ∅ 0) ∗ (ow c (aPf c) fullShare (tP m (py c))) ∗ (dE c (oB0 c)) ∗ (dutyTok ER (dCell c (30 : DmaSem sig)) 0 false) ∗ (dE c (oB1 c)) ∗ (dutyTok ER (dCell c (31 : DmaSem sig)) 0 false) ∗ (dE (px c) (oB0 c)) ∗ (dutyTok ER (dCell c (10 : DmaSem sig)) 0 false) ∗ (dutyTok ER (dCell (px c) (22 : DmaSem sig)) 0 false)
        ∗ (iprop((iprop(∃ W : Waits sig Unit, owes (c : Thread nD τ) (Orest c 1) W)) ∗ (atPos ER (dCell c (7 : DmaSem sig)) 1 ∅ 0) ∗ (ow c (aQo c) fullShare.right.left (tQ m c)) ∗ (atPos ER (dCell c (19 : DmaSem sig)) 1 ∅ 0) ∗ (ow c (aQf c) fullShare.right (tQ m (px c))) ∗ (cred (tallyAt (dCell c (30 : DmaSem sig)) () N)) ∗ (cred (tallyAt (dCell c (31 : DmaSem sig)) () N)) ∗ (cred (tallyAt (dCell c (10 : DmaSem sig)) () N))) -∗ Q ⟨⟩))
      ⊢ wp frame (wpE (defs₀ (F := F)) 𝒱₀ c none) Set.univ (k0_part10 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v9 v10) Q := by
  iintro ⟨#HR, #Hlev, HcS7, HO, Ha7, HcR7, Ha19, HaPf, Hob0, HtL6, Hob1, HtL7, DxO0, HtS10, HtR10, Hk⟩
  icases HO with ⟨%W0, HO⟩
  simp only [k0_part10_eq_skeleton]; unfold k0_part10_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  ihave HM := (mayWait_rest (F := F) c (.dma (7 : DmaSem sig)) 2 (by decide)) $$ Hlev
  iapply (wait_dma m c (7 : DmaSem sig) (by rfl) (K (c, .dma (7 : DmaSem sig))) (Orest c 2) _) $$ [HcS7 HO HM Ha7]
  · isplitr; · (iapply (inv_at m K (c, .dma (7 : DmaSem sig))) <;> iexact HR)
    isplitl [HcS7]; · iexact HcS7
    isplitl [HO]; · iexact HO
    isplitl [HM]; · iexact HM
    iexact Ha7
  iintro ⟨HO, Ha7, Hp⟩
  ihave HaQoRL := (show Pd m c (7 : DmaSem sig) ⊢ (ow c (aQo c) fullShare.right.left (tQ m c) : sProp 𝕄) from BI.Entails.refl _) $$ Hp
  ihave HM := (mayWait_rest (F := F) c (.dma (19 : DmaSem sig)) 2 (by decide)) $$ Hlev
  iapply (wait_dma m c (19 : DmaSem sig) (by rfl) (K (c, .dma (19 : DmaSem sig))) (Orest c 2) _) $$ [HcR7 HO HM Ha19]
  · isplitr; · (iapply (inv_at m K (c, .dma (19 : DmaSem sig))) <;> iexact HR)
    isplitl [HcR7]; · iexact HcR7
    isplitl [HO]; · iexact HO
    isplitl [HM]; · iexact HM
    iexact Ha19
  iintro ⟨HO, Ha19, HpR⟩
  ihave HaQf := ((show (Pd m c (19 : DmaSem sig) : sProp 𝕄) ⊢ Pd m c (rIx 7) from BI.Entails.refl _).trans (gotR7 m c)) $$ HpR
  ihave HaPf' := (owns_share c (aPf c) (PosShare.mem_left_op_right fullShare) (tP m (py c))).1 $$ HaPf
  icases HaPf' with ⟨HaPfL, HaPfR⟩
  ihave HaQf' := (owns_share c (aQf c) (PosShare.mem_left_op_right fullShare) (tQ m (px c))).1 $$ HaQf
  icases HaQf' with ⟨HaQfL, HaQfR⟩
  -- local copy 6
  iapply (copy_owns m c (30 : DmaSem sig) fullShare.left (tP m (py c)) (K (c, .dma (30 : DmaSem sig))) (by rfl) (BI.Entails.refl _)) $$ [HaPfL Hob0 HtL6]
  · isplitr; · (iapply (inv_at m K (c, .dma (30 : DmaSem sig))) <;> iexact HR)
    isplitl [HaPfL]; · iexact HaPfL
    isplitl [Hob0]; · iexact Hob0
    isplitl [HtL6]; · iexact HtL6
    (iapply (reached_at m K (c, .dma (30 : DmaSem sig))) <;> iexact HR)
  iintro HcL6
  -- local copy 7
  iapply (copy_owns m c (31 : DmaSem sig) fullShare.left (tQ m (px c)) (K (c, .dma (31 : DmaSem sig))) (by rfl) (BI.Entails.refl _)) $$ [HaQfL Hob1 HtL7]
  · isplitr; · (iapply (inv_at m K (c, .dma (31 : DmaSem sig))) <;> iexact HR)
    isplitl [HaQfL]; · iexact HaQfL
    isplitl [Hob1]; · iexact Hob1
    isplitl [HtL7]; · iexact HtL7
    (iapply (reached_at m K (c, .dma (31 : DmaSem sig))) <;> iexact HR)
  iintro HcL7
  -- transfer 10, to `px c`
  iapply (send_owns_at m c (dev13_eq c) (10 : DmaSem sig) (22 : DmaSem sig) fullShare.right (tP m (py c)) (K (c, .dma (10 : DmaSem sig))) (K (px c, .dma (22 : DmaSem sig))) (Orest c 1) rfl _ (by rfl) (BI.Entails.refl _) (payR10 m c)) $$ [HaPfR DxO0 HO HtS10 HtR10]
  · isplitr; · (iapply (inv_at m K (c, .dma (10 : DmaSem sig))) <;> iexact HR)
    isplitr; · (iapply (inv_at m K (px c, .dma (22 : DmaSem sig))) <;> iexact HR)
    isplitl [HaPfR]; · iexact HaPfR
    isplitl [DxO0]; · iexact DxO0
    isplitl [HO]; · iexact HO
    isplitl [HtS10]; · iexact HtS10
    isplitr; · (iapply (reached_at m K (c, .dma (10 : DmaSem sig))) <;> iexact HR)
    isplitl [HtR10]; · iexact HtR10
    (iapply (reached_at m K (px c, .dma (22 : DmaSem sig))) <;> iexact HR)
  iintro ⟨HcS10, HO⟩
  rw [wp_ret]; imodintro
  iapply Hk
  isplitl [HO]; · (iexists _; iexact HO)
  isplitl [Ha7]; · iexact Ha7
  isplitl [HaQoRL]; · iexact HaQoRL
  isplitl [Ha19]; · iexact Ha19
  isplitl [HaQfR]; · iexact HaQfR
  isplitl [HcL6]; · iexact HcL6
  isplitl [HcL7]; · iexact HcL7
  iexact HcS10

end Cert.KernelIdeal.Hand

end
-- ==== Proof.Part11.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.BarRules
import proofs.«900388_g7700000000000389_dist_rs_then_ag_i_m4096_n1024_v7x_i4_f32_1_alg».proof.Proof.Mem
import proofs.«900388_g7700000000000389_dist_rs_then_ag_i_m4096_n1024_v7x_i4_f32_1_alg».proof.Proof.SendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 11 of the body: what it takes from the device's holdings and what it leaves -/

set_option maxHeartbeats 4000000 in
set_option maxRecDepth 65536 in
theorem part11_spec (K : Dev nD × SemLoc sig → ℕ) (v9 : BitVec 32) (v10 : BitVec 32) (Q : BitVec 32 → sProp 𝕄) :
    iprop(records m K ∗ levAts L lv ∗ (ow c (aQf c) fullShare.right (tQ m (px c))) ∗ (dE (py c) (oB1 c)) ∗ (dutyTok ER (dCell c (11 : DmaSem sig)) 0 false) ∗ (dutyTok ER (dCell (py c) (23 : DmaSem sig)) 0 false) ∗ (iprop(∃ W : Waits sig Unit, owes (c : Thread nD τ) (Orest c 1) W)) ∗ (cred (tallyAt (dCell c (8 : DmaSem sig)) () N)) ∗ (atPos ER (dCell c (8 : DmaSem sig)) 0 ∅ 0) ∗ (cred (tallyAt (dCell c (20 : DmaSem sig)) () N)) ∗ (atPos ER (dCell c (20 : DmaSem sig)) 0 ∅ 0) ∗ (cred (tallyAt (dCell c (9 : DmaSem sig)) () N)) ∗ (atPos ER (dCell c (9 : DmaSem sig)) 0 ∅ 0) ∗ (cred (tallyAt (dCell c (21 : DmaSem sig)) () N)) ∗ (atPos ER (dCell c (21 : DmaSem sig)) 0 ∅ 0) ∗ (cred (tallyAt (dCell c (10 : DmaSem sig)) () N)) ∗ (atPos ER (dCell c (10 : DmaSem sig)) 0 ∅ 0)
        ∗ (∀ (w : BitVec 32), (iprop((iprop(∃ W : Waits sig Unit, owes (c : Thread nD τ) (Orest c 0) W)) ∗ (cred (tallyAt (dCell c (11 : DmaSem sig)) () N)) ∗ (atPos ER (dCell c (8 : DmaSem sig)) 1 ∅ 0) ∗ (ow c (aPo c) fullShare.right.right (tP m c)) ∗ (atPos ER (dCell c (20 : DmaSem sig)) 1 ∅ 0) ∗ (ow c (oB2 (px c)) fullShare (tP m (px c))) ∗ (atPos ER (dCell c (9 : DmaSem sig)) 1 ∅ 0) ∗ (ow c (aQo c) fullShare.right.right (tQ m c)) ∗ (atPos ER (dCell c (21 : DmaSem sig)) 1 ∅ 0) ∗ (ow c (oB3 (py c)) fullShare (tQ m (py c))) ∗ (atPos ER (dCell c (10 : DmaSem sig)) 1 ∅ 0) ∗ (ow c (aPf c) fullShare.right (tP m (py c)))) -∗ Q w)))
      ⊢ wp frame (wpE (defs₀ (F := F)) 𝒱₀ c none) Set.univ (k0_part11 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v9 v10) Q := by
  iintro ⟨#HR, #Hlev, HaQfR, DyO1, HtS11, HtR11, HO, HcS8, Ha8, HcR8, Ha20, HcS9, Ha9, HcR9, Ha21, HcS10, Ha10, Hk⟩
  icases HO with ⟨%W0, HO⟩
  simp only [k0_part11_eq_skeleton]; unfold k0_part11_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  -- transfer 11, to `py c`
  iapply (send_owns_at m c (dev14_eq c) (11 : DmaSem sig) (23 : DmaSem sig) fullShare.right (tQ m (px c)) (K (c, .dma (11 : DmaSem sig))) (K (py c, .dma (23 : DmaSem sig))) (Orest c 0) rfl _ (by rfl) (BI.Entails.refl _) (payR11 m c)) $$ [HaQfR DyO1 HO HtS11 HtR11]
  · isplitr; · (iapply (inv_at m K (c, .dma (11 : DmaSem sig))) <;> iexact HR)
    isplitr; · (iapply (inv_at m K (py c, .dma (23 : DmaSem sig))) <;> iexact HR)
    isplitl [HaQfR]; · iexact HaQfR
    isplitl [DyO1]; · iexact DyO1
    isplitl [HO]; · iexact HO
    isplitl [HtS11]; · iexact HtS11
    isplitr; · (iapply (reached_at m K (c, .dma (11 : DmaSem sig))) <;> iexact HR)
    isplitl [HtR11]; · iexact HtR11
    (iapply (reached_at m K (py c, .dma (23 : DmaSem sig))) <;> iexact HR)
  iintro ⟨HcS11, HO⟩
  ihave HM := (mayWait_rest (F := F) c (.dma (8 : DmaSem sig)) 0 (by decide)) $$ Hlev
  iapply (wait_dma m c (8 : DmaSem sig) (by rfl) (K (c, .dma (8 : DmaSem sig))) (Orest c 0) _) $$ [HcS8 HO HM Ha8]
  · isplitr; · (iapply (inv_at m K (c, .dma (8 : DmaSem sig))) <;> iexact HR)
    isplitl [HcS8]; · iexact HcS8
    isplitl [HO]; · iexact HO
    isplitl [HM]; · iexact HM
    iexact Ha8
  iintro ⟨HO, Ha8, Hp⟩
  ihave HaPoRR := (show Pd m c (8 : DmaSem sig) ⊢ (ow c (aPo c) fullShare.right.right (tP m c) : sProp 𝕄) from BI.Entails.refl _) $$ Hp
  ihave HM := (mayWait_rest (F := F) c (.dma (20 : DmaSem sig)) 0 (by decide)) $$ Hlev
  iapply (wait_dma m c (20 : DmaSem sig) (by rfl) (K (c, .dma (20 : DmaSem sig))) (Orest c 0) _) $$ [HcR8 HO HM Ha20]
  · isplitr; · (iapply (inv_at m K (c, .dma (20 : DmaSem sig))) <;> iexact HR)
    isplitl [HcR8]; · iexact HcR8
    isplitl [HO]; · iexact HO
    isplitl [HM]; · iexact HM
    iexact Ha20
  iintro ⟨HO, Ha20, Hp⟩
  ihave HoX2 := (show Pd m c (20 : DmaSem sig) ⊢ (ow c (oB2 (px c)) fullShare (tP m (px c)) : sProp 𝕄) from BI.Entails.refl _) $$ Hp
  ihave HM := (mayWait_rest (F := F) c (.dma (9 : DmaSem sig)) 0 (by decide)) $$ Hlev
  iapply (wait_dma m c (9 : DmaSem sig) (by rfl) (K (c, .dma (9 : DmaSem sig))) (Orest c 0) _) $$ [HcS9 HO HM Ha9]
  · isplitr; · (iapply (inv_at m K (c, .dma (9 : DmaSem sig))) <;> iexact HR)
    isplitl [HcS9]; · iexact HcS9
    isplitl [HO]; · iexact HO
    isplitl [HM]; · iexact HM
    iexact Ha9
  iintro ⟨HO, Ha9, Hp⟩
  ihave HaQoRR := (show Pd m c (9 : DmaSem sig) ⊢ (ow c (aQo c) fullShare.right.right (tQ m c) : sProp 𝕄) from BI.Entails.refl _) $$ Hp
  ihave HM := (mayWait_rest (F := F) c (.dma (21 : DmaSem sig)) 0 (by decide)) $$ Hlev
  iapply (wait_dma m c (21 : DmaSem sig) (by rfl) (K (c, .dma (21 : DmaSem sig))) (Orest c 0) _) $$ [HcR9 HO HM Ha21]
  · isplitr; · (iapply (inv_at m K (c, .dma (21 : DmaSem sig))) <;> iexact HR)
    isplitl [HcR9]; · iexact HcR9
    isplitl [HO]; · iexact HO
    isplitl [HM]; · iexact HM
    iexact Ha21
  iintro ⟨HO, Ha21, Hp⟩
  ihave HoY3 := (show Pd m c (21 : DmaSem sig) ⊢ (ow c (oB3 (py c)) fullShare (tQ m (py c)) : sProp 𝕄) from BI.Entails.refl _) $$ Hp
  ihave HM := (mayWait_rest (F := F) c (.dma (10 : DmaSem sig)) 0 (by decide)) $$ Hlev
  iapply (wait_dma m c (10 : DmaSem sig) (by rfl) (K (c, .dma (10 : DmaSem sig))) (Orest c 0) _) $$ [HcS10 HO HM Ha10]
  · isplitr; · (iapply (inv_at m K (c, .dma (10 : DmaSem sig))) <;> iexact HR)
    isplitl [HcS10]; · iexact HcS10
    isplitl [HO]; · iexact HO
    isplitl [HM]; · iexact HM
    iexact Ha10
  iintro ⟨HO, Ha10, Hp⟩
  ihave HaPfR := (show Pd m c (10 : DmaSem sig) ⊢ (ow c (aPf c) fullShare.right (tP m (py c)) : sProp 𝕄) from BI.Entails.refl _) $$ Hp
  rw [wp_ret]; imodintro
  iapply Hk
  isplitl [HO]; · (iexists _; iexact HO)
  isplitl [HcS11]; · iexact HcS11
  isplitl [Ha8]; · iexact Ha8
  isplitl [HaPoRR]; · iexact HaPoRR
  isplitl [Ha20]; · iexact Ha20
  isplitl [HoX2]; · iexact HoX2
  isplitl [Ha9]; · iexact Ha9
  isplitl [HaQoRR]; · iexact HaQoRR
  isplitl [Ha21]; · iexact Ha21
  isplitl [HoY3]; · iexact HoY3
  isplitl [Ha10]; · iexact Ha10
  iexact HaPfR

end Cert.KernelIdeal.Hand

end
-- ==== Proof.Part12.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.BarRules
import proofs.«900388_g7700000000000389_dist_rs_then_ag_i_m4096_n1024_v7x_i4_f32_1_alg».proof.Proof.Mem
import proofs.«900388_g7700000000000389_dist_rs_then_ag_i_m4096_n1024_v7x_i4_f32_1_alg».proof.Proof.SendAt
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Part 12 of the body: what it takes from the device's holdings and what it leaves -/

set_option maxHeartbeats 4000000 in
set_option maxRecDepth 65536 in
theorem part12_spec (K : Dev nD × SemLoc sig → ℕ) (v9 : BitVec 32) (v10 : BitVec 32) (w : BitVec 32) (Q : PUnit → sProp 𝕄) :
    iprop(records m K ∗ levAts L lv ∗ (cred (tallyAt (dCell c (22 : DmaSem sig)) () N)) ∗ (iprop(∃ W : Waits sig Unit, owes (c : Thread nD τ) (Orest c 0) W)) ∗ (atPos ER (dCell c (22 : DmaSem sig)) 0 ∅ 0) ∗ (cred (tallyAt (dCell c (11 : DmaSem sig)) () N)) ∗ (atPos ER (dCell c (11 : DmaSem sig)) 0 ∅ 0) ∗ (cred (tallyAt (dCell c (23 : DmaSem sig)) () N)) ∗ (atPos ER (dCell c (23 : DmaSem sig)) 0 ∅ 0) ∗ (cred (tallyAt (dCell c (28 : DmaSem sig)) () N)) ∗ (atPos ER (dCell c (28 : DmaSem sig)) 0 ∅ 0) ∗ (cred (tallyAt (dCell c (29 : DmaSem sig)) () N)) ∗ (atPos ER (dCell c (29 : DmaSem sig)) 0 ∅ 0) ∗ (cred (tallyAt (dCell c (30 : DmaSem sig)) () N)) ∗ (atPos ER (dCell c (30 : DmaSem sig)) 0 ∅ 0)
        ∗ (iprop((iprop(∃ W : Waits sig Unit, owes (c : Thread nD τ) (Orest c 0) W)) ∗ (atPos ER (dCell c (22 : DmaSem sig)) 1 ∅ 0) ∗ (ow c (oB0 (px c)) fullShare (tP m (py (px c)))) ∗ (atPos ER (dCell c (11 : DmaSem sig)) 1 ∅ 0) ∗ (ow c (aQf c) fullShare.right (tQ m (px c))) ∗ (atPos ER (dCell c (23 : DmaSem sig)) 1 ∅ 0) ∗ (ow c (oB1 (py c)) fullShare (tQ m (px (py c)))) ∗ (atPos ER (dCell c (28 : DmaSem sig)) 1 ∅ 0) ∗ (ow c (oB2 c) fullShare (tP m c)) ∗ (ow c (aPo c) fullShare.left (tP m c)) ∗ (atPos ER (dCell c (29 : DmaSem sig)) 1 ∅ 0) ∗ (ow c (oB3 c) fullShare (tQ m c)) ∗ (ow c (aQo c) fullShare.left (tQ m c)) ∗ (atPos ER (dCell c (30 : DmaSem sig)) 1 ∅ 0) ∗ (ow c (oB0 c) fullShare (tP m (py c))) ∗ (ow c (aPf c) fullShare.left (tP m (py c)))) -∗ Q ⟨⟩))
      ⊢ wp frame (wpE (defs₀ (F := F)) 𝒱₀ c none) Set.univ (k0_part12 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 c v9 v10 w) Q := by
  iintro ⟨#HR, #Hlev, HcR10, HO, Ha22, HcS11, Ha11, HcR11, Ha23, HcL4, Ha28, HcL5, Ha29, HcL6, Ha30, Hk⟩
  icases HO with ⟨%W0, HO⟩
  simp only [k0_part12_eq_skeleton]; unfold k0_part12_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c]
  ihave HM := (mayWait_rest (F := F) c (.dma (22 : DmaSem sig)) 0 (by decide)) $$ Hlev
  iapply (wait_dma m c (22 : DmaSem sig) (by rfl) (K (c, .dma (22 : DmaSem sig))) (Orest c 0) _) $$ [HcR10 HO HM Ha22]
  · isplitr; · (iapply (inv_at m K (c, .dma (22 : DmaSem sig))) <;> iexact HR)
    isplitl [HcR10]; · iexact HcR10
    isplitl [HO]; · iexact HO
    isplitl [HM]; · iexact HM
    iexact Ha22
  iintro ⟨HO, Ha22, Hp⟩
  ihave HoX0 := (show Pd m c (22 : DmaSem sig) ⊢ (ow c (oB0 (px c)) fullShare (tP m (py (px c))) : sProp 𝕄) from BI.Entails.refl _) $$ Hp
  ihave HM := (mayWait_rest (F := F) c (.dma (11 : DmaSem sig)) 0 (by decide)) $$ Hlev
  iapply (wait_dma m c (11 : DmaSem sig) (by rfl) (K (c, .dma (11 : DmaSem sig))) (Orest c 0) _) $$ [HcS11 HO HM Ha11]
  · isplitr; · (iapply (inv_at m K (c, .dma (11 : DmaSem sig))) <;> iexact HR)
    isplitl [HcS11]; · iexact HcS11
    isplitl [HO]; · iexact HO
    isplitl [HM]; · iexact HM
    iexact Ha11
  iintro ⟨HO, Ha11, Hp⟩
  ihave HaQfR := (show Pd m c (11 : DmaSem sig) ⊢ (ow c (aQf c) fullShare.right (tQ m (px c)) : sProp 𝕄) from BI.Entails.refl _) $$ Hp
  ihave HM := (mayWait_rest (F := F) c (.dma (23 : DmaSem sig)) 0 (by decide)) $$ Hlev
  iapply (wait_dma m c (23 : DmaSem sig) (by rfl) (K (c, .dma (23 : DmaSem sig))) (Orest c 0) _) $$ [HcR11 HO HM Ha23]
  · isplitr; · (iapply (inv_at m K (c, .dma (23 : DmaSem sig))) <;> iexact HR)
    isplitl [HcR11]; · iexact HcR11
    isplitl [HO]; · iexact HO
    isplitl [HM]; · iexact HM
    iexact Ha23
  iintro ⟨HO, Ha23, Hp⟩
  ihave HoY1 := (show Pd m c (23 : DmaSem sig) ⊢ (ow c (oB1 (py c)) fullShare (tQ m (px (py c))) : sProp 𝕄) from BI.Entails.refl _) $$ Hp
  ihave HM := (mayWait_rest (F := F) c (.dma (28 : DmaSem sig)) 0 (by decide)) $$ Hlev
  iapply (wait_dma m c (28 : DmaSem sig) (by rfl) (K (c, .dma (28 : DmaSem sig))) (Orest c 0) _) $$ [HcL4 HO HM Ha28]
  · isplitr; · (iapply (inv_at m K (c, .dma (28 : DmaSem sig))) <;> iexact HR)
    isplitl [HcL4]; · iexact HcL4
    isplitl [HO]; · iexact HO
    isplitl [HM]; · iexact HM
    iexact Ha28
  iintro ⟨HO, Ha28, Hp⟩
  ihave Hp' := (show Pd m c (28 : DmaSem sig) ⊢ (iprop(ow c (oB2 c) fullShare (tP m c) ∗ ow c (aPo c) fullShare.left (tP m c)) : sProp 𝕄) from BI.Entails.refl _) $$ Hp
  icases Hp' with ⟨Hob2, HaPoL⟩
  ihave HM := (mayWait_rest (F := F) c (.dma (29 : DmaSem sig)) 0 (by decide)) $$ Hlev
  iapply (wait_dma m c (29 : DmaSem sig) (by rfl) (K (c, .dma (29 : DmaSem sig))) (Orest c 0) _) $$ [HcL5 HO HM Ha29]
  · isplitr; · (iapply (inv_at m K (c, .dma (29 : DmaSem sig))) <;> iexact HR)
    isplitl [HcL5]; · iexact HcL5
    isplitl [HO]; · iexact HO
    isplitl [HM]; · iexact HM
    iexact Ha29
  iintro ⟨HO, Ha29, Hp⟩
  ihave Hp' := (show Pd m c (29 : DmaSem sig) ⊢ (iprop(ow c (oB3 c) fullShare (tQ m c) ∗ ow c (aQo c) fullShare.left (tQ m c)) : sProp 𝕄) from BI.Entails.refl _) $$ Hp
  icases Hp' with ⟨Hob3, HaQoL⟩
  ihave HM := (mayWait_rest (F := F) c (.dma (30 : DmaSem sig)) 0 (by decide)) $$ Hlev
  iapply (wait_dma m c (30 : DmaSem sig) (by rfl) (K (c, .dma (30 : DmaSem sig))) (Orest c 0) _) $$ [HcL6 HO HM Ha30]
  · isplitr; · (iapply (inv_at m K (c, .dma (30 : DmaSem sig))) <;> iexact HR)
    isplitl [HcL6]; · iexact HcL6
    isplitl [HO]; · iexact HO
    isplitl [HM]; · iexact HM
    iexact Ha30
  iintro ⟨HO, Ha30, Hp⟩
  ihave Hp' := (show Pd m c (30 : DmaSem sig) ⊢ (iprop(ow c (oB0 c) fullShare (tP m (py c)) ∗ ow c (aPf c) fullShare.left (tP m (py c))) : sProp 𝕄) from BI.Entails.refl _) $$ Hp
  icases Hp' with ⟨Hob0, HaPfL⟩
  rw [wp_ret]; imodintro
  iapply Hk
  isplitl [HO]; · (iexists _; iexact HO)
  isplitl [Ha22]; · iexact Ha22
  isplitl [HoX0]; · iexact HoX0
  isplitl [Ha11]; · iexact Ha11
  isplitl [HaQfR]; · iexact HaQfR
  isplitl [Ha23]; · iexact Ha23
  isplitl [HoY1]; · iexact HoY1
  isplitl [Ha28]; · iexact Ha28
  isplitl [Hob2]; · iexact Hob2
  isplitl [HaPoL]; · iexact HaPoL
  isplitl [Ha29]; · iexact Ha29
  isplitl [Hob3]; · iexact Hob3
  isplitl [HaQoL]; · iexact HaQoL
  isplitl [Ha30]; · iexact Ha30
  isplitl [Hob0]; · iexact Hob0
  iexact HaPfL

end Cert.KernelIdeal.Hand

end
-- ==== Proof.Body.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.Part1
import proofs.«900388_g7700000000000389_dist_rs_then_ag_i_m4096_n1024_v7x_i4_f32_1_alg».proof.Proof.Part2
import proofs.«900388_g7700000000000389_dist_rs_then_ag_i_m4096_n1024_v7x_i4_f32_1_alg».proof.Proof.Part3
import proofs.«900388_g7700000000000389_dist_rs_then_ag_i_m4096_n1024_v7x_i4_f32_1_alg».proof.Proof.Part4
import proofs.«900388_g7700000000000389_dist_rs_then_ag_i_m4096_n1024_v7x_i4_f32_1_alg».proof.Proof.Part5
import proofs.«900388_g7700000000000389_dist_rs_then_ag_i_m4096_n1024_v7x_i4_f32_1_alg».proof.Proof.Part6
import proofs.«900388_g7700000000000389_dist_rs_then_ag_i_m4096_n1024_v7x_i4_f32_1_alg».proof.Proof.Part7
import proofs.«900388_g7700000000000389_dist_rs_then_ag_i_m4096_n1024_v7x_i4_f32_1_alg».proof.Proof.Part8
import proofs.«900388_g7700000000000389_dist_rs_then_ag_i_m4096_n1024_v7x_i4_f32_1_alg».proof.Proof.Part9
import proofs.«900388_g7700000000000389_dist_rs_then_ag_i_m4096_n1024_v7x_i4_f32_1_alg».proof.Proof.Part10
import proofs.«900388_g7700000000000389_dist_rs_then_ag_i_m4096_n1024_v7x_i4_f32_1_alg».proof.Proof.Part11
import proofs.«900388_g7700000000000389_dist_rs_then_ag_i_m4096_n1024_v7x_i4_f32_1_alg».proof.Proof.Part12
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body of one device, from its starting holdings to its final ones -/

section Body
variable (c : Dev nD)

theorem scr_of_join (b : Ref sig .tc) :
    (iprop(∃ g : Buf (Elt F) ((Memref.whole b).view.loc (c : Thread nD τ)), (Memref.whole b).view.loc (c : Thread nD τ) ↦[(Memref.whole b).view.set]{fullShare} g) : sProp 𝕄)
      ⊢ iprop(∃ f : Buf (Elt F) ((c : Thread nD τ).loc b), ((c : Thread nD τ).loc b) ↦{fullShare} f) := by
  iintro ⟨%g, H⟩; iexists g; rw [whole_pts]; iexact H
theorem scr_of_rP2 (v : Vec F S512x1024 .f32) :
    (ow c rP2 fullShare v : sProp 𝕄) ⊢ iprop(∃ f : Buf (Elt F) ((c : Thread nD τ).loc cc0_scratch3), ((c : Thread nD τ).loc cc0_scratch3) ↦{fullShare} f) := by
  unfold ow owns; iintro ⟨%f, -, H⟩; iexists f; rw [whole_pts]; iexact H
theorem scr_of_rQ2 (v : Vec F S512x1024 .f32) :
    (ow c rQ2 fullShare v : sProp 𝕄) ⊢ iprop(∃ f : Buf (Elt F) ((c : Thread nD τ).loc cc0_scratch5), ((c : Thread nD τ).loc cc0_scratch5) ↦{fullShare} f) := by
  unfold ow owns; iintro ⟨%f, -, H⟩; iexists f; rw [whole_pts]; iexact H

theorem peerL0 : peer 0 c = px c := rfl
theorem peerL1 : peer 1 c = py c := rfl
theorem peerL2 : peer 2 c = px c := rfl
theorem peerL3 : peer 3 c = py c := rfl
theorem peerL4 : peer 4 c = py c := rfl
theorem peerL5 : peer 5 c = px c := rfl
theorem peerL6 : peer 6 c = py c := rfl
theorem peerL7 : peer 7 c = px c := rfl
theorem peerL8 : peer 8 c = px c := rfl
theorem peerL9 : peer 9 c = py c := rfl
theorem peerL10 : peer 10 c = px c := rfl
theorem peerL11 : peer 11 c = py c := rfl

set_option maxHeartbeats 8000000 in
set_option maxRecDepth 65536 in
theorem sound_body (K : Dev nD × SemLoc sig → ℕ) (W : Waits sig Unit) (Kt : PUnit → sProp 𝕄) :
    iprop((ghost m K c ∗ credR c 12 ∗ cred (tallyAt (barCell c) () 1) ∗ cred (tallyAt (barCell c) () 1) ∗ levAts L lv
        ∗ (((c : Thread nD τ).loc main_arg0) ↦{fullShare} X m c)
        ∗ (((c : Thread nD τ).loc main_v1) ↦{fullShare} m ((c : Thread nD τ).loc main_v1))
        ∗ scr c ∗ owes (c : Thread nD τ) (O₀ c) W)
      ∗ (iprop(Φ₁ m c ∗ ∃ W', owes (c : Thread nD τ) 0 W') -∗ Kt ⟨⟩))
      ⊢ wp frame (wpE (defs₀ (F := F)) 𝒱₀ c none) Set.univ (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8) Kt := by
  unfold ghost poss payToks scr
  rw [show (credR (F := F) c 12) = iprop((((((((((((((emp : sProp 𝕄) ∗ cred (tallyAt (dCell c (rIx 11)) () N)) ∗ cred (tallyAt (dCell c (rIx 10)) () N)) ∗ cred (tallyAt (dCell c (rIx 9)) () N)) ∗ cred (tallyAt (dCell c (rIx 8)) () N)) ∗ cred (tallyAt (dCell c (rIx 7)) () N)) ∗ cred (tallyAt (dCell c (rIx 6)) () N)) ∗ cred (tallyAt (dCell c (rIx 5)) () N)) ∗ cred (tallyAt (dCell c (rIx 4)) () N)) ∗ cred (tallyAt (dCell c (rIx 3)) () N)) ∗ cred (tallyAt (dCell c (rIx 2)) () N)) ∗ cred (tallyAt (dCell c (rIx 1)) () N)) ∗ cred (tallyAt (dCell c (rIx 0)) () N))) from rfl]
  simp only [bigSep_semLoc, bigSep_fin12, bigSep_fin8, peerL0 c, peerL1 c, peerL2 c, peerL3 c, peerL4 c, peerL5 c, peerL6 c, peerL7 c, peerL8 c, peerL9 c, peerL10 c, peerL11 c]
  iintro ⟨⟨⟨#HR, ⟨HaB, Ha0, Ha1, Ha2, Ha3, Ha4, Ha5, Ha6, Ha7, Ha8, Ha9, Ha10, Ha11, Ha12, Ha13, Ha14, Ha15, Ha16, Ha17, Ha18, Ha19, Ha20, Ha21, Ha22, Ha23, Ha24, Ha25, Ha26, Ha27, Ha28, Ha29, Ha30, Ha31⟩, HtBx, HtBy, ⟨HtR0, HtR1, HtR2, HtR3, HtR4, HtR5, HtR6, HtR7, HtR8, HtR9, HtR10, HtR11⟩, ⟨HtS0, HtS1, HtS2, HtS3, HtS4, HtS5, HtS6, HtS7, HtS8, HtS9, HtS10, HtS11⟩, ⟨HtL0, HtL1, HtL2, HtL3, HtL4, HtL5, HtL6, HtL7⟩⟩, ⟨⟨⟨⟨⟨⟨⟨⟨⟨⟨⟨⟨-, HcR11⟩, HcR10⟩, HcR9⟩, HcR8⟩, HcR7⟩, HcR6⟩, HcR5⟩, HcR4⟩, HcR3⟩, HcR2⟩, HcR1⟩, HcR0⟩, HcB1, HcB2, #Hlev, Hx, Hout, ⟨Hs0, Hs1, Hs2, Hs3, Hs4, Hs5⟩, HO⟩, Hk⟩
  -- the buffers cut into their blocks
  ihave Hx' := (x_split m c) $$ Hx
  icases Hx' with ⟨HxK, Hx0, Hx1, Hx2, Hx3, Hx4, Hx5, Hx6, Hx7⟩
  ihave Ho' := (out_split c _) $$ Hout
  icases Ho' with ⟨Hob2, Hob3, Hob0, Hob1, Hox2, Hox0, Hoy3, Hoy1⟩
  icases Hs0 with ⟨%fHs0, Hs0⟩
  ihave Hs0' := ((Entails.of_eq (whole_pts c cc0_scratch0 fullShare fHs0)).trans (dE_split2 c aP (k0_off1_inb c) (k0_off5_inb c) (pair15 c) (col1 c) (col5 c) fHs0)) $$ Hs0
  icases Hs0' with ⟨HaPf, HaPo⟩
  icases Hs1 with ⟨%fHs1, Hs1⟩
  ihave Hs1' := ((Entails.of_eq (whole_pts c cc0_scratch1 fullShare fHs1)).trans (dE_split2 c aQ (k0_off3_inb c) (k0_off7_inb c) (pair37 c) (col3 c) (col7 c) fHs1)) $$ Hs1
  icases Hs1' with ⟨HaQf, HaQo⟩
  icases Hs2 with ⟨%fHs2, Hs2⟩
  ihave Hs2' := ((Entails.of_eq (whole_pts c cc0_scratch2 fullShare fHs2)).trans (dE_split2 c rP1 (k0_off1_inb c) (k0_off5_inb c) (pair15 c) (col1 c) (col5 c) fHs2)) $$ Hs2
  icases Hs2' with ⟨HrPf, HrPo⟩
  icases Hs4 with ⟨%fHs4, Hs4⟩
  ihave Hs4' := ((Entails.of_eq (whole_pts c cc0_scratch4 fullShare fHs4)).trans (dE_split2 c rQ1 (k0_off3_inb c) (k0_off7_inb c) (pair37 c) (col3 c) (col7 c) fHs4)) $$ Hs4
  icases Hs4' with ⟨HrQf, HrQo⟩
  icases Hs3 with ⟨%fHs3, Hs3⟩
  ihave HrP2 := (show (((c : Thread nD τ).loc cc0_scratch3) ↦{fullShare} fHs3 : sProp 𝕄) ⊢ dE c rP2 from by unfold dE; rw [whole_pts c cc0_scratch3 fullShare fHs3]; iintro H; iexists fHs3; iexact H) $$ Hs3
  icases Hs5 with ⟨%fHs5, Hs5⟩
  ihave HrQ2 := (show (((c : Thread nD τ).loc cc0_scratch5) ↦{fullShare} fHs5 : sProp 𝕄) ⊢ dE c rQ2 from by unfold dE; rw [whole_pts c cc0_scratch5 fullShare fHs5]; iintro H; iexists fHs5; iexact H) $$ Hs5
  -- the program, part by part
  simp only [cc0_body_eq_skeleton]; unfold cc0_body_skel
  -- part 1
  rw [wp_bind]
  iapply (part1_spec m c K  _)
  isplitr; · iexact HR
  isplitr; · iexact Hlev
  isplitl [HrPf]; · iexact HrPf
  isplitl [HrPo]; · iexact HrPo
  isplitl [HrQ2]; · iexact HrQ2
  isplitl [Hox2]; · iexact Hox2
  isplitl [Hox0]; · iexact Hox0
  isplitl [HtBx]; · iexact HtBx
  isplitl [HO]; · (iexists _; iexact HO)
  isplitl [HrQf]; · iexact HrQf
  isplitl [HrQo]; · iexact HrQo
  isplitl [HrP2]; · iexact HrP2
  isplitl [Hoy3]; · iexact Hoy3
  isplitl [Hoy1]; · iexact Hoy1
  isplitl [HtBy]; · iexact HtBy
  isplitl [HcB1]; · iexact HcB1
  isplitl [HcB2]; · iexact HcB2
  isplitl [HaB]; · iexact HaB
  iintro %v4 %v9 %v10 %v18 %v20 %v21 %v25 %v26 %c19 ⟨HO, HaB, DxRPf, DxRPo, DxRQ2, DxO2, DxO0, DyRQf, DyRQo, DyRP2, DyO3, DyO1⟩
  icases HO with ⟨%W1, HO⟩
  try dsimp only
  -- part 2
  rw [wp_bind]
  iapply (part2_spec m c K v4 v9 v10 v18 v20 v21 v25 v26 c19 _)
  isplitr; · iexact HR
  isplitr; · iexact Hlev
  isplitl [Hx0]; · iexact Hx0
  isplitl [DxRPf]; · iexact DxRPf
  isplitl [HtS0]; · iexact HtS0
  isplitl [HtR0]; · iexact HtR0
  isplitl [HO]; · (iexists _; iexact HO)
  isplitl [Hx1]; · iexact Hx1
  isplitl [DyRQf]; · iexact DyRQf
  isplitl [HtS1]; · iexact HtS1
  isplitl [HtR1]; · iexact HtR1
  isplitl [Hx2]; · iexact Hx2
  isplitl [DxRPo]; · iexact DxRPo
  isplitl [HtS2]; · iexact HtS2
  isplitl [HtR2]; · iexact HtR2
  iintro %v30 %v31 ⟨HO, HcS0, HcS1, HcS2⟩
  icases HO with ⟨%W2, HO⟩
  try dsimp only
  -- part 3
  rw [wp_bind]
  iapply (part3_spec m c K v10 _)
  isplitr; · iexact HR
  isplitr; · iexact Hlev
  isplitl [Hx3]; · iexact Hx3
  isplitl [DyRQo]; · iexact DyRQo
  isplitl [HtS3]; · iexact HtS3
  isplitl [HtR3]; · iexact HtR3
  isplitl [HO]; · (iexists _; iexact HO)
  isplitl [Hx4]; · iexact Hx4
  isplitl [HaPf]; · iexact HaPf
  isplitl [HtL0]; · iexact HtL0
  isplitl [Hx5]; · iexact Hx5
  isplitl [HaQf]; · iexact HaQf
  isplitl [HtL1]; · iexact HtL1
  isplitl [Hx6]; · iexact Hx6
  isplitl [HaPo]; · iexact HaPo
  isplitl [HtL2]; · iexact HtL2
  isplitl [Hx7]; · iexact Hx7
  isplitl [HaQo]; · iexact HaQo
  isplitl [HtL3]; · iexact HtL3
  isplitl [Ha24]; · iexact Ha24
  iintro ⟨HO, HcS3, HcL1, HcL2, HcL3, Ha24, HaPf⟩
  icases HO with ⟨%W3, HO⟩
  try dsimp only
  -- part 4
  rw [wp_bind]
  iapply (part4_spec m c K v9 v10 v20 _)
  isplitr; · iexact HR
  isplitr; · iexact Hlev
  isplitl [HcL1]; · iexact HcL1
  isplitl [HO]; · (iexists _; iexact HO)
  isplitl [Ha25]; · iexact Ha25
  isplitl [HcS0]; · iexact HcS0
  isplitl [Ha0]; · iexact Ha0
  isplitl [HcR0]; · iexact HcR0
  isplitl [Ha12]; · iexact Ha12
  isplitl [HcS1]; · iexact HcS1
  isplitl [Ha1]; · iexact Ha1
  isplitl [HcR1]; · iexact HcR1
  isplitl [Ha13]; · iexact Ha13
  isplitl [HaPf]; · iexact HaPf
  iintro ⟨HO, Ha25, HaQf, Ha0, Ha12, HrPf, Ha1, Ha13, HrQf, HaPf⟩
  icases HO with ⟨%W4, HO⟩
  try dsimp only
  -- part 5
  rw [wp_bind]
  iapply (part5_spec m c K v9 v10 v30 _)
  isplitr; · iexact HR
  isplitr; · iexact Hlev
  isplitl [HaPf]; · iexact HaPf
  isplitl [HaQf]; · iexact HaQf
  isplitl [HrQf]; · iexact HrQf
  isplitl [DyRP2]; · iexact DyRP2
  isplitl [HtS4]; · iexact HtS4
  isplitl [HtR4]; · iexact HtR4
  isplitl [HO]; · (iexists _; iexact HO)
  isplitl [DxRQ2]; · iexact DxRQ2
  isplitl [HtS5]; · iexact HtS5
  isplitl [HtR5]; · iexact HtR5
  isplitl [HcL2]; · iexact HcL2
  isplitl [Ha26]; · iexact Ha26
  isplitl [HcL3]; · iexact HcL3
  isplitl [Ha27]; · iexact Ha27
  iintro ⟨HrQf, HO, HcS4, HcS5, Ha26, HaPo, Ha27, HaQo⟩
  icases HO with ⟨%W5, HO⟩
  try dsimp only
  -- part 6
  rw [wp_bind]
  iapply (part6_spec m c K v9 v10 v21 v31 _)
  isplitr; · iexact HR
  isplitr; · iexact Hlev
  isplitl [HcS2]; · iexact HcS2
  isplitl [HO]; · (iexists _; iexact HO)
  isplitl [Ha2]; · iexact Ha2
  isplitl [HcR2]; · iexact HcR2
  isplitl [Ha14]; · iexact Ha14
  isplitl [HcS3]; · iexact HcS3
  isplitl [Ha3]; · iexact Ha3
  isplitl [HcR3]; · iexact HcR3
  isplitl [Ha15]; · iexact Ha15
  isplitl [HaPo]; · iexact HaPo
  isplitl [HaQo]; · iexact HaQo
  iintro ⟨HO, Ha2, Ha14, HrPo, Ha3, Ha15, HrQo, HaPo, HaQo⟩
  icases HO with ⟨%W6, HO⟩
  try dsimp only
  -- part 7
  rw [wp_bind]
  iapply (part7_spec m c K v9 v10 v21 v31 _)
  isplitr; · iexact HR
  isplitr; · iexact Hlev
  isplitl [HrQo]; · iexact HrQo
  isplitl [HaQo]; · iexact HaQo
  isplitl [HcS4]; · iexact HcS4
  isplitl [HO]; · (iexists _; iexact HO)
  isplitl [Ha4]; · iexact Ha4
  isplitl [HcR4]; · iexact HcR4
  isplitl [Ha16]; · iexact Ha16
  isplitl [HcS5]; · iexact HcS5
  isplitl [Ha5]; · iexact Ha5
  isplitl [HcR5]; · iexact HcR5
  isplitl [Ha17]; · iexact Ha17
  isplitl [HaPo]; · iexact HaPo
  iintro ⟨HrQo, HaQo, HO, Ha4, Ha16, HrP2, HyaPo, Ha5, Ha17, HrQ2, HxaQo, HaPo⟩
  icases HO with ⟨%W7, HO⟩
  try dsimp only
  -- part 8
  rw [wp_bind]
  iapply (part8_spec m c K v9 v10 v31 _)
  isplitr; · iexact HR
  isplitr; · iexact Hlev
  isplitl [HaQo]; · iexact HaQo
  isplitl [HrQ2]; · iexact HrQ2
  isplitl [HaPo]; · iexact HaPo
  isplitl [Hob2]; · iexact Hob2
  isplitl [HtL4]; · iexact HtL4
  isplitl [Hob3]; · iexact Hob3
  isplitl [HtL5]; · iexact HtL5
  isplitl [HyaPo]; · iexact HyaPo
  isplitl [HtS6]; · iexact HtS6
  isplitl [HtR6]; · iexact HtR6
  isplitl [HO]; · (iexists _; iexact HO)
  isplitl [HxaQo]; · iexact HxaQo
  isplitl [HtS7]; · iexact HtS7
  isplitl [HtR7]; · iexact HtR7
  iintro ⟨HrQ2, HaPoRR, HaQoRR, HcL4, HcL5, HO, HcS6, HcS7⟩
  icases HO with ⟨%W8, HO⟩
  try dsimp only
  -- part 9
  rw [wp_bind]
  iapply (part9_spec m c K v9 v10 _)
  isplitr; · iexact HR
  isplitr; · iexact Hlev
  isplitl [HaPoRR]; · iexact HaPoRR
  isplitl [DxO2]; · iexact DxO2
  isplitl [HtS8]; · iexact HtS8
  isplitl [HtR8]; · iexact HtR8
  isplitl [HO]; · (iexists _; iexact HO)
  isplitl [HaQoRR]; · iexact HaQoRR
  isplitl [DyO3]; · iexact DyO3
  isplitl [HtS9]; · iexact HtS9
  isplitl [HtR9]; · iexact HtR9
  isplitl [HcS6]; · iexact HcS6
  isplitl [Ha6]; · iexact Ha6
  isplitl [HcR6]; · iexact HcR6
  isplitl [Ha18]; · iexact Ha18
  iintro ⟨HO, HcS8, HcS9, Ha6, HaPoRL, Ha18, HaPf⟩
  icases HO with ⟨%W9, HO⟩
  try dsimp only
  -- part 10
  rw [wp_bind]
  iapply (part10_spec m c K v9 v10 _)
  isplitr; · iexact HR
  isplitr; · iexact Hlev
  isplitl [HcS7]; · iexact HcS7
  isplitl [HO]; · (iexists _; iexact HO)
  isplitl [Ha7]; · iexact Ha7
  isplitl [HcR7]; · iexact HcR7
  isplitl [Ha19]; · iexact Ha19
  isplitl [HaPf]; · iexact HaPf
  isplitl [Hob0]; · iexact Hob0
  isplitl [HtL6]; · iexact HtL6
  isplitl [Hob1]; · iexact Hob1
  isplitl [HtL7]; · iexact HtL7
  isplitl [DxO0]; · iexact DxO0
  isplitl [HtS10]; · iexact HtS10
  isplitl [HtR10]; · iexact HtR10
  iintro ⟨HO, Ha7, HaQoRL, Ha19, HaQfR, HcL6, HcL7, HcS10⟩
  icases HO with ⟨%W10, HO⟩
  try dsimp only
  -- part 11
  rw [wp_bind]
  iapply (part11_spec m c K v9 v10 _)
  isplitr; · iexact HR
  isplitr; · iexact Hlev
  isplitl [HaQfR]; · iexact HaQfR
  isplitl [DyO1]; · iexact DyO1
  isplitl [HtS11]; · iexact HtS11
  isplitl [HtR11]; · iexact HtR11
  isplitl [HO]; · (iexists _; iexact HO)
  isplitl [HcS8]; · iexact HcS8
  isplitl [Ha8]; · iexact Ha8
  isplitl [HcR8]; · iexact HcR8
  isplitl [Ha20]; · iexact Ha20
  isplitl [HcS9]; · iexact HcS9
  isplitl [Ha9]; · iexact Ha9
  isplitl [HcR9]; · iexact HcR9
  isplitl [Ha21]; · iexact Ha21
  isplitl [HcS10]; · iexact HcS10
  isplitl [Ha10]; · iexact Ha10
  iintro %w ⟨HO, HcS11, Ha8, HaPoRR, Ha20, HoX2, Ha9, HaQoRR, Ha21, HoY3, Ha10, HaPfR⟩
  icases HO with ⟨%W11, HO⟩
  try dsimp only
  -- part 12
  rw [wp_bind]
  iapply (part12_spec m c K v9 v10 w _)
  isplitr; · iexact HR
  isplitr; · iexact Hlev
  isplitl [HcR10]; · iexact HcR10
  isplitl [HO]; · (iexists _; iexact HO)
  isplitl [Ha22]; · iexact Ha22
  isplitl [HcS11]; · iexact HcS11
  isplitl [Ha11]; · iexact Ha11
  isplitl [HcR11]; · iexact HcR11
  isplitl [Ha23]; · iexact Ha23
  isplitl [HcL4]; · iexact HcL4
  isplitl [Ha28]; · iexact Ha28
  isplitl [HcL5]; · iexact HcL5
  isplitl [Ha29]; · iexact Ha29
  isplitl [HcL6]; · iexact HcL6
  isplitl [Ha30]; · iexact Ha30
  iintro ⟨HO, Ha22, HoX0, Ha11, HaQfR, Ha23, HoY1, Ha28, Hob2, HaPoL, Ha29, Hob3, HaQoL, Ha30, Hob0, HaPfL⟩
  icases HO with ⟨%W12, HO⟩
  try dsimp only
  -- the tail of the body
  simp only [Prog.lift, Prog.bind_op, Prog.bind_ret, Prog.pure_eq_ret]
  ihave HM := (mayWait_rest (F := F) c (.dma (31 : DmaSem sig)) 0 (by decide)) $$ Hlev
  iapply (wait_dma m c (31 : DmaSem sig) (by rfl) (K (c, .dma (31 : DmaSem sig))) (Orest c 0) _) $$ [HcL7 HO HM Ha31]
  · isplitr; · (iapply (inv_at m K (c, .dma (31 : DmaSem sig))) <;> iexact HR)
    isplitl [HcL7]; · iexact HcL7
    isplitl [HO]; · iexact HO
    isplitl [HM]; · iexact HM
    iexact Ha31
  iintro ⟨HO, Ha31, Hp⟩
  ihave Hp' := (show Pd m c (31 : DmaSem sig) ⊢ (iprop(ow c (oB1 c) fullShare (tQ m (px c)) ∗ ow c (aQf c) fullShare.left (tQ m (px c))) : sProp 𝕄) from BI.Entails.refl _) $$ Hp
  icases Hp' with ⟨Hob1, HaQfL⟩
  -- every DMA cell's one round is consumed: the cells close, their counters at zero
  imod (close_cell m (dCell c (0 : DmaSem sig)) (K (c, .dma (0 : DmaSem sig)))) $$ [Ha0] with Hz0
  · isplitr; · (iapply (inv_at m K (c, .dma (0 : DmaSem sig))) <;> iexact HR)
    iexact Ha0
  imod (close_cell m (dCell c (1 : DmaSem sig)) (K (c, .dma (1 : DmaSem sig)))) $$ [Ha1] with Hz1
  · isplitr; · (iapply (inv_at m K (c, .dma (1 : DmaSem sig))) <;> iexact HR)
    iexact Ha1
  imod (close_cell m (dCell c (2 : DmaSem sig)) (K (c, .dma (2 : DmaSem sig)))) $$ [Ha2] with Hz2
  · isplitr; · (iapply (inv_at m K (c, .dma (2 : DmaSem sig))) <;> iexact HR)
    iexact Ha2
  imod (close_cell m (dCell c (3 : DmaSem sig)) (K (c, .dma (3 : DmaSem sig)))) $$ [Ha3] with Hz3
  · isplitr; · (iapply (inv_at m K (c, .dma (3 : DmaSem sig))) <;> iexact HR)
    iexact Ha3
  imod (close_cell m (dCell c (4 : DmaSem sig)) (K (c, .dma (4 : DmaSem sig)))) $$ [Ha4] with Hz4
  · isplitr; · (iapply (inv_at m K (c, .dma (4 : DmaSem sig))) <;> iexact HR)
    iexact Ha4
  imod (close_cell m (dCell c (5 : DmaSem sig)) (K (c, .dma (5 : DmaSem sig)))) $$ [Ha5] with Hz5
  · isplitr; · (iapply (inv_at m K (c, .dma (5 : DmaSem sig))) <;> iexact HR)
    iexact Ha5
  imod (close_cell m (dCell c (6 : DmaSem sig)) (K (c, .dma (6 : DmaSem sig)))) $$ [Ha6] with Hz6
  · isplitr; · (iapply (inv_at m K (c, .dma (6 : DmaSem sig))) <;> iexact HR)
    iexact Ha6
  imod (close_cell m (dCell c (7 : DmaSem sig)) (K (c, .dma (7 : DmaSem sig)))) $$ [Ha7] with Hz7
  · isplitr; · (iapply (inv_at m K (c, .dma (7 : DmaSem sig))) <;> iexact HR)
    iexact Ha7
  imod (close_cell m (dCell c (8 : DmaSem sig)) (K (c, .dma (8 : DmaSem sig)))) $$ [Ha8] with Hz8
  · isplitr; · (iapply (inv_at m K (c, .dma (8 : DmaSem sig))) <;> iexact HR)
    iexact Ha8
  imod (close_cell m (dCell c (9 : DmaSem sig)) (K (c, .dma (9 : DmaSem sig)))) $$ [Ha9] with Hz9
  · isplitr; · (iapply (inv_at m K (c, .dma (9 : DmaSem sig))) <;> iexact HR)
    iexact Ha9
  imod (close_cell m (dCell c (10 : DmaSem sig)) (K (c, .dma (10 : DmaSem sig)))) $$ [Ha10] with Hz10
  · isplitr; · (iapply (inv_at m K (c, .dma (10 : DmaSem sig))) <;> iexact HR)
    iexact Ha10
  imod (close_cell m (dCell c (11 : DmaSem sig)) (K (c, .dma (11 : DmaSem sig)))) $$ [Ha11] with Hz11
  · isplitr; · (iapply (inv_at m K (c, .dma (11 : DmaSem sig))) <;> iexact HR)
    iexact Ha11
  imod (close_cell m (dCell c (12 : DmaSem sig)) (K (c, .dma (12 : DmaSem sig)))) $$ [Ha12] with Hz12
  · isplitr; · (iapply (inv_at m K (c, .dma (12 : DmaSem sig))) <;> iexact HR)
    iexact Ha12
  imod (close_cell m (dCell c (13 : DmaSem sig)) (K (c, .dma (13 : DmaSem sig)))) $$ [Ha13] with Hz13
  · isplitr; · (iapply (inv_at m K (c, .dma (13 : DmaSem sig))) <;> iexact HR)
    iexact Ha13
  imod (close_cell m (dCell c (14 : DmaSem sig)) (K (c, .dma (14 : DmaSem sig)))) $$ [Ha14] with Hz14
  · isplitr; · (iapply (inv_at m K (c, .dma (14 : DmaSem sig))) <;> iexact HR)
    iexact Ha14
  imod (close_cell m (dCell c (15 : DmaSem sig)) (K (c, .dma (15 : DmaSem sig)))) $$ [Ha15] with Hz15
  · isplitr; · (iapply (inv_at m K (c, .dma (15 : DmaSem sig))) <;> iexact HR)
    iexact Ha15
  imod (close_cell m (dCell c (16 : DmaSem sig)) (K (c, .dma (16 : DmaSem sig)))) $$ [Ha16] with Hz16
  · isplitr; · (iapply (inv_at m K (c, .dma (16 : DmaSem sig))) <;> iexact HR)
    iexact Ha16
  imod (close_cell m (dCell c (17 : DmaSem sig)) (K (c, .dma (17 : DmaSem sig)))) $$ [Ha17] with Hz17
  · isplitr; · (iapply (inv_at m K (c, .dma (17 : DmaSem sig))) <;> iexact HR)
    iexact Ha17
  imod (close_cell m (dCell c (18 : DmaSem sig)) (K (c, .dma (18 : DmaSem sig)))) $$ [Ha18] with Hz18
  · isplitr; · (iapply (inv_at m K (c, .dma (18 : DmaSem sig))) <;> iexact HR)
    iexact Ha18
  imod (close_cell m (dCell c (19 : DmaSem sig)) (K (c, .dma (19 : DmaSem sig)))) $$ [Ha19] with Hz19
  · isplitr; · (iapply (inv_at m K (c, .dma (19 : DmaSem sig))) <;> iexact HR)
    iexact Ha19
  imod (close_cell m (dCell c (20 : DmaSem sig)) (K (c, .dma (20 : DmaSem sig)))) $$ [Ha20] with Hz20
  · isplitr; · (iapply (inv_at m K (c, .dma (20 : DmaSem sig))) <;> iexact HR)
    iexact Ha20
  imod (close_cell m (dCell c (21 : DmaSem sig)) (K (c, .dma (21 : DmaSem sig)))) $$ [Ha21] with Hz21
  · isplitr; · (iapply (inv_at m K (c, .dma (21 : DmaSem sig))) <;> iexact HR)
    iexact Ha21
  imod (close_cell m (dCell c (22 : DmaSem sig)) (K (c, .dma (22 : DmaSem sig)))) $$ [Ha22] with Hz22
  · isplitr; · (iapply (inv_at m K (c, .dma (22 : DmaSem sig))) <;> iexact HR)
    iexact Ha22
  imod (close_cell m (dCell c (23 : DmaSem sig)) (K (c, .dma (23 : DmaSem sig)))) $$ [Ha23] with Hz23
  · isplitr; · (iapply (inv_at m K (c, .dma (23 : DmaSem sig))) <;> iexact HR)
    iexact Ha23
  imod (close_cell m (dCell c (24 : DmaSem sig)) (K (c, .dma (24 : DmaSem sig)))) $$ [Ha24] with Hz24
  · isplitr; · (iapply (inv_at m K (c, .dma (24 : DmaSem sig))) <;> iexact HR)
    iexact Ha24
  imod (close_cell m (dCell c (25 : DmaSem sig)) (K (c, .dma (25 : DmaSem sig)))) $$ [Ha25] with Hz25
  · isplitr; · (iapply (inv_at m K (c, .dma (25 : DmaSem sig))) <;> iexact HR)
    iexact Ha25
  imod (close_cell m (dCell c (26 : DmaSem sig)) (K (c, .dma (26 : DmaSem sig)))) $$ [Ha26] with Hz26
  · isplitr; · (iapply (inv_at m K (c, .dma (26 : DmaSem sig))) <;> iexact HR)
    iexact Ha26
  imod (close_cell m (dCell c (27 : DmaSem sig)) (K (c, .dma (27 : DmaSem sig)))) $$ [Ha27] with Hz27
  · isplitr; · (iapply (inv_at m K (c, .dma (27 : DmaSem sig))) <;> iexact HR)
    iexact Ha27
  imod (close_cell m (dCell c (28 : DmaSem sig)) (K (c, .dma (28 : DmaSem sig)))) $$ [Ha28] with Hz28
  · isplitr; · (iapply (inv_at m K (c, .dma (28 : DmaSem sig))) <;> iexact HR)
    iexact Ha28
  imod (close_cell m (dCell c (29 : DmaSem sig)) (K (c, .dma (29 : DmaSem sig)))) $$ [Ha29] with Hz29
  · isplitr; · (iapply (inv_at m K (c, .dma (29 : DmaSem sig))) <;> iexact HR)
    iexact Ha29
  imod (close_cell m (dCell c (30 : DmaSem sig)) (K (c, .dma (30 : DmaSem sig)))) $$ [Ha30] with Hz30
  · isplitr; · (iapply (inv_at m K (c, .dma (30 : DmaSem sig))) <;> iexact HR)
    iexact Ha30
  imod (close_cell m (dCell c (31 : DmaSem sig)) (K (c, .dma (31 : DmaSem sig)))) $$ [Ha31] with Hz31
  · isplitr; · (iapply (inv_at m K (c, .dma (31 : DmaSem sig))) <;> iexact HR)
    iexact Ha31
  -- the shares of the accumulators' blocks joined, the blocks joined into the buffers
  ihave HaPoR := (owns_share c (aPo c) (PosShare.mem_left_op_right fullShare.right) (tP m c)).2 $$ [HaPoRL HaPoRR]
  · isplitl [HaPoRL] <;> iassumption
  ihave HaPo := (owns_share c (aPo c) (PosShare.mem_left_op_right fullShare) (tP m c)).2 $$ [HaPoL HaPoR]
  · isplitl [HaPoL] <;> iassumption
  ihave HaQoR := (owns_share c (aQo c) (PosShare.mem_left_op_right fullShare.right) (tQ m c)).2 $$ [HaQoRL HaQoRR]
  · isplitl [HaQoRL] <;> iassumption
  ihave HaQo := (owns_share c (aQo c) (PosShare.mem_left_op_right fullShare) (tQ m c)).2 $$ [HaQoL HaQoR]
  · isplitl [HaQoL] <;> iassumption
  ihave HaPf := (owns_share c (aPf c) (PosShare.mem_left_op_right fullShare) (tP m (py c))).2 $$ [HaPfL HaPfR]
  · isplitl [HaPfL] <;> iassumption
  ihave HaQf := (owns_share c (aQf c) (PosShare.mem_left_op_right fullShare) (tQ m (px c))).2 $$ [HaQfL HaQfR]
  · isplitl [HaQfL] <;> iassumption
  ihave Hs0 := ((ow_join2 c aP (k0_off1_inb c) (k0_off5_inb c) (pair15 c) (col1 c) (col5 c) _ _).trans (scr_of_join c cc0_scratch0)) $$ [HaPf HaPo]
  · isplitl [HaPf] <;> iassumption
  ihave Hs1 := ((ow_join2 c aQ (k0_off3_inb c) (k0_off7_inb c) (pair37 c) (col3 c) (col7 c) _ _).trans (scr_of_join c cc0_scratch1)) $$ [HaQf HaQo]
  · isplitl [HaQf] <;> iassumption
  ihave Hs2 := ((ow_join2 c rP1 (k0_off1_inb c) (k0_off5_inb c) (pair15 c) (col1 c) (col5 c) _ _).trans (scr_of_join c cc0_scratch2)) $$ [HrPf HrPo]
  · isplitl [HrPf] <;> iassumption
  ihave Hs4 := ((ow_join2 c rQ1 (k0_off3_inb c) (k0_off7_inb c) (pair37 c) (col3 c) (col7 c) _ _).trans (scr_of_join c cc0_scratch4)) $$ [HrQf HrQo]
  · isplitl [HrQf] <;> iassumption
  ihave Hs3 := (scr_of_rP2 c _) $$ HrP2
  ihave Hs5 := (scr_of_rQ2 c _) $$ HrQ2
  rw [wp_ret]; imodintro
  iapply Hk
  isplitr [HO]
  · unfold Φ₁ outs scr
    rw [bigSep_dma]
    isplitl [HxK]; · iexact HxK
    isplitl [Hob2 Hob3 Hob0 Hob1 HoX2 HoY3 HoX0 HoY1]
    · isplitl [Hob2]; · iexact Hob2
      isplitl [Hob3]; · iexact Hob3
      isplitl [Hob0]; · iexact Hob0
      isplitl [Hob1]; · iexact Hob1
      isplitl [HoX2]; · iexact HoX2
      isplitl [HoY3]; · iexact HoY3
      isplitl [HoX0]; · iexact HoX0
      iexact HoY1
    isplitl [Hz0 Hz1 Hz2 Hz3 Hz4 Hz5 Hz6 Hz7 Hz8 Hz9 Hz10 Hz11 Hz12 Hz13 Hz14 Hz15 Hz16 Hz17 Hz18 Hz19 Hz20 Hz21 Hz22 Hz23 Hz24 Hz25 Hz26 Hz27 Hz28 Hz29 Hz30 Hz31]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      isplitl [Hz10]; · iexact Hz10
      isplitl [Hz11]; · iexact Hz11
      isplitl [Hz12]; · iexact Hz12
      isplitl [Hz13]; · iexact Hz13
      isplitl [Hz14]; · iexact Hz14
      isplitl [Hz15]; · iexact Hz15
      isplitl [Hz16]; · iexact Hz16
      isplitl [Hz17]; · iexact Hz17
      isplitl [Hz18]; · iexact Hz18
      isplitl [Hz19]; · iexact Hz19
      isplitl [Hz20]; · iexact Hz20
      isplitl [Hz21]; · iexact Hz21
      isplitl [Hz22]; · iexact Hz22
      isplitl [Hz23]; · iexact Hz23
      isplitl [Hz24]; · iexact Hz24
      isplitl [Hz25]; · iexact Hz25
      isplitl [Hz26]; · iexact Hz26
      isplitl [Hz27]; · iexact Hz27
      isplitl [Hz28]; · iexact Hz28
      isplitl [Hz29]; · iexact Hz29
      isplitl [Hz30]; · iexact Hz30
      iexact Hz31
    isplitl [Hs0]; · iexact Hs0
    isplitl [Hs1]; · iexact Hs1
    isplitl [Hs2]; · iexact Hs2
    isplitl [Hs3]; · iexact Hs3
    isplitl [Hs4]; · iexact Hs4
    iexact Hs5
  · iexists _; iexact HO

end Body

end Cert.KernelIdeal.Hand

end
-- ==== Proof.Launch.lean ====
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.Body
import Idealize.ShloMosaic.Lib.Pipeline.Launch
import Idealize.ShloMosaic.Lib.Pipeline.Kit
import Idealize.ShloMosaic.Lib.Pipeline.Value
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

set_option maxRecDepth 8000 in
theorem body_obligation (c : Dev nD) : Pipeline.BodyObligationLoose (dats (F := F) m 0 c) (defs₀ (F := F)) 𝒱₀ () Set.univ := fun t => by
  rw [fin_N0 t]
  simp only [Finset.univ_eq_empty, bigSep_empty]
  show iprop(Φ₀ m c ∗ (dats (F := F) m 0 c).owesAt () (t0_0 : Fin cfg0.N).castSucc ∗ emp)
    ⊢ wp frame (wpE (defs₀ (F := F)) 𝒱₀ c none) Set.univ (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8)
        (fun _ => iprop(Φ₁ m c ∗ (dats (F := F) m 0 c).owesAt () (t0_0 : Fin cfg0.N).succ ∗ emp))
  unfold Φ₀ start Dat.owesAt Pipeline.owesWithin
  iintro ⟨⟨⟨⟨%K, Hg⟩, HcR, Hc1, Hc2, Hlev, Hx, Hout⟩, Hscr⟩, ⟨%W, %hW, HO⟩, -⟩
  rw [show (dats (F := F) m 0 c).owed (t0_0 : Fin cfg0.N).castSucc = O₀ c from rfl]
  iapply (sound_body m c K W _)
  isplitl [Hg HcR Hc1 Hc2 Hlev Hx Hout Hscr HO]
  · isplitl [Hg]; · iexact Hg
    isplitl [HcR]; · iexact HcR
    isplitl [Hc1]; · iexact Hc1
    isplitl [Hc2]; · iexact Hc2
    isplitl [Hlev]; · iexact Hlev
    isplitl [Hx]; · iexact Hx
    isplitl [Hout]; · iexact Hout
    isplitl [Hscr]; · iexact Hscr
    iexact HO
  · iintro ⟨HΦ, ⟨%W', HO⟩⟩
    isplitl [HΦ]; · iexact HΦ
    isplitl [HO]
    · rw [show (dats (F := F) m 0 c).owed (t0_0 : Fin cfg0.N).succ = 0 from rfl]
      iexists W'
      isplitr; · (ipureintro; exact fun _ _ => Or.inl trivial)
      iexact HO
    · iempintro

/-! ## The launch -/

abbrev osem : DmaSem sig → SemLoc sig := fun k => .dma k
theorem ownSemFacts : Pipeline.OwnSemFacts cfg0.spec osem := by decide

theorem share_eq (c : Dev nD) (w : Fin cfg0.W) : (dats (F := F) m 0 c).share w = fullShare := w.elim0

theorem kcell_injective : Function.Injective (kcell : Dev nD × SemLoc sig → GSem nD τ sig) := by
  rintro ⟨c, s⟩ ⟨c', s'⟩ h
  have h1 : c = c' := congrArg (fun g : GSem nD τ sig => g.1.1) h
  have h2 : s = s' := congrArg Prod.snd h
  subst h1; subst h2; rfl
def ringCells : Finset (GSem nD τ sig) := Finset.univ.map ⟨kcell, kcell_injective⟩

/-- The DMA cells, grouped: receive, send, local. -/
abbrev dIx : Fin 12 ⊕ (Fin 12 ⊕ Fin 8) → DmaSem sig
  | .inl k => rIx k | .inr (.inl k) => sIx k | .inr (.inr k) => lIx k
theorem dIx_injective : Function.Injective dIx := by decide

/-- A device's own cells' duty tokens as minted: its barrier cell's two, one per DMA cell. -/
abbrev tokOf (cj : Dev nD × (Bool ⊕ (Fin 12 ⊕ (Fin 12 ⊕ Fin 8)))) : GSem nD τ sig × ℕ × Bool := match cj.2 with
  | .inl d => (barCell cj.1, 0, d) | .inr k => (dCell cj.1 (dIx k), 0, false)
theorem tokOf_injective : Function.Injective (tokOf : Dev nD × (Bool ⊕ (Fin 12 ⊕ (Fin 12 ⊕ Fin 8))) → GSem nD τ sig × ℕ × Bool) := by
  rintro ⟨c, j⟩ ⟨c', j'⟩ h
  have h1 : c = c' := by
    have := congrArg (fun x : GSem nD τ sig × ℕ × Bool => x.1.1.1) h
    cases j <;> cases j' <;> exact this
  subst h1
  cases j with
  | inl d => cases j' with
    | inl d' => have := congrArg (fun x : GSem nD τ sig × ℕ × Bool => x.2.2) h; exact congrArg (fun d => (c, Sum.inl d)) this
    | inr k' => exact absurd (congrArg (fun x : GSem nD τ sig × ℕ × Bool => x.1.2) h) (fun h' => by cases h')
  | inr k => cases j' with
    | inl d' => exact absurd (congrArg (fun x : GSem nD τ sig × ℕ × Bool => x.1.2) h) (fun h' => by cases h')
    | inr k' =>
      have h2 : (SemLoc.dma (dIx k) : SemLoc sig) = .dma (dIx k') := congrArg (fun x : GSem nD τ sig × ℕ × Bool => x.1.2) h
      have h3 : dIx k = dIx k' := SemLoc.dma.inj h2
      have := dIx_injective h3
      subst this; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ dutyTok ER (barCell c) 0 true)
    ∗ (bigSep Finset.univ fun k : Fin 12 => dutyTok ER (dCell c (rIx k)) 0 false)
    ∗ (bigSep Finset.univ fun k : Fin 12 => dutyTok ER (dCell c (sIx k)) 0 false)
    ∗ (bigSep Finset.univ fun k : Fin 8 => dutyTok ER (dCell c (lIx k)) 0 false))

/-- What the launch element deals device `c`. -/
def G (c : Dev nD) : sProp 𝕄 :=
  iprop((bigSep Finset.univ fun sm : SemLoc sig => roundState ER (Rd m) (kcell (c, sm)) 0)
    ∗ (bigSep Finset.univ fun sm : SemLoc sig => iprop(atPos ER (kcell (c, sm)) 0 ∅ 0 ∗ reached ER (kcell (c, sm)) 0)) ∗ toks c)

/-- What the global step makes of it. -/
def G' (c : Dev nD) : sProp 𝕄 := iprop(∃ K, ghost m K c)

theorem bigSep_bool (Φ : Bool → sProp 𝕄) : bigSep Finset.univ Φ = iprop(Φ false ∗ Φ true) :=
  bigSep_univ_eq_bigSepL [false, true] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun sm : SemLoc sig => Φ (kcell (c, sm)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_bool, bigSep_univ_sum, bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun k : DmaSem sig => semVal (dCell c k) 0 := rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun sm : SemLoc sig => semVal (kcell (c, sm)) 0 : sProp 𝕄) := by
  rw [ownSems0_eq, unscopedSems0_eq, bigSep_semLoc, bigSep_dma]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm : SemLoc sig => iprop(∃ κ : ℕ, cellInv ER (Rd m) κ (kcell (c, sm))))
          ∗ (bigSep Finset.univ fun sm : SemLoc sig => iprop(atPos ER (kcell (c, sm)) 0 ∅ 0 ∗ reached ER (kcell (c, sm)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun sm : SemLoc sig => semVal (kcell (c, sm)) 0) ∗ bigSep Finset.univ fun sm : SemLoc sig => roundState ER (Rd m) (kcell (c, sm)) 0)
      ⊢ (|={Set.univ}=> bigSep Finset.univ fun sm : SemLoc sig => iprop(∃ κ : ℕ, cellInv ER (Rd m) κ (kcell (c, sm))) : sProp 𝕄) from by
        rw [← bigSep_sep']
        exact (bigSep_mono fun sm _ => (Rounds.body_intro ER (Rd m) (kcell (c, sm))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt to the devices that pay them: a barrier cell's `false` token to its `px` partner, its `true` token to its
    `py` partner, receive cell `k`'s to transfer `k`'s peer; send and local cells' stay. -/
theorem toks_around : (bigSep Finset.univ fun c : Dev nD => (toks c : sProp 𝕄)) ⊢ bigSep Finset.univ fun c : Dev nD => payToks c := by
  have hR : (bigSep Finset.univ fun c : Dev nD => bigSep Finset.univ fun k : Fin 12 => (dutyTok ER (dCell c (rIx k)) 0 false : sProp 𝕄))
      = bigSep Finset.univ fun c : Dev nD => bigSep Finset.univ fun k : Fin 12 => dutyTok ER (dCell (peer k c) (rIx k)) 0 false := by
    rw [bigSep_univ_comm, bigSep_univ_comm (fun (c : Dev nD) (k : Fin 12) => (dutyTok ER (dCell (peer k c) (rIx k)) 0 false : sProp 𝕄))]
    exact bigSep_congr fun k _ => bigSep_univ_equiv ⟨peer k, peer k, peer_peer k, peer_peer k⟩ (fun c : Dev nD => (dutyTok ER (dCell c (rIx k)) 0 false : sProp 𝕄))
  unfold toks payToks
  rw [bigSep_sep', bigSep_sep', bigSep_sep', bigSep_sep', bigSep_sep', bigSep_sep', bigSep_sep', bigSep_sep',
    bigSep_univ_equiv pxE (fun c : Dev nD => (dutyTok ER (barCell c) 0 false : sProp 𝕄)),
    bigSep_univ_equiv pyE (fun c : Dev nD => (dutyTok ER (barCell c) 0 true : sProp 𝕄)), hR]
  iintro ⟨⟨H1, H2⟩, H3, H4, H5⟩
  isplitl [H1]; · iexact H1
  isplitl [H2]; · iexact H2
  isplitl [H3]; · iexact H3
  isplitl [H4]; · iexact H4
  iexact H5

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun sm : SemLoc sig => iprop(∃ κ : ℕ, cellInv ER (Rd m) κ (kcell (c, sm))))
          ∗ (bigSep Finset.univ fun sm : SemLoc sig => iprop(atPos ER (kcell (c, sm)) 0 ∅ 0 ∗ reached ER (kcell (c, sm)) 0)) ∗ toks c) : sProp 𝕄)
      ⊢ bigSep Finset.univ (G' m) := by
  rw [bigSep_sep', bigSep_sep', ← bigSep_univ_prod (fun ck : Dev nD × SemLoc sig => iprop(∃ κ : ℕ, cellInv ER (Rd m) κ (kcell ck))),
    bigSep_congr (s := Finset.univ) (fun (c : Dev nD) _ => bigSep_sep' Finset.univ (fun sm : SemLoc sig => (atPos ER (kcell (c, sm)) 0 ∅ 0 : sProp 𝕄)) (fun sm => reached ER (kcell (c, sm)) 0)),
    bigSep_sep', ← bigSep_univ_prod (fun ck : Dev nD × SemLoc sig => (reached ER (kcell ck) 0 : sProp 𝕄))]
  iintro ⟨HI, ⟨Hat, #HRr⟩, Htok⟩
  ihave HK := (BI.bigSep_exists_pi Finset.univ (fun (ck : Dev nD × SemLoc sig) (κ : ℕ) => (cellInv ER (Rd m) κ (kcell ck) : sProp 𝕄))) $$ HI
  icases HK with ⟨%K, #HI⟩
  ihave Htk := (toks_around (F := F)) $$ Htok
  iapply (bigSep_with_persistent (R := records m K) fun c _ => show iprop(records m K ∗ iprop(poss c ∗ payToks c)) ⊢ G' m c from by
    unfold G' ghost
    iintro ⟨#HR, Hp, Ht⟩
    iexists K
    isplitr; · iexact HR
    isplitl [Hp] <;> iassumption)
  isplitr
  · unfold records; isplitl; · iexact HI
    iexact HRr
  · iapply (Entails.of_eq (bigSep_sep' Finset.univ (fun c : Dev nD => (poss c : sProp 𝕄)) payToks).symm)
    isplitl [Hat]; · (unfold poss; iexact Hat)
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hout⟩, Hlev, Hcr, -, HG⟩
  ihave Hc := (creds (F := F) c) $$ Hcr
  icases Hc with ⟨HR, H1, H2⟩
  imodintro
  unfold start G'
  isplitl
  · isplitl [HG]; · iexact HG
    isplitl [HR]; · iexact HR
    isplitl [H1]; · iexact H1
    isplitl [H2]; · iexact H2
    isplitl [Hlev]; · iexact Hlev
    isplitl [Hx]; · iexact Hx
    iexact Hout
  · iempintro

theorem phi0_intro (c : Dev nD) :
    iprop(start m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = Φ₀ m c from rfl, scopedRest0_eq]
  unfold Φ₀ scr
  iintro ⟨Hs, -, Hr⟩
  isplitl [Hs]; · iexact Hs
  iexact Hr

/-- What a device keeps after the kernel: half a share of its argument array, untouched, and its result's eight blocks. -/
def Yc (c : Dev nD) : sProp 𝕄 := iprop((((c : Thread nD τ).loc main_arg0) ↦{fullShare.left} X m c) ∗ outs m c)

theorem phi1_exit (c : Dev nD) :
    (dats (F := F) m 0 c).Φ (Fin.last cfg0.N) ⊢ iprop(Yc m c ∗ Pipeline.ownSems0 osem c ∗ Pipeline.scopedRest cfg0.spec c) := by
  rw [show (dats (F := F) m 0 c).Φ (Fin.last cfg0.N) = Φ₁ m c from rfl, scopedRest0_eq, ownSems0_eq]
  unfold Φ₁ Yc scr
  iintro ⟨Hx, Ho, Hz, Hs⟩
  isplitl [Hx Ho]
  · isplitl [Hx] <;> iassumption
  isplitl [Hz] <;> iassumption

theorem waits (c : Dev nD) : (levAts L lv : sProp 𝕄) ⊢ Pipeline.cellsWaits cfgs (dats (F := F) m) () 0 c :=
  Pipeline.cellsWaits_intro cfgs (dats m) () 0 c fun w s t => w.elim0

/-! ### The run -/

/-- What the run leaves on device `c`: its argument array as it was, and each of the result's eight blocks at its value. -/
def QYc (c : Dev nD) (s : MemSt nD τ sig (Elt F)) : Prop :=
  s.mem ((c : Thread nD τ).loc main_arg0) = m ((c : Thread nD τ).loc main_arg0)
  ∧ (oB2 c).view.read (Elt F) (s.mem ((c : Thread nD τ).loc main_v1)) = tP m c
  ∧ (oB3 c).view.read (Elt F) (s.mem ((c : Thread nD τ).loc main_v1)) = tQ m c
  ∧ (oB0 c).view.read (Elt F) (s.mem ((c : Thread nD τ).loc main_v1)) = tP m (py c)
  ∧ (oB1 c).view.read (Elt F) (s.mem ((c : Thread nD τ).loc main_v1)) = tQ m (px c)
  ∧ (oB2 (px c)).view.read (Elt F) (s.mem ((c : Thread nD τ).loc main_v1)) = tP m (px c)
  ∧ (oB3 (py c)).view.read (Elt F) (s.mem ((c : Thread nD τ).loc main_v1)) = tQ m (py c)
  ∧ (oB0 (px c)).view.read (Elt F) (s.mem ((c : Thread nD τ).loc main_v1)) = tP m (py (px c))
  ∧ (oB1 (py c)).view.read (Elt F) (s.mem ((c : Thread nD τ).loc main_v1)) = tQ m (px (py c))

theorem SI_ow (c : Dev nD) {sp : Space} {s : Shape} (M : Memref sig .tc sp s .f32) (q : PosShare TreeShare) (v : Vec F s .f32) (st : Phys nD τ sig (Elt F)) :
    (iprop(SI st ∗ ow c M q v) : sProp 𝕄) ⊢ ⌜M.view.read (Elt F) (st.mem.mem (M.view.loc (c : Thread nD τ))) = v⌝ := by
  unfold ow owns
  iintro ⟨HSI, ⟨%f, %hf, H⟩⟩
  ihave h := (SI_pointsTo_agree) $$ [HSI H]
  · isplitl [HSI] <;> iassumption
  icases h with %h
  ipureintro
  exact (View.read_congr h).trans hf

theorem hY (c : Dev nD) (s' : Phys nD τ sig (Elt F)) :
    (iprop(Yc m c ∗ iprop(emp) ∗ SI s') : sProp 𝕄) ⊢ |={Set.univ}=> iprop(⌜QYc m c s'.mem⌝ ∗ SI s') := by
  unfold Yc outs
  iintro ⟨⟨Hx, H1, H2, H3, H4, H5, H6, H7, H8⟩, -, HSI⟩
  ihave Hq := (persistent_entails_right (SI_pointsTo_agree)) $$ [HSI Hx]
  · isplitl [HSI] <;> iassumption
  icases Hq with ⟨%hx, HSI, Hx⟩
  ihave Hq := (persistent_entails_right (SI_ow c _ _ _ s')) $$ [HSI H1]
  · isplitl [HSI] <;> iassumption
  icases Hq with ⟨%h1, HSI, H1⟩
  ihave Hq := (persistent_entails_right (SI_ow c _ _ _ s')) $$ [HSI H2]
  · isplitl [HSI] <;> iassumption
  icases Hq with ⟨%h2, HSI, H2⟩
  ihave Hq := (persistent_entails_right (SI_ow c _ _ _ s')) $$ [HSI H3]
  · isplitl [HSI] <;> iassumption
  icases Hq with ⟨%h3, HSI, H3⟩
  ihave Hq := (persistent_entails_right (SI_ow c _ _ _ s')) $$ [HSI H4]
  · isplitl [HSI] <;> iassumption
  icases Hq with ⟨%h4, HSI, H4⟩
  ihave Hq := (persistent_entails_right (SI_ow c _ _ _ s')) $$ [HSI H5]
  · isplitl [HSI] <;> iassumption
  icases Hq with ⟨%h5, HSI, H5⟩
  ihave Hq := (persistent_entails_right (SI_ow c _ _ _ s')) $$ [HSI H6]
  · isplitl [HSI] <;> iassumption
  icases Hq with ⟨%h6, HSI, H6⟩
  ihave Hq := (persistent_entails_right (SI_ow c _ _ _ s')) $$ [HSI H7]
  · isplitl [HSI] <;> iassumption
  icases Hq with ⟨%h7, HSI, H7⟩
  ihave Hq := (persistent_entails_right (SI_ow c _ _ _ s')) $$ [HSI H8]
  · isplitl [HSI] <;> iassumption
  icases Hq with ⟨%h8, HSI, H8⟩
  imodintro
  isplitr
  · ipureintro
    exact ⟨funext fun i => hx i (Finset.mem_univ i), h1, h2, h3, h4, h5, h6, h7, h8⟩
  iexact HSI

set_option maxRecDepth 8000 in
/-- At the compiled mesh of four devices, for any float values, from any memory with zero counters: every weakly fair execution of
    @main terminates, and every final state has each device's argument array unchanged and each block of 512 rows of its result at the
    kernel's sum. -/
theorem run_main : θ_run defs (onTc (τ := τ) (main (F := F))) ⟨m, fun _ => 0, ρ⟩ (fun r => ∀ c : Dev nD, QYc m c r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := QYc m)
    (hY := hY m)
    (hQ := fun _ h c => (h c).2.2)

end Cert.KernelIdeal.Hand

end
-- ==== Proof.RefValue.lean ====
import proofs.«900388_g7700000000000389_dist_rs_then_ag_i_m4096_n1024_v7x_i4_f32_1_alg».proof.Defs
import proofs.«900388_g7700000000000389_dist_rs_then_ag_i_m4096_n1024_v7x_i4_f32_1_alg».proof.Proof.Gen.ReferenceIdeal.Run
import proofs.«900388_g7700000000000389_dist_rs_then_ag_i_m4096_n1024_v7x_i4_f32_1_alg».proof.Proof.Gen.ReferenceIdeal.Read
-- ==== Proof.Value.lean ====
import proofs.«900388_g7700000000000389_dist_rs_then_ag_i_m4096_n1024_v7x_i4_f32_1_alg».proof.Proof.Launch
import proofs.«900388_g7700000000000389_dist_rs_then_ag_i_m4096_n1024_v7x_i4_f32_1_alg».proof.Proof.RefValue
import Idealize.ShloMosaic.Lib.ValueIdx
import Idealize.ShloMosaic.Lib.Pipeline.Value
import Idealize.ShloMosaic.Lib.Layout
import Idealize.ShloMosaic.PureOps.Ideal.Laws

set_option synthInstance.maxSize 4096

noncomputable section

namespace Cert.KernelIdeal.Hand

open Cert.KernelIdeal Cert.KernelIdeal.Gen
open Idealize.ShloMosaic Idealize.ShloMosaic.TcCoe Idealize.SL.Sem

/-! ## The value: every block of the result is the sum of the four devices' blocks

At `Ideal` a device's result block is `(a + b) + (c + d)` of the four devices' rows at one and the same place of their argument
arrays; the reference's is `0 + (x₀ + x₁ + x₂ + x₃)` of the whole array's four blocks. Addition of extended reals is commutative
and associative, so the two agree whatever the inputs. -/

variable (m : (ℓ : Loc nD τ sig) → Buf (Elt Ideal) ℓ)

section Offsets
variable (d : Dev nD)
theorem off6_px : k0_off6 (px d) = k0_off11 d := by revert d; decide +kernel
theorem off9_py : k0_off9 (py d) = k0_off11 d := by revert d; decide +kernel
theorem off2_pxpy : k0_off2 (px (py d)) = k0_off11 d := by revert d; decide +kernel
theorem off8_py : k0_off8 (py d) = k0_off12 d := by revert d; decide +kernel
theorem off10_px : k0_off10 (px d) = k0_off12 d := by revert d; decide +kernel
theorem off4_pypx : k0_off4 (py (px d)) = k0_off12 d := by revert d; decide +kernel
theorem off9_eq11 : k0_off9 d = k0_off11 (py d) := by revert d; decide +kernel
theorem off10_eq12 : k0_off10 d = k0_off12 (px d) := by revert d; decide +kernel
end Offsets

/-- Device `d'`'s rows under the rectangle at `off`. -/
def rd (d' : Dev nD) (off : Fin 2 → Nat) (h : ∀ a, off a + S512x1024.size a ≤ S4096x1024.size a) : Vec Ideal S512x1024 .f32 :=
  (sl4 xM off h).view.read (Elt Ideal) (X m d')

theorem rd_congr (d' : Dev nD) {off off' : Fin 2 → Nat} (e : off = off') (h : ∀ a, off a + S512x1024.size a ≤ S4096x1024.size a)
    (h' : ∀ a, off' a + S512x1024.size a ≤ S4096x1024.size a) : rd m d' off h = rd m d' off' h' := by
  subst e; rfl

theorem tP_eq (d : Dev nD) (y : S512x1024.Idx) :
    tP m d y = (show EReal from (show EReal from rd m d (k0_off11 d) (k0_off11_inb d) y) + (show EReal from rd m (px d) (k0_off11 d) (k0_off11_inb d) y))
      + ((show EReal from rd m (py d) (k0_off11 d) (k0_off11_inb d) y) + (show EReal from rd m (px (py d)) (k0_off11 d) (k0_off11_inb d) y)) := by
  have e1 : A2 m (px d) = rd m (px d) (k0_off11 d) (k0_off11_inb d) := rd_congr m (px d) (off6_px d) _ _
  have e2 : B0 m (py d) = rd m (py d) (k0_off11 d) (k0_off11_inb d) := rd_congr m (py d) (off9_py d) _ _
  have e3 : A0 m (px (py d)) = rd m (px (py d)) (k0_off11 d) (k0_off11_inb d) := rd_congr m (px (py d)) (off2_pxpy d) _ _
  have e0 : B2 m d = rd m d (k0_off11 d) (k0_off11_inb d) := rfl
  unfold tP sPo sPf
  rw [e0, e1, e2, e3]
  unfold k0_pay6 k0_pay4 k0_pay2 k0_pay1
  simp only [shapeCast_self]
  rfl

theorem tQ_eq (d : Dev nD) (y : S512x1024.Idx) :
    tQ m d y = (show EReal from (show EReal from rd m d (k0_off12 d) (k0_off12_inb d) y) + (show EReal from rd m (py d) (k0_off12 d) (k0_off12_inb d) y))
      + ((show EReal from rd m (px d) (k0_off12 d) (k0_off12_inb d) y) + (show EReal from rd m (py (px d)) (k0_off12 d) (k0_off12_inb d) y)) := by
  have e1 : A3 m (py d) = rd m (py d) (k0_off12 d) (k0_off12_inb d) := rd_congr m (py d) (off8_py d) _ _
  have e2 : B1 m (px d) = rd m (px d) (k0_off12 d) (k0_off12_inb d) := rd_congr m (px d) (off10_px d) _ _
  have e3 : A1 m (py (px d)) = rd m (py (px d)) (k0_off12 d) (k0_off12_inb d) := rd_congr m (py (px d)) (off4_pypx d) _ _
  have e0 : B3 m d = rd m d (k0_off12 d) (k0_off12_inb d) := rfl
  unfold tQ sQo sQf
  rw [e0, e1, e2, e3]
  unfold k0_pay7 k0_pay5 k0_pay3
  simp only [shapeCast_self]
  rfl

/-- The four devices, from any one of them. -/
theorem sum4 (g : Dev nD → EReal) (d : Dev nD) : ∑ k : Fin 4, g k = (g d + g (px d)) + (g (py d) + g (px (py d))) := by
  rw [Fin.sum_univ_four]
  fin_cases d
  · change g 0 + g 1 + g 2 + g 3 = (g 0 + g 3) + (g 1 + g 2); ac_rfl
  · change g 0 + g 1 + g 2 + g 3 = (g 1 + g 2) + (g 0 + g 3); ac_rfl
  · change g 0 + g 1 + g 2 + g 3 = (g 2 + g 1) + (g 3 + g 0); ac_rfl
  · change g 0 + g 1 + g 2 + g 3 = (g 3 + g 0) + (g 2 + g 1); ac_rfl
theorem sum4' (g : Dev nD → EReal) (d : Dev nD) : ∑ k : Fin 4, g k = (g d + g (py d)) + (g (px d) + g (py (px d))) := by
  rw [Fin.sum_univ_four]
  fin_cases d
  · change g 0 + g 1 + g 2 + g 3 = (g 0 + g 1) + (g 3 + g 2); ac_rfl
  · change g 0 + g 1 + g 2 + g 3 = (g 1 + g 0) + (g 2 + g 3); ac_rfl
  · change g 0 + g 1 + g 2 + g 3 = (g 2 + g 3) + (g 1 + g 0); ac_rfl
  · change g 0 + g 1 + g 2 + g 3 = (g 3 + g 2) + (g 0 + g 1); ac_rfl

/-! ### The reference's value, read as the sum of the whole array's four blocks -/

theorem ref_apply (x0 : (⟨Cert.ReferenceIdeal.S16384x1024, .f32⟩ : BufTy).Contents (Elt Ideal)) (i : Cert.ReferenceIdeal.S4096x1024.Idx) :
    Cert.ReferenceIdeal.Read.val_main_v1 (F := Ideal) x0 i
      = (0 : EReal) + ∑ k : Fin 4, (show EReal from Layout.block ⟨2, ![4096, 1024]⟩ ⟨2, ![16384, 1024]⟩ 0 4 k x0 (by decide) i) := by
  rw [Cert.ReferenceIdeal.Read.val_main_v1_apply]
  congr 1
  · rw [Cert.ReferenceIdeal.Read.val_main_cst_apply]; exact Ideal.ofBits_zero_f32
  · refine Finset.sum_congr rfl fun k _ => ?_
    rw [Cert.ReferenceIdeal.Read.val_main_v0_apply, Layout.block_apply]
    refine congrArg x0 (funext fun a => Fin.ext ?_)
    have h1 : ((i 1 : Fin _) : Nat) < 1024 := (i 1).isLt
    match a with
    | ⟨0, _⟩ =>
      show ((k.val * 4096 + (i 0).val) * 1024 + (i 1).val) / 1024 = k.val * 4096 + (i 0).val
      omega
    | ⟨1, _⟩ =>
      show ((k.val * 4096 + (i 0).val) * 1024 + (i 1).val) % 1024 = (i 1).val
      omega

/-! ### The two agree -/

section Bridge
variable (x0 : (⟨Cert.ReferenceIdeal.S16384x1024, .f32⟩ : BufTy).Contents (Elt Ideal))
/-- Reading a block of the result array where the run left the block's value: the array there is the reference's. -/
theorem at_block (c : Dev nD) (mem : Buf (Elt Ideal) ((c : Thread nD τ).loc main_v1)) {off : Fin 2 → Nat}
    (h : ∀ a, off a + S512x1024.size a ≤ S4096x1024.size a) (v : Vec Ideal S512x1024 .f32)
    (hr : (sl4 oM off h).view.read (Elt Ideal) mem = v)
    (hv : ∀ y, v y = Cert.ReferenceIdeal.Read.val_main_v1 (F := Ideal) x0 ((sl4 oM off h).view.emb y)) (y : S512x1024.Idx) :
    mem ((sl4 oM off h).view.emb y) = Cert.ReferenceIdeal.Read.val_main_v1 (F := Ideal) x0 ((sl4 oM off h).view.emb y) := by
  rw [← hv y, ← hr, View.read_apply]; rfl

variable (hagree : ∀ d : Dev nD, X m d = Layout.block ⟨2, ![4096, 1024]⟩ ⟨2, ![16384, 1024]⟩ 0 4 d x0 (by decide))
include hagree

/-- The rows a device's block reads of device `d'`'s argument, at the place the result's block lies. -/
theorem rd_apply (d' : Dev nD) (off : Fin 2 → Nat) (h : ∀ a, off a + S512x1024.size a ≤ S4096x1024.size a) (y : S512x1024.Idx) :
    rd m d' off h y = Layout.block ⟨2, ![4096, 1024]⟩ ⟨2, ![16384, 1024]⟩ 0 4 d' x0 (by decide) ((sl4 oM off h).view.emb y) := by
  unfold rd
  rw [View.read_apply, hagree d']
  rfl

theorem lemP (d : Dev nD) (y : S512x1024.Idx) :
    tP m d y = Cert.ReferenceIdeal.Read.val_main_v1 (F := Ideal) x0 ((sl4 oM (k0_off11 d) (k0_off11_inb d)).view.emb y) := by
  rw [tP_eq, ref_apply, zero_add, sum4 _ d]
  simp only [rd_apply m x0 hagree]

theorem lemQ (d : Dev nD) (y : S512x1024.Idx) :
    tQ m d y = Cert.ReferenceIdeal.Read.val_main_v1 (F := Ideal) x0 ((sl4 oM (k0_off12 d) (k0_off12_inb d)).view.emb y) := by
  rw [tQ_eq, ref_apply, zero_add, sum4' _ d]
  simp only [rd_apply m x0 hagree]

theorem lemP' (d : Dev nD) {off : Fin 2 → Nat} (e : off = k0_off11 d) (h : ∀ a, off a + S512x1024.size a ≤ S4096x1024.size a) (y : S512x1024.Idx) :
    tP m d y = Cert.ReferenceIdeal.Read.val_main_v1 (F := Ideal) x0 ((sl4 oM off h).view.emb y) := by
  subst e; exact lemP m x0 hagree d y
theorem lemQ' (d : Dev nD) {off : Fin 2 → Nat} (e : off = k0_off12 d) (h : ∀ a, off a + S512x1024.size a ≤ S4096x1024.size a) (y : S512x1024.Idx) :
    tQ m d y = Cert.ReferenceIdeal.Read.val_main_v1 (F := Ideal) x0 ((sl4 oM off h).view.emb y) := by
  subst e; exact lemQ m x0 hagree d y

theorem kernel_result (c : Dev nD) (s : MemSt nD τ sig (Elt Ideal)) (hq : QYc m c s) :
    s.mem ((c : Thread nD τ).loc main_v1) = Cert.ReferenceIdeal.Read.val_main_v1 (F := Ideal) x0 := by
  obtain ⟨-, h1, h2, h3, h4, h5, h6, h7, h8⟩ := hq
  obtain ⟨hd, hu⟩ := rect8 (offsO c) (offsO_inb c) (offsO_col c) (offsO_mul c) (offsO_inj c) (offsO_surj c)
  funext i
  have hi : i ∈ (Finset.univ : Finset (Fin 8)).biUnion (fun j => (Rect.unit (s := S4096x1024) (offsO c j) S512x1024.size (offsO_inb c j)).set) := by
    rw [hu]; exact Finset.mem_univ i
  obtain ⟨j, -, hj⟩ := Finset.mem_biUnion.mp hi
  have hmem : i ∈ (sl4 oM (offsO c j) (offsO_inb c j)).view.set := by
    rw [set_slice_eq]; exact Finset.mem_map_of_mem _ hj
  obtain ⟨y, rfl⟩ := View.exists_emb_of_mem_set _ hmem
  clear hi hj hmem
  fin_cases j
  · exact at_block x0 c _ (k0_off11_inb c) _ h1 (lemP m x0 hagree c) y
  · exact at_block x0 c _ (k0_off12_inb c) _ h2 (lemQ m x0 hagree c) y
  · exact at_block x0 c _ (k0_off9_inb c) _ h3 (lemP' m x0 hagree (py c) (off9_eq11 c) _) y
  · exact at_block x0 c _ (k0_off10_inb c) _ h4 (lemQ' m x0 hagree (px c) (off10_eq12 c) _) y
  · exact at_block x0 c _ (k0_off11_inb (px c)) _ h5 (lemP m x0 hagree (px c)) y
  · exact at_block x0 c _ (k0_off9_inb (px c)) _ h7 (lemP' m x0 hagree (py (px c)) (off9_eq11 (px c)) _) y
  · exact at_block x0 c _ (k0_off12_inb (py c)) _ h6 (lemQ m x0 hagree (py c)) y
  · exact at_block x0 c _ (k0_off10_inb (py c)) _ h8 (lemQ' m x0 hagree (px (py c)) (off10_eq12 (py c)) _) y

end Bridge

end Cert.KernelIdeal.Hand

end
-- ==== Proof.lean ====
/- The proof of `Cert.Claim` (proofs.«900388_g7700000000000389_dist_rs_then_ag_i_m4096_n1024_v7x_i4_f32_1_alg».proof.Defs) — frame_Kernel ∧ frame_KernelIdeal ∧ frame_ReferenceIdeal ∧ preserves_Kernel_KernelIdeal ∧ algebraic_KernelIdeal_ReferenceIdeal —: hand-written, untrusted.
   It must end in `theorem Cert.Proof.claim : Cert.Claim`; how it gets there is its own business
   (idealize/tests/proofs/02_vector_ops proves a bit-exact claim, 04_loops a frame). The witnesses of
   the programs' stated facts come first: the instances the generated Proof/Gen/ modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame` or `preserves` claim has no disproof.
   idealize/tests/proofs/README.md, "A value claim that is FALSE", says how; 02_vector_ops
   `Proof/Disproof.lean` and 10_ideal_fields `Proof/Widths.lean` are worked examples. -/
import proofs.«900388_g7700000000000389_dist_rs_then_ag_i_m4096_n1024_v7x_i4_f32_1_alg».proof.Defs
import proofs.«900388_g7700000000000389_dist_rs_then_ag_i_m4096_n1024_v7x_i4_f32_1_alg».proof.Proof.Gen.Kernel
import proofs.«900388_g7700000000000389_dist_rs_then_ag_i_m4096_n1024_v7x_i4_f32_1_alg».proof.Proof.Gen.Kernel.Skeleton
import proofs.«900388_g7700000000000389_dist_rs_then_ag_i_m4096_n1024_v7x_i4_f32_1_alg».proof.Proof.Gen.Kernel.Launch
import proofs.«900388_g7700000000000389_dist_rs_then_ag_i_m4096_n1024_v7x_i4_f32_1_alg».proof.Proof.Gen.Kernel.Points
import proofs.«900388_g7700000000000389_dist_rs_then_ag_i_m4096_n1024_v7x_i4_f32_1_alg».proof.Proof.Gen.Kernel.Frame
import proofs.«900388_g7700000000000389_dist_rs_then_ag_i_m4096_n1024_v7x_i4_f32_1_alg».proof.Proof.Gen.KernelIdeal
import proofs.«900388_g7700000000000389_dist_rs_then_ag_i_m4096_n1024_v7x_i4_f32_1_alg».proof.Proof.Gen.KernelIdeal.Skeleton
import proofs.«900388_g7700000000000389_dist_rs_then_ag_i_m4096_n1024_v7x_i4_f32_1_alg».proof.Proof.Gen.KernelIdeal.Launch
import proofs.«900388_g7700000000000389_dist_rs_then_ag_i_m4096_n1024_v7x_i4_f32_1_alg».proof.Proof.Gen.KernelIdeal.Points
import proofs.«900388_g7700000000000389_dist_rs_then_ag_i_m4096_n1024_v7x_i4_f32_1_alg».proof.Proof.Gen.KernelIdeal.Frame
import proofs.«900388_g7700000000000389_dist_rs_then_ag_i_m4096_n1024_v7x_i4_f32_1_alg».proof.Proof.Gen.ReferenceIdeal
import proofs.«900388_g7700000000000389_dist_rs_then_ag_i_m4096_n1024_v7x_i4_f32_1_alg».proof.Proof.Gen.Pre_finite_inputs_Kernel
import proofs.«900388_g7700000000000389_dist_rs_then_ag_i_m4096_n1024_v7x_i4_f32_1_alg».proof.Proof.Gen.Pre_finite_inputs_ReferenceIdeal
import proofs.«900388_g7700000000000389_dist_rs_then_ag_i_m4096_n1024_v7x_i4_f32_1_alg».proof.Proof.KLaunch
import proofs.«900388_g7700000000000389_dist_rs_then_ag_i_m4096_n1024_v7x_i4_f32_1_alg».proof.Proof.Launch
import proofs.«900388_g7700000000000389_dist_rs_then_ag_i_m4096_n1024_v7x_i4_f32_1_alg».proof.Proof.Value
import proofs.«900388_g7700000000000389_dist_rs_then_ag_i_m4096_n1024_v7x_i4_f32_1_alg».proof.Proof.RefValue
import Idealize.ShloMosaic.Adequacy
import Idealize.ShloMosaic.Init

noncomputable section

namespace Cert.Proof

open Idealize.ShloMosaic Idealize.SL.Sem Cert.Kernel

/-- The claim. The two kernels' frames are the run's first fact (the argument array unchanged), at `Bits` and at `Ideal`; the
    reference's frame is its run's; the idealization rewrote nothing; and at `Ideal` every device's result array is the reference's
    result: block by block the kernel's `(a + b) + (c + d)` of the four devices' rows is the reference's `0 + (x₀ + x₁ + x₂ + x₃)`. -/
theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  fun m g _ => (θ_run (Cert.Kernel.defs (F := Bits)) _ _).mono (fun _ h c => (h c).1) (Cert.Kernel.Hand.run_main (F := Bits) m g),
  fun m g _ => (θ_run (Cert.KernelIdeal.defs (F := Ideal)) _ _).mono (fun _ h c => (h c).1) (Cert.KernelIdeal.Hand.run_main (F := Ideal) m g),
  fun m g _ => (θ_run (Cert.ReferenceIdeal.defs (F := Ideal)) _ _).mono (fun _ h c => (h c).2) (Cert.ReferenceIdeal.Value.run (F := Ideal) m g),
  trivial,
  fun m g m' g' _ hagree =>
    ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)),
      (θ_run (Cert.KernelIdeal.defs (F := Ideal)) _ _).mono
        (fun r h c => ⟨Cert.KernelIdeal.Hand.kernel_result m _ hagree c r.2 (h c), (h c).1⟩)
        (Cert.KernelIdeal.Hand.run_main (F := Ideal) m g),
      (θ_run (Cert.ReferenceIdeal.defs (F := Ideal)) _ _).mono
        (fun _ h => ⟨(h 0).1.trans (Cert.ReferenceIdeal.Read.val_main_v1_eq _), (h 0).2⟩)
        (Cert.ReferenceIdeal.Value.run (F := Ideal) m' g')⟩⟩

end Cert.Proof

end
